-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S4096x512 : Shape := ⟨2, ![4096, 512]⟩
abbrev S8192x4096 : Shape := ⟨2, ![8192, 4096]⟩
abbrev S512x64 : Shape := ⟨2, ![512, 64]⟩
abbrev S512x256 : Shape := ⟨2, ![512, 256]⟩
abbrev S_ : Shape := ⟨0, ![]⟩
abbrev S4096 : Shape := ⟨1, ![4096]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S512x64 : S_.BroadcastsInDim S512x64 (![] : Fin 0 → Fin S512x64.rank)
  reducesTo_S512x64_S_d0_1 : S512x64.ReducesTo [0, 1] S_
  bcast_S_S512x256 : S_.BroadcastsInDim S512x256 (![] : Fin 0 → Fin S512x256.rank)
  reducesTo_S512x256_S_d0_1 : S512x256.ReducesTo [0, 1] S_
  bcast_S_S8192x4096 : S_.BroadcastsInDim S8192x4096 (![] : Fin 0 → Fin S8192x4096.rank)
  reducesTo_S8192x4096_S4096_d0 : S8192x4096.ReducesTo [0] S4096
  reducesTo_S4096_S_d0 : S4096.ReducesTo [0] S_

variable [Facts]

def fn_part1 {F : FTy → Type} [FloatOps F] (main_arg2 : IVec S8192x4096 32) (main_arg5 : FVec F S512x256 .f32) (main_v13 : IVec S_ 1) (main_v16 : IVec S512x64 1) : IVec S_ 1 :=
  let main_c_5 : IVec S_ 1 := constantI S_ 1 1#1
  let main_v17 : IVec S_ 1 := (fun x v => Host.reduce IntOp.andi x v reducesTo_S512x64_S_d0_1 h_S_) main_v16 main_c_5
  let main_v18 : IVec S_ 1 := andi main_v13 main_v17
  let main_v19 : FVec F S512x256 .f32 := Host.absf main_arg5
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_c_8 : IVec S_ 32 := constantI S_ 32 0#32
  let main_v24 : IVec S8192x4096 32 := broadcastInDim S8192x4096 ![] bcast_S_S8192x4096 main_c_8
  let main_v25 : IVec S8192x4096 1 := cmpi .ne main_arg2 main_v24
  let main_c_9 : IVec S_ 1 := constantI S_ 1 0#1
  let main_v26 : IVec S4096 1 := (fun x v => Host.reduce IntOp.ori x v reducesTo_S8192x4096_S4096_d0 h_S_) main_v25 main_c_9
  let main_c_10 : IVec S_ 1 := constantI S_ 1 1#1
  let main_v27 : IVec S_ 1 := (fun x v => Host.reduce IntOp.andi x v reducesTo_S4096_S_d0 h_S_) main_v26 main_c_10
  let main_v28 : IVec S_ 1 := andi main_v23 main_v27
  main_v28

def fn {F : FTy → Type} [FloatOps F] (main_arg0 : FVec F S8192x512 .f32) (main_arg1 : FVec F S4096x512 .f32) (main_arg2 : IVec S8192x4096 32) (main_arg3 : FVec F S512x64 .f32) (main_arg4 : FVec F S512x64 .f32) (main_arg5 : FVec F S512x256 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S512x64 .f32 := Host.absf main_arg3
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  let main_v14 : FVec F S512x64 .f32 := Host.absf main_arg4
  let main_cst_4 : FVec F S_ .f32 := constant S_ .f32 0x7F800000#32
  let main_v15 : FVec F S512x64 .f32 := broadcastInDim S512x64 ![] bcast_S_S512x64 main_cst_4
  let main_v16 : IVec S512x64 1 := cmpf .olt main_v14 main_v15
  fn_part1 (F := F) main_arg2 main_arg5 main_v13 main_v16
-- ==== Kernel.lean ====
abbrev S8192x512 : Shape := ⟨2, ![8192, 512]⟩
abbrev S4096x512 : Shape := ⟨2, ![4096, 512]⟩
abbrev S8192x4096 : Shape := ⟨2, ![8192, 4096]⟩
abbrev S512x64 : Shape := ⟨2, ![512, 64]⟩
abbrev S512x256 : Shape := ⟨2, ![512, 256]⟩
abbrev S4096x64 : Shape := ⟨2, ![4096, 64]⟩
abbrev S1024x512 : Shape := ⟨2, ![1024, 512]⟩
abbrev S1024x64 : Shape := ⟨2, ![1024, 64]⟩
abbrev S8192x64 : Shape := ⟨2, ![8192, 64]⟩
abbrev S8192x256 : Shape := ⟨2, ![8192, 256]⟩
abbrev S1024x256 : Shape := ⟨2, ![1024, 256]⟩
abbrev S4096x256 : Shape := ⟨2, ![4096, 256]⟩
abbrev S2048x64 : Shape := ⟨2, ![2048, 64]⟩
abbrev S512x2048 : Shape := ⟨2, ![512, 2048]⟩
abbrev S2048x256 : Shape := ⟨2, ![2048, 256]⟩
abbrev S1x2048 : Shape := ⟨2, ![1, 2048]⟩
abbrev S2048 : Shape := ⟨1, ![2048]⟩
abbrev S2048x1 : Shape := ⟨2, ![2048, 1]⟩

abbrev nBuf : Space → Nat
  | .hbm => 10
  | .vmem => 26
  | .smem => 0
  | _ => 0

abbrev bufTy : (tb : Table) → Fin (tcTables nBuf tb) → BufTy
  | .hbm, ⟨0, _⟩ => ⟨S8192x512, .f32⟩
  | .hbm, ⟨1, _⟩ => ⟨S4096x512, .f32⟩
  | .hbm, ⟨2, _⟩ => ⟨S8192x4096, .i32⟩
  | .hbm, ⟨3, _⟩ => ⟨S512x64, .f32⟩
  | .hbm, ⟨4, _⟩ => ⟨S512x64, .f32⟩
  | .hbm, ⟨5, _⟩ => ⟨S512x256, .f32⟩
  | .hbm, ⟨6, _⟩ => ⟨S4096x64, .bf16⟩
  | .hbm, ⟨7, _⟩ => ⟨S8192x64, .bf16⟩
  | .hbm, ⟨8, _⟩ => ⟨S8192x256, .bf16⟩
  | .hbm, ⟨9, _⟩ => ⟨S4096x256, .f32⟩
  | .local _ .vmem, ⟨0, _⟩ => ⟨S1024x512, .f32⟩
  | .local _ .vmem, ⟨1, _⟩ => ⟨S1024x512, .f32⟩
  | .local _ .vmem, ⟨2, _⟩ => ⟨S512x64, .f32⟩
  | .local _ .vmem, ⟨3, _⟩ => ⟨S1024x64, .bf16⟩
  | .local _ .vmem, ⟨4, _⟩ => ⟨S1024x64, .bf16⟩
  | .local _ .vmem, ⟨5, _⟩ => ⟨S1024x512, .f32⟩
  | .local _ .vmem, ⟨6, _⟩ => ⟨S1024x512, .f32⟩
  | .local _ .vmem, ⟨7, _⟩ => ⟨S512x64, .f32⟩
  | .local _ .vmem, ⟨8, _⟩ => ⟨S512x256, .f32⟩
  | .local _ .vmem, ⟨9, _⟩ => ⟨S1024x64, .bf16⟩
  | .local _ .vmem, ⟨10, _⟩ => ⟨S1024x64, .bf16⟩
  | .local _ .vmem, ⟨11, _⟩ => ⟨S1024x256, .bf16⟩
  | .local _ .vmem, ⟨12, _⟩ => ⟨S1024x256, .bf16⟩
  | .local _ .vmem, ⟨13, _⟩ => ⟨S2048x64, .bf16⟩
  | .local _ .vmem, ⟨14, _⟩ => ⟨S2048x64, .bf16⟩
  | .local _ .vmem, ⟨15, _⟩ => ⟨S512x64, .bf16⟩
  | .local _ .vmem, ⟨16, _⟩ => ⟨S512x64, .bf16⟩
  | .local _ .vmem, ⟨17, _⟩ => ⟨S512x256, .bf16⟩
  | .local _ .vmem, ⟨18, _⟩ => ⟨S512x256, .bf16⟩
  | .local _ .vmem, ⟨19, _⟩ => ⟨S512x2048, .i32⟩
  | .local _ .vmem, ⟨20, _⟩ => ⟨S512x2048, .i32⟩
  | .local _ .vmem, ⟨21, _⟩ => ⟨S2048x256, .f32⟩
  | .local _ .vmem, ⟨22, _⟩ => ⟨S2048x256, .f32⟩
  | .local _ .vmem, ⟨23, _⟩ => ⟨S1x2048, .f32⟩
  | .local _ .vmem, ⟨24, _⟩ => ⟨S1x2048, .f32⟩
  | .local _ .vmem, ⟨25, _⟩ => ⟨S2048x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc2_stg4_1 : Ref sig .tc := ⟨.vmem, 22, rfl⟩
abbrev cc2_scratch0 : Ref sig .tc := ⟨.vmem, 23, rfl⟩
abbrev cc2_scratch1 : Ref sig .tc := ⟨.vmem, 24, rfl⟩
abbrev cc2_scratch2 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20
abbrev cc2_sem4_0 : DmaSem sig := 21
abbrev cc2_sem4_1 : DmaSem sig := 22

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1024x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![2, 16], ![false, false]⟩

def k2_cond2 (i : grid2.Coords) : BitVec 1 :=
  let arg1 : BitVec 32 := BitVec.ofNat 32 (i 1).val
  let c15_i32 : BitVec 32 := 15#32
  let v47 : BitVec 1 := Scalar.cmpi .eq arg1 c15_i32
  let v48 : BitVec 32 := Scalar.extui v47
  let c0_i32_26 : BitVec 32 := 0#32
  let v49 : BitVec 1 := Scalar.cmpi .ne v48 c0_i32_26
  v49

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S512x2048 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S2048x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

class Facts₀ : Prop where
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S1024x64_S1024x64_0_0 : ∀ a, (![0, 0] : Fin 2 → Nat) a + S1024x64.size a ≤ S1024x64.size a
  h_S1024x64 : 0 < S1024x64.numel
  packedbf16_S1024x64_S1024x64_0_0 : (Rect.unit (s := S1024x64) ![0, 0] S1024x64.size inb_S1024x64_S1024x64_0_0).PackedRows (EltTy.packing .bf16)
  inb_S512x256_S512x256_0_0 : ∀ a, (![0, 0] : Fin 2 → Nat) a + S512x256.size a ≤ S512x256.size a
  h_S512x256 : 0 < S512x256.numel
  inb_S1024x256_S1024x256_0_0 : ∀ a, (![0, 0] : Fin 2 → Nat) a + S1024x256.size a ≤ S1024x256.size a
  h_S1024x256 : 0 < S1024x256.numel
  packedbf16_S1024x256_S1024x256_0_0 : (Rect.unit (s := S1024x256) ![0, 0] S1024x256.size inb_S1024x256_S1024x256_0_0).PackedRows (EltTy.packing .bf16)
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  shapeCasts_S512x64_S512x64 : S512x64.ShapeCasts S512x64
  inb_S512x2048_S512x2048_0_0 : ∀ a, (![0, 0] : Fin 2 → Nat) a + S512x2048.size a ≤ S512x2048.size a
  h_S512x2048 : 0 < S512x2048.numel
  reduces_S512x2048_S2048 : S512x2048.Reduces [0] S2048
  shapeCasts_S2048_S1x2048 : S2048.ShapeCasts S1x2048
  broadcasts_S1x2048_S512x2048 : S1x2048.Broadcasts S512x2048
  shapeCasts_S512x256_S512x256 : S512x256.ShapeCasts S512x256
  transposes_S1x2048_p1_0_S2048x1 : S1x2048.Transposes [1, 0] S2048x1
  broadcasts_S2048x1_S2048x256 : S2048x1.Broadcasts S2048x256
  dot_S1024x512_S512x64_S1024x64_1_0_0_1_n_n_wf : DotDims.WF S1024x512 S512x64 S1024x64 [1] [0] [0] [1] [] []
  dot_S1024x512_S512x256_S1024x256_1_0_0_1_n_n_wf : DotDims.WF S1024x512 S512x256 S1024x256 [1] [0] [0] [1] [] []
  dot_S512x64_S2048x64_S512x2048_1_1_0_0_n_n_wf : DotDims.WF S512x64 S2048x64 S512x2048 [1] [1] [0] [0] [] []
  dot_S512x2048_S512x256_S2048x256_0_0_1_1_n_n_wf : DotDims.WF S512x2048 S512x256 S2048x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x512.size a
  hwx0_0 : ∀ i : grid0.Coords, EltTy.bits .f32 = 32 ∨ (Rect.block (s := S4096x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S4096x64.size a
  hwx0_2 : ∀ i : grid0.Coords, EltTy.bits .bf16 = 32 ∨ (Rect.block (s := S4096x64) S1024x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x512.size a
  hwx1_0 : ∀ i : grid1.Coords, EltTy.bits .f32 = 32 ∨ (Rect.block (s := S8192x512) S1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x64.size a ≤ S512x64.size a
  hwx1_1 : ∀ i : grid1.Coords, EltTy.bits .f32 = 32 ∨ (Rect.block (s := S512x64) S512x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x256.size a ≤ S512x256.size a
  hwx1_2 : ∀ i : grid1.Coords, EltTy.bits .f32 = 32 ∨ (Rect.block (s := S512x256) S512x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x64.size a ≤ S8192x64.size a
  hwx1_3 : ∀ i : grid1.Coords, EltTy.bits .bf16 = 32 ∨ (Rect.block (s := S8192x64) S1024x64.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x256.size a ≤ S8192x256.size a
  hwx1_4 : ∀ i : grid1.Coords, EltTy.bits .bf16 = 32 ∨ (Rect.block (s := S8192x256) S1024x256.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x64.size a ≤ S4096x64.size a
  hwx2_0 : ∀ i : grid2.Coords, EltTy.bits .bf16 = 32 ∨ (Rect.block (s := S4096x64) S2048x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x64.size a ≤ S8192x64.size a
  hwx2_1 : ∀ i : grid2.Coords, EltTy.bits .bf16 = 32 ∨ (Rect.block (s := S8192x64) S512x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x256.size a ≤ S8192x256.size a
  hwx2_2 : ∀ i : grid2.Coords, EltTy.bits .bf16 = 32 ∨ (Rect.block (s := S8192x256) S512x256.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x2048.size a ≤ S8192x4096.size a
  hwx2_3 : ∀ i : grid2.Coords, EltTy.bits .i32 = 32 ∨ (Rect.block (s := S8192x4096) S512x2048.size (cc2_transform_3 i) (hinb2_3 i)).WholeWords (EltTy.packing .i32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2048x256.size a ≤ S4096x256.size a
  hwx2_4 : ∀ i : grid2.Coords, EltTy.bits .f32 = 32 ∨ (Rect.block (s := S4096x256) S2048x256.size (cc2_transform_4 i) (hinb2_4 i)).WholeWords (EltTy.packing .f32)

variable [Facts₀]

def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S512x256_S2048x256_0_0_1_1_n_n : DotDims S512x2048 S512x256 S2048x256 where
  lhsContracting := [0]
  rhsContracting := [0]
  lhsNonContracting := [1]
  rhsNonContracting := [1]
  lhsBatch := []
  rhsBatch := []
  wf := dot_S512x2048_S512x256_S2048x256_0_0_1_1_n_n_wf

abbrev win0_0 : Pipeline.Window sig grid0 :=
  Pipeline.Window.ofSpec (Memref.whole main_arg1) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S512x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S512x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1_0) S1024x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1_1) S1024x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v0) S2048x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1_0) S512x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1_1) S512x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg2) S512x2048.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v2) S2048x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S8192x512 : Shape := ⟨2, ![8192, 512]⟩
abbrev S4096x512 : Shape := ⟨2, ![4096, 512]⟩
abbrev S8192x4096 : Shape := ⟨2, ![8192, 4096]⟩
abbrev S512x64 : Shape := ⟨2, ![512, 64]⟩
abbrev S512x256 : Shape := ⟨2, ![512, 256]⟩
abbrev S4096x64 : Shape := ⟨2, ![4096, 64]⟩
abbrev S8192x64 : Shape := ⟨2, ![8192, 64]⟩
abbrev S_ : Shape := ⟨0, ![]⟩
abbrev S64x8192 : Shape := ⟨2, ![64, 8192]⟩
abbrev S4096x8192 : Shape := ⟨2, ![4096, 8192]⟩
abbrev S4096 : Shape := ⟨1, ![4096]⟩
abbrev S4096x1 : Shape := ⟨2, ![4096, 1]⟩
abbrev S8192x256 : Shape := ⟨2, ![8192, 256]⟩
abbrev S4096x256 : Shape := ⟨2, ![4096, 256]⟩

abbrev nBuf : Space → Nat
  | .hbm => 38
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S4096x512, .f32⟩
  | .hbm, ⟨2, _⟩ => ⟨S8192x4096, .i32⟩
  | .hbm, ⟨3, _⟩ => ⟨S512x64, .f32⟩
  | .hbm, ⟨4, _⟩ => ⟨S512x64, .f32⟩
  | .hbm, ⟨5, _⟩ => ⟨S512x256, .f32⟩
  | .hbm, ⟨6, _⟩ => ⟨S4096x64, .f32⟩
  | .hbm, ⟨7, _⟩ => ⟨S8192x64, .f32⟩
  | .hbm, ⟨8, _⟩ => ⟨S_, .f32⟩
  | .hbm, ⟨9, _⟩ => ⟨S_, .f32⟩
  | .hbm, ⟨10, _⟩ => ⟨S64x8192, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S4096x8192, .i32⟩
  | .hbm, ⟨15, _⟩ => ⟨S_, .i32⟩
  | .hbm, ⟨16, _⟩ => ⟨S4096x8192, .i32⟩
  | .hbm, ⟨17, _⟩ => ⟨S4096x8192, .i1⟩
  | .hbm, ⟨18, _⟩ => ⟨S_, .f32⟩
  | .hbm, ⟨19, _⟩ => ⟨S_, .f32⟩
  | .hbm, ⟨20, _⟩ => ⟨S4096x8192, .f32⟩
  | .hbm, ⟨21, _⟩ => ⟨S4096x8192, .f32⟩
  | .hbm, ⟨22, _⟩ => ⟨S_, .f32⟩
  | .hbm, ⟨23, _⟩ => ⟨S4096, .f32⟩
  | .hbm, ⟨24, _⟩ => ⟨S_, .f32⟩
  | .hbm, ⟨25, _⟩ => ⟨S4096, .f32⟩
  | .hbm, ⟨26, _⟩ => ⟨S4096, .f32⟩
  | .hbm, ⟨27, _⟩ => ⟨S4096x1, .f32⟩
  | .hbm, ⟨28, _⟩ => ⟨S4096x8192, .f32⟩
  | .hbm, ⟨29, _⟩ => ⟨S4096x8192, .f32⟩
  | .hbm, ⟨30, _⟩ => ⟨S4096x8192, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S4096x8192, .f32⟩
  | .hbm, ⟨35, _⟩ => ⟨S4096x8192, .f32⟩
  | .hbm, ⟨36, _⟩ => ⟨S8192x256, .f32⟩
  | .hbm, ⟨37, _⟩ => ⟨S4096x256, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]

class Facts₀ : Prop where
  transposes_S8192x64_S64x8192_1_0 : S8192x64.Transposes [1, 0] S64x8192
  bcast_S_S4096x8192 : S_.BroadcastsInDim S4096x8192 (![] : Fin 0 → Fin S4096x8192.rank)
  transposes_S8192x4096_S4096x8192_1_0 : S8192x4096.Transposes [1, 0] S4096x8192
  reducesTo_S4096x8192_S4096_d1 : S4096x8192.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x8192_0_1 : S4096x1.BroadcastsInDim S4096x8192 (![0, 1] : Fin 2 → Fin S4096x8192.rank)
  dot_S4096x512_S512x64_S4096x64_1_0_0_1_n_n_wf : DotDims.WF S4096x512 S512x64 S4096x64 [1] [0] [0] [1] [] []
  dot_S8192x512_S512x64_S8192x64_1_0_0_1_n_n_wf : DotDims.WF S8192x512 S512x64 S8192x64 [1] [0] [0] [1] [] []
  dot_S4096x64_S64x8192_S4096x8192_1_0_0_1_n_n_wf : DotDims.WF S4096x64 S64x8192 S4096x8192 [1] [0] [0] [1] [] []
  dot_S8192x512_S512x256_S8192x256_1_0_0_1_n_n_wf : DotDims.WF S8192x512 S512x256 S8192x256 [1] [0] [0] [1] [] []
  dot_S4096x8192_S8192x256_S4096x256_1_0_0_1_n_n_wf : DotDims.WF S4096x8192 S8192x256 S4096x256 [1] [0] [0] [1] [] []

variable [Facts₀]

def dot_S4096x512_S512x64_S4096x64_1_0_0_1_n_n : DotDims S4096x512 S512x64 S4096x64 where
  lhsContracting := [1]
  rhsContracting := [0]
  lhsNonContracting := [0]
  rhsNonContracting := [1]
  lhsBatch := []
  rhsBatch := []
  wf := dot_S4096x512_S512x64_S4096x64_1_0_0_1_n_n_wf
def dot_S8192x512_S512x64_S8192x64_1_0_0_1_n_n : DotDims S8192x512 S512x64 S8192x64 where
  lhsContracting := [1]
  rhsContracting := [0]
  lhsNonContracting := [0]
  rhsNonContracting := [1]
  lhsBatch := []
  rhsBatch := []
  wf := dot_S8192x512_S512x64_S8192x64_1_0_0_1_n_n_wf
def dot_S4096x64_S64x8192_S4096x8192_1_0_0_1_n_n : DotDims S4096x64 S64x8192 S4096x8192 where
  lhsContracting := [1]
  rhsContracting := [0]
  lhsNonContracting := [0]
  rhsNonContracting := [1]
  lhsBatch := []
  rhsBatch := []
  wf := dot_S4096x64_S64x8192_S4096x8192_1_0_0_1_n_n_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S4096x8192_S8192x256_S4096x256_1_0_0_1_n_n : DotDims S4096x8192 S8192x256 S4096x256 where
  lhsContracting := [1]
  rhsContracting := [0]
  lhsNonContracting := [0]
  rhsNonContracting := [1]
  lhsBatch := []
  rhsBatch := []
  wf := dot_S4096x8192_S8192x256_S4096x256_1_0_0_1_n_n_wf

class Facts : Prop extends Facts₀ where

variable [Facts]
-- ==== Proof.RefFrame.lean ====
/-
  The reference program is a straight line of host operations: two projections, a scaled score matrix masked by the
  incidence matrix, a row softmax, and the product with the projected values. Every weakly fair execution of it ends,
  faults nowhere, and writes no argument array: that is its run with the result forgotten.
-/
import proofs.«127266_j31533649887507_2_alg».proof.Defs
import proofs.«127266_j31533649887507_2_alg».proof.Proof.Gen.ReferenceIdeal.Run
import proofs.«127266_j31533649887507_2_alg».proof.Proof.Gen.ReferenceIdeal.Read
import proofs.«127266_j31533649887507_2_alg».proof.Proof.Gen.Pre_finite_inputs

noncomputable section

open Idealize.ShloMosaic Idealize.ShloMosaic.TcCoe Idealize.SL.Sem

namespace Cert.Proof.RefSide

/-- The reference's frame: its run terminates with every argument as launched. -/
theorem frame_ri : Cert.frame_ReferenceIdeal := fun m ρ _ =>
  (θ_run Cert.ReferenceIdeal.defs _ _).mono (fun _ h c => (h c).2) (Cert.ReferenceIdeal.Value.run (F := Ideal) m ρ)

end Cert.Proof.RefSide

end
-- ==== Proof.LibOnlineSoftmax.lean ====
/-
  The online softmax, on the extended reals.

  A row of scores `s k` (a real, or `⊥` for a masked entry) is met tile by tile. A kernel keeps a running maximum `M`,
  a running sum `l` and an accumulator `a`; when a new tile raises the maximum from `M'` to `M` it multiplies what it
  holds by `exp (M' - M)` and adds the new tile's terms `exp (s k - M)`. Here: every such term is a real number in
  `[0, 1]` (`exp_sub_eq_coe`, with `⊥ - M = ⊥` and `exp ⊥ = 0` covering a masked entry and the start `M' = ⊥`); the
  rescaling is exact, `exp (M' - M) · exp (s - M') = exp (s - M)` (`wt_rescale`); so after any number of tiles the
  kernel holds `∑ exp (s k - M)` and `∑ exp (s k - M) · v k` over the entries seen (`step`); and once some entry is
  unmasked the quotient of the two is the softmax-weighted sum `∑ (exp (s k - M) / L) · v k` (`quotient_eq`).
-/
import Idealize.ShloMosaic.PureOps.Ideal

noncomputable section

open scoped BigOperators

namespace Cert.Lib.OnlineSoftmax

open Idealize.ShloMosaic

variable {ι : Type}

/-- The coercion of a finite real sum is the sum of the coercions. -/
theorem coe_sum (A : Finset ι) (f : ι → ℝ) : ((∑ k ∈ A, f k : ℝ) : EReal) = ∑ k ∈ A, (f k : EReal) := by
  classical
  refine Finset.induction_on A (by simp) ?_
  intro a A ha ih
  rw [Finset.sum_insert ha, Finset.sum_insert ha, EReal.coe_add, ih]

/-- The weight of a score `s` against a maximum `M`, as a real number. -/
def wt (M s : EReal) : ℝ := (Ideal.exp (s - M)).toReal

/-- A masked entry has weight zero against any maximum. -/
@[simp] theorem wt_bot (M : EReal) : wt M ⊥ = 0 := by
  simp [wt, EReal.bot_sub]

/-- Below a maximum that is not `+∞` the exponential of the difference is a real number. -/
theorem exp_sub_eq_coe {M s : EReal} (hs : s ≤ M) (hM : M ≠ ⊤) : Ideal.exp (s - M) = (wt M s : EReal) := by
  induction s using EReal.rec with
  | bot => simp [wt, EReal.bot_sub]
  | top => exact absurd (top_le_iff.mp hs) hM
  | coe r =>
    induction M using EReal.rec with
    | bot => exact absurd hs (by simp)
    | top => exact absurd rfl hM
    | coe q => simp [wt, ← EReal.coe_sub]

/-- A real score against a real maximum. -/
theorem wt_coe (q r : ℝ) : wt (q : EReal) (r : EReal) = Real.exp (r - q) := by
  simp [wt, ← EReal.coe_sub]

/-- Raising the maximum from `M'` to `M` rescales every weight exactly. -/
theorem wt_rescale {M' M s : EReal} (hs : s ≤ M') (hMM : M' ≤ M) (hM : M ≠ ⊤) :
    wt M M' * wt M' s = wt M s := by
  induction M' using EReal.rec with
  | bot =>
    have : s = ⊥ := le_bot_iff.mp hs
    subst this; simp
  | top => exact absurd (top_le_iff.mp hMM) hM
  | coe q =>
    induction M using EReal.rec with
    | bot => exact absurd hMM (by simp)
    | top => exact absurd rfl hM
    | coe p =>
      induction s using EReal.rec with
      | bot => simp
      | top => exact absurd hs (by simp)
      | coe r => rw [wt_coe, wt_coe, wt_coe, ← Real.exp_add]; congr 1; ring

/-- One step of the recursion, for the sum (`f = 1`) and for the accumulator (`f = v`): what was held over the entries
    `A` seen so far, rescaled, plus the new tile `B`'s terms, is the same expression over `A ∪ B` at the new maximum. -/
theorem step [DecidableEq ι] (A B : Finset ι) (hAB : Disjoint A B) (s : ι → EReal) (f : ι → ℝ) {M' M : EReal}
    (hA : ∀ k ∈ A, s k ≤ M') (hMM : M' ≤ M) (hM : M ≠ ⊤) :
    wt M M' * (∑ k ∈ A, wt M' (s k) * f k) + ∑ k ∈ B, wt M (s k) * f k = ∑ k ∈ A ∪ B, wt M (s k) * f k := by
  rw [Finset.sum_union hAB, Finset.mul_sum]
  congr 1
  exact Finset.sum_congr rfl fun k hk => by rw [← mul_assoc, wt_rescale (hA k hk) hMM hM]

/-- Where the maximum is attained at a real score, the sum of the weights is at least one. -/
theorem one_le_sum (A : Finset ι) (s : ι → EReal) {q : ℝ} (hk : ∃ k ∈ A, s k = (q : EReal)) :
    1 ≤ ∑ k ∈ A, wt (q : EReal) (s k) := by
  obtain ⟨k, hkA, hkq⟩ := hk
  have h1 : wt (q : EReal) (s k) = 1 := by rw [hkq, wt_coe]; simp
  calc (1 : ℝ) = wt (q : EReal) (s k) := h1.symm
    _ ≤ ∑ k ∈ A, wt (q : EReal) (s k) :=
      Finset.single_le_sum (f := fun k => wt (q : EReal) (s k)) (fun i _ => EReal.toReal_nonneg (by
        unfold Ideal.exp; split <;> simp [Real.exp_nonneg])) hkA

/-- The last step: the accumulator over the sum is the softmax-weighted sum of the values, when the maximum is a real
    score that some entry attains. -/
theorem quotient_eq (A : Finset ι) (s : ι → EReal) (v : ι → ℝ) {q : ℝ} (hle : ∀ k ∈ A, s k ≤ (q : EReal))
    (hk : ∃ k ∈ A, s k = (q : EReal)) :
    Ideal.div ((∑ k ∈ A, wt q (s k) * v k : ℝ) : EReal) ((∑ k ∈ A, wt q (s k) : ℝ) : EReal)
      = ∑ k ∈ A, Ideal.div (Ideal.exp (s k - (q : EReal))) ((∑ k ∈ A, wt q (s k) : ℝ) : EReal) * (v k : EReal) := by
  have hL : (∑ k ∈ A, wt (q : EReal) (s k)) ≠ 0 := ne_of_gt (lt_of_lt_of_le one_pos (one_le_sum A s hk))
  rw [Ideal.div_coe hL, ← EReal.coe_mul, Finset.sum_mul, coe_sum]
  refine Finset.sum_congr rfl fun k hkA => ?_
  rw [Ideal.div_coe hL, exp_sub_eq_coe (hle k hkA) (EReal.coe_ne_top q), ← EReal.coe_mul, ← EReal.coe_mul]
  congr 1; ring

/-! ## One tile, on the extended reals

  With `M' = sup` of the scores seen so far (`-∞` when none) and `M = sup` once the new tile is seen too: the new maximum is
  the old one joined with the tile's; what was held, multiplied by `exp (M' - M)`, plus the tile's terms `exp (s k - M)`, is
  the same expression over everything seen, at the new maximum. No score is `+∞`. -/

section Tile

variable [DecidableEq ι] (s : ι → EReal)

theorem sup_ne_top (hs : ∀ k, s k ≠ ⊤) (A : Finset ι) : A.sup s ≠ ⊤ :=
  ne_of_lt ((Finset.sup_lt_iff (bot_lt_top : (⊥ : EReal) < ⊤)).mpr fun k _ => lt_top_iff_ne_top.mpr (hs k))

/-- The running maximum joined with the tile's is the maximum over everything seen. -/
theorem tile_max (A B : Finset ι) : max (A.sup s) (B.sup s) = (A ∪ B).sup s :=
  (Finset.sup_union (f := s)).symm

/-- The accumulator's step (`f` the values; `f = 1` gives the running sum's). -/
theorem tile_acc (hs : ∀ k, s k ≠ ⊤) (A B : Finset ι) (hAB : Disjoint A B) (f : ι → ℝ) :
    Ideal.exp (A.sup s - (A ∪ B).sup s) * ((∑ k ∈ A, wt (A.sup s) (s k) * f k : ℝ) : EReal)
        + ∑ k ∈ B, Ideal.exp (s k - (A ∪ B).sup s) * (f k : EReal)
      = ((∑ k ∈ A ∪ B, wt ((A ∪ B).sup s) (s k) * f k : ℝ) : EReal) := by
  have hM : (A ∪ B).sup s ≠ ⊤ := sup_ne_top s hs _
  have hMM : A.sup s ≤ (A ∪ B).sup s := Finset.sup_mono Finset.subset_union_left
  have hB : ∀ k ∈ B, Ideal.exp (s k - (A ∪ B).sup s) * (f k : EReal) = ((wt ((A ∪ B).sup s) (s k) * f k : ℝ) : EReal) := fun k hk => by
    rw [exp_sub_eq_coe (Finset.le_sup (f := s) (Finset.mem_union_right _ hk)) hM, ← EReal.coe_mul]
  rw [exp_sub_eq_coe hMM hM, Finset.sum_congr rfl hB, ← coe_sum, ← EReal.coe_mul, ← EReal.coe_add,
    step A B hAB s f (fun k hk => Finset.le_sup (f := s) hk) hMM hM]

/-- The running sum's step. -/
theorem tile_sum (hs : ∀ k, s k ≠ ⊤) (A B : Finset ι) (hAB : Disjoint A B) :
    Ideal.exp (A.sup s - (A ∪ B).sup s) * ((∑ k ∈ A, wt (A.sup s) (s k) : ℝ) : EReal)
        + ∑ k ∈ B, Ideal.exp (s k - (A ∪ B).sup s)
      = ((∑ k ∈ A ∪ B, wt ((A ∪ B).sup s) (s k) : ℝ) : EReal) := by
  have h := tile_acc s hs A B hAB (fun _ => (1 : ℝ))
  simpa only [mul_one, EReal.coe_one] using h

end Tile

/-! ## A whole row

  Over all the entries of a row whose scores are never `+∞` and not all `-∞`: the maximum is a real score that some entry
  attains, and the accumulator over the sum, both taken against it, is the row of the softmax times the values — with the
  softmax's denominator spelt as a reference program computes it, `0 + Σ exp (s - max)`. -/

/-- A maximum folded from `-∞` over a finite set is the set's supremum. -/
theorem fold_max_eq_sup [DecidableEq ι] (A : Finset ι) (f : ι → EReal) : A.fold max (⊥ : EReal) f = A.sup f := by
  induction A using Finset.induction_on with
  | empty => simp
  | insert a A ha ih => rw [Finset.fold_insert ha, Finset.sup_insert, ih]

section Row

variable [Fintype ι] [DecidableEq ι]

theorem row_eq (s : ι → EReal) (v : ι → ℝ) (hs : ∀ k, s k ≠ ⊤) (hex : ∃ k, s k ≠ ⊥) :
    Ideal.div ((∑ k : ι, wt (Finset.univ.sup s) (s k) * v k : ℝ) : EReal) ((∑ k : ι, wt (Finset.univ.sup s) (s k) : ℝ) : EReal)
      = ∑ k : ι, Ideal.div (Ideal.exp (s k - Finset.univ.sup s)) ((0 : EReal) + ∑ k' : ι, Ideal.exp (s k' - Finset.univ.sup s)) * (v k : EReal) := by
  obtain ⟨k₀, hk₀⟩ := hex
  have hne : (Finset.univ : Finset ι).Nonempty := ⟨k₀, Finset.mem_univ _⟩
  obtain ⟨k₁, -, hk₁⟩ := Finset.exists_mem_eq_sup Finset.univ hne s
  have htop : Finset.univ.sup s ≠ ⊤ := sup_ne_top s hs _
  have hbot : Finset.univ.sup s ≠ ⊥ := fun h => hk₀ (le_bot_iff.mp (h ▸ Finset.le_sup (f := s) (Finset.mem_univ k₀)))
  obtain ⟨q, hq⟩ : ∃ q : ℝ, Finset.univ.sup s = (q : EReal) := ⟨(Finset.univ.sup s).toReal, (EReal.coe_toReal htop hbot).symm⟩
  have hle : ∀ k ∈ (Finset.univ : Finset ι), s k ≤ (q : EReal) := fun k hk => hq ▸ Finset.le_sup (f := s) hk
  have hden : ((0 : EReal) + ∑ k' : ι, Ideal.exp (s k' - (q : EReal))) = ((∑ k : ι, wt (q : EReal) (s k) : ℝ) : EReal) := by
    rw [zero_add, coe_sum]
    exact Finset.sum_congr rfl fun k hk => exp_sub_eq_coe (hle k hk) (EReal.coe_ne_top q)
  rw [hq, hden]
  exact quotient_eq Finset.univ s v hle ⟨k₁, Finset.mem_univ _, by rw [← hk₁, hq]⟩

end Row

end Cert.Lib.OnlineSoftmax

end
-- ==== Proof.KIRegion0.lean ====
/-
  The first call: `Q = Y · W_q`, one block of 1024 rows of `Y` at each of four grid points against the whole of `W_q`.
  The body reads its two input blocks whole, reads the output block it is about to overwrite (a value it never uses),
  and stores the product, rounded to the output's format, over the whole output block. So after the body the two
  input buffers hold what they held, and the output buffer holds that one stored value, whatever it held before.
-/
import proofs.«127266_j31533649887507_2_alg».proof.Proof.Gen.KernelIdeal.Skeleton
import proofs.«127266_j31533649887507_2_alg».proof.Proof.Gen.KernelIdeal.Launch
import proofs.«127266_j31533649887507_2_alg».proof.Proof.Gen.KernelIdeal.Points
import Idealize.ShloMosaic.Lib.Pipeline.Kit
import Idealize.ShloMosaic.Lib.Pipeline.Frame
import Idealize.ShloMosaic.Lib.Pipeline.FrameBody
import Idealize.ShloMosaic.Lib.Pipeline.Regions
import Idealize.ShloMosaic.Lib.Tactic

set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The whole output block, as the rectangle the body's one store writes. -/
abbrev whole_out : Rect S1024x64 := Rect.unit (s := S1024x64) ![0, 0] S1024x64.size inb_S1024x64_S1024x64_0_0
/-- The whole block of rows of `Y`, and the whole of `W_q`, as the rectangles the body's loads read. -/
abbrev whole_rows : Rect S1024x512 := Rect.unit (s := S1024x512) ![0, 0] S1024x512.size inb_S1024x512_S1024x512_0_0
abbrev whole_w : Rect S512x64 := Rect.unit (s := S512x64) ![0, 0] S512x64.size inb_S512x64_S512x64_0_0

/-- What the output buffer holds after the body, from the two input blocks: the product of the rows with the weights,
    stored once over the whole block. -/
def proj_block (y : Vec F S1024x512 .f32) (w : Vec F S512x64 .f32) : Vec F S1024x64 .bf16 :=
  View.canon [⟨whole_out, k0_pay1 (View.ld y whole_rows) (View.ld w whole_w)⟩]

/-- The one store covers the output block. -/
theorem store_covers (p : Vec F S1024x64 .bf16) (j : S1024x64.Idx) :
    ∃ pc ∈ ([⟨whole_out, p⟩] : List (View.Piece (Elt F) S1024x64 .bf16)), j ∈ pc.1.set :=
  View.cover_of_tiled [⟨whole_out, p⟩] S1024x64.size (by rfl) j

set_option maxHeartbeats 1000000 in
/-- The body, run on whole staging buffers holding the input blocks `y` and `w` and an output buffer holding anything:
    it ends with the inputs as they were and the output at `proj_block y w`. -/
theorem body_triple (c : Dev nD) (E : Set ℕ) (i : grid0.Coords)
    (arg1 : Memref sig .tc .vmem S1024x512 .f32) (harg1 : arg1.IsWhole) (arg2 : Memref sig .tc .vmem S512x64 .f32) (harg2 : arg2.IsWhole)
    (arg3 : Memref sig .tc .vmem S1024x64 .bf16) (harg3 : arg3.IsWhole)
    (y : Vec F S1024x512 .f32) (w : Vec F S512x64 .f32) (K : PUnit → sProp 𝕄) :
    iprop(owns (c : Thread nD τ) arg1 fullShare y ∗ owns (c : Thread nD τ) arg2 fullShare w ∗ (∃ d, owns (c : Thread nD τ) arg3 fullShare d)
        ∗ (iprop(owns (c : Thread nD τ) arg1 fullShare y ∗ owns (c : Thread nD τ) arg2 fullShare w ∗ owns (c : Thread nD τ) arg3 fullShare (proj_block y w)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f1, %hf1, H1⟩, ⟨%f2, %hf2, H2⟩, ⟨%d3, %f3, -, H3⟩, Hk⟩
  subst hf1 hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (store_covers _)

/-! ## The call at a grid point -/

variable (m : (ℓ : Loc nD τ sig) → Buf (Elt F) ℓ)

/-- The first call finds every array as launched. -/
abbrev atEntry (c : Dev nD) (b : Ref sig .tc) : Buf (Elt F) ((c : Thread nD τ).loc b) := m ((c : Thread nD τ).loc b)

/-- A window's block at point `t`, read off its array: rows `1024 t … 1024 t + 1023` of `Y` for the first window, the
    whole of `W_q` for the second. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- The rows' staging buffer holds the point's block of rows when the body starts, whether or not it was fetched at
    this point, for any proof data over the launch contents whose body leaves that block in place. -/
theorem rows_found {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The weights' staging buffer holds the whole of `W_q` when the body starts: it is fetched at the first point only,
    and its block index never moves. -/
theorem weights_found {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- The call's proof data on core `c`: the arrays as launched; after the body at point `t` the two input buffers at
    their blocks and the output buffer at the product of the two; the invariant is the scoped buffers this call does not
    stage, untouched; nothing owed; full shares. -/
def dat0 (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => proj_block (blockAt m c 0 t) (blockAt m c 1 t)
  Φ _ := Pipeline.scopedRest (Ix := Unit) (Name := ℕ) (U := UR sig nD τ) (Lvl := ℕ) (Val := Elt F) spec0 c
  q _ := fullShare
  owed _ := 0

theorem dat0_A (c : Dev nD) (w : Fin cfg0.W) : (dat0 m c).A w = atEntry m c (Pipeline.arrRef spec0 w) := by
  dsimp only [dat0]

theorem after_rows (c : Dev nD) (t : Fin cfg0.N) : (dat0 m c).after 0 t = blockAt m c 0 t := by dsimp only [dat0]
theorem after_weights (c : Dev nD) (t : Fin cfg0.N) : (dat0 m c).after 1 t = blockAt m c 1 t := by dsimp only [dat0]
theorem after_out (c : Dev nD) (t : Fin cfg0.N) :
    (dat0 m c).after 2 t = proj_block (blockAt m c 0 t) (blockAt m c 1 t) := by dsimp only [dat0]

theorem before_rows (c : Dev nD) (t : Fin cfg0.N) (d) : (dat0 m c).before 0 t d = blockAt m c 0 t :=
  rows_found m (dat0 m c) (dat0_A m c 0) (after_rows m c) t d
theorem before_weights (c : Dev nD) (t : Fin cfg0.N) (d) : (dat0 m c).before 1 t d = blockAt m c 1 t :=
  weights_found m (dat0 m c) (dat0_A m c 1) (after_weights m c) t d

/-- What the body is called with at point `t`, -/
def bodyPre (c : Dev nD) (t : Fin cfg0.N) : sProp 𝕄 :=
  iprop((dat0 m c).Φ t.castSucc ∗ (dat0 m c).owesAt () t.castSucc
    ∗ (∃ d, owns (c : Thread nD τ) (st0_0 t) fullShare ((dat0 m c).before 0 t d))
    ∗ (∃ d, owns (c : Thread nD τ) (st0_1 t) fullShare ((dat0 m c).before 1 t d))
    ∗ (∃ d, owns (c : Thread nD τ) (st0_2 t) fullShare ((dat0 m c).before 2 t d)))

/-- and what it returns. -/
def bodyPost (c : Dev nD) (t : Fin cfg0.N) : sProp 𝕄 :=
  iprop((dat0 m c).Φ t.succ ∗ (dat0 m c).owesAt () t.succ
    ∗ owns (c : Thread nD τ) (st0_0 t) fullShare ((dat0 m c).after 0 t)
    ∗ owns (c : Thread nD τ) (st0_1 t) fullShare ((dat0 m c).after 1 t)
    ∗ owns (c : Thread nD τ) (st0_2 t) fullShare ((dat0 m c).after 2 t))

/-- The body at any point: the input buffers hold their blocks, so the body's triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_rows, before_weights]
  rw [show (dat0 m c).Φ t.succ = (dat0 m c).Φ t.castSucc from rfl,
    show (dat0 m c).owesAt () t.succ = (dat0 m c).owesAt () t.castSucc from rfl,
    after_rows, after_weights, after_out]
  iintro ⟨HΦ, Ho, ⟨%d0, H0⟩, ⟨%d1, H1⟩, ⟨%d2, H2⟩⟩
  iapply (body_triple c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the first call, at every point. -/
theorem body_obligation (c : Dev nD) : BodyObligation (dat0 (F := F) m c) (defs₀ (F := F)) Variants.none () Set.univ := fun t => by
  rw [bigSep_W0, bigSep_W0]
  exact sound_body m c t

/-! ## The call as a segment of the program -/

section Record

open Idealize.ShloMosaic.Pipeline (RegionSeg)

variable (ρ : Dev nD → PrngReg)
variable (L : GSem nD τ sig → Finset Unit) (lv : GSem nD τ sig → Unit → ℕ)
-- the proof data of the two later calls: not this module's business, only that the family has them
variable (d1 : (c : Dev nD) → Dat τ (Elt F) Unit ℕ (UR sig nD τ) ℕ cfg1 c) (d2 : (c : Dev nD) → Dat τ (Elt F) Unit ℕ (UR sig nD τ) ℕ cfg2 c)

/-- The three calls' proof data as one family. -/
def family : (p : Fin 3) → (c : Dev nD) → Dat τ (Elt F) Unit ℕ (UR sig nD τ) ℕ (cfgs p) c
  | ⟨0, _⟩ => dat0 m
  | ⟨1, _⟩ => d1
  | ⟨2, _⟩ => d2

abbrev adm : (p : Fin 3) → (pcfgs (F := F) p).Adm := fun p => (cfgs p).toPCfg_adm

/-- What rides beside the unscoped buffers from the launch to the end: the unscoped semaphores at zero, the launch's
    credit, the generator's register, and a core that owes nothing. -/
def rides (c : Dev nD) : sProp 𝕄 :=
  iprop(unscopedSems0 c ∗ Pipeline.launchCred (fun _ : Dev nD => (0 : CellTallies nD τ sig Unit)) c ∗ prngReg c (ρ c))

def between (c : Dev nD) : sProp 𝕄 := iprop(rides ρ c ∗ ∃ W, owes (c : Thread nD τ) (0 : CellTallies nD τ sig Unit) W)

/-- What the first call leaves in `Q`'s buffer. -/
abbrev q_final (c : Dev nD) : Buf (Elt F) ((c : Thread nD τ).loc main_v0) := (dat0 m c).arrAt 2 cfg0.N

/-- The unscoped buffers before the first call (as launched) and after it (`Q` written). -/
abbrev W0 (c : Dev nD) : Valuation τ sig (Elt F) := fun b => m (c, b)
abbrev W1 (c : Dev nD) : Valuation τ sig (Elt F) := Function.update (W0 m c) main_v0 (q_final m c)

/-- The first call's invariant, at every point, is the scoped buffers it does not stage (the proof data opened). -/
theorem inv_eq (c : Dev nD) (t : Fin (cfg0.N + 1)) : (family m d1 d2 0 c).Φ t
    = Pipeline.scopedRest (Ix := Unit) (Name := ℕ) (U := UR sig nD τ) (Lvl := ℕ) (Val := Elt F) (Pipeline.pin (pcfgs (F := F)) adm 0).spec c := by
  dsimp only [family, dat0]
  rfl

/-- Each window's array after the last point is what the valuation after the call holds there: the two inputs as
    launched, `Q` as written. -/
theorem final_arrays (c : Dev nD) (w : Fin cfg0.W) :
    (dat0 m c).arrAt w cfg0.N = W1 m c (Pipeline.arrRef spec0 w) := by
  match w with
  | ⟨0, _⟩ =>
    exact ((dat0 m c).arrAt_in 0 rfl _).trans ((dat0_A m c 0).trans
      (Function.update_of_ne (show (Proc.devRef .tc main_arg1 : DevRef τ sig) ≠ Proc.devRef .tc main_v0 by decide) (q_final m c) (W0 m c)).symm)
  | ⟨1, _⟩ =>
    exact ((dat0 m c).arrAt_in 1 rfl _).trans ((dat0_A m c 1).trans
      (Function.update_of_ne (show (Proc.devRef .tc main_arg3 : DevRef τ sig) ≠ Proc.devRef .tc main_v0 by decide) (q_final m c) (W0 m c)).symm)
  | ⟨2, _⟩ => exact (Function.update_self (Proc.devRef .tc main_v0 : DevRef τ sig) (q_final m c) (W0 m c)).symm

/-- The unscoped buffers that are no array of this call do not see the update of `Q`. -/
theorem rest_unchanged (c : Dev nD) :
    (Pipeline.unscopedRest (Ix := Unit) (Name := ℕ) (U := UR sig nD τ) (Lvl := ℕ) (Pipeline.pin (pcfgs (F := F)) adm 0).spec c (fun b => W1 m c b) : sProp 𝕄)
      = Pipeline.unscopedRest (Ix := Unit) (Name := ℕ) (U := UR sig nD τ) (Lvl := ℕ) spec0 c (fun b => m ((c : Thread nD τ).loc b)) := by
  show (Pipeline.unscopedRest (Ix := Unit) (Name := ℕ) (U := UR sig nD τ) (Lvl := ℕ) spec0 c (fun b => W1 m c b) : sProp 𝕄) = _
  rw [unscopedRest0_eq, unscopedRest0_eq]
  simp only [W1, W0, Function.update_of_ne (show (Proc.devRef .tc main_arg0 : DevRef τ sig) ≠ Proc.devRef .tc main_v0 by decide),
    Function.update_of_ne (show (Proc.devRef .tc main_arg2 : DevRef τ sig) ≠ Proc.devRef .tc main_v0 by decide),
    Function.update_of_ne (show (Proc.devRef .tc main_arg4 : DevRef τ sig) ≠ Proc.devRef .tc main_v0 by decide),
    Function.update_of_ne (show (Proc.devRef .tc main_arg5 : DevRef τ sig) ≠ Proc.devRef .tc main_v0 by decide),
    Function.update_of_ne (show (Proc.devRef .tc main_v1_0 : DevRef τ sig) ≠ Proc.devRef .tc main_v0 by decide),
    Function.update_of_ne (show (Proc.devRef .tc main_v1_1 : DevRef τ sig) ≠ Proc.devRef .tc main_v0 by decide),
    Function.update_of_ne (show (Proc.devRef .tc main_v2 : DevRef τ sig) ≠ Proc.devRef .tc main_v0 by decide)]

/-- THE FIRST CALL as a segment: entered from the launch's thread state, left with `Q` written and everything else as
    it was. -/
def seg0 : RegionSeg (pcfgs (F := F)) adm (family m d1 d2) () defs₀ Variants.none L lv 0 where
  win := launch0.win.to₀
  block_pos := launch0.block_pos
  stage_whole := launch0.stage_whole
  K := PEmpty
  osem k := k.elim
  ho := Pipeline.OwnSemFacts.none _
  hbody c := (body_obligation m c).loose
  hwaits c := Pipeline.hwaits_of_owed_zero (pcfgs (F := F)) adm (family m d1 d2) () L lv 0 (fun _ _ => rfl) c
  pre c := iprop(StableHlo.held (c : Thread nD τ) (Pipeline.ucRefs τ sig) (W0 m c) ∗ between ρ c)
  post c := iprop(StableHlo.held (c : Thread nD τ) (Pipeline.ucRefs τ sig) (W1 m c) ∗ between ρ c)
  X _ := iprop(emp)
  Y _ := iprop(emp)
  Z c := iprop(Pipeline.unscopedRest (Ix := Unit) (Name := ℕ) (U := UR sig nD τ) (Lvl := ℕ) spec0 c (fun b => m ((c : Thread nD τ).loc b)) ∗ rides ρ c)
  hentry c := by
    rw [Pipeline.ownSems0_none, ← Pipeline.unscopedBufs_held (Ix := Unit) (Name := ℕ) (U := UR sig nD τ) (Lvl := ℕ) c (W0 m c)]
    have hsplit := Pipeline.arrays_of_unscopedBufs (pcfgs (F := F)) adm (family m d1 d2) (p := 0) launch0.win launch0.arr_whole c
      ((family m d1 d2 0 c).share_full fun _ => rfl) (fun b => m ((c : Thread nD τ).loc b)) fun _ => rfl
    unfold between
    iintro ⟨⟨Hub, Hr, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩
      iexists W; isplitr; · ipureintro; exact fun _ _ => Or.inl trivial
      iexact HO
    isplitr; · iempintro
    isplitl [Hrest] <;> iassumption
  hin c := by
    rw [inv_eq]
    iintro ⟨-, -, H⟩
    iexact H
  hout c := by
    rw [Pipeline.ownSems0_none, inv_eq]
    iintro H
    isplitr; · iempintro
    isplitr; · iempintro
    iexact H
  hexit c := by
    rw [← Pipeline.unscopedBufs_held (Ix := Unit) (Name := ℕ) (U := UR sig nD τ) (Lvl := ℕ) c (W1 m c),
      Pipeline.unscopedBufs_split (Pipeline.pin (pcfgs (F := F)) adm) 0 launch0.win.arr_unscoped launch0.win.arr_inj c (fun b => W1 m c b),
      Pipeline.arrays_eq (Pipeline.pin (pcfgs (F := F)) adm) (family m d1 d2) 0 c launch0.arr_whole ((family m d1 d2 0 c).share_full fun _ => rfl),
      rest_unchanged]
    unfold between
    iintro ⟨Ha, HO, -, Hrest, Hr⟩
    imodintro
    isplitl [Ha Hrest]
    · isplitl [Ha]
      · iapply (Entails.of_eq (bigSep_congr fun w _ => congrArg (fun f => (_ ↦{fullShare} f : sProp 𝕄)) (final_arrays m c w)))
        iexact Ha
      · iexact Hrest
    isplitl [Hr]; · iexact Hr
    unfold Pipeline.Dat.owesAt Pipeline.owesWithin
    icases HO with ⟨%W, -, HO⟩
    iexists W
    iexact HO

end Record

end Cert.KernelIdeal.Region0

end
-- ==== Proof.KIRegion1.lean ====
/-
  The second call: `K = X · W_k` and `V = X · W_v`, one block of 1024 rows of `X` at each of eight grid points against
  the whole of `W_k` and the whole of `W_v`. The body reads its three input blocks whole, then, for each of its two
  outputs in turn, reads the output block it is about to overwrite (a value it never uses) and stores the product over
  the whole block. After the body the three input buffers hold what they held, and each output buffer holds its one
  stored value. Nothing this call reads was written by the first call, so it finds its arrays as launched.
-/
import proofs.«127266_j31533649887507_2_alg».proof.Proof.KIRegion0

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)
open Cert.KernelIdeal.Region0 (family adm rides between W0 W1 q_final)

variable {F : FTy → Type} [FloatOps F] [Named F]

local notation "𝕄" => MT nD τ sig Unit (Elt F) ℕ (UR sig nD τ) ℕ

/-- The whole blocks, as the rectangles the body's loads and stores go through. -/
abbrev whole_rows : Rect S1024x512 := Rect.unit (s := S1024x512) ![0, 0] S1024x512.size inb_S1024x512_S1024x512_0_0
abbrev whole_wk : Rect S512x64 := Rect.unit (s := S512x64) ![0, 0] S512x64.size inb_S512x64_S512x64_0_0
abbrev whole_wv : Rect S512x256 := Rect.unit (s := S512x256) ![0, 0] S512x256.size inb_S512x256_S512x256_0_0
abbrev whole_k : Rect S1024x64 := Rect.unit (s := S1024x64) ![0, 0] S1024x64.size inb_S1024x64_S1024x64_0_0
abbrev whole_v : Rect S1024x256 := Rect.unit (s := S1024x256) ![0, 0] S1024x256.size inb_S1024x256_S1024x256_0_0

/-- What the two output buffers hold after the body, from the input blocks: the rows times `W_k`, the rows times `W_v`. -/
def k_block (x : Vec F S1024x512 .f32) (wk : Vec F S512x64 .f32) : Vec F S1024x64 .bf16 :=
  View.canon [⟨whole_k, k1_pay2 (View.ld x whole_rows) (View.ld wk whole_wk)⟩]
def v_block (x : Vec F S1024x512 .f32) (wv : Vec F S512x256 .f32) : Vec F S1024x256 .bf16 :=
  View.canon [⟨whole_v, k1_pay3 (View.ld x whole_rows) (View.ld wv whole_wv)⟩]

theorem k_store_covers (p : Vec F S1024x64 .bf16) (j : S1024x64.Idx) :
    ∃ pc ∈ ([⟨whole_k, p⟩] : List (View.Piece (Elt F) S1024x64 .bf16)), j ∈ pc.1.set :=
  View.cover_of_tiled [⟨whole_k, p⟩] S1024x64.size (by rfl) j
theorem v_store_covers (p : Vec F S1024x256 .bf16) (j : S1024x256.Idx) :
    ∃ pc ∈ ([⟨whole_v, p⟩] : List (View.Piece (Elt F) S1024x256 .bf16)), j ∈ pc.1.set :=
  View.cover_of_tiled [⟨whole_v, p⟩] S1024x256.size (by rfl) j

set_option maxHeartbeats 1000000 in
/-- The body on whole staging buffers, the inputs at `x`, `wk`, `wv` and the outputs at anything: it ends with the inputs
    as they were and the outputs at `k_block x wk` and `v_block x wv`. -/
theorem body_triple (c : Dev nD) (E : Set ℕ) (i : grid1.Coords)
    (arg1 : Memref sig .tc .vmem S1024x512 .f32) (harg1 : arg1.IsWhole) (arg2 : Memref sig .tc .vmem S512x64 .f32) (harg2 : arg2.IsWhole)
    (arg3 : Memref sig .tc .vmem S512x256 .f32) (harg3 : arg3.IsWhole) (arg4 : Memref sig .tc .vmem S1024x64 .bf16) (harg4 : arg4.IsWhole)
    (arg5 : Memref sig .tc .vmem S1024x256 .bf16) (harg5 : arg5.IsWhole)
    (x : Vec F S1024x512 .f32) (wk : Vec F S512x64 .f32) (wv : Vec F S512x256 .f32) (K : PUnit → sProp 𝕄) :
    iprop(owns (c : Thread nD τ) arg1 fullShare x ∗ owns (c : Thread nD τ) arg2 fullShare wk ∗ owns (c : Thread nD τ) arg3 fullShare wv
        ∗ (∃ d, owns (c : Thread nD τ) arg4 fullShare d) ∗ (∃ d, owns (c : Thread nD τ) arg5 fullShare d)
        ∗ (iprop(owns (c : Thread nD τ) arg1 fullShare x ∗ owns (c : Thread nD τ) arg2 fullShare wk ∗ owns (c : Thread nD τ) arg3 fullShare wv
            ∗ owns (c : Thread nD τ) arg4 fullShare (k_block x wk) ∗ owns (c : Thread nD τ) arg5 fullShare (v_block x wv)) -∗ K ⟨⟩))
      ⊢ wp frame (wpE (defs₀ (F := F)) Variants.none c none) E (cc1__kv_proj_kernel i arg1 harg1 arg2 harg2 arg3 harg3 arg4 harg4 arg5 harg5) K := by
  simp only [cc1__kv_proj_kernel_eq_skeleton]; unfold cc1__kv_proj_kernel_skel
  unfold owns
  iintro ⟨⟨%f1, %hf1, H1⟩, ⟨%f2, %hf2, H2⟩, ⟨%f3, %hf3, H3⟩, ⟨%d4, %f4, -, H4⟩, ⟨%d5, %f5, -, H5⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (k_store_covers _)
  iexists _; isplitr
  swap; · iexact H5
  ipureintro
  exact View.read_writes_eq_canon _ _ _ (v_store_covers _)

/-! ## The call at a grid point -/

variable (m : (ℓ : Loc nD τ sig) → Buf (Elt F) ℓ)

/-- The arrays this call reads and writes, as launched (the first call wrote none of them). -/
abbrev asLaunched (c : Dev nD) (b : Ref sig .tc) : Buf (Elt F) ((c : Thread nD τ).loc b) := m ((c : Thread nD τ).loc b)

/-- A window's block at point `t`: rows `1024 t … 1024 t + 1023` of `X` for the first window, the whole of `W_k` and of
    `W_v` for the next two. -/
def blockAt (c : Dev nD) (w : Fin cfg1.W) (t : Fin cfg1.N) : ((cfg1.win w).xblock (cfg1.grid.coords t)).Idx → Elt F (cfg1.win w).elt :=
  ((cfg1.win w).blk t).view.read (Elt F) (asLaunched m c (Pipeline.arrRef spec1 w))

/-- Each input's staging buffer holds its block when the body starts, fetched at this point or not. -/
theorem rows_found {c : Dev nD} (dat : Dat τ (Elt F) Unit ℕ (UR sig nD τ) ℕ cfg1 c) (hA : dat.A 0 = asLaunched m c (Pipeline.arrRef spec1 0))
    (hafter : ∀ t, dat.after 0 t = blockAt m c 0 t) (t : Fin cfg1.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem wk_found {c : Dev nD} (dat : Dat τ (Elt F) Unit ℕ (UR sig nD τ) ℕ cfg1 c) (hA : dat.A 1 = asLaunched m c (Pipeline.arrRef spec1 1))
    (hafter : ∀ t, dat.after 1 t = blockAt m c 1 t) (t : Fin cfg1.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem wv_found {c : Dev nD} (dat : Dat τ (Elt F) Unit ℕ (UR sig nD τ) ℕ cfg1 c) (hA : dat.A 2 = asLaunched m c (Pipeline.arrRef spec1 2))
    (hafter : ∀ t, dat.after 2 t = blockAt m c 2 t) (t : Fin cfg1.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- The call's proof data on core `c`: the arrays as launched; after the body at point `t` the three input buffers at
    their blocks, the two output buffers at the two products; the invariant is the scoped buffers this call does not
    stage, untouched; nothing owed; full shares. -/
def dat1 (c : Dev nD) : Dat τ (Elt F) Unit ℕ (UR sig nD τ) ℕ cfg1 c where
  A w := asLaunched m c (Pipeline.arrRef spec1 w)
  after w t := match w with
    | ⟨0, _⟩ => blockAt m c 0 t
    | ⟨1, _⟩ => blockAt m c 1 t
    | ⟨2, _⟩ => blockAt m c 2 t
    | ⟨3, _⟩ => k_block (blockAt m c 0 t) (blockAt m c 1 t)
    | ⟨4, _⟩ => v_block (blockAt m c 0 t) (blockAt m c 2 t)
  Φ _ := Pipeline.scopedRest (Ix := Unit) (Name := ℕ) (U := UR sig nD τ) (Lvl := ℕ) (Val := Elt F) spec1 c
  q _ := fullShare
  owed _ := 0

theorem dat1_A (c : Dev nD) (w : Fin cfg1.W) : (dat1 m c).A w = asLaunched m c (Pipeline.arrRef spec1 w) := by
  dsimp only [dat1]

theorem after_rows (c : Dev nD) (t : Fin cfg1.N) : (dat1 m c).after 0 t = blockAt m c 0 t := by dsimp only [dat1]
theorem after_wk (c : Dev nD) (t : Fin cfg1.N) : (dat1 m c).after 1 t = blockAt m c 1 t := by dsimp only [dat1]
theorem after_wv (c : Dev nD) (t : Fin cfg1.N) : (dat1 m c).after 2 t = blockAt m c 2 t := by dsimp only [dat1]
theorem after_k (c : Dev nD) (t : Fin cfg1.N) : (dat1 m c).after 3 t = k_block (blockAt m c 0 t) (blockAt m c 1 t) := by dsimp only [dat1]
theorem after_v (c : Dev nD) (t : Fin cfg1.N) : (dat1 m c).after 4 t = v_block (blockAt m c 0 t) (blockAt m c 2 t) := by dsimp only [dat1]

theorem before_rows (c : Dev nD) (t : Fin cfg1.N) (d) : (dat1 m c).before 0 t d = blockAt m c 0 t :=
  rows_found m (dat1 m c) (dat1_A m c 0) (after_rows m c) t d
theorem before_wk (c : Dev nD) (t : Fin cfg1.N) (d) : (dat1 m c).before 1 t d = blockAt m c 1 t :=
  wk_found m (dat1 m c) (dat1_A m c 1) (after_wk m c) t d
theorem before_wv (c : Dev nD) (t : Fin cfg1.N) (d) : (dat1 m c).before 2 t d = blockAt m c 2 t :=
  wv_found m (dat1 m c) (dat1_A m c 2) (after_wv m c) t d

def bodyPre (c : Dev nD) (t : Fin cfg1.N) : sProp 𝕄 :=
  iprop((dat1 m c).Φ t.castSucc ∗ (dat1 m c).owesAt () t.castSucc
    ∗ (∃ d, owns (c : Thread nD τ) (st1_0 t) fullShare ((dat1 m c).before 0 t d))
    ∗ (∃ d, owns (c : Thread nD τ) (st1_1 t) fullShare ((dat1 m c).before 1 t d))
    ∗ (∃ d, owns (c : Thread nD τ) (st1_2 t) fullShare ((dat1 m c).before 2 t d))
    ∗ (∃ d, owns (c : Thread nD τ) (st1_3 t) fullShare ((dat1 m c).before 3 t d))
    ∗ (∃ d, owns (c : Thread nD τ) (st1_4 t) fullShare ((dat1 m c).before 4 t d)))

def bodyPost (c : Dev nD) (t : Fin cfg1.N) : sProp 𝕄 :=
  iprop((dat1 m c).Φ t.succ ∗ (dat1 m c).owesAt () t.succ
    ∗ owns (c : Thread nD τ) (st1_0 t) fullShare ((dat1 m c).after 0 t)
    ∗ owns (c : Thread nD τ) (st1_1 t) fullShare ((dat1 m c).after 1 t)
    ∗ owns (c : Thread nD τ) (st1_2 t) fullShare ((dat1 m c).after 2 t)
    ∗ owns (c : Thread nD τ) (st1_3 t) fullShare ((dat1 m c).after 3 t)
    ∗ owns (c : Thread nD τ) (st1_4 t) fullShare ((dat1 m c).after 4 t))

theorem sound_body (c : Dev nD) (t : Fin cfg1.N) :
    bodyPre m c t ⊢ wp frame (wpE (defs₀ (F := F)) Variants.none c none) Set.univ (bodyAt1 t) (fun _ => bodyPost m c t) := by
  unfold bodyPre bodyPost bodyAt1
  simp only [before_rows, before_wk, before_wv]
  rw [show (dat1 m c).Φ t.succ = (dat1 m c).Φ t.castSucc from rfl,
    show (dat1 m c).owesAt () t.succ = (dat1 m c).owesAt () t.castSucc from rfl,
    after_rows, after_wk, after_wv, after_k, after_v]
  iintro ⟨HΦ, Ho, ⟨%d0, H0⟩, ⟨%d1, H1⟩, ⟨%d2, H2⟩, ⟨%d3, H3⟩, ⟨%d4, H4⟩⟩
  iapply (body_triple c Set.univ (grid1.coords t) _ _ _ _ _ _ _ _ _ _ (blockAt m c 0 t) (blockAt m c 1 t) (blockAt m c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the second call, at every point. -/
theorem body_obligation (c : Dev nD) : BodyObligation (dat1 (F := F) m c) (defs₀ (F := F)) Variants.none () Set.univ := fun t => by
  rw [bigSep_W1, bigSep_W1]
  exact sound_body m c t

/-! ## The call as a segment of the program -/

section Record

variable (ρ : Dev nD → PrngReg)
variable (L : GSem nD τ sig → Finset Unit) (lv : GSem nD τ sig → Unit → ℕ)
-- the proof data of the third call: not this module's business, only that the family has it
variable (d2 : (c : Dev nD) → Dat τ (Elt F) Unit ℕ (UR sig nD τ) ℕ cfg2 c)

/-- What the second call leaves in `K`'s and in `V`'s buffer. -/
abbrev k_final (c : Dev nD) : Buf (Elt F) ((c : Thread nD τ).loc main_v1_0) := (dat1 m c).arrAt 3 cfg1.N
abbrev v_final (c : Dev nD) : Buf (Elt F) ((c : Thread nD τ).loc main_v1_1) := (dat1 m c).arrAt 4 cfg1.N

/-- The unscoped buffers after the second call: `Q`, `K` and `V` written, everything else as launched. -/
abbrev W2 (c : Dev nD) : Valuation τ sig (Elt F) :=
  Function.update (Function.update (W1 m c) main_v1_0 (k_final m c)) main_v1_1 (v_final m c)

/-- Away from `Q` the valuation after the first call is the launch's; away from `Q`, `K` and `V` so is the one after the second. -/
theorem W1_outside (c : Dev nD) (b : DevRef τ sig) (h0 : b ≠ Proc.devRef .tc main_v0) : W1 m c b = W0 m c b :=
  Function.update_of_ne h0 _ _
theorem W2_outside (c : Dev nD) (b : DevRef τ sig) (h0 : b ≠ Proc.devRef .tc main_v0) (h1 : b ≠ Proc.devRef .tc main_v1_0)
    (h2 : b ≠ Proc.devRef .tc main_v1_1) : W2 m c b = W0 m c b :=
  (Function.update_of_ne h2 _ _).trans ((Function.update_of_ne h1 _ _).trans (Function.update_of_ne h0 _ _))
theorem W2_eq_W1 (c : Dev nD) (b : DevRef τ sig) (h1 : b ≠ Proc.devRef .tc main_v1_0) (h2 : b ≠ Proc.devRef .tc main_v1_1) :
    W2 m c b = W1 m c b :=
  (Function.update_of_ne h2 _ _).trans (Function.update_of_ne h1 _ _)

/-- The call finds each of its arrays as launched. -/
theorem entry_arrays (c : Dev nD) (w : Fin cfg1.W) : (dat1 m c).A w = W1 m c (Pipeline.arrRef spec1 w) := by
  match w with
  | ⟨0, _⟩ => exact (dat1_A m c 0).trans (W1_outside m c (Proc.devRef .tc main_arg0) (by decide)).symm
  | ⟨1, _⟩ => exact (dat1_A m c 1).trans (W1_outside m c (Proc.devRef .tc main_arg4) (by decide)).symm
  | ⟨2, _⟩ => exact (dat1_A m c 2).trans (W1_outside m c (Proc.devRef .tc main_arg5) (by decide)).symm
  | ⟨3, _⟩ => exact (dat1_A m c 3).trans (W1_outside m c (Proc.devRef .tc main_v1_0) (by decide)).symm
  | ⟨4, _⟩ => exact (dat1_A m c 4).trans (W1_outside m c (Proc.devRef .tc main_v1_1) (by decide)).symm

/-- Each window's array after the last point is what the valuation after the call holds there. -/
theorem final_arrays (c : Dev nD) (w : Fin cfg1.W) : (dat1 m c).arrAt w cfg1.N = W2 m c (Pipeline.arrRef spec1 w) := by
  match w with
  | ⟨0, _⟩ =>
    exact ((dat1 m c).arrAt_in 0 rfl _).trans ((dat1_A m c 0).trans
      (W2_outside m c (Proc.devRef .tc main_arg0) (by decide) (by decide) (by decide)).symm)
  | ⟨1, _⟩ =>
    exact ((dat1 m c).arrAt_in 1 rfl _).trans ((dat1_A m c 1).trans
      (W2_outside m c (Proc.devRef .tc main_arg4) (by decide) (by decide) (by decide)).symm)
  | ⟨2, _⟩ =>
    exact ((dat1 m c).arrAt_in 2 rfl _).trans ((dat1_A m c 2).trans
      (W2_outside m c (Proc.devRef .tc main_arg5) (by decide) (by decide) (by decide)).symm)
  | ⟨3, _⟩ =>
    exact ((Function.update_of_ne (show (Proc.devRef .tc main_v1_0 : DevRef τ sig) ≠ Proc.devRef .tc main_v1_1 by decide) (v_final m c)
      (Function.update (W1 m c) main_v1_0 (k_final m c))).trans (Function.update_self (Proc.devRef .tc main_v1_0 : DevRef τ sig) (k_final m c) (W1 m c))).symm
  | ⟨4, _⟩ =>
    exact (Function.update_self (Proc.devRef .tc main_v1_1 : DevRef τ sig) (v_final m c) (Function.update (W1 m c) main_v1_0 (k_final m c))).symm

/-- The unscoped buffers that are no array of this call do not see the two updates. -/
theorem rest_unchanged (c : Dev nD) :
    (Pipeline.unscopedRest (Ix := Unit) (Name := ℕ) (U := UR sig nD τ) (Lvl := ℕ) (Pipeline.pin (pcfgs (F := F)) adm 1).spec c (fun b => W2 m c b) : sProp 𝕄)
      = Pipeline.unscopedRest (Ix := Unit) (Name := ℕ) (U := UR sig nD τ) (Lvl := ℕ) spec1 c (fun b => W1 m c b) := by
  show (Pipeline.unscopedRest (Ix := Unit) (Name := ℕ) (U := UR sig nD τ) (Lvl := ℕ) spec1 c (fun b => W2 m c b) : sProp 𝕄) = _
  rw [unscopedRest1_eq, unscopedRest1_eq]
  simp only [W2_eq_W1 m c (Proc.devRef .tc main_arg1) (by decide) (by decide), W2_eq_W1 m c (Proc.devRef .tc main_arg2) (by decide) (by decide),
    W2_eq_W1 m c (Proc.devRef .tc main_arg3) (by decide) (by decide), W2_eq_W1 m c (Proc.devRef .tc main_v0) (by decide) (by decide),
    W2_eq_W1 m c (Proc.devRef .tc main_v2) (by decide) (by decide)]

/-- The second call's invariant, at every point, is the scoped buffers it does not stage (the proof data opened). -/
theorem inv_eq (c : Dev nD) (t : Fin (cfg1.N + 1)) : (family m (dat1 m) d2 1 c).Φ t
    = Pipeline.scopedRest (Ix := Unit) (Name := ℕ) (U := UR sig nD τ) (Lvl := ℕ) (Val := Elt F) (Pipeline.pin (pcfgs (F := F)) adm 1).spec c := by
  dsimp only [family, dat1]
  rfl

/-- THE SECOND CALL as a segment: entered with `Q` written, left with `K` and `V` written too. -/
def seg1 : RegionSeg (pcfgs (F := F)) adm (family m (dat1 m) d2) () defs₀ Variants.none L lv 1 where
  win := launch1.win.to₀
  block_pos := launch1.block_pos
  stage_whole := launch1.stage_whole
  K := PEmpty
  osem k := k.elim
  ho := Pipeline.OwnSemFacts.none _
  hbody c := (body_obligation m c).loose
  hwaits c := Pipeline.hwaits_of_owed_zero (pcfgs (F := F)) adm (family m (dat1 m) d2) () L lv 1 (fun _ _ => rfl) c
  pre c := iprop(StableHlo.held (c : Thread nD τ) (Pipeline.ucRefs τ sig) (W1 m c) ∗ between ρ c)
  post c := iprop(StableHlo.held (c : Thread nD τ) (Pipeline.ucRefs τ sig) (W2 m c) ∗ between ρ c)
  X _ := iprop(emp)
  Y _ := iprop(emp)
  Z c := iprop(Pipeline.unscopedRest (Ix := Unit) (Name := ℕ) (U := UR sig nD τ) (Lvl := ℕ) spec1 c (fun b => W1 m c b) ∗ rides ρ c)
  hentry c := by
    rw [Pipeline.ownSems0_none, ← Pipeline.unscopedBufs_held (Ix := Unit) (Name := ℕ) (U := UR sig nD τ) (Lvl := ℕ) c (W1 m c)]
    have hsplit := Pipeline.arrays_of_unscopedBufs (pcfgs (F := F)) adm (family m (dat1 m) d2) (p := 1) launch1.win launch1.arr_whole c
      ((family m (dat1 m) d2 1 c).share_full fun _ => rfl) (fun b => W1 m c b) (entry_arrays m c)
    unfold between
    iintro ⟨⟨Hub, Hr, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩
      iexists W; isplitr; · ipureintro; exact fun _ _ => Or.inl trivial
      iexact HO
    isplitr; · iempintro
    isplitl [Hrest] <;> iassumption
  hin c := by
    rw [inv_eq]
    iintro ⟨-, -, H⟩
    iexact H
  hout c := by
    rw [Pipeline.ownSems0_none, inv_eq]
    iintro H
    isplitr; · iempintro
    isplitr; · iempintro
    iexact H
  hexit c := by
    rw [← Pipeline.unscopedBufs_held (Ix := Unit) (Name := ℕ) (U := UR sig nD τ) (Lvl := ℕ) c (W2 m c),
      Pipeline.unscopedBufs_split (Pipeline.pin (pcfgs (F := F)) adm) 1 launch1.win.arr_unscoped launch1.win.arr_inj c (fun b => W2 m c b),
      Pipeline.arrays_eq (Pipeline.pin (pcfgs (F := F)) adm) (family m (dat1 m) d2) 1 c launch1.arr_whole ((family m (dat1 m) d2 1 c).share_full fun _ => rfl),
      rest_unchanged]
    unfold between
    iintro ⟨Ha, HO, -, Hrest, Hr⟩
    imodintro
    isplitl [Ha Hrest]
    · isplitl [Ha]
      · iapply (Entails.of_eq (bigSep_congr fun w _ => congrArg (fun f => (_ ↦{fullShare} f : sProp 𝕄)) (final_arrays m c w)))
        iexact Ha
      · iexact Hrest
    isplitl [Hr]; · iexact Hr
    unfold Pipeline.Dat.owesAt Pipeline.owesWithin
    icases HO with ⟨%W, -, HO⟩
    iexists W
    iexact HO

end Record

end Cert.KernelIdeal.Region1

end
-- ==== Proof.KIRegion2Runs.lean ====
/-
  The third call, run case by case. Its body branches twice on the second grid coordinate, the tile of samples: at the
  first tile of a block of edges it overwrites its three running arrays (the running maximum with `-∞`, the running
  sum and the accumulator with zero); at every tile it reads the tile's blocks of `Q`, `K`, `V` and of the incidence
  matrix and its three running arrays, and stores the new running sum, the new accumulator and the new maximum, each
  over the whole array; at the last tile it reads the running sum and the accumulator again and stores their quotient
  over the whole output block. Sixteen tiles: a tile is the first, the last, or neither, never both. Each case is one
  run of the body; what each array is left holding is read off the run, as the list of the stores made into it.
-/
import proofs.«127266_j31533649887507_2_alg».proof.Proof.KIRegion0
import Idealize.ShloMosaic.Lib.Ring

set_option maxRecDepth 16384

noncomputable section

namespace Cert.KernelIdeal.Region2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The body's first conditional: the point is the first tile of samples of its block of edges. -/
abbrev atFirstTile (i : grid2.Coords) : Prop :=
  (Scalar.cmpi .ne (Scalar.extui (Scalar.cmpi .eq (BitVec.ofNat 32 (i 1).val) 0#32)) 0#32) = 1#1
/-- The body's second conditional: the point is the last tile. -/
abbrev atLastTile (i : grid2.Coords) : Prop := k2_cond2 i = 1#1

/-- Over the grid of 2 × 16 points: the first tiles are the points ≡ 0 (mod 16), the last tiles those ≡ 15. -/
theorem first_iff : ∀ t : Fin cfg2.N, atFirstTile (grid2.coords t) ↔ t.val % 16 = 0 :=
  (by decide +kernel : ∀ t : Fin grid2.N, atFirstTile (grid2.coords t) ↔ t.val % 16 = 0)
theorem last_iff : ∀ t : Fin cfg2.N, atLastTile (grid2.coords t) ↔ t.val % 16 = 15 :=
  (by decide +kernel : ∀ t : Fin grid2.N, atLastTile (grid2.coords t) ↔ t.val % 16 = 15)

set_option maxHeartbeats 4000000 in
/-- A MIDDLE tile (neither conditional taken): from the input blocks and the running arrays as the tile before left
    them, the body leaves the inputs and the idle output as they were, and each running array with one store made. -/
noncomputable def runMiddle (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : ¬atFirstTile i) (hB : ¬atLastTile i)
    (x2 : Vec F S2048x64 .bf16) (x3 : Vec F S512x64 .bf16) (x4 : Vec F S512x256 .bf16) (x5 : Vec F S512x2048 .i32)
    (s7 : Vec F S1x2048 .f32) (s8 : Vec F S1x2048 .f32) (s9 : Vec F S2048x256 .f32) :
    Σ' (L7 : List (View.Piece (Elt F) S1x2048 .f32)) (L8 : List (View.Piece (Elt F) S1x2048 .f32)), { L9 : List (View.Piece (Elt F) S2048x256 .f32) //
      ∀ (xi6 : Vec F S2048x256 .f32) (E : Set ℕ) (K : PUnit → sProp 𝕄),
        iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare xi6
            ∗ owns (c : Thread nD τ) arg7 fullShare s7 ∗ owns (c : Thread nD τ) arg8 fullShare s8 ∗ owns (c : Thread nD τ) arg9 fullShare s9
            ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare xi6
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9)) -∗ K ⟨⟩))
          ⊢ wp frame (wpE (defs₀ (F := F)) Variants.none c none) E
              (cc2__attn_kernel i arg2 harg2 arg3 harg3 arg4 harg4 arg5 harg5 arg6 harg6 arg7 harg7 arg8 harg8 arg9 harg9) K } := by
  refine ⟨?_, ?_, ?_, fun xi6 E K => ?run⟩
  case run =>
    simp only [cc2__attn_kernel_eq_skeleton]; unfold cc2__attn_kernel_skel
    simp only [k2_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf2; obtain rfl := harg3.eq_unread hf3; obtain rfl := harg4.eq_unread hf4; obtain rfl := harg5.eq_unread hf5
    obtain rfl := harg6.eq_unread hf6; obtain rfl := harg7.eq_unread hf7; obtain rfl := harg8.eq_unread hf8; obtain rfl := harg9.eq_unread hf9
    sl_exec (disch := first | exact hA | exact hB)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    iexists _; iexact H9

set_option maxHeartbeats 4000000 in
/-- A FIRST tile (the first conditional taken): the running arrays hold anything and are overwritten before they are used. -/
noncomputable def runFirst (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : atFirstTile i) (hB : ¬atLastTile i)
    (x2 : Vec F S2048x64 .bf16) (x3 : Vec F S512x64 .bf16) (x4 : Vec F S512x256 .bf16) (x5 : Vec F S512x2048 .i32) :
    Σ' (L7 : List (View.Piece (Elt F) S1x2048 .f32)) (L8 : List (View.Piece (Elt F) S1x2048 .f32)), { L9 : List (View.Piece (Elt F) S2048x256 .f32) //
      ∀ (xi6 : Vec F S2048x256 .f32) (E : Set ℕ) (K : PUnit → sProp 𝕄),
        iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare xi6
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare xi6
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9)) -∗ K ⟨⟩))
          ⊢ wp frame (wpE (defs₀ (F := F)) Variants.none c none) E
              (cc2__attn_kernel i arg2 harg2 arg3 harg3 arg4 harg4 arg5 harg5 arg6 harg6 arg7 harg7 arg8 harg8 arg9 harg9) K } := by
  refine ⟨?_, ?_, ?_, fun xi6 E K => ?run⟩
  case run =>
    simp only [cc2__attn_kernel_eq_skeleton]; unfold cc2__attn_kernel_skel
    simp only [k2_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg2.eq_unread hf2; obtain rfl := harg3.eq_unread hf3; obtain rfl := harg4.eq_unread hf4; obtain rfl := harg5.eq_unread hf5
    obtain rfl := harg6.eq_unread hf6
    sl_exec (disch := first | exact hA | exact hB)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    iexists _; iexact H9

set_option maxHeartbeats 4000000 in
/-- A LAST tile (the second conditional taken): as a middle tile, and then the quotient stored over the whole output
    block, which held anything. -/
noncomputable def runLast (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : ¬atFirstTile i) (hB : atLastTile i)
    (x2 : Vec F S2048x64 .bf16) (x3 : Vec F S512x64 .bf16) (x4 : Vec F S512x256 .bf16) (x5 : Vec F S512x2048 .i32)
    (s7 : Vec F S1x2048 .f32) (s8 : Vec F S1x2048 .f32) (s9 : Vec F S2048x256 .f32) :
    Σ' (L6 : List (View.Piece (Elt F) S2048x256 .f32)) (L7 : List (View.Piece (Elt F) S1x2048 .f32)) (L8 : List (View.Piece (Elt F) S1x2048 .f32)), { L9 : List (View.Piece (Elt F) S2048x256 .f32) //
      ∀ (E : Set ℕ) (K : PUnit → sProp 𝕄),
        iprop(owns (c : Thread nD τ) arg2 fullShare x2 ∗ owns (c : Thread nD τ) arg3 fullShare x3 ∗ owns (c : Thread nD τ) arg4 fullShare x4
            ∗ owns (c : Thread nD τ) arg5 fullShare x5 ∗ (∃ d, owns (c : Thread nD τ) arg6 fullShare d)
            ∗ owns (c : Thread nD τ) arg7 fullShare s7 ∗ owns (c : Thread nD τ) arg8 fullShare s8 ∗ owns (c : Thread nD τ) arg9 fullShare s9
            ∗ (iprop(owns (c : Thread nD τ) arg2 fullShare x2 ∗ owns (c : Thread nD τ) arg3 fullShare x3 ∗ owns (c : Thread nD τ) arg4 fullShare x4
            ∗ owns (c : Thread nD τ) arg5 fullShare x5
                ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9)) -∗ K ⟨⟩))
          ⊢ wp frame (wpE (defs₀ (F := F)) Variants.none c none) E
              (cc2__attn_kernel i arg2 harg2 arg3 harg3 arg4 harg4 arg5 harg5 arg6 harg6 arg7 harg7 arg8 harg8 arg9 harg9) K } := by
  refine ⟨?_, ?_, ?_, ?_, fun E K => ?run⟩
  case run =>
    simp only [cc2__attn_kernel_eq_skeleton]; unfold cc2__attn_kernel_skel
    simp only [k2_part1_eq_skeleton]
    unfold owns
    iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
    obtain rfl := harg2.eq_unread hf2; obtain rfl := harg3.eq_unread hf3; obtain rfl := harg4.eq_unread hf4; obtain rfl := harg5.eq_unread hf5
    obtain rfl := harg7.eq_unread hf7; obtain rfl := harg8.eq_unread hf8; obtain rfl := harg9.eq_unread hf9
    sl_exec (disch := first | exact hA | exact hB)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    iexists _; iexact H9

/-! ## What each case leaves: the stores it made into each array cover the array -/

/-- The stores a first tile makes into the running maximum cover it. -/
theorem coversFirst7 (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : atFirstTile i) (hB : ¬atLastTile i) (x2 : Vec F S2048x64 .bf16) (x3 : Vec F S512x64 .bf16) (x4 : Vec F S512x256 .bf16) (x5 : Vec F S512x2048 .i32) (y : S1x2048.Idx) :
    ∃ pc ∈ (runFirst c i arg2 harg2 arg3 harg3 arg4 harg4 arg5 harg5 arg6 harg6 arg7 harg7 arg8 harg8 arg9 harg9 hA hB x2 x3 x4 x5).1, y ∈ pc.1.set :=
  View.cover_of_tiledL (runFirst c i arg2 harg2 arg3 harg3 arg4 harg4 arg5 harg5 arg6 harg6 arg7 harg7 arg8 harg8 arg9 harg9 hA hB x2 x3 x4 x5).1 S1x2048.size (by sl_kernel_rfl) y

/-- The stores a first tile makes into the running sum cover it. -/
theorem coversFirst8 (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : atFirstTile i) (hB : ¬atLastTile i) (x2 : Vec F S2048x64 .bf16) (x3 : Vec F S512x64 .bf16) (x4 : Vec F S512x256 .bf16) (x5 : Vec F S512x2048 .i32) (y : S1x2048.Idx) :
    ∃ pc ∈ (runFirst c i arg2 harg2 arg3 harg3 arg4 harg4 arg5 harg5 arg6 harg6 arg7 harg7 arg8 harg8 arg9 harg9 hA hB x2 x3 x4 x5).2.1, y ∈ pc.1.set :=
  View.cover_of_tiledL (runFirst c i arg2 harg2 arg3 harg3 arg4 harg4 arg5 harg5 arg6 harg6 arg7 harg7 arg8 harg8 arg9 harg9 hA hB x2 x3 x4 x5).2.1 S1x2048.size (by sl_kernel_rfl) y

/-- The stores a first tile makes into the accumulator cover it. -/
theorem coversFirst9 (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : atFirstTile i) (hB : ¬atLastTile i) (x2 : Vec F S2048x64 .bf16) (x3 : Vec F S512x64 .bf16) (x4 : Vec F S512x256 .bf16) (x5 : Vec F S512x2048 .i32) (y : S2048x256.Idx) :
    ∃ pc ∈ (runFirst c i arg2 harg2 arg3 harg3 arg4 harg4 arg5 harg5 arg6 harg6 arg7 harg7 arg8 harg8 arg9 harg9 hA hB x2 x3 x4 x5).2.2.1, y ∈ pc.1.set :=
  View.cover_of_tiledL (runFirst c i arg2 harg2 arg3 harg3 arg4 harg4 arg5 harg5 arg6 harg6 arg7 harg7 arg8 harg8 arg9 harg9 hA hB x2 x3 x4 x5).2.2.1 S2048x256.size (by sl_kernel_rfl) y

/-- The stores a middle tile makes into the running maximum cover it. -/
theorem coversMiddle7 (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : ¬atFirstTile i) (hB : ¬atLastTile i) (x2 : Vec F S2048x64 .bf16) (x3 : Vec F S512x64 .bf16) (x4 : Vec F S512x256 .bf16) (x5 : Vec F S512x2048 .i32) (s7 : Vec F S1x2048 .f32) (s8 : Vec F S1x2048 .f32) (s9 : Vec F S2048x256 .f32) (y : S1x2048.Idx) :
    ∃ pc ∈ (runMiddle c i arg2 harg2 arg3 harg3 arg4 harg4 arg5 harg5 arg6 harg6 arg7 harg7 arg8 harg8 arg9 harg9 hA hB x2 x3 x4 x5 s7 s8 s9).1, y ∈ pc.1.set :=
  View.cover_of_tiledL (runMiddle c i arg2 harg2 arg3 harg3 arg4 harg4 arg5 harg5 arg6 harg6 arg7 harg7 arg8 harg8 arg9 harg9 hA hB x2 x3 x4 x5 s7 s8 s9).1 S1x2048.size (by sl_kernel_rfl) y

/-- The stores a middle tile makes into the running sum cover it. -/
theorem coversMiddle8 (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : ¬atFirstTile i) (hB : ¬atLastTile i) (x2 : Vec F S2048x64 .bf16) (x3 : Vec F S512x64 .bf16) (x4 : Vec F S512x256 .bf16) (x5 : Vec F S512x2048 .i32) (s7 : Vec F S1x2048 .f32) (s8 : Vec F S1x2048 .f32) (s9 : Vec F S2048x256 .f32) (y : S1x2048.Idx) :
    ∃ pc ∈ (runMiddle c i arg2 harg2 arg3 harg3 arg4 harg4 arg5 harg5 arg6 harg6 arg7 harg7 arg8 harg8 arg9 harg9 hA hB x2 x3 x4 x5 s7 s8 s9).2.1, y ∈ pc.1.set :=
  View.cover_of_tiledL (runMiddle c i arg2 harg2 arg3 harg3 arg4 harg4 arg5 harg5 arg6 harg6 arg7 harg7 arg8 harg8 arg9 harg9 hA hB x2 x3 x4 x5 s7 s8 s9).2.1 S1x2048.size (by sl_kernel_rfl) y

/-- The stores a middle tile makes into the accumulator cover it. -/
theorem coversMiddle9 (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : ¬atFirstTile i) (hB : ¬atLastTile i) (x2 : Vec F S2048x64 .bf16) (x3 : Vec F S512x64 .bf16) (x4 : Vec F S512x256 .bf16) (x5 : Vec F S512x2048 .i32) (s7 : Vec F S1x2048 .f32) (s8 : Vec F S1x2048 .f32) (s9 : Vec F S2048x256 .f32) (y : S2048x256.Idx) :
    ∃ pc ∈ (runMiddle c i arg2 harg2 arg3 harg3 arg4 harg4 arg5 harg5 arg6 harg6 arg7 harg7 arg8 harg8 arg9 harg9 hA hB x2 x3 x4 x5 s7 s8 s9).2.2.1, y ∈ pc.1.set :=
  View.cover_of_tiledL (runMiddle c i arg2 harg2 arg3 harg3 arg4 harg4 arg5 harg5 arg6 harg6 arg7 harg7 arg8 harg8 arg9 harg9 hA hB x2 x3 x4 x5 s7 s8 s9).2.2.1 S2048x256.size (by sl_kernel_rfl) y

/-- The stores a last tile makes into the output block cover it. -/
theorem coversLast6 (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : ¬atFirstTile i) (hB : atLastTile i) (x2 : Vec F S2048x64 .bf16) (x3 : Vec F S512x64 .bf16) (x4 : Vec F S512x256 .bf16) (x5 : Vec F S512x2048 .i32) (s7 : Vec F S1x2048 .f32) (s8 : Vec F S1x2048 .f32) (s9 : Vec F S2048x256 .f32) (y : S2048x256.Idx) :
    ∃ pc ∈ (runLast c i arg2 harg2 arg3 harg3 arg4 harg4 arg5 harg5 arg6 harg6 arg7 harg7 arg8 harg8 arg9 harg9 hA hB x2 x3 x4 x5 s7 s8 s9).1, y ∈ pc.1.set :=
  View.cover_of_tiledL (runLast c i arg2 harg2 arg3 harg3 arg4 harg4 arg5 harg5 arg6 harg6 arg7 harg7 arg8 harg8 arg9 harg9 hA hB x2 x3 x4 x5 s7 s8 s9).1 S2048x256.size (by sl_kernel_rfl) y

/-- The stores a last tile makes into the running maximum cover it. -/
theorem coversLast7 (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : ¬atFirstTile i) (hB : atLastTile i) (x2 : Vec F S2048x64 .bf16) (x3 : Vec F S512x64 .bf16) (x4 : Vec F S512x256 .bf16) (x5 : Vec F S512x2048 .i32) (s7 : Vec F S1x2048 .f32) (s8 : Vec F S1x2048 .f32) (s9 : Vec F S2048x256 .f32) (y : S1x2048.Idx) :
    ∃ pc ∈ (runLast c i arg2 harg2 arg3 harg3 arg4 harg4 arg5 harg5 arg6 harg6 arg7 harg7 arg8 harg8 arg9 harg9 hA hB x2 x3 x4 x5 s7 s8 s9).2.1, y ∈ pc.1.set :=
  View.cover_of_tiledL (runLast c i arg2 harg2 arg3 harg3 arg4 harg4 arg5 harg5 arg6 harg6 arg7 harg7 arg8 harg8 arg9 harg9 hA hB x2 x3 x4 x5 s7 s8 s9).2.1 S1x2048.size (by sl_kernel_rfl) y

/-- The stores a last tile makes into the running sum cover it. -/
theorem coversLast8 (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : ¬atFirstTile i) (hB : atLastTile i) (x2 : Vec F S2048x64 .bf16) (x3 : Vec F S512x64 .bf16) (x4 : Vec F S512x256 .bf16) (x5 : Vec F S512x2048 .i32) (s7 : Vec F S1x2048 .f32) (s8 : Vec F S1x2048 .f32) (s9 : Vec F S2048x256 .f32) (y : S1x2048.Idx) :
    ∃ pc ∈ (runLast c i arg2 harg2 arg3 harg3 arg4 harg4 arg5 harg5 arg6 harg6 arg7 harg7 arg8 harg8 arg9 harg9 hA hB x2 x3 x4 x5 s7 s8 s9).2.2.1, y ∈ pc.1.set :=
  View.cover_of_tiledL (runLast c i arg2 harg2 arg3 harg3 arg4 harg4 arg5 harg5 arg6 harg6 arg7 harg7 arg8 harg8 arg9 harg9 hA hB x2 x3 x4 x5 s7 s8 s9).2.2.1 S1x2048.size (by sl_kernel_rfl) y

/-- The stores a last tile makes into the accumulator cover it. -/
theorem coversLast9 (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : ¬atFirstTile i) (hB : atLastTile i) (x2 : Vec F S2048x64 .bf16) (x3 : Vec F S512x64 .bf16) (x4 : Vec F S512x256 .bf16) (x5 : Vec F S512x2048 .i32) (s7 : Vec F S1x2048 .f32) (s8 : Vec F S1x2048 .f32) (s9 : Vec F S2048x256 .f32) (y : S2048x256.Idx) :
    ∃ pc ∈ (runLast c i arg2 harg2 arg3 harg3 arg4 harg4 arg5 harg5 arg6 harg6 arg7 harg7 arg8 harg8 arg9 harg9 hA hB x2 x3 x4 x5 s7 s8 s9).2.2.2.1, y ∈ pc.1.set :=
  View.cover_of_tiledL (runLast c i arg2 harg2 arg3 harg3 arg4 harg4 arg5 harg5 arg6 harg6 arg7 harg7 arg8 harg8 arg9 harg9 hA hB x2 x3 x4 x5 s7 s8 s9).2.2.2.1 S2048x256.size (by sl_kernel_rfl) y

/-- The three running arrays: the maximum, the sum, the accumulator. -/
abbrev Running (F : FTy → Type) : Type := Vec F S1x2048 .f32 × Vec F S1x2048 .f32 × Vec F S2048x256 .f32

/-! ## What each case leaves in each array, and that the array, whatever it held, ends holding it -/

/-- What a first tile leaves in the running maximum. -/
def leftFirst7 (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : atFirstTile i) (hB : ¬atLastTile i) (x2 : Vec F S2048x64 .bf16) (x3 : Vec F S512x64 .bf16) (x4 : Vec F S512x256 .bf16) (x5 : Vec F S512x2048 .i32) : Vec F S1x2048 .f32 :=
  View.canon (runFirst c i arg2 harg2 arg3 harg3 arg4 harg4 arg5 harg5 arg6 harg6 arg7 harg7 arg8 harg8 arg9 harg9 hA hB x2 x3 x4 x5).1
theorem leavesFirst7 (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : atFirstTile i) (hB : ¬atLastTile i) (x2 : Vec F S2048x64 .bf16) (x3 : Vec F S512x64 .bf16) (x4 : Vec F S512x256 .bf16) (x5 : Vec F S512x2048 .i32) (f : arg7.view.ty.Contents (Elt F)) :
    arg7.view.read (Elt F) (arg7.view.writes (Elt F) f (runFirst c i arg2 harg2 arg3 harg3 arg4 harg4 arg5 harg5 arg6 harg6 arg7 harg7 arg8 harg8 arg9 harg9 hA hB x2 x3 x4 x5).1)
      = leftFirst7 c i arg2 harg2 arg3 harg3 arg4 harg4 arg5 harg5 arg6 harg6 arg7 harg7 arg8 harg8 arg9 harg9 hA hB x2 x3 x4 x5 :=
  View.read_writes_eq_canon _ _ _ (coversFirst7 c i arg2 harg2 arg3 harg3 arg4 harg4 arg5 harg5 arg6 harg6 arg7 harg7 arg8 harg8 arg9 harg9 hA hB x2 x3 x4 x5)

/-- What a first tile leaves in the running sum. -/
def leftFirst8 (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : atFirstTile i) (hB : ¬atLastTile i) (x2 : Vec F S2048x64 .bf16) (x3 : Vec F S512x64 .bf16) (x4 : Vec F S512x256 .bf16) (x5 : Vec F S512x2048 .i32) : Vec F S1x2048 .f32 :=
  View.canon (runFirst c i arg2 harg2 arg3 harg3 arg4 harg4 arg5 harg5 arg6 harg6 arg7 harg7 arg8 harg8 arg9 harg9 hA hB x2 x3 x4 x5).2.1
theorem leavesFirst8 (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : atFirstTile i) (hB : ¬atLastTile i) (x2 : Vec F S2048x64 .bf16) (x3 : Vec F S512x64 .bf16) (x4 : Vec F S512x256 .bf16) (x5 : Vec F S512x2048 .i32) (f : arg8.view.ty.Contents (Elt F)) :
    arg8.view.read (Elt F) (arg8.view.writes (Elt F) f (runFirst c i arg2 harg2 arg3 harg3 arg4 harg4 arg5 harg5 arg6 harg6 arg7 harg7 arg8 harg8 arg9 harg9 hA hB x2 x3 x4 x5).2.1)
      = leftFirst8 c i arg2 harg2 arg3 harg3 arg4 harg4 arg5 harg5 arg6 harg6 arg7 harg7 arg8 harg8 arg9 harg9 hA hB x2 x3 x4 x5 :=
  View.read_writes_eq_canon _ _ _ (coversFirst8 c i arg2 harg2 arg3 harg3 arg4 harg4 arg5 harg5 arg6 harg6 arg7 harg7 arg8 harg8 arg9 harg9 hA hB x2 x3 x4 x5)

/-- What a first tile leaves in the accumulator. -/
def leftFirst9 (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : atFirstTile i) (hB : ¬atLastTile i) (x2 : Vec F S2048x64 .bf16) (x3 : Vec F S512x64 .bf16) (x4 : Vec F S512x256 .bf16) (x5 : Vec F S512x2048 .i32) : Vec F S2048x256 .f32 :=
  View.canon (runFirst c i arg2 harg2 arg3 harg3 arg4 harg4 arg5 harg5 arg6 harg6 arg7 harg7 arg8 harg8 arg9 harg9 hA hB x2 x3 x4 x5).2.2.1
theorem leavesFirst9 (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : atFirstTile i) (hB : ¬atLastTile i) (x2 : Vec F S2048x64 .bf16) (x3 : Vec F S512x64 .bf16) (x4 : Vec F S512x256 .bf16) (x5 : Vec F S512x2048 .i32) (f : arg9.view.ty.Contents (Elt F)) :
    arg9.view.read (Elt F) (arg9.view.writes (Elt F) f (runFirst c i arg2 harg2 arg3 harg3 arg4 harg4 arg5 harg5 arg6 harg6 arg7 harg7 arg8 harg8 arg9 harg9 hA hB x2 x3 x4 x5).2.2.1)
      = leftFirst9 c i arg2 harg2 arg3 harg3 arg4 harg4 arg5 harg5 arg6 harg6 arg7 harg7 arg8 harg8 arg9 harg9 hA hB x2 x3 x4 x5 :=
  View.read_writes_eq_canon _ _ _ (coversFirst9 c i arg2 harg2 arg3 harg3 arg4 harg4 arg5 harg5 arg6 harg6 arg7 harg7 arg8 harg8 arg9 harg9 hA hB x2 x3 x4 x5)

/-- What a middle tile leaves in the running maximum. -/
def leftMiddle7 (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : ¬atFirstTile i) (hB : ¬atLastTile i) (x2 : Vec F S2048x64 .bf16) (x3 : Vec F S512x64 .bf16) (x4 : Vec F S512x256 .bf16) (x5 : Vec F S512x2048 .i32) (s7 : Vec F S1x2048 .f32) (s8 : Vec F S1x2048 .f32) (s9 : Vec F S2048x256 .f32) : Vec F S1x2048 .f32 :=
  View.canon (runMiddle c i arg2 harg2 arg3 harg3 arg4 harg4 arg5 harg5 arg6 harg6 arg7 harg7 arg8 harg8 arg9 harg9 hA hB x2 x3 x4 x5 s7 s8 s9).1
theorem leavesMiddle7 (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : ¬atFirstTile i) (hB : ¬atLastTile i) (x2 : Vec F S2048x64 .bf16) (x3 : Vec F S512x64 .bf16) (x4 : Vec F S512x256 .bf16) (x5 : Vec F S512x2048 .i32) (s7 : Vec F S1x2048 .f32) (s8 : Vec F S1x2048 .f32) (s9 : Vec F S2048x256 .f32) (f : arg7.view.ty.Contents (Elt F)) :
    arg7.view.read (Elt F) (arg7.view.writes (Elt F) f (runMiddle c i arg2 harg2 arg3 harg3 arg4 harg4 arg5 harg5 arg6 harg6 arg7 harg7 arg8 harg8 arg9 harg9 hA hB x2 x3 x4 x5 s7 s8 s9).1)
      = leftMiddle7 c i arg2 harg2 arg3 harg3 arg4 harg4 arg5 harg5 arg6 harg6 arg7 harg7 arg8 harg8 arg9 harg9 hA hB x2 x3 x4 x5 s7 s8 s9 :=
  View.read_writes_eq_canon _ _ _ (coversMiddle7 c i arg2 harg2 arg3 harg3 arg4 harg4 arg5 harg5 arg6 harg6 arg7 harg7 arg8 harg8 arg9 harg9 hA hB x2 x3 x4 x5 s7 s8 s9)

/-- What a middle tile leaves in the running sum. -/
def leftMiddle8 (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : ¬atFirstTile i) (hB : ¬atLastTile i) (x2 : Vec F S2048x64 .bf16) (x3 : Vec F S512x64 .bf16) (x4 : Vec F S512x256 .bf16) (x5 : Vec F S512x2048 .i32) (s7 : Vec F S1x2048 .f32) (s8 : Vec F S1x2048 .f32) (s9 : Vec F S2048x256 .f32) : Vec F S1x2048 .f32 :=
  View.canon (runMiddle c i arg2 harg2 arg3 harg3 arg4 harg4 arg5 harg5 arg6 harg6 arg7 harg7 arg8 harg8 arg9 harg9 hA hB x2 x3 x4 x5 s7 s8 s9).2.1
theorem leavesMiddle8 (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : ¬atFirstTile i) (hB : ¬atLastTile i) (x2 : Vec F S2048x64 .bf16) (x3 : Vec F S512x64 .bf16) (x4 : Vec F S512x256 .bf16) (x5 : Vec F S512x2048 .i32) (s7 : Vec F S1x2048 .f32) (s8 : Vec F S1x2048 .f32) (s9 : Vec F S2048x256 .f32) (f : arg8.view.ty.Contents (Elt F)) :
    arg8.view.read (Elt F) (arg8.view.writes (Elt F) f (runMiddle c i arg2 harg2 arg3 harg3 arg4 harg4 arg5 harg5 arg6 harg6 arg7 harg7 arg8 harg8 arg9 harg9 hA hB x2 x3 x4 x5 s7 s8 s9).2.1)
      = leftMiddle8 c i arg2 harg2 arg3 harg3 arg4 harg4 arg5 harg5 arg6 harg6 arg7 harg7 arg8 harg8 arg9 harg9 hA hB x2 x3 x4 x5 s7 s8 s9 :=
  View.read_writes_eq_canon _ _ _ (coversMiddle8 c i arg2 harg2 arg3 harg3 arg4 harg4 arg5 harg5 arg6 harg6 arg7 harg7 arg8 harg8 arg9 harg9 hA hB x2 x3 x4 x5 s7 s8 s9)

/-- What a middle tile leaves in the accumulator. -/
def leftMiddle9 (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : ¬atFirstTile i) (hB : ¬atLastTile i) (x2 : Vec F S2048x64 .bf16) (x3 : Vec F S512x64 .bf16) (x4 : Vec F S512x256 .bf16) (x5 : Vec F S512x2048 .i32) (s7 : Vec F S1x2048 .f32) (s8 : Vec F S1x2048 .f32) (s9 : Vec F S2048x256 .f32) : Vec F S2048x256 .f32 :=
  View.canon (runMiddle c i arg2 harg2 arg3 harg3 arg4 harg4 arg5 harg5 arg6 harg6 arg7 harg7 arg8 harg8 arg9 harg9 hA hB x2 x3 x4 x5 s7 s8 s9).2.2.1
theorem leavesMiddle9 (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : ¬atFirstTile i) (hB : ¬atLastTile i) (x2 : Vec F S2048x64 .bf16) (x3 : Vec F S512x64 .bf16) (x4 : Vec F S512x256 .bf16) (x5 : Vec F S512x2048 .i32) (s7 : Vec F S1x2048 .f32) (s8 : Vec F S1x2048 .f32) (s9 : Vec F S2048x256 .f32) (f : arg9.view.ty.Contents (Elt F)) :
    arg9.view.read (Elt F) (arg9.view.writes (Elt F) f (runMiddle c i arg2 harg2 arg3 harg3 arg4 harg4 arg5 harg5 arg6 harg6 arg7 harg7 arg8 harg8 arg9 harg9 hA hB x2 x3 x4 x5 s7 s8 s9).2.2.1)
      = leftMiddle9 c i arg2 harg2 arg3 harg3 arg4 harg4 arg5 harg5 arg6 harg6 arg7 harg7 arg8 harg8 arg9 harg9 hA hB x2 x3 x4 x5 s7 s8 s9 :=
  View.read_writes_eq_canon _ _ _ (coversMiddle9 c i arg2 harg2 arg3 harg3 arg4 harg4 arg5 harg5 arg6 harg6 arg7 harg7 arg8 harg8 arg9 harg9 hA hB x2 x3 x4 x5 s7 s8 s9)

/-- What a last tile leaves in the output block. -/
def leftLast6 (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : ¬atFirstTile i) (hB : atLastTile i) (x2 : Vec F S2048x64 .bf16) (x3 : Vec F S512x64 .bf16) (x4 : Vec F S512x256 .bf16) (x5 : Vec F S512x2048 .i32) (s7 : Vec F S1x2048 .f32) (s8 : Vec F S1x2048 .f32) (s9 : Vec F S2048x256 .f32) : Vec F S2048x256 .f32 :=
  View.canon (runLast c i arg2 harg2 arg3 harg3 arg4 harg4 arg5 harg5 arg6 harg6 arg7 harg7 arg8 harg8 arg9 harg9 hA hB x2 x3 x4 x5 s7 s8 s9).1
theorem leavesLast6 (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : ¬atFirstTile i) (hB : atLastTile i) (x2 : Vec F S2048x64 .bf16) (x3 : Vec F S512x64 .bf16) (x4 : Vec F S512x256 .bf16) (x5 : Vec F S512x2048 .i32) (s7 : Vec F S1x2048 .f32) (s8 : Vec F S1x2048 .f32) (s9 : Vec F S2048x256 .f32) (f : arg6.view.ty.Contents (Elt F)) :
    arg6.view.read (Elt F) (arg6.view.writes (Elt F) f (runLast c i arg2 harg2 arg3 harg3 arg4 harg4 arg5 harg5 arg6 harg6 arg7 harg7 arg8 harg8 arg9 harg9 hA hB x2 x3 x4 x5 s7 s8 s9).1)
      = leftLast6 c i arg2 harg2 arg3 harg3 arg4 harg4 arg5 harg5 arg6 harg6 arg7 harg7 arg8 harg8 arg9 harg9 hA hB x2 x3 x4 x5 s7 s8 s9 :=
  View.read_writes_eq_canon _ _ _ (coversLast6 c i arg2 harg2 arg3 harg3 arg4 harg4 arg5 harg5 arg6 harg6 arg7 harg7 arg8 harg8 arg9 harg9 hA hB x2 x3 x4 x5 s7 s8 s9)

/-- What a last tile leaves in the running maximum. -/
def leftLast7 (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : ¬atFirstTile i) (hB : atLastTile i) (x2 : Vec F S2048x64 .bf16) (x3 : Vec F S512x64 .bf16) (x4 : Vec F S512x256 .bf16) (x5 : Vec F S512x2048 .i32) (s7 : Vec F S1x2048 .f32) (s8 : Vec F S1x2048 .f32) (s9 : Vec F S2048x256 .f32) : Vec F S1x2048 .f32 :=
  View.canon (runLast c i arg2 harg2 arg3 harg3 arg4 harg4 arg5 harg5 arg6 harg6 arg7 harg7 arg8 harg8 arg9 harg9 hA hB x2 x3 x4 x5 s7 s8 s9).2.1
theorem leavesLast7 (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : ¬atFirstTile i) (hB : atLastTile i) (x2 : Vec F S2048x64 .bf16) (x3 : Vec F S512x64 .bf16) (x4 : Vec F S512x256 .bf16) (x5 : Vec F S512x2048 .i32) (s7 : Vec F S1x2048 .f32) (s8 : Vec F S1x2048 .f32) (s9 : Vec F S2048x256 .f32) (f : arg7.view.ty.Contents (Elt F)) :
    arg7.view.read (Elt F) (arg7.view.writes (Elt F) f (runLast c i arg2 harg2 arg3 harg3 arg4 harg4 arg5 harg5 arg6 harg6 arg7 harg7 arg8 harg8 arg9 harg9 hA hB x2 x3 x4 x5 s7 s8 s9).2.1)
      = leftLast7 c i arg2 harg2 arg3 harg3 arg4 harg4 arg5 harg5 arg6 harg6 arg7 harg7 arg8 harg8 arg9 harg9 hA hB x2 x3 x4 x5 s7 s8 s9 :=
  View.read_writes_eq_canon _ _ _ (coversLast7 c i arg2 harg2 arg3 harg3 arg4 harg4 arg5 harg5 arg6 harg6 arg7 harg7 arg8 harg8 arg9 harg9 hA hB x2 x3 x4 x5 s7 s8 s9)

/-- What a last tile leaves in the running sum. -/
def leftLast8 (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : ¬atFirstTile i) (hB : atLastTile i) (x2 : Vec F S2048x64 .bf16) (x3 : Vec F S512x64 .bf16) (x4 : Vec F S512x256 .bf16) (x5 : Vec F S512x2048 .i32) (s7 : Vec F S1x2048 .f32) (s8 : Vec F S1x2048 .f32) (s9 : Vec F S2048x256 .f32) : Vec F S1x2048 .f32 :=
  View.canon (runLast c i arg2 harg2 arg3 harg3 arg4 harg4 arg5 harg5 arg6 harg6 arg7 harg7 arg8 harg8 arg9 harg9 hA hB x2 x3 x4 x5 s7 s8 s9).2.2.1
theorem leavesLast8 (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : ¬atFirstTile i) (hB : atLastTile i) (x2 : Vec F S2048x64 .bf16) (x3 : Vec F S512x64 .bf16) (x4 : Vec F S512x256 .bf16) (x5 : Vec F S512x2048 .i32) (s7 : Vec F S1x2048 .f32) (s8 : Vec F S1x2048 .f32) (s9 : Vec F S2048x256 .f32) (f : arg8.view.ty.Contents (Elt F)) :
    arg8.view.read (Elt F) (arg8.view.writes (Elt F) f (runLast c i arg2 harg2 arg3 harg3 arg4 harg4 arg5 harg5 arg6 harg6 arg7 harg7 arg8 harg8 arg9 harg9 hA hB x2 x3 x4 x5 s7 s8 s9).2.2.1)
      = leftLast8 c i arg2 harg2 arg3 harg3 arg4 harg4 arg5 harg5 arg6 harg6 arg7 harg7 arg8 harg8 arg9 harg9 hA hB x2 x3 x4 x5 s7 s8 s9 :=
  View.read_writes_eq_canon _ _ _ (coversLast8 c i arg2 harg2 arg3 harg3 arg4 harg4 arg5 harg5 arg6 harg6 arg7 harg7 arg8 harg8 arg9 harg9 hA hB x2 x3 x4 x5 s7 s8 s9)

/-- What a last tile leaves in the accumulator. -/
def leftLast9 (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : ¬atFirstTile i) (hB : atLastTile i) (x2 : Vec F S2048x64 .bf16) (x3 : Vec F S512x64 .bf16) (x4 : Vec F S512x256 .bf16) (x5 : Vec F S512x2048 .i32) (s7 : Vec F S1x2048 .f32) (s8 : Vec F S1x2048 .f32) (s9 : Vec F S2048x256 .f32) : Vec F S2048x256 .f32 :=
  View.canon (runLast c i arg2 harg2 arg3 harg3 arg4 harg4 arg5 harg5 arg6 harg6 arg7 harg7 arg8 harg8 arg9 harg9 hA hB x2 x3 x4 x5 s7 s8 s9).2.2.2.1
theorem leavesLast9 (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : ¬atFirstTile i) (hB : atLastTile i) (x2 : Vec F S2048x64 .bf16) (x3 : Vec F S512x64 .bf16) (x4 : Vec F S512x256 .bf16) (x5 : Vec F S512x2048 .i32) (s7 : Vec F S1x2048 .f32) (s8 : Vec F S1x2048 .f32) (s9 : Vec F S2048x256 .f32) (f : arg9.view.ty.Contents (Elt F)) :
    arg9.view.read (Elt F) (arg9.view.writes (Elt F) f (runLast c i arg2 harg2 arg3 harg3 arg4 harg4 arg5 harg5 arg6 harg6 arg7 harg7 arg8 harg8 arg9 harg9 hA hB x2 x3 x4 x5 s7 s8 s9).2.2.2.1)
      = leftLast9 c i arg2 harg2 arg3 harg3 arg4 harg4 arg5 harg5 arg6 harg6 arg7 harg7 arg8 harg8 arg9 harg9 hA hB x2 x3 x4 x5 s7 s8 s9 :=
  View.read_writes_eq_canon _ _ _ (coversLast9 c i arg2 harg2 arg3 harg3 arg4 harg4 arg5 harg5 arg6 harg6 arg7 harg7 arg8 harg8 arg9 harg9 hA hB x2 x3 x4 x5 s7 s8 s9)

/-- What a first tile leaves in the three running arrays. -/
def afterFirst (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : atFirstTile i) (hB : ¬atLastTile i) (x2 : Vec F S2048x64 .bf16) (x3 : Vec F S512x64 .bf16) (x4 : Vec F S512x256 .bf16) (x5 : Vec F S512x2048 .i32) : Running F :=
  (leftFirst7 c i arg2 harg2 arg3 harg3 arg4 harg4 arg5 harg5 arg6 harg6 arg7 harg7 arg8 harg8 arg9 harg9 hA hB x2 x3 x4 x5, leftFirst8 c i arg2 harg2 arg3 harg3 arg4 harg4 arg5 harg5 arg6 harg6 arg7 harg7 arg8 harg8 arg9 harg9 hA hB x2 x3 x4 x5, leftFirst9 c i arg2 harg2 arg3 harg3 arg4 harg4 arg5 harg5 arg6 harg6 arg7 harg7 arg8 harg8 arg9 harg9 hA hB x2 x3 x4 x5)

/-- What a middle tile leaves in the three running arrays. -/
def afterMiddle (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : ¬atFirstTile i) (hB : ¬atLastTile i) (x2 : Vec F S2048x64 .bf16) (x3 : Vec F S512x64 .bf16) (x4 : Vec F S512x256 .bf16) (x5 : Vec F S512x2048 .i32) (s7 : Vec F S1x2048 .f32) (s8 : Vec F S1x2048 .f32) (s9 : Vec F S2048x256 .f32) : Running F :=
  (leftMiddle7 c i arg2 harg2 arg3 harg3 arg4 harg4 arg5 harg5 arg6 harg6 arg7 harg7 arg8 harg8 arg9 harg9 hA hB x2 x3 x4 x5 s7 s8 s9, leftMiddle8 c i arg2 harg2 arg3 harg3 arg4 harg4 arg5 harg5 arg6 harg6 arg7 harg7 arg8 harg8 arg9 harg9 hA hB x2 x3 x4 x5 s7 s8 s9, leftMiddle9 c i arg2 harg2 arg3 harg3 arg4 harg4 arg5 harg5 arg6 harg6 arg7 harg7 arg8 harg8 arg9 harg9 hA hB x2 x3 x4 x5 s7 s8 s9)

/-- What a last tile leaves in the three running arrays. -/
def afterLast (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : ¬atFirstTile i) (hB : atLastTile i) (x2 : Vec F S2048x64 .bf16) (x3 : Vec F S512x64 .bf16) (x4 : Vec F S512x256 .bf16) (x5 : Vec F S512x2048 .i32) (s7 : Vec F S1x2048 .f32) (s8 : Vec F S1x2048 .f32) (s9 : Vec F S2048x256 .f32) : Running F :=
  (leftLast7 c i arg2 harg2 arg3 harg3 arg4 harg4 arg5 harg5 arg6 harg6 arg7 harg7 arg8 harg8 arg9 harg9 hA hB x2 x3 x4 x5 s7 s8 s9, leftLast8 c i arg2 harg2 arg3 harg3 arg4 harg4 arg5 harg5 arg6 harg6 arg7 harg7 arg8 harg8 arg9 harg9 hA hB x2 x3 x4 x5 s7 s8 s9, leftLast9 c i arg2 harg2 arg3 harg3 arg4 harg4 arg5 harg5 arg6 harg6 arg7 harg7 arg8 harg8 arg9 harg9 hA hB x2 x3 x4 x5 s7 s8 s9)

/-- What a last tile leaves in the output block. -/
abbrev outLast (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : ¬atFirstTile i) (hB : atLastTile i) (x2 : Vec F S2048x64 .bf16) (x3 : Vec F S512x64 .bf16) (x4 : Vec F S512x256 .bf16) (x5 : Vec F S512x2048 .i32) (s7 : Vec F S1x2048 .f32) (s8 : Vec F S1x2048 .f32) (s9 : Vec F S2048x256 .f32) : Vec F S2048x256 .f32 :=
  leftLast6 c i arg2 harg2 arg3 harg3 arg4 harg4 arg5 harg5 arg6 harg6 arg7 harg7 arg8 harg8 arg9 harg9 hA hB x2 x3 x4 x5 s7 s8 s9

end Cert.KernelIdeal.Region2

end
-- ==== Proof.KIRegion2.lean ====
/-
  The third call, point by point. At a point the body is one of its three cases (KIRegion2Runs); what the three running
  arrays hold after the points run so far is that case applied to what they held before — a first tile starts afresh —
  so it is defined by recursion on the number of points run. The output block is written at the last tile of each block
  of edges only, and is left alone at every other point. Everything the call reads was written by the two calls before
  it (`Q`, `K`, `V`) or is an argument (the incidence matrix).
-/
import proofs.«127266_j31533649887507_2_alg».proof.Proof.KIRegion1
import proofs.«127266_j31533649887507_2_alg».proof.Proof.KIRegion2Runs

set_option maxRecDepth 16384

noncomputable section

namespace Cert.KernelIdeal.Region2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)
open Cert.KernelIdeal.Region0 (family adm rides between W0 W1)
open Cert.KernelIdeal.Region1 (W2 dat1)

variable {F : FTy → Type} [FloatOps F] [Named F]

local notation "𝕄" => MT nD τ sig Unit (Elt F) ℕ (UR sig nD τ) ℕ

variable (m : (ℓ : Loc nD τ sig) → Buf (Elt F) ℓ)

/-- Each window's current staging buffer at point `t`, as the pipeline passes it to the body, and the three running
    arrays, which are whole buffers of the call's own. -/
abbrev ms0 (t : Fin cfg2.N) : Memref sig .tc .vmem S2048x64 .bf16 := win2_0.stage (cfg2.slots t 0)
abbrev hs0 (t : Fin cfg2.N) : (ms0 t).IsWhole := hstage2_0 ((cfg2.slots t 0).cast nbuf2_0)
abbrev ms1 (t : Fin cfg2.N) : Memref sig .tc .vmem S512x64 .bf16 := win2_1.stage (cfg2.slots t 1)
abbrev hs1 (t : Fin cfg2.N) : (ms1 t).IsWhole := hstage2_1 ((cfg2.slots t 1).cast nbuf2_1)
abbrev ms2 (t : Fin cfg2.N) : Memref sig .tc .vmem S512x256 .bf16 := win2_2.stage (cfg2.slots t 2)
abbrev hs2 (t : Fin cfg2.N) : (ms2 t).IsWhole := hstage2_2 ((cfg2.slots t 2).cast nbuf2_2)
abbrev ms3 (t : Fin cfg2.N) : Memref sig .tc .vmem S512x2048 .i32 := win2_3.stage (cfg2.slots t 3)
abbrev hs3 (t : Fin cfg2.N) : (ms3 t).IsWhole := hstage2_3 ((cfg2.slots t 3).cast nbuf2_3)
abbrev ms4 (t : Fin cfg2.N) : Memref sig .tc .vmem S2048x256 .f32 := win2_4.stage (cfg2.slots t 4)
abbrev hs4 (t : Fin cfg2.N) : (ms4 t).IsWhole := hstage2_4 ((cfg2.slots t 4).cast nbuf2_4)
abbrev sc7 : Memref sig .tc .vmem S1x2048 .f32 := Memref.whole cc2_scratch0
abbrev sc8 : Memref sig .tc .vmem S1x2048 .f32 := Memref.whole cc2_scratch1
abbrev sc9 : Memref sig .tc .vmem S2048x256 .f32 := Memref.whole cc2_scratch2

/-- A window's block at point `t`, read off its array as the two calls before left it: 2048 rows of `Q`, 512 rows of `K`
    and of `V`, the 512 × 2048 block of the incidence matrix. -/
def blockAt (c : Dev nD) (w : Fin cfg2.W) (t : Fin cfg2.N) : ((cfg2.win w).xblock (cfg2.grid.coords t)).Idx → Elt F (cfg2.win w).elt :=
  ((cfg2.win w).blk t).view.read (Elt F) (W2 m c (Pipeline.arrRef spec2 w))

/-- Each input's staging buffer holds its block when the body starts, fetched at this point or not (the block of `Q` is
    fetched at the first tile only: its index does not move along the tiles). -/
theorem q_found {c : Dev nD} (dat : Dat τ (Elt F) Unit ℕ (UR sig nD τ) ℕ cfg2 c) (hA : dat.A 0 = W2 m c (Pipeline.arrRef spec2 0))
    (hafter : ∀ t, dat.after 0 t = blockAt m c 0 t) (t : Fin cfg2.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem k_found {c : Dev nD} (dat : Dat τ (Elt F) Unit ℕ (UR sig nD τ) ℕ cfg2 c) (hA : dat.A 1 = W2 m c (Pipeline.arrRef spec2 1))
    (hafter : ∀ t, dat.after 1 t = blockAt m c 1 t) (t : Fin cfg2.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem v_found {c : Dev nD} (dat : Dat τ (Elt F) Unit ℕ (UR sig nD τ) ℕ cfg2 c) (hA : dat.A 2 = W2 m c (Pipeline.arrRef spec2 2))
    (hafter : ∀ t, dat.after 2 t = blockAt m c 2 t) (t : Fin cfg2.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem h_found {c : Dev nD} (dat : Dat τ (Elt F) Unit ℕ (UR sig nD τ) ℕ cfg2 c) (hA : dat.A 3 = W2 m c (Pipeline.arrRef spec2 3))
    (hafter : ∀ t, dat.after 3 t = blockAt m c 3 t) (t : Fin cfg2.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-! ## The grid -/

theorem first_not_last : ∀ t : Fin cfg2.N, atFirstTile (grid2.coords t) → ¬atLastTile (grid2.coords t) :=
  (by decide +kernel : ∀ t : Fin grid2.N, atFirstTile (grid2.coords t) → ¬atLastTile (grid2.coords t))
/-- The output window is live at a last tile, and idle and not written back at every other point. -/
theorem out_live : ∀ t : Fin cfg2.N, atLastTile (grid2.coords t) → cfg2.idle 4 (grid2.coords t) = false :=
  (by decide +kernel : ∀ t : Fin grid2.N, atLastTile (grid2.coords t) → cfg2.idle 4 (grid2.coords t) = false)
theorem out_idle : ∀ t : Fin cfg2.N, ¬atLastTile (grid2.coords t) → cfg2.idle 4 (grid2.coords t) = true :=
  (by decide +kernel : ∀ t : Fin grid2.N, ¬atLastTile (grid2.coords t) → cfg2.idle 4 (grid2.coords t) = true)
theorem out_kept : ∀ t : Fin cfg2.N, ¬atLastTile (grid2.coords t) → (cfg2.win 4).flush t = false :=
  (by decide +kernel : ∀ t : Fin grid2.N, ¬atLastTile (grid2.coords t) → win2_4.flush t = false)
theorem not_first_pos (t : Fin cfg2.N) (h : ¬atFirstTile (grid2.coords t)) : t.val ≠ 0 := fun h0 =>
  h ((first_iff t).mpr (by rw [h0]))

/-! ## The running arrays after each point -/

/-- Contents nothing consults: before the first point, and for the output block away from a last tile. -/
def unnamed : Running F :=
  (fun _ => (Elt.inhabited F EltTy.f32).default, fun _ => (Elt.inhabited F EltTy.f32).default, fun _ => (Elt.inhabited F EltTy.f32).default)

/-- One point: the case the point is in, applied to the point's blocks and, unless it is a first tile, to what the
    running arrays held. -/
def step (c : Dev nD) (t : Fin cfg2.N) (s : Running F) : Running F :=
  if hA : atFirstTile (grid2.coords t) then
    afterFirst c (grid2.coords t) (ms0 t) (hs0 t) (ms1 t) (hs1 t) (ms2 t) (hs2 t) (ms3 t) (hs3 t) (ms4 t) (hs4 t) sc7 (Memref.isWhole_whole _) sc8 (Memref.isWhole_whole _) sc9 (Memref.isWhole_whole _) hA (first_not_last t hA) (blockAt m c 0 t) (blockAt m c 1 t) (blockAt m c 2 t) (blockAt m c 3 t)
  else if hB : atLastTile (grid2.coords t) then
    afterLast c (grid2.coords t) (ms0 t) (hs0 t) (ms1 t) (hs1 t) (ms2 t) (hs2 t) (ms3 t) (hs3 t) (ms4 t) (hs4 t) sc7 (Memref.isWhole_whole _) sc8 (Memref.isWhole_whole _) sc9 (Memref.isWhole_whole _) hA hB (blockAt m c 0 t) (blockAt m c 1 t) (blockAt m c 2 t) (blockAt m c 3 t) s.1 s.2.1 s.2.2
  else
    afterMiddle c (grid2.coords t) (ms0 t) (hs0 t) (ms1 t) (hs1 t) (ms2 t) (hs2 t) (ms3 t) (hs3 t) (ms4 t) (hs4 t) sc7 (Memref.isWhole_whole _) sc8 (Memref.isWhole_whole _) sc9 (Memref.isWhole_whole _) hA hB (blockAt m c 0 t) (blockAt m c 1 t) (blockAt m c 2 t) (blockAt m c 3 t) s.1 s.2.1 s.2.2

/-- What the running arrays hold after the first `n` points. -/
def stateAfter (c : Dev nD) : ℕ → Running F
  | 0 => unnamed
  | n + 1 => if hn : n < cfg2.N then step m c ⟨n, hn⟩ (stateAfter c n) else stateAfter c n

theorem stateAfter_succ (c : Dev nD) (t : Fin cfg2.N) : stateAfter m c (t.val + 1) = step m c t (stateAfter m c t.val) := by
  show (if hn : t.val < cfg2.N then step m c ⟨t.val, hn⟩ (stateAfter m c t.val) else stateAfter m c t.val) = _
  rw [dif_pos t.isLt]

/-- What the output block's staging buffer holds after the body at a last tile (elsewhere nothing consults it). -/
def outAt (c : Dev nD) (t : Fin cfg2.N) : Vec F S2048x256 .f32 :=
  if hB : atLastTile (grid2.coords t) then
    if hA : atFirstTile (grid2.coords t) then fun _ => (Elt.inhabited F EltTy.f32).default
    else outLast c (grid2.coords t) (ms0 t) (hs0 t) (ms1 t) (hs1 t) (ms2 t) (hs2 t) (ms3 t) (hs3 t) (ms4 t) (hs4 t) sc7 (Memref.isWhole_whole _) sc8 (Memref.isWhole_whole _) sc9 (Memref.isWhole_whole _) hA hB (blockAt m c 0 t) (blockAt m c 1 t) (blockAt m c 2 t) (blockAt m c 3 t) (stateAfter m c t.val).1 (stateAfter m c t.val).2.1 (stateAfter m c t.val).2.2
  else fun _ => (Elt.inhabited F EltTy.f32).default

/-! ## The proof data -/

/-- The scoped buffers of the two calls before, which this call never touches, each held at some contents. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f))

/-- The invariant before point `n`: the three running arrays held at some contents, which from the second point on are
    what the recursion says; and the untouched scoped buffers. -/
def inv (c : Dev nD) (n : ℕ) : sProp 𝕄 :=
  iprop(∃ s : Running F, ⌜n ≠ 0 → s = stateAfter m c n⌝ ∗ owns (c : Thread nD τ) sc7 fullShare s.1 ∗ owns (c : Thread nD τ) sc8 fullShare s.2.1
    ∗ owns (c : Thread nD τ) sc9 fullShare s.2.2 ∗ others c)

def dat2 (c : Dev nD) : Dat τ (Elt F) Unit ℕ (UR sig nD τ) ℕ cfg2 c where
  A w := W2 m c (Pipeline.arrRef spec2 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => outAt m c t
  Φ t := inv m c t.val
  q _ := fullShare
  owed _ := 0

theorem dat2_A (c : Dev nD) (w : Fin cfg2.W) : (dat2 m c).A w = W2 m c (Pipeline.arrRef spec2 w) := by dsimp only [dat2]
theorem after_q (c : Dev nD) (t : Fin cfg2.N) : (dat2 m c).after 0 t = blockAt m c 0 t := by dsimp only [dat2]
theorem after_k (c : Dev nD) (t : Fin cfg2.N) : (dat2 m c).after 1 t = blockAt m c 1 t := by dsimp only [dat2]
theorem after_v (c : Dev nD) (t : Fin cfg2.N) : (dat2 m c).after 2 t = blockAt m c 2 t := by dsimp only [dat2]
theorem after_h (c : Dev nD) (t : Fin cfg2.N) : (dat2 m c).after 3 t = blockAt m c 3 t := by dsimp only [dat2]
theorem after_out (c : Dev nD) (t : Fin cfg2.N) : (dat2 m c).after 4 t = outAt m c t := by dsimp only [dat2]
theorem inv_at (c : Dev nD) (t : Fin (cfg2.N + 1)) : (dat2 m c).Φ t = inv m c t.val := by dsimp only [dat2]

theorem before_q (c : Dev nD) (t : Fin cfg2.N) (d) : (dat2 m c).before 0 t d = blockAt m c 0 t :=
  q_found m (dat2 m c) (dat2_A m c 0) (after_q m c) t d
theorem before_k (c : Dev nD) (t : Fin cfg2.N) (d) : (dat2 m c).before 1 t d = blockAt m c 1 t :=
  k_found m (dat2 m c) (dat2_A m c 1) (after_k m c) t d
theorem before_v (c : Dev nD) (t : Fin cfg2.N) (d) : (dat2 m c).before 2 t d = blockAt m c 2 t :=
  v_found m (dat2 m c) (dat2_A m c 2) (after_v m c) t d
theorem before_h (c : Dev nD) (t : Fin cfg2.N) (d) : (dat2 m c).before 3 t d = blockAt m c 3 t :=
  h_found m (dat2 m c) (dat2_A m c 3) (after_h m c) t d

/-! ## The body at a point -/

theorem step_first (c : Dev nD) (t : Fin cfg2.N) (hA : atFirstTile (grid2.coords t)) (s : Running F) :
    step m c t s = afterFirst c (grid2.coords t) (ms0 t) (hs0 t) (ms1 t) (hs1 t) (ms2 t) (hs2 t) (ms3 t) (hs3 t) (ms4 t) (hs4 t) sc7 (Memref.isWhole_whole _) sc8 (Memref.isWhole_whole _) sc9 (Memref.isWhole_whole _) hA (first_not_last t hA) (blockAt m c 0 t) (blockAt m c 1 t) (blockAt m c 2 t) (blockAt m c 3 t) := by
  unfold step; rw [dif_pos hA]
theorem step_middle (c : Dev nD) (t : Fin cfg2.N) (hA : ¬atFirstTile (grid2.coords t)) (hB : ¬atLastTile (grid2.coords t)) (s : Running F) :
    step m c t s = afterMiddle c (grid2.coords t) (ms0 t) (hs0 t) (ms1 t) (hs1 t) (ms2 t) (hs2 t) (ms3 t) (hs3 t) (ms4 t) (hs4 t) sc7 (Memref.isWhole_whole _) sc8 (Memref.isWhole_whole _) sc9 (Memref.isWhole_whole _) hA hB (blockAt m c 0 t) (blockAt m c 1 t) (blockAt m c 2 t) (blockAt m c 3 t) s.1 s.2.1 s.2.2 := by
  unfold step; rw [dif_neg hA, dif_neg hB]
theorem step_last (c : Dev nD) (t : Fin cfg2.N) (hA : ¬atFirstTile (grid2.coords t)) (hB : atLastTile (grid2.coords t)) (s : Running F) :
    step m c t s = afterLast c (grid2.coords t) (ms0 t) (hs0 t) (ms1 t) (hs1 t) (ms2 t) (hs2 t) (ms3 t) (hs3 t) (ms4 t) (hs4 t) sc7 (Memref.isWhole_whole _) sc8 (Memref.isWhole_whole _) sc9 (Memref.isWhole_whole _) hA hB (blockAt m c 0 t) (blockAt m c 1 t) (blockAt m c 2 t) (blockAt m c 3 t) s.1 s.2.1 s.2.2 := by
  unfold step; rw [dif_neg hA, dif_pos hB]
theorem outAt_last (c : Dev nD) (t : Fin cfg2.N) (hA : ¬atFirstTile (grid2.coords t)) (hB : atLastTile (grid2.coords t)) :
    outAt m c t = outLast c (grid2.coords t) (ms0 t) (hs0 t) (ms1 t) (hs1 t) (ms2 t) (hs2 t) (ms3 t) (hs3 t) (ms4 t) (hs4 t) sc7 (Memref.isWhole_whole _) sc8 (Memref.isWhole_whole _) sc9 (Memref.isWhole_whole _) hA hB (blockAt m c 0 t) (blockAt m c 1 t) (blockAt m c 2 t) (blockAt m c 3 t) (stateAfter m c t.val).1 (stateAfter m c t.val).2.1 (stateAfter m c t.val).2.2 := by
  unfold outAt; rw [dif_pos hB, dif_neg hA]

/-- What the body is called with at point `t`, -/
def bodyPre (c : Dev nD) (t : Fin cfg2.N) : sProp 𝕄 :=
  iprop((dat2 m c).Φ t.castSucc ∗ (dat2 m c).owesAt () t.castSucc
    ∗ (∃ d, owns (c : Thread nD τ) (st2_0 t) fullShare ((dat2 m c).before 0 t d))
    ∗ (∃ d, owns (c : Thread nD τ) (st2_1 t) fullShare ((dat2 m c).before 1 t d))
    ∗ (∃ d, owns (c : Thread nD τ) (st2_2 t) fullShare ((dat2 m c).before 2 t d))
    ∗ (∃ d, owns (c : Thread nD τ) (st2_3 t) fullShare ((dat2 m c).before 3 t d))
    ∗ (∃ d, owns (c : Thread nD τ) (st2_4 t) fullShare ((dat2 m c).before 4 t d)))

/-- and what it returns: of the output window, at a point where it is idle and not written back, that its buffer is as
    found; at a last tile, that it holds the stored quotient. -/
def bodyPost (c : Dev nD) (t : Fin cfg2.N) : sProp 𝕄 :=
  iprop((dat2 m c).Φ t.succ ∗ (dat2 m c).owesAt () t.succ
    ∗ owns (c : Thread nD τ) (st2_0 t) fullShare ((dat2 m c).after 0 t)
    ∗ owns (c : Thread nD τ) (st2_1 t) fullShare ((dat2 m c).after 1 t)
    ∗ owns (c : Thread nD τ) (st2_2 t) fullShare ((dat2 m c).after 2 t)
    ∗ owns (c : Thread nD τ) (st2_3 t) fullShare ((dat2 m c).after 3 t)
    ∗ (match cfg2.idle 4 (grid2.coords t) with
        | true =>
          match (cfg2.win 4).flush t with
          | false => iprop(∃ d, owns (c : Thread nD τ) (st2_4 t) fullShare ((dat2 m c).before 4 t d))
          | true => owns (c : Thread nD τ) (st2_4 t) fullShare ((dat2 m c).after 4 t)
        | false => owns (c : Thread nD τ) (st2_4 t) fullShare ((dat2 m c).after 4 t)))

set_option maxHeartbeats 400000 in
/-- A middle tile: the running arrays hold what the recursion says (the point is not the first), the case's run applies,
    and they end at the recursion's next value; the output block's buffer is handed back as found. -/
theorem sound_middle (c : Dev nD) (t : Fin cfg2.N) (hA : ¬atFirstTile (grid2.coords t)) (hB : ¬atLastTile (grid2.coords t)) :
    bodyPre m c t ⊢ wp frame (wpE (defs₀ (F := F)) Variants.none c none) Set.univ (bodyAt2 t) (fun _ => bodyPost m c t) := by
  unfold bodyPre bodyPost bodyAt2
  rw [out_idle t hB, out_kept t hB]
  dsimp only
  simp only [before_q, before_k, before_v, before_h, after_q, after_k, after_v, after_h, inv_at, Fin.coe_castSucc, Fin.val_succ]
  rw [show (dat2 m c).owesAt () t.succ = (dat2 m c).owesAt () t.castSucc from rfl]
  unfold inv
  iintro ⟨⟨%s, %hs, S7, S8, S9, Hoth⟩, Ho, ⟨%d0, H0⟩, ⟨%d1, H1⟩, ⟨%d2, H2⟩, ⟨%d3, H3⟩, ⟨%d4, H4⟩⟩
  obtain rfl := hs (not_first_pos t hA)
  iapply ((runMiddle c (grid2.coords t) (ms0 t) (hs0 t) (ms1 t) (hs1 t) (ms2 t) (hs2 t) (ms3 t) (hs3 t) (ms4 t) (hs4 t) sc7 (Memref.isWhole_whole _) sc8 (Memref.isWhole_whole _) sc9 (Memref.isWhole_whole _) hA hB (blockAt m c 0 t) (blockAt m c 1 t) (blockAt m c 2 t) (blockAt m c 3 t) (stateAfter m c t.val).1 (stateAfter m c t.val).2.1 (stateAfter m c t.val).2.2).2.2.2 _ Set.univ _)
  isplitl [H0]; · iexact H0
  isplitl [H1]; · iexact H1
  isplitl [H2]; · iexact H2
  isplitl [H3]; · iexact H3
  isplitl [H4]; · iexact H4
  isplitl [S7]; · iexact S7
  isplitl [S8]; · iexact S8
  isplitl [S9]; · iexact S9
  iintro ⟨H0, H1, H2, H3, H4, ⟨%f7, S7⟩, ⟨%f8, S8⟩, ⟨%f9, S9⟩⟩
  isplitl [S7 S8 S9 Hoth]
  · iexists (stateAfter m c (t.val + 1))
    isplitr; · ipureintro; exact fun _ => rfl
    isplitl [S7]
    · unfold owns; iexists _; isplitr; swap; · iexact S7
      ipureintro
      rw [stateAfter_succ, step_middle m c t hA hB]
      dsimp only [afterMiddle]
      exact leavesMiddle7 c (grid2.coords t) (ms0 t) (hs0 t) (ms1 t) (hs1 t) (ms2 t) (hs2 t) (ms3 t) (hs3 t) (ms4 t) (hs4 t) sc7 (Memref.isWhole_whole _) sc8 (Memref.isWhole_whole _) sc9 (Memref.isWhole_whole _) hA hB (blockAt m c 0 t) (blockAt m c 1 t) (blockAt m c 2 t) (blockAt m c 3 t) (stateAfter m c t.val).1 (stateAfter m c t.val).2.1 (stateAfter m c t.val).2.2 f7
    isplitl [S8]
    · unfold owns; iexists _; isplitr; swap; · iexact S8
      ipureintro
      rw [stateAfter_succ, step_middle m c t hA hB]
      dsimp only [afterMiddle]
      exact leavesMiddle8 c (grid2.coords t) (ms0 t) (hs0 t) (ms1 t) (hs1 t) (ms2 t) (hs2 t) (ms3 t) (hs3 t) (ms4 t) (hs4 t) sc7 (Memref.isWhole_whole _) sc8 (Memref.isWhole_whole _) sc9 (Memref.isWhole_whole _) hA hB (blockAt m c 0 t) (blockAt m c 1 t) (blockAt m c 2 t) (blockAt m c 3 t) (stateAfter m c t.val).1 (stateAfter m c t.val).2.1 (stateAfter m c t.val).2.2 f8
    isplitl [S9]
    · unfold owns; iexists _; isplitr; swap; · iexact S9
      ipureintro
      rw [stateAfter_succ, step_middle m c t hA hB]
      dsimp only [afterMiddle]
      exact leavesMiddle9 c (grid2.coords t) (ms0 t) (hs0 t) (ms1 t) (hs1 t) (ms2 t) (hs2 t) (ms3 t) (hs3 t) (ms4 t) (hs4 t) sc7 (Memref.isWhole_whole _) sc8 (Memref.isWhole_whole _) sc9 (Memref.isWhole_whole _) hA hB (blockAt m c 0 t) (blockAt m c 1 t) (blockAt m c 2 t) (blockAt m c 3 t) (stateAfter m c t.val).1 (stateAfter m c t.val).2.1 (stateAfter m c t.val).2.2 f9
    iexact Hoth
  isplitl [Ho]; · iexact Ho
  isplitl [H0]; · iexact H0
  isplitl [H1]; · iexact H1
  isplitl [H2]; · iexact H2
  isplitl [H3]; · iexact H3
  iexists d4; iexact H4

set_option maxHeartbeats 400000 in
/-- A first tile: whatever the running arrays hold, the body overwrites them before it uses them, and they end at the
    recursion's next value, which at a first tile does not look back; the output block's buffer is handed back as found. -/
theorem sound_first (c : Dev nD) (t : Fin cfg2.N) (hA : atFirstTile (grid2.coords t)) :
    bodyPre m c t ⊢ wp frame (wpE (defs₀ (F := F)) Variants.none c none) Set.univ (bodyAt2 t) (fun _ => bodyPost m c t) := by
  have hB : ¬atLastTile (grid2.coords t) := first_not_last t hA
  unfold bodyPre bodyPost bodyAt2
  rw [out_idle t hB, out_kept t hB]
  dsimp only
  simp only [before_q, before_k, before_v, before_h, after_q, after_k, after_v, after_h, after_out, inv_at, Fin.coe_castSucc, Fin.val_succ]
  rw [show (dat2 m c).owesAt () t.succ = (dat2 m c).owesAt () t.castSucc from rfl]
  unfold inv
  iintro ⟨⟨%s, -, S7, S8, S9, Hoth⟩, Ho, ⟨%d0, H0⟩, ⟨%d1, H1⟩, ⟨%d2, H2⟩, ⟨%d3, H3⟩, ⟨%d4, H4⟩⟩
  iapply ((runFirst c (grid2.coords t) (ms0 t) (hs0 t) (ms1 t) (hs1 t) (ms2 t) (hs2 t) (ms3 t) (hs3 t) (ms4 t) (hs4 t) sc7 (Memref.isWhole_whole _) sc8 (Memref.isWhole_whole _) sc9 (Memref.isWhole_whole _) hA hB (blockAt m c 0 t) (blockAt m c 1 t) (blockAt m c 2 t) (blockAt m c 3 t)).2.2.2 _ Set.univ _)
  isplitl [H0]; · iexact H0
  isplitl [H1]; · iexact H1
  isplitl [H2]; · iexact H2
  isplitl [H3]; · iexact H3
  isplitl [H4]; · iexact H4
  isplitl [S7]; · iexists _; iexact S7
  isplitl [S8]; · iexists _; iexact S8
  isplitl [S9]; · iexists _; iexact S9
  iintro ⟨H0, H1, H2, H3, H4, ⟨%f7, S7⟩, ⟨%f8, S8⟩, ⟨%f9, S9⟩⟩
  isplitl [S7 S8 S9 Hoth]
  · iexists (stateAfter m c (t.val + 1))
    isplitr; · ipureintro; exact fun _ => rfl
    isplitl [S7]
    · unfold owns; iexists _; isplitr; swap; · iexact S7
      ipureintro
      rw [stateAfter_succ, step_first m c t hA]
      dsimp only [afterFirst]
      exact leavesFirst7 c (grid2.coords t) (ms0 t) (hs0 t) (ms1 t) (hs1 t) (ms2 t) (hs2 t) (ms3 t) (hs3 t) (ms4 t) (hs4 t) sc7 (Memref.isWhole_whole _) sc8 (Memref.isWhole_whole _) sc9 (Memref.isWhole_whole _) hA hB (blockAt m c 0 t) (blockAt m c 1 t) (blockAt m c 2 t) (blockAt m c 3 t) f7
    isplitl [S8]
    · unfold owns; iexists _; isplitr; swap; · iexact S8
      ipureintro
      rw [stateAfter_succ, step_first m c t hA]
      dsimp only [afterFirst]
      exact leavesFirst8 c (grid2.coords t) (ms0 t) (hs0 t) (ms1 t) (hs1 t) (ms2 t) (hs2 t) (ms3 t) (hs3 t) (ms4 t) (hs4 t) sc7 (Memref.isWhole_whole _) sc8 (Memref.isWhole_whole _) sc9 (Memref.isWhole_whole _) hA hB (blockAt m c 0 t) (blockAt m c 1 t) (blockAt m c 2 t) (blockAt m c 3 t) f8
    isplitl [S9]
    · unfold owns; iexists _; isplitr; swap; · iexact S9
      ipureintro
      rw [stateAfter_succ, step_first m c t hA]
      dsimp only [afterFirst]
      exact leavesFirst9 c (grid2.coords t) (ms0 t) (hs0 t) (ms1 t) (hs1 t) (ms2 t) (hs2 t) (ms3 t) (hs3 t) (ms4 t) (hs4 t) sc7 (Memref.isWhole_whole _) sc8 (Memref.isWhole_whole _) sc9 (Memref.isWhole_whole _) hA hB (blockAt m c 0 t) (blockAt m c 1 t) (blockAt m c 2 t) (blockAt m c 3 t) f9
    iexact Hoth
  isplitl [Ho]; · iexact Ho
  isplitl [H0]; · iexact H0
  isplitl [H1]; · iexact H1
  isplitl [H2]; · iexact H2
  isplitl [H3]; · iexact H3
  iexists d4; iexact H4

set_option maxHeartbeats 400000 in
/-- A last tile: as a middle tile, and the output block's buffer, whatever it held, ends holding the stored quotient. -/
theorem sound_last (c : Dev nD) (t : Fin cfg2.N) (hA : ¬atFirstTile (grid2.coords t)) (hB : atLastTile (grid2.coords t)) :
    bodyPre m c t ⊢ wp frame (wpE (defs₀ (F := F)) Variants.none c none) Set.univ (bodyAt2 t) (fun _ => bodyPost m c t) := by
  unfold bodyPre bodyPost bodyAt2
  rw [out_live t hB]
  dsimp only
  simp only [before_q, before_k, before_v, before_h, after_q, after_k, after_v, after_h, after_out, inv_at, Fin.coe_castSucc, Fin.val_succ]
  rw [show (dat2 m c).owesAt () t.succ = (dat2 m c).owesAt () t.castSucc from rfl]
  unfold inv
  iintro ⟨⟨%s, %hs, S7, S8, S9, Hoth⟩, Ho, ⟨%d0, H0⟩, ⟨%d1, H1⟩, ⟨%d2, H2⟩, ⟨%d3, H3⟩, ⟨%d4, H4⟩⟩
  obtain rfl := hs (not_first_pos t hA)
  iapply ((runLast c (grid2.coords t) (ms0 t) (hs0 t) (ms1 t) (hs1 t) (ms2 t) (hs2 t) (ms3 t) (hs3 t) (ms4 t) (hs4 t) sc7 (Memref.isWhole_whole _) sc8 (Memref.isWhole_whole _) sc9 (Memref.isWhole_whole _) hA hB (blockAt m c 0 t) (blockAt m c 1 t) (blockAt m c 2 t) (blockAt m c 3 t) (stateAfter m c t.val).1 (stateAfter m c t.val).2.1 (stateAfter m c t.val).2.2).2.2.2.2 Set.univ _)
  isplitl [H0]; · iexact H0
  isplitl [H1]; · iexact H1
  isplitl [H2]; · iexact H2
  isplitl [H3]; · iexact H3
  isplitl [H4]; · iexists _; iexact H4
  isplitl [S7]; · iexact S7
  isplitl [S8]; · iexact S8
  isplitl [S9]; · iexact S9
  iintro ⟨H0, H1, H2, H3, ⟨%f6, H4⟩, ⟨%f7, S7⟩, ⟨%f8, S8⟩, ⟨%f9, S9⟩⟩
  isplitl [S7 S8 S9 Hoth]
  · iexists (stateAfter m c (t.val + 1))
    isplitr; · ipureintro; exact fun _ => rfl
    isplitl [S7]
    · unfold owns; iexists _; isplitr; swap; · iexact S7
      ipureintro
      rw [stateAfter_succ, step_last m c t hA hB]
      dsimp only [afterLast]
      exact leavesLast7 c (grid2.coords t) (ms0 t) (hs0 t) (ms1 t) (hs1 t) (ms2 t) (hs2 t) (ms3 t) (hs3 t) (ms4 t) (hs4 t) sc7 (Memref.isWhole_whole _) sc8 (Memref.isWhole_whole _) sc9 (Memref.isWhole_whole _) hA hB (blockAt m c 0 t) (blockAt m c 1 t) (blockAt m c 2 t) (blockAt m c 3 t) (stateAfter m c t.val).1 (stateAfter m c t.val).2.1 (stateAfter m c t.val).2.2 f7
    isplitl [S8]
    · unfold owns; iexists _; isplitr; swap; · iexact S8
      ipureintro
      rw [stateAfter_succ, step_last m c t hA hB]
      dsimp only [afterLast]
      exact leavesLast8 c (grid2.coords t) (ms0 t) (hs0 t) (ms1 t) (hs1 t) (ms2 t) (hs2 t) (ms3 t) (hs3 t) (ms4 t) (hs4 t) sc7 (Memref.isWhole_whole _) sc8 (Memref.isWhole_whole _) sc9 (Memref.isWhole_whole _) hA hB (blockAt m c 0 t) (blockAt m c 1 t) (blockAt m c 2 t) (blockAt m c 3 t) (stateAfter m c t.val).1 (stateAfter m c t.val).2.1 (stateAfter m c t.val).2.2 f8
    isplitl [S9]
    · unfold owns; iexists _; isplitr; swap; · iexact S9
      ipureintro
      rw [stateAfter_succ, step_last m c t hA hB]
      dsimp only [afterLast]
      exact leavesLast9 c (grid2.coords t) (ms0 t) (hs0 t) (ms1 t) (hs1 t) (ms2 t) (hs2 t) (ms3 t) (hs3 t) (ms4 t) (hs4 t) sc7 (Memref.isWhole_whole _) sc8 (Memref.isWhole_whole _) sc9 (Memref.isWhole_whole _) hA hB (blockAt m c 0 t) (blockAt m c 1 t) (blockAt m c 2 t) (blockAt m c 3 t) (stateAfter m c t.val).1 (stateAfter m c t.val).2.1 (stateAfter m c t.val).2.2 f9
    iexact Hoth
  isplitl [Ho]; · iexact Ho
  isplitl [H0]; · iexact H0
  isplitl [H1]; · iexact H1
  isplitl [H2]; · iexact H2
  isplitl [H3]; · iexact H3
  unfold owns; iexists _; isplitr; swap; · iexact H4
  ipureintro
  rw [outAt_last m c t hA hB]
  dsimp only [outLast]
  exact leavesLast6 c (grid2.coords t) (ms0 t) (hs0 t) (ms1 t) (hs1 t) (ms2 t) (hs2 t) (ms3 t) (hs3 t) (ms4 t) (hs4 t) sc7 (Memref.isWhole_whole _) sc8 (Memref.isWhole_whole _) sc9 (Memref.isWhole_whole _) hA hB (blockAt m c 0 t) (blockAt m c 1 t) (blockAt m c 2 t) (blockAt m c 3 t) (stateAfter m c t.val).1 (stateAfter m c t.val).2.1 (stateAfter m c t.val).2.2 f6

/-- The body at any point: it is a first tile, a last tile, or neither. -/
theorem sound_body (c : Dev nD) (t : Fin cfg2.N) :
    bodyPre m c t ⊢ wp frame (wpE (defs₀ (F := F)) Variants.none c none) Set.univ (bodyAt2 t) (fun _ => bodyPost m c t) := by
  by_cases hA : atFirstTile (grid2.coords t)
  · exact sound_first m c t hA
  · by_cases hB : atLastTile (grid2.coords t)
    · exact sound_last m c t hA hB
    · exact sound_middle m c t hA hB

/-- The body obligation of the third call, at every point. -/
theorem body_obligation (c : Dev nD) : BodyObligation (dat2 (F := F) m c) (defs₀ (F := F)) Variants.none () Set.univ := fun t => by
  rw [bigSep_W2, bigSep_W2]
  exact sound_body m c t

/-! ## The call as a segment of the program -/

section Record

variable (ρ : Dev nD → PrngReg)
variable (L : GSem nD τ sig → Finset Unit) (lv : GSem nD τ sig → Unit → ℕ)

/-- What the third call leaves in the result's buffer. -/
abbrev out_final (c : Dev nD) : Buf (Elt F) ((c : Thread nD τ).loc main_v2) := (dat2 m c).arrAt 4 cfg2.N

/-- The unscoped buffers after the third call: the result written too. -/
abbrev W3 (c : Dev nD) : Valuation τ sig (Elt F) := Function.update (W2 m c) main_v2 (out_final m c)

theorem W3_eq_W2 (c : Dev nD) (b : DevRef τ sig) (h : b ≠ Proc.devRef .tc main_v2) : W3 m c b = W2 m c b :=
  Function.update_of_ne h _ _

/-- Each window's array after the last point is what the valuation after the call holds there: the four inputs as the
    call found them, the result as written. -/
theorem final_arrays (c : Dev nD) (w : Fin cfg2.W) : (dat2 m c).arrAt w cfg2.N = W3 m c (Pipeline.arrRef spec2 w) := by
  match w with
  | ⟨0, _⟩ => exact ((dat2 m c).arrAt_in 0 rfl _).trans ((dat2_A m c 0).trans (W3_eq_W2 m c (Proc.devRef .tc main_v0) (by decide)).symm)
  | ⟨1, _⟩ => exact ((dat2 m c).arrAt_in 1 rfl _).trans ((dat2_A m c 1).trans (W3_eq_W2 m c (Proc.devRef .tc main_v1_0) (by decide)).symm)
  | ⟨2, _⟩ => exact ((dat2 m c).arrAt_in 2 rfl _).trans ((dat2_A m c 2).trans (W3_eq_W2 m c (Proc.devRef .tc main_v1_1) (by decide)).symm)
  | ⟨3, _⟩ => exact ((dat2 m c).arrAt_in 3 rfl _).trans ((dat2_A m c 3).trans (W3_eq_W2 m c (Proc.devRef .tc main_arg2) (by decide)).symm)
  | ⟨4, _⟩ => exact (Function.update_self (Proc.devRef .tc main_v2 : DevRef τ sig) (out_final m c) (W2 m c)).symm

/-- The unscoped buffers that are no array of this call do not see the update of the result. -/
theorem rest_unchanged (c : Dev nD) :
    (Pipeline.unscopedRest (Ix := Unit) (Name := ℕ) (U := UR sig nD τ) (Lvl := ℕ) (Pipeline.pin (pcfgs (F := F)) adm 2).spec c (fun b => W3 m c b) : sProp 𝕄)
      = Pipeline.unscopedRest (Ix := Unit) (Name := ℕ) (U := UR sig nD τ) (Lvl := ℕ) spec2 c (fun b => W2 m c b) := by
  show (Pipeline.unscopedRest (Ix := Unit) (Name := ℕ) (U := UR sig nD τ) (Lvl := ℕ) spec2 c (fun b => W3 m c b) : sProp 𝕄) = _
  rw [unscopedRest2_eq, unscopedRest2_eq]
  simp only [W3_eq_W2 m c (Proc.devRef .tc main_arg0) (by decide), W3_eq_W2 m c (Proc.devRef .tc main_arg1) (by decide),
    W3_eq_W2 m c (Proc.devRef .tc main_arg3) (by decide), W3_eq_W2 m c (Proc.devRef .tc main_arg4) (by decide),
    W3_eq_W2 m c (Proc.devRef .tc main_arg5) (by decide)]

/-- The third call's invariant (the proof data opened). -/
theorem inv_eq (c : Dev nD) (t : Fin (cfg2.N + 1)) : (family m (dat1 m) (dat2 m) 2 c).Φ t = inv m c t.val := by
  dsimp only [family, dat2]

/-- Before the first point nothing is known of the running arrays: the scoped buffers the call does not stage, each at
    some contents, are the invariant there. -/
theorem inv_zero (c : Dev nD) :
    (Pipeline.scopedRest (Ix := Unit) (Name := ℕ) (U := UR sig nD τ) (Lvl := ℕ) (Val := Elt F) (Pipeline.pin (pcfgs (F := F)) adm 2).spec c : sProp 𝕄)
      ⊢ inv m c 0 := by
  show (Pipeline.scopedRest (Ix := Unit) (Name := ℕ) (U := UR sig nD τ) (Lvl := ℕ) (Val := Elt F) spec2 c : sProp 𝕄) ⊢ _
  rw [scopedRest2_eq]
  unfold inv others
  simp only [owns_whole]
  iintro ⟨O1, O2, O3, O4, O5, O6, O7, O8, O9, O10, O11, O12, O13, ⟨%f7, S7⟩, ⟨%f8, S8⟩, ⟨%f9, S9⟩⟩
  iexists ((f7 : Vec F S1x2048 .f32), (f8 : Vec F S1x2048 .f32), (f9 : Vec F S2048x256 .f32))
  isplitr; · ipureintro; exact fun h => absurd rfl h
  isplitl [S7]; · iexact S7
  isplitl [S8]; · iexact S8
  isplitl [S9]; · iexact S9
  isplitl [O1]; · iexact O1
  isplitl [O2]; · iexact O2
  isplitl [O3]; · iexact O3
  isplitl [O4]; · iexact O4
  isplitl [O5]; · iexact O5
  isplitl [O6]; · iexact O6
  isplitl [O7]; · iexact O7
  isplitl [O8]; · iexact O8
  isplitl [O9]; · iexact O9
  isplitl [O10]; · iexact O10
  isplitl [O11]; · iexact O11
  isplitl [O12]; · iexact O12
  iexact O13

/-- After the last point the invariant gives those scoped buffers back, what the running arrays hold forgotten. -/
theorem inv_last (c : Dev nD) (n : ℕ) :
    inv m c n ⊢ (Pipeline.scopedRest (Ix := Unit) (Name := ℕ) (U := UR sig nD τ) (Lvl := ℕ) (Val := Elt F) (Pipeline.pin (pcfgs (F := F)) adm 2).spec c : sProp 𝕄) := by
  show _ ⊢ (Pipeline.scopedRest (Ix := Unit) (Name := ℕ) (U := UR sig nD τ) (Lvl := ℕ) (Val := Elt F) spec2 c : sProp 𝕄)
  rw [scopedRest2_eq]
  unfold inv others
  simp only [owns_whole]
  iintro ⟨%s, -, S7, S8, S9, O1, O2, O3, O4, O5, O6, O7, O8, O9, O10, O11, O12, O13⟩
  isplitl [O1]; · iexact O1
  isplitl [O2]; · iexact O2
  isplitl [O3]; · iexact O3
  isplitl [O4]; · iexact O4
  isplitl [O5]; · iexact O5
  isplitl [O6]; · iexact O6
  isplitl [O7]; · iexact O7
  isplitl [O8]; · iexact O8
  isplitl [O9]; · iexact O9
  isplitl [O10]; · iexact O10
  isplitl [O11]; · iexact O11
  isplitl [O12]; · iexact O12
  isplitl [O13]; · iexact O13
  isplitl [S7]; · iexists _; iexact S7
  isplitl [S8]; · iexists _; iexact S8
  iexists _; iexact S9

/-- The invariant after the last point gives the scoped buffers back. -/
theorem seg2_hout (c : Dev nD) : (family m (dat1 m) (dat2 m) 2 c).Φ (Fin.last (Pipeline.pin (pcfgs (F := F)) adm 2).N)
    ⊢ (iprop(emp ∗ Pipeline.ownSems0 (Ix := Unit) (Name := ℕ) (U := UR sig nD τ) (Lvl := ℕ) (Val := Elt F) (τ := τ) (fun k : PEmpty => k.elim) c
        ∗ Pipeline.scopedRest (Ix := Unit) (Name := ℕ) (U := UR sig nD τ) (Lvl := ℕ) (Val := Elt F) (Pipeline.pin (pcfgs (F := F)) adm 2).spec c) : sProp 𝕄) := by
  rw [Pipeline.ownSems0_none, inv_eq]
  show _ ⊢ (iprop(emp ∗ emp ∗ Pipeline.scopedRest (Ix := Unit) (Name := ℕ) (U := UR sig nD τ) (Lvl := ℕ) (Val := Elt F) spec2 c) : sProp 𝕄)
  rw [scopedRest2_eq]
  unfold inv others
  simp only [owns_whole]
  iintro ⟨%s, -, S7, S8, S9, O1, O2, O3, O4, O5, O6, O7, O8, O9, O10, O11, O12, O13⟩
  isplitr; · iempintro
  isplitr; · iempintro
  isplitl [O1]; · iexact O1
  isplitl [O2]; · iexact O2
  isplitl [O3]; · iexact O3
  isplitl [O4]; · iexact O4
  isplitl [O5]; · iexact O5
  isplitl [O6]; · iexact O6
  isplitl [O7]; · iexact O7
  isplitl [O8]; · iexact O8
  isplitl [O9]; · iexact O9
  isplitl [O10]; · iexact O10
  isplitl [O11]; · iexact O11
  isplitl [O12]; · iexact O12
  isplitl [O13]; · iexact O13
  isplitl [S7]; · iexists _; iexact S7
  isplitl [S8]; · iexists _; iexact S8
  iexists _; iexact S9

/-- The arrays as the last point leaves them, and what bypassed the call, are the thread state after it. -/
theorem seg2_hexit (c : Dev nD) :
    (iprop((family m (dat1 m) (dat2 m) 2 c).arrays ((family m (dat1 m) (dat2 m) 2 c).arrAt · (Pipeline.pin (pcfgs (F := F)) adm 2).N)
        ∗ (family m (dat1 m) (dat2 m) 2 c).owesAt () (Fin.last (Pipeline.pin (pcfgs (F := F)) adm 2).N) ∗ emp
        ∗ (Pipeline.unscopedRest (Ix := Unit) (Name := ℕ) (U := UR sig nD τ) (Lvl := ℕ) spec2 c (fun b => W2 m c b) ∗ rides ρ c)) : sProp 𝕄)
      ⊢ |={Set.univ}=> iprop(StableHlo.held (c : Thread nD τ) (Pipeline.ucRefs τ sig) (W3 m c) ∗ between ρ c) := by
  rw [← Pipeline.unscopedBufs_held (Ix := Unit) (Name := ℕ) (U := UR sig nD τ) (Lvl := ℕ) c (W3 m c),
    Pipeline.unscopedBufs_split (Pipeline.pin (pcfgs (F := F)) adm) 2 launch2.win.arr_unscoped launch2.win.arr_inj c (fun b => W3 m c b),
    Pipeline.arrays_eq (Pipeline.pin (pcfgs (F := F)) adm) (family m (dat1 m) (dat2 m)) 2 c launch2.arr_whole ((family m (dat1 m) (dat2 m) 2 c).share_full fun _ => rfl),
    rest_unchanged]
  unfold between
  iintro ⟨Ha, HO, -, Hrest, Hr⟩
  imodintro
  isplitl [Ha Hrest]
  · isplitl [Ha]
    · iapply (Entails.of_eq (bigSep_congr fun w _ => congrArg (fun f => (_ ↦{fullShare} f : sProp 𝕄)) (final_arrays m c w)))
      iexact Ha
    · iexact Hrest
  isplitl [Hr]; · iexact Hr
  unfold Pipeline.Dat.owesAt Pipeline.owesWithin
  icases HO with ⟨%W, -, HO⟩
  iexists W
  iexact HO

/-- THE THIRD CALL as a segment: entered with `Q`, `K` and `V` written, left with the result written too. -/
def seg2 : RegionSeg (pcfgs (F := F)) adm (family m (dat1 m) (dat2 m)) () defs₀ Variants.none L lv 2 where
  win := launch2.win.to₀
  block_pos := launch2.block_pos
  stage_whole := launch2.stage_whole
  K := PEmpty
  osem k := k.elim
  ho := Pipeline.OwnSemFacts.none _
  hbody c := (body_obligation m c).loose
  hwaits c := Pipeline.hwaits_of_owed_zero (pcfgs (F := F)) adm (family m (dat1 m) (dat2 m)) () L lv 2 (fun _ _ => rfl) c
  pre c := iprop(StableHlo.held (c : Thread nD τ) (Pipeline.ucRefs τ sig) (W2 m c) ∗ between ρ c)
  post c := iprop(StableHlo.held (c : Thread nD τ) (Pipeline.ucRefs τ sig) (W3 m c) ∗ between ρ c)
  X _ := iprop(emp)
  Y _ := iprop(emp)
  Z c := iprop(Pipeline.unscopedRest (Ix := Unit) (Name := ℕ) (U := UR sig nD τ) (Lvl := ℕ) spec2 c (fun b => W2 m c b) ∗ rides ρ c)
  hentry c := by
    rw [Pipeline.ownSems0_none, ← Pipeline.unscopedBufs_held (Ix := Unit) (Name := ℕ) (U := UR sig nD τ) (Lvl := ℕ) c (W2 m c)]
    have hsplit := Pipeline.arrays_of_unscopedBufs (pcfgs (F := F)) adm (family m (dat1 m) (dat2 m)) (p := 2) launch2.win launch2.arr_whole c
      ((family m (dat1 m) (dat2 m) 2 c).share_full fun _ => rfl) (fun b => W2 m c b) (dat2_A m c)
    unfold between
    iintro ⟨⟨Hub, Hr, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩
      iexists W; isplitr; · ipureintro; exact fun _ _ => Or.inl trivial
      iexact HO
    isplitr; · iempintro
    isplitl [Hrest] <;> iassumption
  hin c := by
    rw [inv_eq]
    iintro ⟨-, -, H⟩
    iapply (inv_zero m c)
    iexact H
  hout c := seg2_hout m c
  hexit c := seg2_hexit m ρ c

end Record

end Cert.KernelIdeal.Region2

end
-- ==== Proof.KIFrame.lean ====
/-
  The idealized kernel's frame. The program is three calls in a row. Each is a segment entered from the thread state
  the one before left: the unscoped buffers held at a valuation — as launched; then with `Q` written; then with `K` and
  `V` written too; then with the result written — beside what rides along untouched (the unscoped semaphores, the
  launch's credit, the generator's register, a core that owes nothing). No call writes an argument, so at the end every
  argument's buffer holds what it was launched with.
-/
import proofs.«127266_j31533649887507_2_alg».proof.Proof.KIRegion2
import proofs.«127266_j31533649887507_2_alg».proof.Proof.Gen.KernelIdeal.Regions

set_option maxRecDepth 16384

noncomputable section

namespace Cert.KernelIdeal.FrameProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)
open Cert.KernelIdeal.Region0 (family rides between W0 W1 seg0 q_final)
open Cert.KernelIdeal.Region1 (W2 dat1 seg1 k_final v_final)
open Cert.KernelIdeal.Region2 (W3 dat2 seg2 out_final)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- No cell carries a level: no call waits on anything but its own staging transfers. -/
abbrev noLevels : GSem nD τ sig → Finset Unit := fun _ => ∅
abbrev level0 : GSem nD τ sig → Unit → ℕ := fun _ _ => 0

/-- What the buffers hold after each call, as one table. -/
def leaves : Outs (F := F) := fun J r c =>
  match J with
  | 1 => W1 m c r
  | 2 => W2 m c r
  | 3 => W3 m c r
  | _ => W0 m c r

/-- The valuations between the calls are the ones the three segments are stated over. -/
theorem V1_eq (c : Dev nD) : V1 m (leaves m) c = W1 m c := by
  show Function.update (W0 m c) (Proc.devRef .tc main_v0) (W1 m c (Proc.devRef .tc main_v0)) = W1 m c
  rw [show W1 m c (Proc.devRef .tc main_v0) = q_final m c from Function.update_self (Proc.devRef .tc main_v0 : DevRef τ sig) (q_final m c) (W0 m c)]
theorem V2_eq (c : Dev nD) : V2 m (leaves m) c = W2 m c := by
  show Function.update (Function.update (V1 m (leaves m) c) (Proc.devRef .tc main_v1_0) (W2 m c (Proc.devRef .tc main_v1_0)))
    (Proc.devRef .tc main_v1_1) (W2 m c (Proc.devRef .tc main_v1_1)) = W2 m c
  rw [V1_eq,
    show W2 m c (Proc.devRef .tc main_v1_1) = v_final m c from
      Function.update_self (Proc.devRef .tc main_v1_1 : DevRef τ sig) (v_final m c) (Function.update (W1 m c) main_v1_0 (k_final m c)),
    show W2 m c (Proc.devRef .tc main_v1_0) = k_final m c from
      (Function.update_of_ne (show (Proc.devRef .tc main_v1_0 : DevRef τ sig) ≠ Proc.devRef .tc main_v1_1 by decide) (v_final m c)
        (Function.update (W1 m c) main_v1_0 (k_final m c))).trans (Function.update_self (Proc.devRef .tc main_v1_0 : DevRef τ sig) (k_final m c) (W1 m c))]
theorem V3_eq (c : Dev nD) : V3 m (leaves m) c = W3 m c := by
  show Function.update (V2 m (leaves m) c) (Proc.devRef .tc main_v2) (W3 m c (Proc.devRef .tc main_v2)) = W3 m c
  rw [V2_eq, show W3 m c (Proc.devRef .tc main_v2) = out_final m c from
    Function.update_self (Proc.devRef .tc main_v2 : DevRef τ sig) (out_final m c) (W2 m c)]

/-- What the launch hands each core, besides its buffers, is what rides along. -/
theorem launch_rides (c : Dev nD) :
    (iprop(unscopedSems0 c ∗ owes (c : Thread nD τ) (0 : CellTallies nD τ sig Unit) ∅
        ∗ Pipeline.launchCred (fun _ : Dev nD => (0 : CellTallies nD τ sig Unit)) c ∗ prngReg c (ρ c) ∗ emp) : sProp 𝕄)
      ⊢ between ρ c := by
  unfold between rides
  iintro ⟨Hs, HO, Hc, Hp, -⟩
  isplitl [Hs Hc Hp]
  · isplitl [Hs]; · iexact Hs
    isplitl [Hc]; · iexact Hc
    iexact Hp
  iexists ∅; iexact HO

set_option maxHeartbeats 1000000 in
/-- THE FRAME of the idealized kernel, at any float instance: every weakly fair execution from memory `m` with zero
    counters terminates, and every final memory holds each of the six arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_cond (F := F) m (Ix := Unit) (U := UR sig nD τ) (Lvl := ℕ) (EP := emb₁) (ι := ()) (𝒱₀ := Variants.none)
    (L := noLevels) (lv := level0) (hL := fun _ _ => rfl) (ρ := ρ) (outs := leaves m)
    (pdats := family m (dat1 m) (dat2 m)) (O₀ := fun _ => 0) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => between ρ c)
    (hE0 := by
      iintro ⟨H, -⟩
      imodintro
      iapply (show ((bigSep Finset.univ fun c : Dev nD => iprop(unscopedSems0 c ∗ owes (c : Thread nD τ) (0 : CellTallies nD τ sig Unit) ∅
            ∗ Pipeline.launchCred (fun _ : Dev nD => (0 : CellTallies nD τ sig Unit)) c ∗ prngReg c (ρ c) ∗ emp)) : sProp 𝕄)
          ⊢ bigSep Finset.univ (fun c : Dev nD => between ρ c) from bigSep_mono fun c _ => launch_rides ρ c)
      iexact H)
    (hE3 := fun c => by
      unfold between
      iintro ⟨-, H⟩
      iexact H)
    (R0 := seg0 m ρ noLevels level0 (dat1 m) (dat2 m)) (hpre0 := fun c => .rfl) (hpost0 := fun c => by rw [V1_eq]; exact .rfl)
    (R1 := seg1 m ρ noLevels level0 (dat2 m)) (hpre1 := fun c => by rw [V1_eq]; exact .rfl) (hpost1 := fun c => by rw [V2_eq]; exact .rfl)
    (R2 := seg2 m ρ noLevels level0) (hpre2 := fun c => by rw [V2_eq]; exact .rfl) (hpost2 := fun c => by rw [V3_eq]; exact .rfl)

end Cert.KernelIdeal.FrameProof

end
-- ==== Proof.KWRegion0.lean ====
/-
  The first call: `Q = Y · W_q`, one block of 1024 rows of `Y` at each of four grid points against the whole of `W_q`.
  The body reads its two input blocks whole, reads the output block it is about to overwrite (a value it never uses),
  and stores the product, rounded to the output's format, over the whole output block. So after the body the two
  input buffers hold what they held, and the output buffer holds that one stored value, whatever it held before.
-/
import proofs.«127266_j31533649887507_2_alg».proof.Proof.Gen.Kernel.Skeleton
import proofs.«127266_j31533649887507_2_alg».proof.Proof.Gen.Kernel.Launch
import proofs.«127266_j31533649887507_2_alg».proof.Proof.Gen.Kernel.Points
import Idealize.ShloMosaic.Lib.Pipeline.Kit
import Idealize.ShloMosaic.Lib.Pipeline.Frame
import Idealize.ShloMosaic.Lib.Pipeline.FrameBody
import Idealize.ShloMosaic.Lib.Pipeline.Regions
import Idealize.ShloMosaic.Lib.Tactic

set_option maxRecDepth 16384

noncomputable section

namespace Cert.Kernel.Region0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole output block, as the rectangle the body's one store writes. -/
abbrev whole_out : Rect S1024x64 := Rect.unit (s := S1024x64) ![0, 0] S1024x64.size inb_S1024x64_S1024x64_0_0
/-- The whole block of rows of `Y`, and the whole of `W_q`, as the rectangles the body's loads read. -/
abbrev whole_rows : Rect S1024x512 := Rect.unit (s := S1024x512) ![0, 0] S1024x512.size inb_S1024x512_S1024x512_0_0
abbrev whole_w : Rect S512x64 := Rect.unit (s := S512x64) ![0, 0] S512x64.size inb_S512x64_S512x64_0_0

/-- What the output buffer holds after the body, from the two input blocks: the product of the rows with the weights,
    stored once over the whole block. -/
def proj_block (y : Vec F S1024x512 .f32) (w : Vec F S512x64 .f32) : Vec F S1024x64 .bf16 :=
  View.canon [⟨whole_out, k0_pay1 (View.ld y whole_rows) (View.ld w whole_w)⟩]

/-- The one store covers the output block. -/
theorem store_covers (p : Vec F S1024x64 .bf16) (j : S1024x64.Idx) :
    ∃ pc ∈ ([⟨whole_out, p⟩] : List (View.Piece (Elt F) S1024x64 .bf16)), j ∈ pc.1.set :=
  View.cover_of_tiled [⟨whole_out, p⟩] S1024x64.size (by rfl) j

set_option maxHeartbeats 1000000 in
/-- The body, run on whole staging buffers holding the input blocks `y` and `w` and an output buffer holding anything:
    it ends with the inputs as they were and the output at `proj_block y w`. -/
theorem body_triple (c : Dev nD) (E : Set ℕ) (i : grid0.Coords)
    (arg1 : Memref sig .tc .vmem S1024x512 .f32) (harg1 : arg1.IsWhole) (arg2 : Memref sig .tc .vmem S512x64 .f32) (harg2 : arg2.IsWhole)
    (arg3 : Memref sig .tc .vmem S1024x64 .bf16) (harg3 : arg3.IsWhole)
    (y : Vec F S1024x512 .f32) (w : Vec F S512x64 .f32) (K : PUnit → sProp 𝕄) :
    iprop(owns (c : Thread nD τ) arg1 fullShare y ∗ owns (c : Thread nD τ) arg2 fullShare w ∗ (∃ d, owns (c : Thread nD τ) arg3 fullShare d)
        ∗ (iprop(owns (c : Thread nD τ) arg1 fullShare y ∗ owns (c : Thread nD τ) arg2 fullShare w ∗ owns (c : Thread nD τ) arg3 fullShare (proj_block y w)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f1, %hf1, H1⟩, ⟨%f2, %hf2, H2⟩, ⟨%d3, %f3, -, H3⟩, Hk⟩
  subst hf1 hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (store_covers _)

/-! ## The call at a grid point -/

variable (m : (ℓ : Loc nD τ sig) → Buf (Elt F) ℓ)

/-- The first call finds every array as launched. -/
abbrev atEntry (c : Dev nD) (b : Ref sig .tc) : Buf (Elt F) ((c : Thread nD τ).loc b) := m ((c : Thread nD τ).loc b)

/-- A window's block at point `t`, read off its array: rows `1024 t … 1024 t + 1023` of `Y` for the first window, the
    whole of `W_q` for the second. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- The rows' staging buffer holds the point's block of rows when the body starts, whether or not it was fetched at
    this point, for any proof data over the launch contents whose body leaves that block in place. -/
theorem rows_found {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The weights' staging buffer holds the whole of `W_q` when the body starts: it is fetched at the first point only,
    and its block index never moves. -/
theorem weights_found {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- The call's proof data on core `c`: the arrays as launched; after the body at point `t` the two input buffers at
    their blocks and the output buffer at the product of the two; the invariant is the scoped buffers this call does not
    stage, untouched; nothing owed; full shares. -/
def dat0 (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => proj_block (blockAt m c 0 t) (blockAt m c 1 t)
  Φ _ := Pipeline.scopedRest (Ix := Unit) (Name := ℕ) (U := UR sig nD τ) (Lvl := ℕ) (Val := Elt F) spec0 c
  q _ := fullShare
  owed _ := 0

theorem dat0_A (c : Dev nD) (w : Fin cfg0.W) : (dat0 m c).A w = atEntry m c (Pipeline.arrRef spec0 w) := by
  dsimp only [dat0]

theorem after_rows (c : Dev nD) (t : Fin cfg0.N) : (dat0 m c).after 0 t = blockAt m c 0 t := by dsimp only [dat0]
theorem after_weights (c : Dev nD) (t : Fin cfg0.N) : (dat0 m c).after 1 t = blockAt m c 1 t := by dsimp only [dat0]
theorem after_out (c : Dev nD) (t : Fin cfg0.N) :
    (dat0 m c).after 2 t = proj_block (blockAt m c 0 t) (blockAt m c 1 t) := by dsimp only [dat0]

theorem before_rows (c : Dev nD) (t : Fin cfg0.N) (d) : (dat0 m c).before 0 t d = blockAt m c 0 t :=
  rows_found m (dat0 m c) (dat0_A m c 0) (after_rows m c) t d
theorem before_weights (c : Dev nD) (t : Fin cfg0.N) (d) : (dat0 m c).before 1 t d = blockAt m c 1 t :=
  weights_found m (dat0 m c) (dat0_A m c 1) (after_weights m c) t d

/-- What the body is called with at point `t`, -/
def bodyPre (c : Dev nD) (t : Fin cfg0.N) : sProp 𝕄 :=
  iprop((dat0 m c).Φ t.castSucc ∗ (dat0 m c).owesAt () t.castSucc
    ∗ (∃ d, owns (c : Thread nD τ) (st0_0 t) fullShare ((dat0 m c).before 0 t d))
    ∗ (∃ d, owns (c : Thread nD τ) (st0_1 t) fullShare ((dat0 m c).before 1 t d))
    ∗ (∃ d, owns (c : Thread nD τ) (st0_2 t) fullShare ((dat0 m c).before 2 t d)))

/-- and what it returns. -/
def bodyPost (c : Dev nD) (t : Fin cfg0.N) : sProp 𝕄 :=
  iprop((dat0 m c).Φ t.succ ∗ (dat0 m c).owesAt () t.succ
    ∗ owns (c : Thread nD τ) (st0_0 t) fullShare ((dat0 m c).after 0 t)
    ∗ owns (c : Thread nD τ) (st0_1 t) fullShare ((dat0 m c).after 1 t)
    ∗ owns (c : Thread nD τ) (st0_2 t) fullShare ((dat0 m c).after 2 t))

/-- The body at any point: the input buffers hold their blocks, so the body's triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_rows, before_weights]
  rw [show (dat0 m c).Φ t.succ = (dat0 m c).Φ t.castSucc from rfl,
    show (dat0 m c).owesAt () t.succ = (dat0 m c).owesAt () t.castSucc from rfl,
    after_rows, after_weights, after_out]
  iintro ⟨HΦ, Ho, ⟨%d0, H0⟩, ⟨%d1, H1⟩, ⟨%d2, H2⟩⟩
  iapply (body_triple c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the first call, at every point. -/
theorem body_obligation (c : Dev nD) : BodyObligation (dat0 (F := F) m c) (defs₀ (F := F)) Variants.none () Set.univ := fun t => by
  rw [bigSep_W0, bigSep_W0]
  exact sound_body m c t

/-! ## The call as a segment of the program -/

section Record

open Idealize.ShloMosaic.Pipeline (RegionSeg)

variable (ρ : Dev nD → PrngReg)
variable (L : GSem nD τ sig → Finset Unit) (lv : GSem nD τ sig → Unit → ℕ)
-- the proof data of the two later calls: not this module's business, only that the family has them
variable (d1 : (c : Dev nD) → Dat τ (Elt F) Unit ℕ (UR sig nD τ) ℕ cfg1 c) (d2 : (c : Dev nD) → Dat τ (Elt F) Unit ℕ (UR sig nD τ) ℕ cfg2 c)

/-- The three calls' proof data as one family. -/
def family : (p : Fin 3) → (c : Dev nD) → Dat τ (Elt F) Unit ℕ (UR sig nD τ) ℕ (cfgs p) c
  | ⟨0, _⟩ => dat0 m
  | ⟨1, _⟩ => d1
  | ⟨2, _⟩ => d2

abbrev adm : (p : Fin 3) → (pcfgs (F := F) p).Adm := fun p => (cfgs p).toPCfg_adm

/-- What rides beside the unscoped buffers from the launch to the end: the unscoped semaphores at zero, the launch's
    credit, the generator's register, and a core that owes nothing. -/
def rides (c : Dev nD) : sProp 𝕄 :=
  iprop(unscopedSems0 c ∗ Pipeline.launchCred (fun _ : Dev nD => (0 : CellTallies nD τ sig Unit)) c ∗ prngReg c (ρ c))

def between (c : Dev nD) : sProp 𝕄 := iprop(rides ρ c ∗ ∃ W, owes (c : Thread nD τ) (0 : CellTallies nD τ sig Unit) W)

/-- What the first call leaves in `Q`'s buffer. -/
abbrev q_final (c : Dev nD) : Buf (Elt F) ((c : Thread nD τ).loc main_v0) := (dat0 m c).arrAt 2 cfg0.N

/-- The unscoped buffers before the first call (as launched) and after it (`Q` written). -/
abbrev W0 (c : Dev nD) : Valuation τ sig (Elt F) := fun b => m (c, b)
abbrev W1 (c : Dev nD) : Valuation τ sig (Elt F) := Function.update (W0 m c) main_v0 (q_final m c)

/-- The first call's invariant, at every point, is the scoped buffers it does not stage (the proof data opened). -/
theorem inv_eq (c : Dev nD) (t : Fin (cfg0.N + 1)) : (family m d1 d2 0 c).Φ t
    = Pipeline.scopedRest (Ix := Unit) (Name := ℕ) (U := UR sig nD τ) (Lvl := ℕ) (Val := Elt F) (Pipeline.pin (pcfgs (F := F)) adm 0).spec c := by
  dsimp only [family, dat0]
  rfl

/-- Each window's array after the last point is what the valuation after the call holds there: the two inputs as
    launched, `Q` as written. -/
theorem final_arrays (c : Dev nD) (w : Fin cfg0.W) :
    (dat0 m c).arrAt w cfg0.N = W1 m c (Pipeline.arrRef spec0 w) := by
  match w with
  | ⟨0, _⟩ =>
    exact ((dat0 m c).arrAt_in 0 rfl _).trans ((dat0_A m c 0).trans
      (Function.update_of_ne (show (Proc.devRef .tc main_arg1 : DevRef τ sig) ≠ Proc.devRef .tc main_v0 by decide) (q_final m c) (W0 m c)).symm)
  | ⟨1, _⟩ =>
    exact ((dat0 m c).arrAt_in 1 rfl _).trans ((dat0_A m c 1).trans
      (Function.update_of_ne (show (Proc.devRef .tc main_arg3 : DevRef τ sig) ≠ Proc.devRef .tc main_v0 by decide) (q_final m c) (W0 m c)).symm)
  | ⟨2, _⟩ => exact (Function.update_self (Proc.devRef .tc main_v0 : DevRef τ sig) (q_final m c) (W0 m c)).symm

/-- The unscoped buffers that are no array of this call do not see the update of `Q`. -/
theorem rest_unchanged (c : Dev nD) :
    (Pipeline.unscopedRest (Ix := Unit) (Name := ℕ) (U := UR sig nD τ) (Lvl := ℕ) (Pipeline.pin (pcfgs (F := F)) adm 0).spec c (fun b => W1 m c b) : sProp 𝕄)
      = Pipeline.unscopedRest (Ix := Unit) (Name := ℕ) (U := UR sig nD τ) (Lvl := ℕ) spec0 c (fun b => m ((c : Thread nD τ).loc b)) := by
  show (Pipeline.unscopedRest (Ix := Unit) (Name := ℕ) (U := UR sig nD τ) (Lvl := ℕ) spec0 c (fun b => W1 m c b) : sProp 𝕄) = _
  rw [unscopedRest0_eq, unscopedRest0_eq]
  simp only [W1, W0, Function.update_of_ne (show (Proc.devRef .tc main_arg0 : DevRef τ sig) ≠ Proc.devRef .tc main_v0 by decide),
    Function.update_of_ne (show (Proc.devRef .tc main_arg2 : DevRef τ sig) ≠ Proc.devRef .tc main_v0 by decide),
    Function.update_of_ne (show (Proc.devRef .tc main_arg4 : DevRef τ sig) ≠ Proc.devRef .tc main_v0 by decide),
    Function.update_of_ne (show (Proc.devRef .tc main_arg5 : DevRef τ sig) ≠ Proc.devRef .tc main_v0 by decide),
    Function.update_of_ne (show (Proc.devRef .tc main_v1_0 : DevRef τ sig) ≠ Proc.devRef .tc main_v0 by decide),
    Function.update_of_ne (show (Proc.devRef .tc main_v1_1 : DevRef τ sig) ≠ Proc.devRef .tc main_v0 by decide),
    Function.update_of_ne (show (Proc.devRef .tc main_v2 : DevRef τ sig) ≠ Proc.devRef .tc main_v0 by decide)]

/-- THE FIRST CALL as a segment: entered from the launch's thread state, left with `Q` written and everything else as
    it was. -/
def seg0 : RegionSeg (pcfgs (F := F)) adm (family m d1 d2) () defs₀ Variants.none L lv 0 where
  win := launch0.win.to₀
  block_pos := launch0.block_pos
  stage_whole := launch0.stage_whole
  K := PEmpty
  osem k := k.elim
  ho := Pipeline.OwnSemFacts.none _
  hbody c := (body_obligation m c).loose
  hwaits c := Pipeline.hwaits_of_owed_zero (pcfgs (F := F)) adm (family m d1 d2) () L lv 0 (fun _ _ => rfl) c
  pre c := iprop(StableHlo.held (c : Thread nD τ) (Pipeline.ucRefs τ sig) (W0 m c) ∗ between ρ c)
  post c := iprop(StableHlo.held (c : Thread nD τ) (Pipeline.ucRefs τ sig) (W1 m c) ∗ between ρ c)
  X _ := iprop(emp)
  Y _ := iprop(emp)
  Z c := iprop(Pipeline.unscopedRest (Ix := Unit) (Name := ℕ) (U := UR sig nD τ) (Lvl := ℕ) spec0 c (fun b => m ((c : Thread nD τ).loc b)) ∗ rides ρ c)
  hentry c := by
    rw [Pipeline.ownSems0_none, ← Pipeline.unscopedBufs_held (Ix := Unit) (Name := ℕ) (U := UR sig nD τ) (Lvl := ℕ) c (W0 m c)]
    have hsplit := Pipeline.arrays_of_unscopedBufs (pcfgs (F := F)) adm (family m d1 d2) (p := 0) launch0.win launch0.arr_whole c
      ((family m d1 d2 0 c).share_full fun _ => rfl) (fun b => m ((c : Thread nD τ).loc b)) fun _ => rfl
    unfold between
    iintro ⟨⟨Hub, Hr, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩
      iexists W; isplitr; · ipureintro; exact fun _ _ => Or.inl trivial
      iexact HO
    isplitr; · iempintro
    isplitl [Hrest] <;> iassumption
  hin c := by
    rw [inv_eq]
    iintro ⟨-, -, H⟩
    iexact H
  hout c := by
    rw [Pipeline.ownSems0_none, inv_eq]
    iintro H
    isplitr; · iempintro
    isplitr; · iempintro
    iexact H
  hexit c := by
    rw [← Pipeline.unscopedBufs_held (Ix := Unit) (Name := ℕ) (U := UR sig nD τ) (Lvl := ℕ) c (W1 m c),
      Pipeline.unscopedBufs_split (Pipeline.pin (pcfgs (F := F)) adm) 0 launch0.win.arr_unscoped launch0.win.arr_inj c (fun b => W1 m c b),
      Pipeline.arrays_eq (Pipeline.pin (pcfgs (F := F)) adm) (family m d1 d2) 0 c launch0.arr_whole ((family m d1 d2 0 c).share_full fun _ => rfl),
      rest_unchanged]
    unfold between
    iintro ⟨Ha, HO, -, Hrest, Hr⟩
    imodintro
    isplitl [Ha Hrest]
    · isplitl [Ha]
      · iapply (Entails.of_eq (bigSep_congr fun w _ => congrArg (fun f => (_ ↦{fullShare} f : sProp 𝕄)) (final_arrays m c w)))
        iexact Ha
      · iexact Hrest
    isplitl [Hr]; · iexact Hr
    unfold Pipeline.Dat.owesAt Pipeline.owesWithin
    icases HO with ⟨%W, -, HO⟩
    iexists W
    iexact HO

end Record

end Cert.Kernel.Region0

end
-- ==== Proof.KWRegion1.lean ====
/-
  The second call: `K = X · W_k` and `V = X · W_v`, one block of 1024 rows of `X` at each of eight grid points against
  the whole of `W_k` and the whole of `W_v`. The body reads its three input blocks whole, then, for each of its two
  outputs in turn, reads the output block it is about to overwrite (a value it never uses) and stores the product over
  the whole block. After the body the three input buffers hold what they held, and each output buffer holds its one
  stored value. Nothing this call reads was written by the first call, so it finds its arrays as launched.
-/
import proofs.«127266_j31533649887507_2_alg».proof.Proof.KWRegion0

set_option maxRecDepth 16384

noncomputable section

namespace Cert.Kernel.Region1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)
open Cert.Kernel.Region0 (family adm rides between W0 W1 q_final)

variable {F : FTy → Type} [FloatOps F]

local notation "𝕄" => MT nD τ sig Unit (Elt F) ℕ (UR sig nD τ) ℕ

/-- The whole blocks, as the rectangles the body's loads and stores go through. -/
abbrev whole_rows : Rect S1024x512 := Rect.unit (s := S1024x512) ![0, 0] S1024x512.size inb_S1024x512_S1024x512_0_0
abbrev whole_wk : Rect S512x64 := Rect.unit (s := S512x64) ![0, 0] S512x64.size inb_S512x64_S512x64_0_0
abbrev whole_wv : Rect S512x256 := Rect.unit (s := S512x256) ![0, 0] S512x256.size inb_S512x256_S512x256_0_0
abbrev whole_k : Rect S1024x64 := Rect.unit (s := S1024x64) ![0, 0] S1024x64.size inb_S1024x64_S1024x64_0_0
abbrev whole_v : Rect S1024x256 := Rect.unit (s := S1024x256) ![0, 0] S1024x256.size inb_S1024x256_S1024x256_0_0

/-- What the two output buffers hold after the body, from the input blocks: the rows times `W_k`, the rows times `W_v`. -/
def k_block (x : Vec F S1024x512 .f32) (wk : Vec F S512x64 .f32) : Vec F S1024x64 .bf16 :=
  View.canon [⟨whole_k, k1_pay2 (View.ld x whole_rows) (View.ld wk whole_wk)⟩]
def v_block (x : Vec F S1024x512 .f32) (wv : Vec F S512x256 .f32) : Vec F S1024x256 .bf16 :=
  View.canon [⟨whole_v, k1_pay3 (View.ld x whole_rows) (View.ld wv whole_wv)⟩]

theorem k_store_covers (p : Vec F S1024x64 .bf16) (j : S1024x64.Idx) :
    ∃ pc ∈ ([⟨whole_k, p⟩] : List (View.Piece (Elt F) S1024x64 .bf16)), j ∈ pc.1.set :=
  View.cover_of_tiled [⟨whole_k, p⟩] S1024x64.size (by rfl) j
theorem v_store_covers (p : Vec F S1024x256 .bf16) (j : S1024x256.Idx) :
    ∃ pc ∈ ([⟨whole_v, p⟩] : List (View.Piece (Elt F) S1024x256 .bf16)), j ∈ pc.1.set :=
  View.cover_of_tiled [⟨whole_v, p⟩] S1024x256.size (by rfl) j

set_option maxHeartbeats 1000000 in
/-- The body on whole staging buffers, the inputs at `x`, `wk`, `wv` and the outputs at anything: it ends with the inputs
    as they were and the outputs at `k_block x wk` and `v_block x wv`. -/
theorem body_triple (c : Dev nD) (E : Set ℕ) (i : grid1.Coords)
    (arg1 : Memref sig .tc .vmem S1024x512 .f32) (harg1 : arg1.IsWhole) (arg2 : Memref sig .tc .vmem S512x64 .f32) (harg2 : arg2.IsWhole)
    (arg3 : Memref sig .tc .vmem S512x256 .f32) (harg3 : arg3.IsWhole) (arg4 : Memref sig .tc .vmem S1024x64 .bf16) (harg4 : arg4.IsWhole)
    (arg5 : Memref sig .tc .vmem S1024x256 .bf16) (harg5 : arg5.IsWhole)
    (x : Vec F S1024x512 .f32) (wk : Vec F S512x64 .f32) (wv : Vec F S512x256 .f32) (K : PUnit → sProp 𝕄) :
    iprop(owns (c : Thread nD τ) arg1 fullShare x ∗ owns (c : Thread nD τ) arg2 fullShare wk ∗ owns (c : Thread nD τ) arg3 fullShare wv
        ∗ (∃ d, owns (c : Thread nD τ) arg4 fullShare d) ∗ (∃ d, owns (c : Thread nD τ) arg5 fullShare d)
        ∗ (iprop(owns (c : Thread nD τ) arg1 fullShare x ∗ owns (c : Thread nD τ) arg2 fullShare wk ∗ owns (c : Thread nD τ) arg3 fullShare wv
            ∗ owns (c : Thread nD τ) arg4 fullShare (k_block x wk) ∗ owns (c : Thread nD τ) arg5 fullShare (v_block x wv)) -∗ K ⟨⟩))
      ⊢ wp frame (wpE (defs₀ (F := F)) Variants.none c none) E (cc1__kv_proj_kernel i arg1 harg1 arg2 harg2 arg3 harg3 arg4 harg4 arg5 harg5) K := by
  simp only [cc1__kv_proj_kernel_eq_skeleton]; unfold cc1__kv_proj_kernel_skel
  unfold owns
  iintro ⟨⟨%f1, %hf1, H1⟩, ⟨%f2, %hf2, H2⟩, ⟨%f3, %hf3, H3⟩, ⟨%d4, %f4, -, H4⟩, ⟨%d5, %f5, -, H5⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (k_store_covers _)
  iexists _; isplitr
  swap; · iexact H5
  ipureintro
  exact View.read_writes_eq_canon _ _ _ (v_store_covers _)

/-! ## The call at a grid point -/

variable (m : (ℓ : Loc nD τ sig) → Buf (Elt F) ℓ)

/-- The arrays this call reads and writes, as launched (the first call wrote none of them). -/
abbrev asLaunched (c : Dev nD) (b : Ref sig .tc) : Buf (Elt F) ((c : Thread nD τ).loc b) := m ((c : Thread nD τ).loc b)

/-- A window's block at point `t`: rows `1024 t … 1024 t + 1023` of `X` for the first window, the whole of `W_k` and of
    `W_v` for the next two. -/
def blockAt (c : Dev nD) (w : Fin cfg1.W) (t : Fin cfg1.N) : ((cfg1.win w).xblock (cfg1.grid.coords t)).Idx → Elt F (cfg1.win w).elt :=
  ((cfg1.win w).blk t).view.read (Elt F) (asLaunched m c (Pipeline.arrRef spec1 w))

/-- Each input's staging buffer holds its block when the body starts, fetched at this point or not. -/
theorem rows_found {c : Dev nD} (dat : Dat τ (Elt F) Unit ℕ (UR sig nD τ) ℕ cfg1 c) (hA : dat.A 0 = asLaunched m c (Pipeline.arrRef spec1 0))
    (hafter : ∀ t, dat.after 0 t = blockAt m c 0 t) (t : Fin cfg1.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem wk_found {c : Dev nD} (dat : Dat τ (Elt F) Unit ℕ (UR sig nD τ) ℕ cfg1 c) (hA : dat.A 1 = asLaunched m c (Pipeline.arrRef spec1 1))
    (hafter : ∀ t, dat.after 1 t = blockAt m c 1 t) (t : Fin cfg1.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem wv_found {c : Dev nD} (dat : Dat τ (Elt F) Unit ℕ (UR sig nD τ) ℕ cfg1 c) (hA : dat.A 2 = asLaunched m c (Pipeline.arrRef spec1 2))
    (hafter : ∀ t, dat.after 2 t = blockAt m c 2 t) (t : Fin cfg1.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- The call's proof data on core `c`: the arrays as launched; after the body at point `t` the three input buffers at
    their blocks, the two output buffers at the two products; the invariant is the scoped buffers this call does not
    stage, untouched; nothing owed; full shares. -/
def dat1 (c : Dev nD) : Dat τ (Elt F) Unit ℕ (UR sig nD τ) ℕ cfg1 c where
  A w := asLaunched m c (Pipeline.arrRef spec1 w)
  after w t := match w with
    | ⟨0, _⟩ => blockAt m c 0 t
    | ⟨1, _⟩ => blockAt m c 1 t
    | ⟨2, _⟩ => blockAt m c 2 t
    | ⟨3, _⟩ => k_block (blockAt m c 0 t) (blockAt m c 1 t)
    | ⟨4, _⟩ => v_block (blockAt m c 0 t) (blockAt m c 2 t)
  Φ _ := Pipeline.scopedRest (Ix := Unit) (Name := ℕ) (U := UR sig nD τ) (Lvl := ℕ) (Val := Elt F) spec1 c
  q _ := fullShare
  owed _ := 0

theorem dat1_A (c : Dev nD) (w : Fin cfg1.W) : (dat1 m c).A w = asLaunched m c (Pipeline.arrRef spec1 w) := by
  dsimp only [dat1]

theorem after_rows (c : Dev nD) (t : Fin cfg1.N) : (dat1 m c).after 0 t = blockAt m c 0 t := by dsimp only [dat1]
theorem after_wk (c : Dev nD) (t : Fin cfg1.N) : (dat1 m c).after 1 t = blockAt m c 1 t := by dsimp only [dat1]
theorem after_wv (c : Dev nD) (t : Fin cfg1.N) : (dat1 m c).after 2 t = blockAt m c 2 t := by dsimp only [dat1]
theorem after_k (c : Dev nD) (t : Fin cfg1.N) : (dat1 m c).after 3 t = k_block (blockAt m c 0 t) (blockAt m c 1 t) := by dsimp only [dat1]
theorem after_v (c : Dev nD) (t : Fin cfg1.N) : (dat1 m c).after 4 t = v_block (blockAt m c 0 t) (blockAt m c 2 t) := by dsimp only [dat1]

theorem before_rows (c : Dev nD) (t : Fin cfg1.N) (d) : (dat1 m c).before 0 t d = blockAt m c 0 t :=
  rows_found m (dat1 m c) (dat1_A m c 0) (after_rows m c) t d
theorem before_wk (c : Dev nD) (t : Fin cfg1.N) (d) : (dat1 m c).before 1 t d = blockAt m c 1 t :=
  wk_found m (dat1 m c) (dat1_A m c 1) (after_wk m c) t d
theorem before_wv (c : Dev nD) (t : Fin cfg1.N) (d) : (dat1 m c).before 2 t d = blockAt m c 2 t :=
  wv_found m (dat1 m c) (dat1_A m c 2) (after_wv m c) t d

def bodyPre (c : Dev nD) (t : Fin cfg1.N) : sProp 𝕄 :=
  iprop((dat1 m c).Φ t.castSucc ∗ (dat1 m c).owesAt () t.castSucc
    ∗ (∃ d, owns (c : Thread nD τ) (st1_0 t) fullShare ((dat1 m c).before 0 t d))
    ∗ (∃ d, owns (c : Thread nD τ) (st1_1 t) fullShare ((dat1 m c).before 1 t d))
    ∗ (∃ d, owns (c : Thread nD τ) (st1_2 t) fullShare ((dat1 m c).before 2 t d))
    ∗ (∃ d, owns (c : Thread nD τ) (st1_3 t) fullShare ((dat1 m c).before 3 t d))
    ∗ (∃ d, owns (c : Thread nD τ) (st1_4 t) fullShare ((dat1 m c).before 4 t d)))

def bodyPost (c : Dev nD) (t : Fin cfg1.N) : sProp 𝕄 :=
  iprop((dat1 m c).Φ t.succ ∗ (dat1 m c).owesAt () t.succ
    ∗ owns (c : Thread nD τ) (st1_0 t) fullShare ((dat1 m c).after 0 t)
    ∗ owns (c : Thread nD τ) (st1_1 t) fullShare ((dat1 m c).after 1 t)
    ∗ owns (c : Thread nD τ) (st1_2 t) fullShare ((dat1 m c).after 2 t)
    ∗ owns (c : Thread nD τ) (st1_3 t) fullShare ((dat1 m c).after 3 t)
    ∗ owns (c : Thread nD τ) (st1_4 t) fullShare ((dat1 m c).after 4 t))

theorem sound_body (c : Dev nD) (t : Fin cfg1.N) :
    bodyPre m c t ⊢ wp frame (wpE (defs₀ (F := F)) Variants.none c none) Set.univ (bodyAt1 t) (fun _ => bodyPost m c t) := by
  unfold bodyPre bodyPost bodyAt1
  simp only [before_rows, before_wk, before_wv]
  rw [show (dat1 m c).Φ t.succ = (dat1 m c).Φ t.castSucc from rfl,
    show (dat1 m c).owesAt () t.succ = (dat1 m c).owesAt () t.castSucc from rfl,
    after_rows, after_wk, after_wv, after_k, after_v]
  iintro ⟨HΦ, Ho, ⟨%d0, H0⟩, ⟨%d1, H1⟩, ⟨%d2, H2⟩, ⟨%d3, H3⟩, ⟨%d4, H4⟩⟩
  iapply (body_triple c Set.univ (grid1.coords t) _ _ _ _ _ _ _ _ _ _ (blockAt m c 0 t) (blockAt m c 1 t) (blockAt m c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the second call, at every point. -/
theorem body_obligation (c : Dev nD) : BodyObligation (dat1 (F := F) m c) (defs₀ (F := F)) Variants.none () Set.univ := fun t => by
  rw [bigSep_W1, bigSep_W1]
  exact sound_body m c t

/-! ## The call as a segment of the program -/

section Record

variable (ρ : Dev nD → PrngReg)
variable (L : GSem nD τ sig → Finset Unit) (lv : GSem nD τ sig → Unit → ℕ)
-- the proof data of the third call: not this module's business, only that the family has it
variable (d2 : (c : Dev nD) → Dat τ (Elt F) Unit ℕ (UR sig nD τ) ℕ cfg2 c)

/-- What the second call leaves in `K`'s and in `V`'s buffer. -/
abbrev k_final (c : Dev nD) : Buf (Elt F) ((c : Thread nD τ).loc main_v1_0) := (dat1 m c).arrAt 3 cfg1.N
abbrev v_final (c : Dev nD) : Buf (Elt F) ((c : Thread nD τ).loc main_v1_1) := (dat1 m c).arrAt 4 cfg1.N

/-- The unscoped buffers after the second call: `Q`, `K` and `V` written, everything else as launched. -/
abbrev W2 (c : Dev nD) : Valuation τ sig (Elt F) :=
  Function.update (Function.update (W1 m c) main_v1_0 (k_final m c)) main_v1_1 (v_final m c)

/-- Away from `Q` the valuation after the first call is the launch's; away from `Q`, `K` and `V` so is the one after the second. -/
theorem W1_outside (c : Dev nD) (b : DevRef τ sig) (h0 : b ≠ Proc.devRef .tc main_v0) : W1 m c b = W0 m c b :=
  Function.update_of_ne h0 _ _
theorem W2_outside (c : Dev nD) (b : DevRef τ sig) (h0 : b ≠ Proc.devRef .tc main_v0) (h1 : b ≠ Proc.devRef .tc main_v1_0)
    (h2 : b ≠ Proc.devRef .tc main_v1_1) : W2 m c b = W0 m c b :=
  (Function.update_of_ne h2 _ _).trans ((Function.update_of_ne h1 _ _).trans (Function.update_of_ne h0 _ _))
theorem W2_eq_W1 (c : Dev nD) (b : DevRef τ sig) (h1 : b ≠ Proc.devRef .tc main_v1_0) (h2 : b ≠ Proc.devRef .tc main_v1_1) :
    W2 m c b = W1 m c b :=
  (Function.update_of_ne h2 _ _).trans (Function.update_of_ne h1 _ _)

/-- The call finds each of its arrays as launched. -/
theorem entry_arrays (c : Dev nD) (w : Fin cfg1.W) : (dat1 m c).A w = W1 m c (Pipeline.arrRef spec1 w) := by
  match w with
  | ⟨0, _⟩ => exact (dat1_A m c 0).trans (W1_outside m c (Proc.devRef .tc main_arg0) (by decide)).symm
  | ⟨1, _⟩ => exact (dat1_A m c 1).trans (W1_outside m c (Proc.devRef .tc main_arg4) (by decide)).symm
  | ⟨2, _⟩ => exact (dat1_A m c 2).trans (W1_outside m c (Proc.devRef .tc main_arg5) (by decide)).symm
  | ⟨3, _⟩ => exact (dat1_A m c 3).trans (W1_outside m c (Proc.devRef .tc main_v1_0) (by decide)).symm
  | ⟨4, _⟩ => exact (dat1_A m c 4).trans (W1_outside m c (Proc.devRef .tc main_v1_1) (by decide)).symm

/-- Each window's array after the last point is what the valuation after the call holds there. -/
theorem final_arrays (c : Dev nD) (w : Fin cfg1.W) : (dat1 m c).arrAt w cfg1.N = W2 m c (Pipeline.arrRef spec1 w) := by
  match w with
  | ⟨0, _⟩ =>
    exact ((dat1 m c).arrAt_in 0 rfl _).trans ((dat1_A m c 0).trans
      (W2_outside m c (Proc.devRef .tc main_arg0) (by decide) (by decide) (by decide)).symm)
  | ⟨1, _⟩ =>
    exact ((dat1 m c).arrAt_in 1 rfl _).trans ((dat1_A m c 1).trans
      (W2_outside m c (Proc.devRef .tc main_arg4) (by decide) (by decide) (by decide)).symm)
  | ⟨2, _⟩ =>
    exact ((dat1 m c).arrAt_in 2 rfl _).trans ((dat1_A m c 2).trans
      (W2_outside m c (Proc.devRef .tc main_arg5) (by decide) (by decide) (by decide)).symm)
  | ⟨3, _⟩ =>
    exact ((Function.update_of_ne (show (Proc.devRef .tc main_v1_0 : DevRef τ sig) ≠ Proc.devRef .tc main_v1_1 by decide) (v_final m c)
      (Function.update (W1 m c) main_v1_0 (k_final m c))).trans (Function.update_self (Proc.devRef .tc main_v1_0 : DevRef τ sig) (k_final m c) (W1 m c))).symm
  | ⟨4, _⟩ =>
    exact (Function.update_self (Proc.devRef .tc main_v1_1 : DevRef τ sig) (v_final m c) (Function.update (W1 m c) main_v1_0 (k_final m c))).symm

/-- The unscoped buffers that are no array of this call do not see the two updates. -/
theorem rest_unchanged (c : Dev nD) :
    (Pipeline.unscopedRest (Ix := Unit) (Name := ℕ) (U := UR sig nD τ) (Lvl := ℕ) (Pipeline.pin (pcfgs (F := F)) adm 1).spec c (fun b => W2 m c b) : sProp 𝕄)
      = Pipeline.unscopedRest (Ix := Unit) (Name := ℕ) (U := UR sig nD τ) (Lvl := ℕ) spec1 c (fun b => W1 m c b) := by
  show (Pipeline.unscopedRest (Ix := Unit) (Name := ℕ) (U := UR sig nD τ) (Lvl := ℕ) spec1 c (fun b => W2 m c b) : sProp 𝕄) = _
  rw [unscopedRest1_eq, unscopedRest1_eq]
  simp only [W2_eq_W1 m c (Proc.devRef .tc main_arg1) (by decide) (by decide), W2_eq_W1 m c (Proc.devRef .tc main_arg2) (by decide) (by decide),
    W2_eq_W1 m c (Proc.devRef .tc main_arg3) (by decide) (by decide), W2_eq_W1 m c (Proc.devRef .tc main_v0) (by decide) (by decide),
    W2_eq_W1 m c (Proc.devRef .tc main_v2) (by decide) (by decide)]

/-- The second call's invariant, at every point, is the scoped buffers it does not stage (the proof data opened). -/
theorem inv_eq (c : Dev nD) (t : Fin (cfg1.N + 1)) : (family m (dat1 m) d2 1 c).Φ t
    = Pipeline.scopedRest (Ix := Unit) (Name := ℕ) (U := UR sig nD τ) (Lvl := ℕ) (Val := Elt F) (Pipeline.pin (pcfgs (F := F)) adm 1).spec c := by
  dsimp only [family, dat1]
  rfl

/-- THE SECOND CALL as a segment: entered with `Q` written, left with `K` and `V` written too. -/
def seg1 : RegionSeg (pcfgs (F := F)) adm (family m (dat1 m) d2) () defs₀ Variants.none L lv 1 where
  win := launch1.win.to₀
  block_pos := launch1.block_pos
  stage_whole := launch1.stage_whole
  K := PEmpty
  osem k := k.elim
  ho := Pipeline.OwnSemFacts.none _
  hbody c := (body_obligation m c).loose
  hwaits c := Pipeline.hwaits_of_owed_zero (pcfgs (F := F)) adm (family m (dat1 m) d2) () L lv 1 (fun _ _ => rfl) c
  pre c := iprop(StableHlo.held (c : Thread nD τ) (Pipeline.ucRefs τ sig) (W1 m c) ∗ between ρ c)
  post c := iprop(StableHlo.held (c : Thread nD τ) (Pipeline.ucRefs τ sig) (W2 m c) ∗ between ρ c)
  X _ := iprop(emp)
  Y _ := iprop(emp)
  Z c := iprop(Pipeline.unscopedRest (Ix := Unit) (Name := ℕ) (U := UR sig nD τ) (Lvl := ℕ) spec1 c (fun b => W1 m c b) ∗ rides ρ c)
  hentry c := by
    rw [Pipeline.ownSems0_none, ← Pipeline.unscopedBufs_held (Ix := Unit) (Name := ℕ) (U := UR sig nD τ) (Lvl := ℕ) c (W1 m c)]
    have hsplit := Pipeline.arrays_of_unscopedBufs (pcfgs (F := F)) adm (family m (dat1 m) d2) (p := 1) launch1.win launch1.arr_whole c
      ((family m (dat1 m) d2 1 c).share_full fun _ => rfl) (fun b => W1 m c b) (entry_arrays m c)
    unfold between
    iintro ⟨⟨Hub, Hr, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩
      iexists W; isplitr; · ipureintro; exact fun _ _ => Or.inl trivial
      iexact HO
    isplitr; · iempintro
    isplitl [Hrest] <;> iassumption
  hin c := by
    rw [inv_eq]
    iintro ⟨-, -, H⟩
    iexact H
  hout c := by
    rw [Pipeline.ownSems0_none, inv_eq]
    iintro H
    isplitr; · iempintro
    isplitr; · iempintro
    iexact H
  hexit c := by
    rw [← Pipeline.unscopedBufs_held (Ix := Unit) (Name := ℕ) (U := UR sig nD τ) (Lvl := ℕ) c (W2 m c),
      Pipeline.unscopedBufs_split (Pipeline.pin (pcfgs (F := F)) adm) 1 launch1.win.arr_unscoped launch1.win.arr_inj c (fun b => W2 m c b),
      Pipeline.arrays_eq (Pipeline.pin (pcfgs (F := F)) adm) (family m (dat1 m) d2) 1 c launch1.arr_whole ((family m (dat1 m) d2 1 c).share_full fun _ => rfl),
      rest_unchanged]
    unfold between
    iintro ⟨Ha, HO, -, Hrest, Hr⟩
    imodintro
    isplitl [Ha Hrest]
    · isplitl [Ha]
      · iapply (Entails.of_eq (bigSep_congr fun w _ => congrArg (fun f => (_ ↦{fullShare} f : sProp 𝕄)) (final_arrays m c w)))
        iexact Ha
      · iexact Hrest
    isplitl [Hr]; · iexact Hr
    unfold Pipeline.Dat.owesAt Pipeline.owesWithin
    icases HO with ⟨%W, -, HO⟩
    iexists W
    iexact HO

end Record

end Cert.Kernel.Region1

end
-- ==== Proof.KWRegion2Runs.lean ====
/-
  The third call, run case by case. Its body branches twice on the second grid coordinate, the tile of samples: at the
  first tile of a block of edges it overwrites its three running arrays (the running maximum with `-∞`, the running
  sum and the accumulator with zero); at every tile it reads the tile's blocks of `Q`, `K`, `V` and of the incidence
  matrix and its three running arrays, and stores the new running sum, the new accumulator and the new maximum, each
  over the whole array; at the last tile it reads the running sum and the accumulator again and stores their quotient
  over the whole output block. Sixteen tiles: a tile is the first, the last, or neither, never both. Each case is one
  run of the body; what each array is left holding is read off the run, as the list of the stores made into it.
-/
import proofs.«127266_j31533649887507_2_alg».proof.Proof.KWRegion0
import Idealize.ShloMosaic.Lib.Ring

set_option maxRecDepth 16384

noncomputable section

namespace Cert.Kernel.Region2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first conditional: the point is the first tile of samples of its block of edges. -/
abbrev atFirstTile (i : grid2.Coords) : Prop :=
  (Scalar.cmpi .ne (Scalar.extui (Scalar.cmpi .eq (BitVec.ofNat 32 (i 1).val) 0#32)) 0#32) = 1#1
/-- The body's second conditional: the point is the last tile. -/
abbrev atLastTile (i : grid2.Coords) : Prop := k2_cond2 i = 1#1

/-- Over the grid of 2 × 16 points: the first tiles are the points ≡ 0 (mod 16), the last tiles those ≡ 15. -/
theorem first_iff : ∀ t : Fin cfg2.N, atFirstTile (grid2.coords t) ↔ t.val % 16 = 0 :=
  (by decide +kernel : ∀ t : Fin grid2.N, atFirstTile (grid2.coords t) ↔ t.val % 16 = 0)
theorem last_iff : ∀ t : Fin cfg2.N, atLastTile (grid2.coords t) ↔ t.val % 16 = 15 :=
  (by decide +kernel : ∀ t : Fin grid2.N, atLastTile (grid2.coords t) ↔ t.val % 16 = 15)

set_option maxHeartbeats 4000000 in
/-- A MIDDLE tile (neither conditional taken): from the input blocks and the running arrays as the tile before left
    them, the body leaves the inputs and the idle output as they were, and each running array with one store made. -/
noncomputable def runMiddle (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : ¬atFirstTile i) (hB : ¬atLastTile i)
    (x2 : Vec F S2048x64 .bf16) (x3 : Vec F S512x64 .bf16) (x4 : Vec F S512x256 .bf16) (x5 : Vec F S512x2048 .i32)
    (s7 : Vec F S1x2048 .f32) (s8 : Vec F S1x2048 .f32) (s9 : Vec F S2048x256 .f32) :
    Σ' (L7 : List (View.Piece (Elt F) S1x2048 .f32)) (L8 : List (View.Piece (Elt F) S1x2048 .f32)), { L9 : List (View.Piece (Elt F) S2048x256 .f32) //
      ∀ (xi6 : Vec F S2048x256 .f32) (E : Set ℕ) (K : PUnit → sProp 𝕄),
        iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare xi6
            ∗ owns (c : Thread nD τ) arg7 fullShare s7 ∗ owns (c : Thread nD τ) arg8 fullShare s8 ∗ owns (c : Thread nD τ) arg9 fullShare s9
            ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare xi6
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9)) -∗ K ⟨⟩))
          ⊢ wp frame (wpE (defs₀ (F := F)) Variants.none c none) E
              (cc2__attn_kernel i arg2 harg2 arg3 harg3 arg4 harg4 arg5 harg5 arg6 harg6 arg7 harg7 arg8 harg8 arg9 harg9) K } := by
  refine ⟨?_, ?_, ?_, fun xi6 E K => ?run⟩
  case run =>
    simp only [cc2__attn_kernel_eq_skeleton]; unfold cc2__attn_kernel_skel
    simp only [k2_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf2; obtain rfl := harg3.eq_unread hf3; obtain rfl := harg4.eq_unread hf4; obtain rfl := harg5.eq_unread hf5
    obtain rfl := harg6.eq_unread hf6; obtain rfl := harg7.eq_unread hf7; obtain rfl := harg8.eq_unread hf8; obtain rfl := harg9.eq_unread hf9
    sl_exec (disch := first | exact hA | exact hB)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    iexists _; iexact H9

set_option maxHeartbeats 4000000 in
/-- A FIRST tile (the first conditional taken): the running arrays hold anything and are overwritten before they are used. -/
noncomputable def runFirst (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : atFirstTile i) (hB : ¬atLastTile i)
    (x2 : Vec F S2048x64 .bf16) (x3 : Vec F S512x64 .bf16) (x4 : Vec F S512x256 .bf16) (x5 : Vec F S512x2048 .i32) :
    Σ' (L7 : List (View.Piece (Elt F) S1x2048 .f32)) (L8 : List (View.Piece (Elt F) S1x2048 .f32)), { L9 : List (View.Piece (Elt F) S2048x256 .f32) //
      ∀ (xi6 : Vec F S2048x256 .f32) (E : Set ℕ) (K : PUnit → sProp 𝕄),
        iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare xi6
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare xi6
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9)) -∗ K ⟨⟩))
          ⊢ wp frame (wpE (defs₀ (F := F)) Variants.none c none) E
              (cc2__attn_kernel i arg2 harg2 arg3 harg3 arg4 harg4 arg5 harg5 arg6 harg6 arg7 harg7 arg8 harg8 arg9 harg9) K } := by
  refine ⟨?_, ?_, ?_, fun xi6 E K => ?run⟩
  case run =>
    simp only [cc2__attn_kernel_eq_skeleton]; unfold cc2__attn_kernel_skel
    simp only [k2_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg2.eq_unread hf2; obtain rfl := harg3.eq_unread hf3; obtain rfl := harg4.eq_unread hf4; obtain rfl := harg5.eq_unread hf5
    obtain rfl := harg6.eq_unread hf6
    sl_exec (disch := first | exact hA | exact hB)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    iexists _; iexact H9

set_option maxHeartbeats 4000000 in
/-- A LAST tile (the second conditional taken): as a middle tile, and then the quotient stored over the whole output
    block, which held anything. -/
noncomputable def runLast (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : ¬atFirstTile i) (hB : atLastTile i)
    (x2 : Vec F S2048x64 .bf16) (x3 : Vec F S512x64 .bf16) (x4 : Vec F S512x256 .bf16) (x5 : Vec F S512x2048 .i32)
    (s7 : Vec F S1x2048 .f32) (s8 : Vec F S1x2048 .f32) (s9 : Vec F S2048x256 .f32) :
    Σ' (L6 : List (View.Piece (Elt F) S2048x256 .f32)) (L7 : List (View.Piece (Elt F) S1x2048 .f32)) (L8 : List (View.Piece (Elt F) S1x2048 .f32)), { L9 : List (View.Piece (Elt F) S2048x256 .f32) //
      ∀ (E : Set ℕ) (K : PUnit → sProp 𝕄),
        iprop(owns (c : Thread nD τ) arg2 fullShare x2 ∗ owns (c : Thread nD τ) arg3 fullShare x3 ∗ owns (c : Thread nD τ) arg4 fullShare x4
            ∗ owns (c : Thread nD τ) arg5 fullShare x5 ∗ (∃ d, owns (c : Thread nD τ) arg6 fullShare d)
            ∗ owns (c : Thread nD τ) arg7 fullShare s7 ∗ owns (c : Thread nD τ) arg8 fullShare s8 ∗ owns (c : Thread nD τ) arg9 fullShare s9
            ∗ (iprop(owns (c : Thread nD τ) arg2 fullShare x2 ∗ owns (c : Thread nD τ) arg3 fullShare x3 ∗ owns (c : Thread nD τ) arg4 fullShare x4
            ∗ owns (c : Thread nD τ) arg5 fullShare x5
                ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9)) -∗ K ⟨⟩))
          ⊢ wp frame (wpE (defs₀ (F := F)) Variants.none c none) E
              (cc2__attn_kernel i arg2 harg2 arg3 harg3 arg4 harg4 arg5 harg5 arg6 harg6 arg7 harg7 arg8 harg8 arg9 harg9) K } := by
  refine ⟨?_, ?_, ?_, ?_, fun E K => ?run⟩
  case run =>
    simp only [cc2__attn_kernel_eq_skeleton]; unfold cc2__attn_kernel_skel
    simp only [k2_part1_eq_skeleton]
    unfold owns
    iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
    obtain rfl := harg2.eq_unread hf2; obtain rfl := harg3.eq_unread hf3; obtain rfl := harg4.eq_unread hf4; obtain rfl := harg5.eq_unread hf5
    obtain rfl := harg7.eq_unread hf7; obtain rfl := harg8.eq_unread hf8; obtain rfl := harg9.eq_unread hf9
    sl_exec (disch := first | exact hA | exact hB)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    iexists _; iexact H9

/-! ## What each case leaves: the stores it made into each array cover the array -/

/-- The stores a first tile makes into the running maximum cover it. -/
theorem coversFirst7 (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : atFirstTile i) (hB : ¬atLastTile i) (x2 : Vec F S2048x64 .bf16) (x3 : Vec F S512x64 .bf16) (x4 : Vec F S512x256 .bf16) (x5 : Vec F S512x2048 .i32) (y : S1x2048.Idx) :
    ∃ pc ∈ (runFirst c i arg2 harg2 arg3 harg3 arg4 harg4 arg5 harg5 arg6 harg6 arg7 harg7 arg8 harg8 arg9 harg9 hA hB x2 x3 x4 x5).1, y ∈ pc.1.set :=
  View.cover_of_tiledL (runFirst c i arg2 harg2 arg3 harg3 arg4 harg4 arg5 harg5 arg6 harg6 arg7 harg7 arg8 harg8 arg9 harg9 hA hB x2 x3 x4 x5).1 S1x2048.size (by sl_kernel_rfl) y

/-- The stores a first tile makes into the running sum cover it. -/
theorem coversFirst8 (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : atFirstTile i) (hB : ¬atLastTile i) (x2 : Vec F S2048x64 .bf16) (x3 : Vec F S512x64 .bf16) (x4 : Vec F S512x256 .bf16) (x5 : Vec F S512x2048 .i32) (y : S1x2048.Idx) :
    ∃ pc ∈ (runFirst c i arg2 harg2 arg3 harg3 arg4 harg4 arg5 harg5 arg6 harg6 arg7 harg7 arg8 harg8 arg9 harg9 hA hB x2 x3 x4 x5).2.1, y ∈ pc.1.set :=
  View.cover_of_tiledL (runFirst c i arg2 harg2 arg3 harg3 arg4 harg4 arg5 harg5 arg6 harg6 arg7 harg7 arg8 harg8 arg9 harg9 hA hB x2 x3 x4 x5).2.1 S1x2048.size (by sl_kernel_rfl) y

/-- The stores a first tile makes into the accumulator cover it. -/
theorem coversFirst9 (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : atFirstTile i) (hB : ¬atLastTile i) (x2 : Vec F S2048x64 .bf16) (x3 : Vec F S512x64 .bf16) (x4 : Vec F S512x256 .bf16) (x5 : Vec F S512x2048 .i32) (y : S2048x256.Idx) :
    ∃ pc ∈ (runFirst c i arg2 harg2 arg3 harg3 arg4 harg4 arg5 harg5 arg6 harg6 arg7 harg7 arg8 harg8 arg9 harg9 hA hB x2 x3 x4 x5).2.2.1, y ∈ pc.1.set :=
  View.cover_of_tiledL (runFirst c i arg2 harg2 arg3 harg3 arg4 harg4 arg5 harg5 arg6 harg6 arg7 harg7 arg8 harg8 arg9 harg9 hA hB x2 x3 x4 x5).2.2.1 S2048x256.size (by sl_kernel_rfl) y

/-- The stores a middle tile makes into the running maximum cover it. -/
theorem coversMiddle7 (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : ¬atFirstTile i) (hB : ¬atLastTile i) (x2 : Vec F S2048x64 .bf16) (x3 : Vec F S512x64 .bf16) (x4 : Vec F S512x256 .bf16) (x5 : Vec F S512x2048 .i32) (s7 : Vec F S1x2048 .f32) (s8 : Vec F S1x2048 .f32) (s9 : Vec F S2048x256 .f32) (y : S1x2048.Idx) :
    ∃ pc ∈ (runMiddle c i arg2 harg2 arg3 harg3 arg4 harg4 arg5 harg5 arg6 harg6 arg7 harg7 arg8 harg8 arg9 harg9 hA hB x2 x3 x4 x5 s7 s8 s9).1, y ∈ pc.1.set :=
  View.cover_of_tiledL (runMiddle c i arg2 harg2 arg3 harg3 arg4 harg4 arg5 harg5 arg6 harg6 arg7 harg7 arg8 harg8 arg9 harg9 hA hB x2 x3 x4 x5 s7 s8 s9).1 S1x2048.size (by sl_kernel_rfl) y

/-- The stores a middle tile makes into the running sum cover it. -/
theorem coversMiddle8 (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : ¬atFirstTile i) (hB : ¬atLastTile i) (x2 : Vec F S2048x64 .bf16) (x3 : Vec F S512x64 .bf16) (x4 : Vec F S512x256 .bf16) (x5 : Vec F S512x2048 .i32) (s7 : Vec F S1x2048 .f32) (s8 : Vec F S1x2048 .f32) (s9 : Vec F S2048x256 .f32) (y : S1x2048.Idx) :
    ∃ pc ∈ (runMiddle c i arg2 harg2 arg3 harg3 arg4 harg4 arg5 harg5 arg6 harg6 arg7 harg7 arg8 harg8 arg9 harg9 hA hB x2 x3 x4 x5 s7 s8 s9).2.1, y ∈ pc.1.set :=
  View.cover_of_tiledL (runMiddle c i arg2 harg2 arg3 harg3 arg4 harg4 arg5 harg5 arg6 harg6 arg7 harg7 arg8 harg8 arg9 harg9 hA hB x2 x3 x4 x5 s7 s8 s9).2.1 S1x2048.size (by sl_kernel_rfl) y

/-- The stores a middle tile makes into the accumulator cover it. -/
theorem coversMiddle9 (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : ¬atFirstTile i) (hB : ¬atLastTile i) (x2 : Vec F S2048x64 .bf16) (x3 : Vec F S512x64 .bf16) (x4 : Vec F S512x256 .bf16) (x5 : Vec F S512x2048 .i32) (s7 : Vec F S1x2048 .f32) (s8 : Vec F S1x2048 .f32) (s9 : Vec F S2048x256 .f32) (y : S2048x256.Idx) :
    ∃ pc ∈ (runMiddle c i arg2 harg2 arg3 harg3 arg4 harg4 arg5 harg5 arg6 harg6 arg7 harg7 arg8 harg8 arg9 harg9 hA hB x2 x3 x4 x5 s7 s8 s9).2.2.1, y ∈ pc.1.set :=
  View.cover_of_tiledL (runMiddle c i arg2 harg2 arg3 harg3 arg4 harg4 arg5 harg5 arg6 harg6 arg7 harg7 arg8 harg8 arg9 harg9 hA hB x2 x3 x4 x5 s7 s8 s9).2.2.1 S2048x256.size (by sl_kernel_rfl) y

/-- The stores a last tile makes into the output block cover it. -/
theorem coversLast6 (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : ¬atFirstTile i) (hB : atLastTile i) (x2 : Vec F S2048x64 .bf16) (x3 : Vec F S512x64 .bf16) (x4 : Vec F S512x256 .bf16) (x5 : Vec F S512x2048 .i32) (s7 : Vec F S1x2048 .f32) (s8 : Vec F S1x2048 .f32) (s9 : Vec F S2048x256 .f32) (y : S2048x256.Idx) :
    ∃ pc ∈ (runLast c i arg2 harg2 arg3 harg3 arg4 harg4 arg5 harg5 arg6 harg6 arg7 harg7 arg8 harg8 arg9 harg9 hA hB x2 x3 x4 x5 s7 s8 s9).1, y ∈ pc.1.set :=
  View.cover_of_tiledL (runLast c i arg2 harg2 arg3 harg3 arg4 harg4 arg5 harg5 arg6 harg6 arg7 harg7 arg8 harg8 arg9 harg9 hA hB x2 x3 x4 x5 s7 s8 s9).1 S2048x256.size (by sl_kernel_rfl) y

/-- The stores a last tile makes into the running maximum cover it. -/
theorem coversLast7 (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : ¬atFirstTile i) (hB : atLastTile i) (x2 : Vec F S2048x64 .bf16) (x3 : Vec F S512x64 .bf16) (x4 : Vec F S512x256 .bf16) (x5 : Vec F S512x2048 .i32) (s7 : Vec F S1x2048 .f32) (s8 : Vec F S1x2048 .f32) (s9 : Vec F S2048x256 .f32) (y : S1x2048.Idx) :
    ∃ pc ∈ (runLast c i arg2 harg2 arg3 harg3 arg4 harg4 arg5 harg5 arg6 harg6 arg7 harg7 arg8 harg8 arg9 harg9 hA hB x2 x3 x4 x5 s7 s8 s9).2.1, y ∈ pc.1.set :=
  View.cover_of_tiledL (runLast c i arg2 harg2 arg3 harg3 arg4 harg4 arg5 harg5 arg6 harg6 arg7 harg7 arg8 harg8 arg9 harg9 hA hB x2 x3 x4 x5 s7 s8 s9).2.1 S1x2048.size (by sl_kernel_rfl) y

/-- The stores a last tile makes into the running sum cover it. -/
theorem coversLast8 (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : ¬atFirstTile i) (hB : atLastTile i) (x2 : Vec F S2048x64 .bf16) (x3 : Vec F S512x64 .bf16) (x4 : Vec F S512x256 .bf16) (x5 : Vec F S512x2048 .i32) (s7 : Vec F S1x2048 .f32) (s8 : Vec F S1x2048 .f32) (s9 : Vec F S2048x256 .f32) (y : S1x2048.Idx) :
    ∃ pc ∈ (runLast c i arg2 harg2 arg3 harg3 arg4 harg4 arg5 harg5 arg6 harg6 arg7 harg7 arg8 harg8 arg9 harg9 hA hB x2 x3 x4 x5 s7 s8 s9).2.2.1, y ∈ pc.1.set :=
  View.cover_of_tiledL (runLast c i arg2 harg2 arg3 harg3 arg4 harg4 arg5 harg5 arg6 harg6 arg7 harg7 arg8 harg8 arg9 harg9 hA hB x2 x3 x4 x5 s7 s8 s9).2.2.1 S1x2048.size (by sl_kernel_rfl) y

/-- The stores a last tile makes into the accumulator cover it. -/
theorem coversLast9 (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : ¬atFirstTile i) (hB : atLastTile i) (x2 : Vec F S2048x64 .bf16) (x3 : Vec F S512x64 .bf16) (x4 : Vec F S512x256 .bf16) (x5 : Vec F S512x2048 .i32) (s7 : Vec F S1x2048 .f32) (s8 : Vec F S1x2048 .f32) (s9 : Vec F S2048x256 .f32) (y : S2048x256.Idx) :
    ∃ pc ∈ (runLast c i arg2 harg2 arg3 harg3 arg4 harg4 arg5 harg5 arg6 harg6 arg7 harg7 arg8 harg8 arg9 harg9 hA hB x2 x3 x4 x5 s7 s8 s9).2.2.2.1, y ∈ pc.1.set :=
  View.cover_of_tiledL (runLast c i arg2 harg2 arg3 harg3 arg4 harg4 arg5 harg5 arg6 harg6 arg7 harg7 arg8 harg8 arg9 harg9 hA hB x2 x3 x4 x5 s7 s8 s9).2.2.2.1 S2048x256.size (by sl_kernel_rfl) y

/-- The three running arrays: the maximum, the sum, the accumulator. -/
abbrev Running (F : FTy → Type) : Type := Vec F S1x2048 .f32 × Vec F S1x2048 .f32 × Vec F S2048x256 .f32

/-! ## What each case leaves in each array, and that the array, whatever it held, ends holding it -/

/-- What a first tile leaves in the running maximum. -/
def leftFirst7 (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : atFirstTile i) (hB : ¬atLastTile i) (x2 : Vec F S2048x64 .bf16) (x3 : Vec F S512x64 .bf16) (x4 : Vec F S512x256 .bf16) (x5 : Vec F S512x2048 .i32) : Vec F S1x2048 .f32 :=
  View.canon (runFirst c i arg2 harg2 arg3 harg3 arg4 harg4 arg5 harg5 arg6 harg6 arg7 harg7 arg8 harg8 arg9 harg9 hA hB x2 x3 x4 x5).1
theorem leavesFirst7 (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : atFirstTile i) (hB : ¬atLastTile i) (x2 : Vec F S2048x64 .bf16) (x3 : Vec F S512x64 .bf16) (x4 : Vec F S512x256 .bf16) (x5 : Vec F S512x2048 .i32) (f : arg7.view.ty.Contents (Elt F)) :
    arg7.view.read (Elt F) (arg7.view.writes (Elt F) f (runFirst c i arg2 harg2 arg3 harg3 arg4 harg4 arg5 harg5 arg6 harg6 arg7 harg7 arg8 harg8 arg9 harg9 hA hB x2 x3 x4 x5).1)
      = leftFirst7 c i arg2 harg2 arg3 harg3 arg4 harg4 arg5 harg5 arg6 harg6 arg7 harg7 arg8 harg8 arg9 harg9 hA hB x2 x3 x4 x5 :=
  View.read_writes_eq_canon _ _ _ (coversFirst7 c i arg2 harg2 arg3 harg3 arg4 harg4 arg5 harg5 arg6 harg6 arg7 harg7 arg8 harg8 arg9 harg9 hA hB x2 x3 x4 x5)

/-- What a first tile leaves in the running sum. -/
def leftFirst8 (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : atFirstTile i) (hB : ¬atLastTile i) (x2 : Vec F S2048x64 .bf16) (x3 : Vec F S512x64 .bf16) (x4 : Vec F S512x256 .bf16) (x5 : Vec F S512x2048 .i32) : Vec F S1x2048 .f32 :=
  View.canon (runFirst c i arg2 harg2 arg3 harg3 arg4 harg4 arg5 harg5 arg6 harg6 arg7 harg7 arg8 harg8 arg9 harg9 hA hB x2 x3 x4 x5).2.1
theorem leavesFirst8 (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : atFirstTile i) (hB : ¬atLastTile i) (x2 : Vec F S2048x64 .bf16) (x3 : Vec F S512x64 .bf16) (x4 : Vec F S512x256 .bf16) (x5 : Vec F S512x2048 .i32) (f : arg8.view.ty.Contents (Elt F)) :
    arg8.view.read (Elt F) (arg8.view.writes (Elt F) f (runFirst c i arg2 harg2 arg3 harg3 arg4 harg4 arg5 harg5 arg6 harg6 arg7 harg7 arg8 harg8 arg9 harg9 hA hB x2 x3 x4 x5).2.1)
      = leftFirst8 c i arg2 harg2 arg3 harg3 arg4 harg4 arg5 harg5 arg6 harg6 arg7 harg7 arg8 harg8 arg9 harg9 hA hB x2 x3 x4 x5 :=
  View.read_writes_eq_canon _ _ _ (coversFirst8 c i arg2 harg2 arg3 harg3 arg4 harg4 arg5 harg5 arg6 harg6 arg7 harg7 arg8 harg8 arg9 harg9 hA hB x2 x3 x4 x5)

/-- What a first tile leaves in the accumulator. -/
def leftFirst9 (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : atFirstTile i) (hB : ¬atLastTile i) (x2 : Vec F S2048x64 .bf16) (x3 : Vec F S512x64 .bf16) (x4 : Vec F S512x256 .bf16) (x5 : Vec F S512x2048 .i32) : Vec F S2048x256 .f32 :=
  View.canon (runFirst c i arg2 harg2 arg3 harg3 arg4 harg4 arg5 harg5 arg6 harg6 arg7 harg7 arg8 harg8 arg9 harg9 hA hB x2 x3 x4 x5).2.2.1
theorem leavesFirst9 (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : atFirstTile i) (hB : ¬atLastTile i) (x2 : Vec F S2048x64 .bf16) (x3 : Vec F S512x64 .bf16) (x4 : Vec F S512x256 .bf16) (x5 : Vec F S512x2048 .i32) (f : arg9.view.ty.Contents (Elt F)) :
    arg9.view.read (Elt F) (arg9.view.writes (Elt F) f (runFirst c i arg2 harg2 arg3 harg3 arg4 harg4 arg5 harg5 arg6 harg6 arg7 harg7 arg8 harg8 arg9 harg9 hA hB x2 x3 x4 x5).2.2.1)
      = leftFirst9 c i arg2 harg2 arg3 harg3 arg4 harg4 arg5 harg5 arg6 harg6 arg7 harg7 arg8 harg8 arg9 harg9 hA hB x2 x3 x4 x5 :=
  View.read_writes_eq_canon _ _ _ (coversFirst9 c i arg2 harg2 arg3 harg3 arg4 harg4 arg5 harg5 arg6 harg6 arg7 harg7 arg8 harg8 arg9 harg9 hA hB x2 x3 x4 x5)

/-- What a middle tile leaves in the running maximum. -/
def leftMiddle7 (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : ¬atFirstTile i) (hB : ¬atLastTile i) (x2 : Vec F S2048x64 .bf16) (x3 : Vec F S512x64 .bf16) (x4 : Vec F S512x256 .bf16) (x5 : Vec F S512x2048 .i32) (s7 : Vec F S1x2048 .f32) (s8 : Vec F S1x2048 .f32) (s9 : Vec F S2048x256 .f32) : Vec F S1x2048 .f32 :=
  View.canon (runMiddle c i arg2 harg2 arg3 harg3 arg4 harg4 arg5 harg5 arg6 harg6 arg7 harg7 arg8 harg8 arg9 harg9 hA hB x2 x3 x4 x5 s7 s8 s9).1
theorem leavesMiddle7 (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : ¬atFirstTile i) (hB : ¬atLastTile i) (x2 : Vec F S2048x64 .bf16) (x3 : Vec F S512x64 .bf16) (x4 : Vec F S512x256 .bf16) (x5 : Vec F S512x2048 .i32) (s7 : Vec F S1x2048 .f32) (s8 : Vec F S1x2048 .f32) (s9 : Vec F S2048x256 .f32) (f : arg7.view.ty.Contents (Elt F)) :
    arg7.view.read (Elt F) (arg7.view.writes (Elt F) f (runMiddle c i arg2 harg2 arg3 harg3 arg4 harg4 arg5 harg5 arg6 harg6 arg7 harg7 arg8 harg8 arg9 harg9 hA hB x2 x3 x4 x5 s7 s8 s9).1)
      = leftMiddle7 c i arg2 harg2 arg3 harg3 arg4 harg4 arg5 harg5 arg6 harg6 arg7 harg7 arg8 harg8 arg9 harg9 hA hB x2 x3 x4 x5 s7 s8 s9 :=
  View.read_writes_eq_canon _ _ _ (coversMiddle7 c i arg2 harg2 arg3 harg3 arg4 harg4 arg5 harg5 arg6 harg6 arg7 harg7 arg8 harg8 arg9 harg9 hA hB x2 x3 x4 x5 s7 s8 s9)

/-- What a middle tile leaves in the running sum. -/
def leftMiddle8 (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : ¬atFirstTile i) (hB : ¬atLastTile i) (x2 : Vec F S2048x64 .bf16) (x3 : Vec F S512x64 .bf16) (x4 : Vec F S512x256 .bf16) (x5 : Vec F S512x2048 .i32) (s7 : Vec F S1x2048 .f32) (s8 : Vec F S1x2048 .f32) (s9 : Vec F S2048x256 .f32) : Vec F S1x2048 .f32 :=
  View.canon (runMiddle c i arg2 harg2 arg3 harg3 arg4 harg4 arg5 harg5 arg6 harg6 arg7 harg7 arg8 harg8 arg9 harg9 hA hB x2 x3 x4 x5 s7 s8 s9).2.1
theorem leavesMiddle8 (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : ¬atFirstTile i) (hB : ¬atLastTile i) (x2 : Vec F S2048x64 .bf16) (x3 : Vec F S512x64 .bf16) (x4 : Vec F S512x256 .bf16) (x5 : Vec F S512x2048 .i32) (s7 : Vec F S1x2048 .f32) (s8 : Vec F S1x2048 .f32) (s9 : Vec F S2048x256 .f32) (f : arg8.view.ty.Contents (Elt F)) :
    arg8.view.read (Elt F) (arg8.view.writes (Elt F) f (runMiddle c i arg2 harg2 arg3 harg3 arg4 harg4 arg5 harg5 arg6 harg6 arg7 harg7 arg8 harg8 arg9 harg9 hA hB x2 x3 x4 x5 s7 s8 s9).2.1)
      = leftMiddle8 c i arg2 harg2 arg3 harg3 arg4 harg4 arg5 harg5 arg6 harg6 arg7 harg7 arg8 harg8 arg9 harg9 hA hB x2 x3 x4 x5 s7 s8 s9 :=
  View.read_writes_eq_canon _ _ _ (coversMiddle8 c i arg2 harg2 arg3 harg3 arg4 harg4 arg5 harg5 arg6 harg6 arg7 harg7 arg8 harg8 arg9 harg9 hA hB x2 x3 x4 x5 s7 s8 s9)

/-- What a middle tile leaves in the accumulator. -/
def leftMiddle9 (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : ¬atFirstTile i) (hB : ¬atLastTile i) (x2 : Vec F S2048x64 .bf16) (x3 : Vec F S512x64 .bf16) (x4 : Vec F S512x256 .bf16) (x5 : Vec F S512x2048 .i32) (s7 : Vec F S1x2048 .f32) (s8 : Vec F S1x2048 .f32) (s9 : Vec F S2048x256 .f32) : Vec F S2048x256 .f32 :=
  View.canon (runMiddle c i arg2 harg2 arg3 harg3 arg4 harg4 arg5 harg5 arg6 harg6 arg7 harg7 arg8 harg8 arg9 harg9 hA hB x2 x3 x4 x5 s7 s8 s9).2.2.1
theorem leavesMiddle9 (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : ¬atFirstTile i) (hB : ¬atLastTile i) (x2 : Vec F S2048x64 .bf16) (x3 : Vec F S512x64 .bf16) (x4 : Vec F S512x256 .bf16) (x5 : Vec F S512x2048 .i32) (s7 : Vec F S1x2048 .f32) (s8 : Vec F S1x2048 .f32) (s9 : Vec F S2048x256 .f32) (f : arg9.view.ty.Contents (Elt F)) :
    arg9.view.read (Elt F) (arg9.view.writes (Elt F) f (runMiddle c i arg2 harg2 arg3 harg3 arg4 harg4 arg5 harg5 arg6 harg6 arg7 harg7 arg8 harg8 arg9 harg9 hA hB x2 x3 x4 x5 s7 s8 s9).2.2.1)
      = leftMiddle9 c i arg2 harg2 arg3 harg3 arg4 harg4 arg5 harg5 arg6 harg6 arg7 harg7 arg8 harg8 arg9 harg9 hA hB x2 x3 x4 x5 s7 s8 s9 :=
  View.read_writes_eq_canon _ _ _ (coversMiddle9 c i arg2 harg2 arg3 harg3 arg4 harg4 arg5 harg5 arg6 harg6 arg7 harg7 arg8 harg8 arg9 harg9 hA hB x2 x3 x4 x5 s7 s8 s9)

/-- What a last tile leaves in the output block. -/
def leftLast6 (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : ¬atFirstTile i) (hB : atLastTile i) (x2 : Vec F S2048x64 .bf16) (x3 : Vec F S512x64 .bf16) (x4 : Vec F S512x256 .bf16) (x5 : Vec F S512x2048 .i32) (s7 : Vec F S1x2048 .f32) (s8 : Vec F S1x2048 .f32) (s9 : Vec F S2048x256 .f32) : Vec F S2048x256 .f32 :=
  View.canon (runLast c i arg2 harg2 arg3 harg3 arg4 harg4 arg5 harg5 arg6 harg6 arg7 harg7 arg8 harg8 arg9 harg9 hA hB x2 x3 x4 x5 s7 s8 s9).1
theorem leavesLast6 (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : ¬atFirstTile i) (hB : atLastTile i) (x2 : Vec F S2048x64 .bf16) (x3 : Vec F S512x64 .bf16) (x4 : Vec F S512x256 .bf16) (x5 : Vec F S512x2048 .i32) (s7 : Vec F S1x2048 .f32) (s8 : Vec F S1x2048 .f32) (s9 : Vec F S2048x256 .f32) (f : arg6.view.ty.Contents (Elt F)) :
    arg6.view.read (Elt F) (arg6.view.writes (Elt F) f (runLast c i arg2 harg2 arg3 harg3 arg4 harg4 arg5 harg5 arg6 harg6 arg7 harg7 arg8 harg8 arg9 harg9 hA hB x2 x3 x4 x5 s7 s8 s9).1)
      = leftLast6 c i arg2 harg2 arg3 harg3 arg4 harg4 arg5 harg5 arg6 harg6 arg7 harg7 arg8 harg8 arg9 harg9 hA hB x2 x3 x4 x5 s7 s8 s9 :=
  View.read_writes_eq_canon _ _ _ (coversLast6 c i arg2 harg2 arg3 harg3 arg4 harg4 arg5 harg5 arg6 harg6 arg7 harg7 arg8 harg8 arg9 harg9 hA hB x2 x3 x4 x5 s7 s8 s9)

/-- What a last tile leaves in the running maximum. -/
def leftLast7 (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : ¬atFirstTile i) (hB : atLastTile i) (x2 : Vec F S2048x64 .bf16) (x3 : Vec F S512x64 .bf16) (x4 : Vec F S512x256 .bf16) (x5 : Vec F S512x2048 .i32) (s7 : Vec F S1x2048 .f32) (s8 : Vec F S1x2048 .f32) (s9 : Vec F S2048x256 .f32) : Vec F S1x2048 .f32 :=
  View.canon (runLast c i arg2 harg2 arg3 harg3 arg4 harg4 arg5 harg5 arg6 harg6 arg7 harg7 arg8 harg8 arg9 harg9 hA hB x2 x3 x4 x5 s7 s8 s9).2.1
theorem leavesLast7 (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : ¬atFirstTile i) (hB : atLastTile i) (x2 : Vec F S2048x64 .bf16) (x3 : Vec F S512x64 .bf16) (x4 : Vec F S512x256 .bf16) (x5 : Vec F S512x2048 .i32) (s7 : Vec F S1x2048 .f32) (s8 : Vec F S1x2048 .f32) (s9 : Vec F S2048x256 .f32) (f : arg7.view.ty.Contents (Elt F)) :
    arg7.view.read (Elt F) (arg7.view.writes (Elt F) f (runLast c i arg2 harg2 arg3 harg3 arg4 harg4 arg5 harg5 arg6 harg6 arg7 harg7 arg8 harg8 arg9 harg9 hA hB x2 x3 x4 x5 s7 s8 s9).2.1)
      = leftLast7 c i arg2 harg2 arg3 harg3 arg4 harg4 arg5 harg5 arg6 harg6 arg7 harg7 arg8 harg8 arg9 harg9 hA hB x2 x3 x4 x5 s7 s8 s9 :=
  View.read_writes_eq_canon _ _ _ (coversLast7 c i arg2 harg2 arg3 harg3 arg4 harg4 arg5 harg5 arg6 harg6 arg7 harg7 arg8 harg8 arg9 harg9 hA hB x2 x3 x4 x5 s7 s8 s9)

/-- What a last tile leaves in the running sum. -/
def leftLast8 (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : ¬atFirstTile i) (hB : atLastTile i) (x2 : Vec F S2048x64 .bf16) (x3 : Vec F S512x64 .bf16) (x4 : Vec F S512x256 .bf16) (x5 : Vec F S512x2048 .i32) (s7 : Vec F S1x2048 .f32) (s8 : Vec F S1x2048 .f32) (s9 : Vec F S2048x256 .f32) : Vec F S1x2048 .f32 :=
  View.canon (runLast c i arg2 harg2 arg3 harg3 arg4 harg4 arg5 harg5 arg6 harg6 arg7 harg7 arg8 harg8 arg9 harg9 hA hB x2 x3 x4 x5 s7 s8 s9).2.2.1
theorem leavesLast8 (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : ¬atFirstTile i) (hB : atLastTile i) (x2 : Vec F S2048x64 .bf16) (x3 : Vec F S512x64 .bf16) (x4 : Vec F S512x256 .bf16) (x5 : Vec F S512x2048 .i32) (s7 : Vec F S1x2048 .f32) (s8 : Vec F S1x2048 .f32) (s9 : Vec F S2048x256 .f32) (f : arg8.view.ty.Contents (Elt F)) :
    arg8.view.read (Elt F) (arg8.view.writes (Elt F) f (runLast c i arg2 harg2 arg3 harg3 arg4 harg4 arg5 harg5 arg6 harg6 arg7 harg7 arg8 harg8 arg9 harg9 hA hB x2 x3 x4 x5 s7 s8 s9).2.2.1)
      = leftLast8 c i arg2 harg2 arg3 harg3 arg4 harg4 arg5 harg5 arg6 harg6 arg7 harg7 arg8 harg8 arg9 harg9 hA hB x2 x3 x4 x5 s7 s8 s9 :=
  View.read_writes_eq_canon _ _ _ (coversLast8 c i arg2 harg2 arg3 harg3 arg4 harg4 arg5 harg5 arg6 harg6 arg7 harg7 arg8 harg8 arg9 harg9 hA hB x2 x3 x4 x5 s7 s8 s9)

/-- What a last tile leaves in the accumulator. -/
def leftLast9 (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : ¬atFirstTile i) (hB : atLastTile i) (x2 : Vec F S2048x64 .bf16) (x3 : Vec F S512x64 .bf16) (x4 : Vec F S512x256 .bf16) (x5 : Vec F S512x2048 .i32) (s7 : Vec F S1x2048 .f32) (s8 : Vec F S1x2048 .f32) (s9 : Vec F S2048x256 .f32) : Vec F S2048x256 .f32 :=
  View.canon (runLast c i arg2 harg2 arg3 harg3 arg4 harg4 arg5 harg5 arg6 harg6 arg7 harg7 arg8 harg8 arg9 harg9 hA hB x2 x3 x4 x5 s7 s8 s9).2.2.2.1
theorem leavesLast9 (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : ¬atFirstTile i) (hB : atLastTile i) (x2 : Vec F S2048x64 .bf16) (x3 : Vec F S512x64 .bf16) (x4 : Vec F S512x256 .bf16) (x5 : Vec F S512x2048 .i32) (s7 : Vec F S1x2048 .f32) (s8 : Vec F S1x2048 .f32) (s9 : Vec F S2048x256 .f32) (f : arg9.view.ty.Contents (Elt F)) :
    arg9.view.read (Elt F) (arg9.view.writes (Elt F) f (runLast c i arg2 harg2 arg3 harg3 arg4 harg4 arg5 harg5 arg6 harg6 arg7 harg7 arg8 harg8 arg9 harg9 hA hB x2 x3 x4 x5 s7 s8 s9).2.2.2.1)
      = leftLast9 c i arg2 harg2 arg3 harg3 arg4 harg4 arg5 harg5 arg6 harg6 arg7 harg7 arg8 harg8 arg9 harg9 hA hB x2 x3 x4 x5 s7 s8 s9 :=
  View.read_writes_eq_canon _ _ _ (coversLast9 c i arg2 harg2 arg3 harg3 arg4 harg4 arg5 harg5 arg6 harg6 arg7 harg7 arg8 harg8 arg9 harg9 hA hB x2 x3 x4 x5 s7 s8 s9)

/-- What a first tile leaves in the three running arrays. -/
def afterFirst (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : atFirstTile i) (hB : ¬atLastTile i) (x2 : Vec F S2048x64 .bf16) (x3 : Vec F S512x64 .bf16) (x4 : Vec F S512x256 .bf16) (x5 : Vec F S512x2048 .i32) : Running F :=
  (leftFirst7 c i arg2 harg2 arg3 harg3 arg4 harg4 arg5 harg5 arg6 harg6 arg7 harg7 arg8 harg8 arg9 harg9 hA hB x2 x3 x4 x5, leftFirst8 c i arg2 harg2 arg3 harg3 arg4 harg4 arg5 harg5 arg6 harg6 arg7 harg7 arg8 harg8 arg9 harg9 hA hB x2 x3 x4 x5, leftFirst9 c i arg2 harg2 arg3 harg3 arg4 harg4 arg5 harg5 arg6 harg6 arg7 harg7 arg8 harg8 arg9 harg9 hA hB x2 x3 x4 x5)

/-- What a middle tile leaves in the three running arrays. -/
def afterMiddle (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : ¬atFirstTile i) (hB : ¬atLastTile i) (x2 : Vec F S2048x64 .bf16) (x3 : Vec F S512x64 .bf16) (x4 : Vec F S512x256 .bf16) (x5 : Vec F S512x2048 .i32) (s7 : Vec F S1x2048 .f32) (s8 : Vec F S1x2048 .f32) (s9 : Vec F S2048x256 .f32) : Running F :=
  (leftMiddle7 c i arg2 harg2 arg3 harg3 arg4 harg4 arg5 harg5 arg6 harg6 arg7 harg7 arg8 harg8 arg9 harg9 hA hB x2 x3 x4 x5 s7 s8 s9, leftMiddle8 c i arg2 harg2 arg3 harg3 arg4 harg4 arg5 harg5 arg6 harg6 arg7 harg7 arg8 harg8 arg9 harg9 hA hB x2 x3 x4 x5 s7 s8 s9, leftMiddle9 c i arg2 harg2 arg3 harg3 arg4 harg4 arg5 harg5 arg6 harg6 arg7 harg7 arg8 harg8 arg9 harg9 hA hB x2 x3 x4 x5 s7 s8 s9)

/-- What a last tile leaves in the three running arrays. -/
def afterLast (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : ¬atFirstTile i) (hB : atLastTile i) (x2 : Vec F S2048x64 .bf16) (x3 : Vec F S512x64 .bf16) (x4 : Vec F S512x256 .bf16) (x5 : Vec F S512x2048 .i32) (s7 : Vec F S1x2048 .f32) (s8 : Vec F S1x2048 .f32) (s9 : Vec F S2048x256 .f32) : Running F :=
  (leftLast7 c i arg2 harg2 arg3 harg3 arg4 harg4 arg5 harg5 arg6 harg6 arg7 harg7 arg8 harg8 arg9 harg9 hA hB x2 x3 x4 x5 s7 s8 s9, leftLast8 c i arg2 harg2 arg3 harg3 arg4 harg4 arg5 harg5 arg6 harg6 arg7 harg7 arg8 harg8 arg9 harg9 hA hB x2 x3 x4 x5 s7 s8 s9, leftLast9 c i arg2 harg2 arg3 harg3 arg4 harg4 arg5 harg5 arg6 harg6 arg7 harg7 arg8 harg8 arg9 harg9 hA hB x2 x3 x4 x5 s7 s8 s9)

/-- What a last tile leaves in the output block. -/
abbrev outLast (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : ¬atFirstTile i) (hB : atLastTile i) (x2 : Vec F S2048x64 .bf16) (x3 : Vec F S512x64 .bf16) (x4 : Vec F S512x256 .bf16) (x5 : Vec F S512x2048 .i32) (s7 : Vec F S1x2048 .f32) (s8 : Vec F S1x2048 .f32) (s9 : Vec F S2048x256 .f32) : Vec F S2048x256 .f32 :=
  leftLast6 c i arg2 harg2 arg3 harg3 arg4 harg4 arg5 harg5 arg6 harg6 arg7 harg7 arg8 harg8 arg9 harg9 hA hB x2 x3 x4 x5 s7 s8 s9

end Cert.Kernel.Region2

end
-- ==== Proof.KWRegion2.lean ====
/-
  The third call, point by point. At a point the body is one of its three cases (KWRegion2Runs); what the three running
  arrays hold after the points run so far is that case applied to what they held before — a first tile starts afresh —
  so it is defined by recursion on the number of points run. The output block is written at the last tile of each block
  of edges only, and is left alone at every other point. Everything the call reads was written by the two calls before
  it (`Q`, `K`, `V`) or is an argument (the incidence matrix).
-/
import proofs.«127266_j31533649887507_2_alg».proof.Proof.KWRegion1
import proofs.«127266_j31533649887507_2_alg».proof.Proof.KWRegion2Runs

set_option maxRecDepth 16384

noncomputable section

namespace Cert.Kernel.Region2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)
open Cert.Kernel.Region0 (family adm rides between W0 W1)
open Cert.Kernel.Region1 (W2 dat1)

variable {F : FTy → Type} [FloatOps F]

local notation "𝕄" => MT nD τ sig Unit (Elt F) ℕ (UR sig nD τ) ℕ

variable (m : (ℓ : Loc nD τ sig) → Buf (Elt F) ℓ)

/-- Each window's current staging buffer at point `t`, as the pipeline passes it to the body, and the three running
    arrays, which are whole buffers of the call's own. -/
abbrev ms0 (t : Fin cfg2.N) : Memref sig .tc .vmem S2048x64 .bf16 := win2_0.stage (cfg2.slots t 0)
abbrev hs0 (t : Fin cfg2.N) : (ms0 t).IsWhole := hstage2_0 ((cfg2.slots t 0).cast nbuf2_0)
abbrev ms1 (t : Fin cfg2.N) : Memref sig .tc .vmem S512x64 .bf16 := win2_1.stage (cfg2.slots t 1)
abbrev hs1 (t : Fin cfg2.N) : (ms1 t).IsWhole := hstage2_1 ((cfg2.slots t 1).cast nbuf2_1)
abbrev ms2 (t : Fin cfg2.N) : Memref sig .tc .vmem S512x256 .bf16 := win2_2.stage (cfg2.slots t 2)
abbrev hs2 (t : Fin cfg2.N) : (ms2 t).IsWhole := hstage2_2 ((cfg2.slots t 2).cast nbuf2_2)
abbrev ms3 (t : Fin cfg2.N) : Memref sig .tc .vmem S512x2048 .i32 := win2_3.stage (cfg2.slots t 3)
abbrev hs3 (t : Fin cfg2.N) : (ms3 t).IsWhole := hstage2_3 ((cfg2.slots t 3).cast nbuf2_3)
abbrev ms4 (t : Fin cfg2.N) : Memref sig .tc .vmem S2048x256 .f32 := win2_4.stage (cfg2.slots t 4)
abbrev hs4 (t : Fin cfg2.N) : (ms4 t).IsWhole := hstage2_4 ((cfg2.slots t 4).cast nbuf2_4)
abbrev sc7 : Memref sig .tc .vmem S1x2048 .f32 := Memref.whole cc2_scratch0
abbrev sc8 : Memref sig .tc .vmem S1x2048 .f32 := Memref.whole cc2_scratch1
abbrev sc9 : Memref sig .tc .vmem S2048x256 .f32 := Memref.whole cc2_scratch2

/-- A window's block at point `t`, read off its array as the two calls before left it: 2048 rows of `Q`, 512 rows of `K`
    and of `V`, the 512 × 2048 block of the incidence matrix. -/
def blockAt (c : Dev nD) (w : Fin cfg2.W) (t : Fin cfg2.N) : ((cfg2.win w).xblock (cfg2.grid.coords t)).Idx → Elt F (cfg2.win w).elt :=
  ((cfg2.win w).blk t).view.read (Elt F) (W2 m c (Pipeline.arrRef spec2 w))

/-- Each input's staging buffer holds its block when the body starts, fetched at this point or not (the block of `Q` is
    fetched at the first tile only: its index does not move along the tiles). -/
theorem q_found {c : Dev nD} (dat : Dat τ (Elt F) Unit ℕ (UR sig nD τ) ℕ cfg2 c) (hA : dat.A 0 = W2 m c (Pipeline.arrRef spec2 0))
    (hafter : ∀ t, dat.after 0 t = blockAt m c 0 t) (t : Fin cfg2.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem k_found {c : Dev nD} (dat : Dat τ (Elt F) Unit ℕ (UR sig nD τ) ℕ cfg2 c) (hA : dat.A 1 = W2 m c (Pipeline.arrRef spec2 1))
    (hafter : ∀ t, dat.after 1 t = blockAt m c 1 t) (t : Fin cfg2.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem v_found {c : Dev nD} (dat : Dat τ (Elt F) Unit ℕ (UR sig nD τ) ℕ cfg2 c) (hA : dat.A 2 = W2 m c (Pipeline.arrRef spec2 2))
    (hafter : ∀ t, dat.after 2 t = blockAt m c 2 t) (t : Fin cfg2.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem h_found {c : Dev nD} (dat : Dat τ (Elt F) Unit ℕ (UR sig nD τ) ℕ cfg2 c) (hA : dat.A 3 = W2 m c (Pipeline.arrRef spec2 3))
    (hafter : ∀ t, dat.after 3 t = blockAt m c 3 t) (t : Fin cfg2.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-! ## The grid -/

theorem first_not_last : ∀ t : Fin cfg2.N, atFirstTile (grid2.coords t) → ¬atLastTile (grid2.coords t) :=
  (by decide +kernel : ∀ t : Fin grid2.N, atFirstTile (grid2.coords t) → ¬atLastTile (grid2.coords t))
/-- The output window is live at a last tile, and idle and not written back at every other point. -/
theorem out_live : ∀ t : Fin cfg2.N, atLastTile (grid2.coords t) → cfg2.idle 4 (grid2.coords t) = false :=
  (by decide +kernel : ∀ t : Fin grid2.N, atLastTile (grid2.coords t) → cfg2.idle 4 (grid2.coords t) = false)
theorem out_idle : ∀ t : Fin cfg2.N, ¬atLastTile (grid2.coords t) → cfg2.idle 4 (grid2.coords t) = true :=
  (by decide +kernel : ∀ t : Fin grid2.N, ¬atLastTile (grid2.coords t) → cfg2.idle 4 (grid2.coords t) = true)
theorem out_kept : ∀ t : Fin cfg2.N, ¬atLastTile (grid2.coords t) → (cfg2.win 4).flush t = false :=
  (by decide +kernel : ∀ t : Fin grid2.N, ¬atLastTile (grid2.coords t) → win2_4.flush t = false)
theorem not_first_pos (t : Fin cfg2.N) (h : ¬atFirstTile (grid2.coords t)) : t.val ≠ 0 := fun h0 =>
  h ((first_iff t).mpr (by rw [h0]))

/-! ## The running arrays after each point -/

/-- Contents nothing consults: before the first point, and for the output block away from a last tile. -/
def unnamed : Running F :=
  (fun _ => (Elt.inhabited F EltTy.f32).default, fun _ => (Elt.inhabited F EltTy.f32).default, fun _ => (Elt.inhabited F EltTy.f32).default)

/-- One point: the case the point is in, applied to the point's blocks and, unless it is a first tile, to what the
    running arrays held. -/
def step (c : Dev nD) (t : Fin cfg2.N) (s : Running F) : Running F :=
  if hA : atFirstTile (grid2.coords t) then
    afterFirst c (grid2.coords t) (ms0 t) (hs0 t) (ms1 t) (hs1 t) (ms2 t) (hs2 t) (ms3 t) (hs3 t) (ms4 t) (hs4 t) sc7 (Memref.isWhole_whole _) sc8 (Memref.isWhole_whole _) sc9 (Memref.isWhole_whole _) hA (first_not_last t hA) (blockAt m c 0 t) (blockAt m c 1 t) (blockAt m c 2 t) (blockAt m c 3 t)
  else if hB : atLastTile (grid2.coords t) then
    afterLast c (grid2.coords t) (ms0 t) (hs0 t) (ms1 t) (hs1 t) (ms2 t) (hs2 t) (ms3 t) (hs3 t) (ms4 t) (hs4 t) sc7 (Memref.isWhole_whole _) sc8 (Memref.isWhole_whole _) sc9 (Memref.isWhole_whole _) hA hB (blockAt m c 0 t) (blockAt m c 1 t) (blockAt m c 2 t) (blockAt m c 3 t) s.1 s.2.1 s.2.2
  else
    afterMiddle c (grid2.coords t) (ms0 t) (hs0 t) (ms1 t) (hs1 t) (ms2 t) (hs2 t) (ms3 t) (hs3 t) (ms4 t) (hs4 t) sc7 (Memref.isWhole_whole _) sc8 (Memref.isWhole_whole _) sc9 (Memref.isWhole_whole _) hA hB (blockAt m c 0 t) (blockAt m c 1 t) (blockAt m c 2 t) (blockAt m c 3 t) s.1 s.2.1 s.2.2

/-- What the running arrays hold after the first `n` points. -/
def stateAfter (c : Dev nD) : ℕ → Running F
  | 0 => unnamed
  | n + 1 => if hn : n < cfg2.N then step m c ⟨n, hn⟩ (stateAfter c n) else stateAfter c n

theorem stateAfter_succ (c : Dev nD) (t : Fin cfg2.N) : stateAfter m c (t.val + 1) = step m c t (stateAfter m c t.val) := by
  show (if hn : t.val < cfg2.N then step m c ⟨t.val, hn⟩ (stateAfter m c t.val) else stateAfter m c t.val) = _
  rw [dif_pos t.isLt]

/-- What the output block's staging buffer holds after the body at a last tile (elsewhere nothing consults it). -/
def outAt (c : Dev nD) (t : Fin cfg2.N) : Vec F S2048x256 .f32 :=
  if hB : atLastTile (grid2.coords t) then
    if hA : atFirstTile (grid2.coords t) then fun _ => (Elt.inhabited F EltTy.f32).default
    else outLast c (grid2.coords t) (ms0 t) (hs0 t) (ms1 t) (hs1 t) (ms2 t) (hs2 t) (ms3 t) (hs3 t) (ms4 t) (hs4 t) sc7 (Memref.isWhole_whole _) sc8 (Memref.isWhole_whole _) sc9 (Memref.isWhole_whole _) hA hB (blockAt m c 0 t) (blockAt m c 1 t) (blockAt m c 2 t) (blockAt m c 3 t) (stateAfter m c t.val).1 (stateAfter m c t.val).2.1 (stateAfter m c t.val).2.2
  else fun _ => (Elt.inhabited F EltTy.f32).default

/-! ## The proof data -/

/-- The scoped buffers of the two calls before, which this call never touches, each held at some contents. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f))

/-- The invariant before point `n`: the three running arrays held at some contents, which from the second point on are
    what the recursion says; and the untouched scoped buffers. -/
def inv (c : Dev nD) (n : ℕ) : sProp 𝕄 :=
  iprop(∃ s : Running F, ⌜n ≠ 0 → s = stateAfter m c n⌝ ∗ owns (c : Thread nD τ) sc7 fullShare s.1 ∗ owns (c : Thread nD τ) sc8 fullShare s.2.1
    ∗ owns (c : Thread nD τ) sc9 fullShare s.2.2 ∗ others c)

def dat2 (c : Dev nD) : Dat τ (Elt F) Unit ℕ (UR sig nD τ) ℕ cfg2 c where
  A w := W2 m c (Pipeline.arrRef spec2 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => outAt m c t
  Φ t := inv m c t.val
  q _ := fullShare
  owed _ := 0

theorem dat2_A (c : Dev nD) (w : Fin cfg2.W) : (dat2 m c).A w = W2 m c (Pipeline.arrRef spec2 w) := by dsimp only [dat2]
theorem after_q (c : Dev nD) (t : Fin cfg2.N) : (dat2 m c).after 0 t = blockAt m c 0 t := by dsimp only [dat2]
theorem after_k (c : Dev nD) (t : Fin cfg2.N) : (dat2 m c).after 1 t = blockAt m c 1 t := by dsimp only [dat2]
theorem after_v (c : Dev nD) (t : Fin cfg2.N) : (dat2 m c).after 2 t = blockAt m c 2 t := by dsimp only [dat2]
theorem after_h (c : Dev nD) (t : Fin cfg2.N) : (dat2 m c).after 3 t = blockAt m c 3 t := by dsimp only [dat2]
theorem after_out (c : Dev nD) (t : Fin cfg2.N) : (dat2 m c).after 4 t = outAt m c t := by dsimp only [dat2]
theorem inv_at (c : Dev nD) (t : Fin (cfg2.N + 1)) : (dat2 m c).Φ t = inv m c t.val := by dsimp only [dat2]

theorem before_q (c : Dev nD) (t : Fin cfg2.N) (d) : (dat2 m c).before 0 t d = blockAt m c 0 t :=
  q_found m (dat2 m c) (dat2_A m c 0) (after_q m c) t d
theorem before_k (c : Dev nD) (t : Fin cfg2.N) (d) : (dat2 m c).before 1 t d = blockAt m c 1 t :=
  k_found m (dat2 m c) (dat2_A m c 1) (after_k m c) t d
theorem before_v (c : Dev nD) (t : Fin cfg2.N) (d) : (dat2 m c).before 2 t d = blockAt m c 2 t :=
  v_found m (dat2 m c) (dat2_A m c 2) (after_v m c) t d
theorem before_h (c : Dev nD) (t : Fin cfg2.N) (d) : (dat2 m c).before 3 t d = blockAt m c 3 t :=
  h_found m (dat2 m c) (dat2_A m c 3) (after_h m c) t d

/-! ## The body at a point -/

theorem step_first (c : Dev nD) (t : Fin cfg2.N) (hA : atFirstTile (grid2.coords t)) (s : Running F) :
    step m c t s = afterFirst c (grid2.coords t) (ms0 t) (hs0 t) (ms1 t) (hs1 t) (ms2 t) (hs2 t) (ms3 t) (hs3 t) (ms4 t) (hs4 t) sc7 (Memref.isWhole_whole _) sc8 (Memref.isWhole_whole _) sc9 (Memref.isWhole_whole _) hA (first_not_last t hA) (blockAt m c 0 t) (blockAt m c 1 t) (blockAt m c 2 t) (blockAt m c 3 t) := by
  unfold step; rw [dif_pos hA]
theorem step_middle (c : Dev nD) (t : Fin cfg2.N) (hA : ¬atFirstTile (grid2.coords t)) (hB : ¬atLastTile (grid2.coords t)) (s : Running F) :
    step m c t s = afterMiddle c (grid2.coords t) (ms0 t) (hs0 t) (ms1 t) (hs1 t) (ms2 t) (hs2 t) (ms3 t) (hs3 t) (ms4 t) (hs4 t) sc7 (Memref.isWhole_whole _) sc8 (Memref.isWhole_whole _) sc9 (Memref.isWhole_whole _) hA hB (blockAt m c 0 t) (blockAt m c 1 t) (blockAt m c 2 t) (blockAt m c 3 t) s.1 s.2.1 s.2.2 := by
  unfold step; rw [dif_neg hA, dif_neg hB]
theorem step_last (c : Dev nD) (t : Fin cfg2.N) (hA : ¬atFirstTile (grid2.coords t)) (hB : atLastTile (grid2.coords t)) (s : Running F) :
    step m c t s = afterLast c (grid2.coords t) (ms0 t) (hs0 t) (ms1 t) (hs1 t) (ms2 t) (hs2 t) (ms3 t) (hs3 t) (ms4 t) (hs4 t) sc7 (Memref.isWhole_whole _) sc8 (Memref.isWhole_whole _) sc9 (Memref.isWhole_whole _) hA hB (blockAt m c 0 t) (blockAt m c 1 t) (blockAt m c 2 t) (blockAt m c 3 t) s.1 s.2.1 s.2.2 := by
  unfold step; rw [dif_neg hA, dif_pos hB]
theorem outAt_last (c : Dev nD) (t : Fin cfg2.N) (hA : ¬atFirstTile (grid2.coords t)) (hB : atLastTile (grid2.coords t)) :
    outAt m c t = outLast c (grid2.coords t) (ms0 t) (hs0 t) (ms1 t) (hs1 t) (ms2 t) (hs2 t) (ms3 t) (hs3 t) (ms4 t) (hs4 t) sc7 (Memref.isWhole_whole _) sc8 (Memref.isWhole_whole _) sc9 (Memref.isWhole_whole _) hA hB (blockAt m c 0 t) (blockAt m c 1 t) (blockAt m c 2 t) (blockAt m c 3 t) (stateAfter m c t.val).1 (stateAfter m c t.val).2.1 (stateAfter m c t.val).2.2 := by
  unfold outAt; rw [dif_pos hB, dif_neg hA]

/-- What the body is called with at point `t`, -/
def bodyPre (c : Dev nD) (t : Fin cfg2.N) : sProp 𝕄 :=
  iprop((dat2 m c).Φ t.castSucc ∗ (dat2 m c).owesAt () t.castSucc
    ∗ (∃ d, owns (c : Thread nD τ) (st2_0 t) fullShare ((dat2 m c).before 0 t d))
    ∗ (∃ d, owns (c : Thread nD τ) (st2_1 t) fullShare ((dat2 m c).before 1 t d))
    ∗ (∃ d, owns (c : Thread nD τ) (st2_2 t) fullShare ((dat2 m c).before 2 t d))
    ∗ (∃ d, owns (c : Thread nD τ) (st2_3 t) fullShare ((dat2 m c).before 3 t d))
    ∗ (∃ d, owns (c : Thread nD τ) (st2_4 t) fullShare ((dat2 m c).before 4 t d)))

/-- and what it returns: of the output window, at a point where it is idle and not written back, that its buffer is as
    found; at a last tile, that it holds the stored quotient. -/
def bodyPost (c : Dev nD) (t : Fin cfg2.N) : sProp 𝕄 :=
  iprop((dat2 m c).Φ t.succ ∗ (dat2 m c).owesAt () t.succ
    ∗ owns (c : Thread nD τ) (st2_0 t) fullShare ((dat2 m c).after 0 t)
    ∗ owns (c : Thread nD τ) (st2_1 t) fullShare ((dat2 m c).after 1 t)
    ∗ owns (c : Thread nD τ) (st2_2 t) fullShare ((dat2 m c).after 2 t)
    ∗ owns (c : Thread nD τ) (st2_3 t) fullShare ((dat2 m c).after 3 t)
    ∗ (match cfg2.idle 4 (grid2.coords t) with
        | true =>
          match (cfg2.win 4).flush t with
          | false => iprop(∃ d, owns (c : Thread nD τ) (st2_4 t) fullShare ((dat2 m c).before 4 t d))
          | true => owns (c : Thread nD τ) (st2_4 t) fullShare ((dat2 m c).after 4 t)
        | false => owns (c : Thread nD τ) (st2_4 t) fullShare ((dat2 m c).after 4 t)))

set_option maxHeartbeats 400000 in
/-- A middle tile: the running arrays hold what the recursion says (the point is not the first), the case's run applies,
    and they end at the recursion's next value; the output block's buffer is handed back as found. -/
theorem sound_middle (c : Dev nD) (t : Fin cfg2.N) (hA : ¬atFirstTile (grid2.coords t)) (hB : ¬atLastTile (grid2.coords t)) :
    bodyPre m c t ⊢ wp frame (wpE (defs₀ (F := F)) Variants.none c none) Set.univ (bodyAt2 t) (fun _ => bodyPost m c t) := by
  unfold bodyPre bodyPost bodyAt2
  rw [out_idle t hB, out_kept t hB]
  dsimp only
  simp only [before_q, before_k, before_v, before_h, after_q, after_k, after_v, after_h, inv_at, Fin.coe_castSucc, Fin.val_succ]
  rw [show (dat2 m c).owesAt () t.succ = (dat2 m c).owesAt () t.castSucc from rfl]
  unfold inv
  iintro ⟨⟨%s, %hs, S7, S8, S9, Hoth⟩, Ho, ⟨%d0, H0⟩, ⟨%d1, H1⟩, ⟨%d2, H2⟩, ⟨%d3, H3⟩, ⟨%d4, H4⟩⟩
  obtain rfl := hs (not_first_pos t hA)
  iapply ((runMiddle c (grid2.coords t) (ms0 t) (hs0 t) (ms1 t) (hs1 t) (ms2 t) (hs2 t) (ms3 t) (hs3 t) (ms4 t) (hs4 t) sc7 (Memref.isWhole_whole _) sc8 (Memref.isWhole_whole _) sc9 (Memref.isWhole_whole _) hA hB (blockAt m c 0 t) (blockAt m c 1 t) (blockAt m c 2 t) (blockAt m c 3 t) (stateAfter m c t.val).1 (stateAfter m c t.val).2.1 (stateAfter m c t.val).2.2).2.2.2 _ Set.univ _)
  isplitl [H0]; · iexact H0
  isplitl [H1]; · iexact H1
  isplitl [H2]; · iexact H2
  isplitl [H3]; · iexact H3
  isplitl [H4]; · iexact H4
  isplitl [S7]; · iexact S7
  isplitl [S8]; · iexact S8
  isplitl [S9]; · iexact S9
  iintro ⟨H0, H1, H2, H3, H4, ⟨%f7, S7⟩, ⟨%f8, S8⟩, ⟨%f9, S9⟩⟩
  isplitl [S7 S8 S9 Hoth]
  · iexists (stateAfter m c (t.val + 1))
    isplitr; · ipureintro; exact fun _ => rfl
    isplitl [S7]
    · unfold owns; iexists _; isplitr; swap; · iexact S7
      ipureintro
      rw [stateAfter_succ, step_middle m c t hA hB]
      dsimp only [afterMiddle]
      exact leavesMiddle7 c (grid2.coords t) (ms0 t) (hs0 t) (ms1 t) (hs1 t) (ms2 t) (hs2 t) (ms3 t) (hs3 t) (ms4 t) (hs4 t) sc7 (Memref.isWhole_whole _) sc8 (Memref.isWhole_whole _) sc9 (Memref.isWhole_whole _) hA hB (blockAt m c 0 t) (blockAt m c 1 t) (blockAt m c 2 t) (blockAt m c 3 t) (stateAfter m c t.val).1 (stateAfter m c t.val).2.1 (stateAfter m c t.val).2.2 f7
    isplitl [S8]
    · unfold owns; iexists _; isplitr; swap; · iexact S8
      ipureintro
      rw [stateAfter_succ, step_middle m c t hA hB]
      dsimp only [afterMiddle]
      exact leavesMiddle8 c (grid2.coords t) (ms0 t) (hs0 t) (ms1 t) (hs1 t) (ms2 t) (hs2 t) (ms3 t) (hs3 t) (ms4 t) (hs4 t) sc7 (Memref.isWhole_whole _) sc8 (Memref.isWhole_whole _) sc9 (Memref.isWhole_whole _) hA hB (blockAt m c 0 t) (blockAt m c 1 t) (blockAt m c 2 t) (blockAt m c 3 t) (stateAfter m c t.val).1 (stateAfter m c t.val).2.1 (stateAfter m c t.val).2.2 f8
    isplitl [S9]
    · unfold owns; iexists _; isplitr; swap; · iexact S9
      ipureintro
      rw [stateAfter_succ, step_middle m c t hA hB]
      dsimp only [afterMiddle]
      exact leavesMiddle9 c (grid2.coords t) (ms0 t) (hs0 t) (ms1 t) (hs1 t) (ms2 t) (hs2 t) (ms3 t) (hs3 t) (ms4 t) (hs4 t) sc7 (Memref.isWhole_whole _) sc8 (Memref.isWhole_whole _) sc9 (Memref.isWhole_whole _) hA hB (blockAt m c 0 t) (blockAt m c 1 t) (blockAt m c 2 t) (blockAt m c 3 t) (stateAfter m c t.val).1 (stateAfter m c t.val).2.1 (stateAfter m c t.val).2.2 f9
    iexact Hoth
  isplitl [Ho]; · iexact Ho
  isplitl [H0]; · iexact H0
  isplitl [H1]; · iexact H1
  isplitl [H2]; · iexact H2
  isplitl [H3]; · iexact H3
  iexists d4; iexact H4

set_option maxHeartbeats 400000 in
/-- A first tile: whatever the running arrays hold, the body overwrites them before it uses them, and they end at the
    recursion's next value, which at a first tile does not look back; the output block's buffer is handed back as found. -/
theorem sound_first (c : Dev nD) (t : Fin cfg2.N) (hA : atFirstTile (grid2.coords t)) :
    bodyPre m c t ⊢ wp frame (wpE (defs₀ (F := F)) Variants.none c none) Set.univ (bodyAt2 t) (fun _ => bodyPost m c t) := by
  have hB : ¬atLastTile (grid2.coords t) := first_not_last t hA
  unfold bodyPre bodyPost bodyAt2
  rw [out_idle t hB, out_kept t hB]
  dsimp only
  simp only [before_q, before_k, before_v, before_h, after_q, after_k, after_v, after_h, after_out, inv_at, Fin.coe_castSucc, Fin.val_succ]
  rw [show (dat2 m c).owesAt () t.succ = (dat2 m c).owesAt () t.castSucc from rfl]
  unfold inv
  iintro ⟨⟨%s, -, S7, S8, S9, Hoth⟩, Ho, ⟨%d0, H0⟩, ⟨%d1, H1⟩, ⟨%d2, H2⟩, ⟨%d3, H3⟩, ⟨%d4, H4⟩⟩
  iapply ((runFirst c (grid2.coords t) (ms0 t) (hs0 t) (ms1 t) (hs1 t) (ms2 t) (hs2 t) (ms3 t) (hs3 t) (ms4 t) (hs4 t) sc7 (Memref.isWhole_whole _) sc8 (Memref.isWhole_whole _) sc9 (Memref.isWhole_whole _) hA hB (blockAt m c 0 t) (blockAt m c 1 t) (blockAt m c 2 t) (blockAt m c 3 t)).2.2.2 _ Set.univ _)
  isplitl [H0]; · iexact H0
  isplitl [H1]; · iexact H1
  isplitl [H2]; · iexact H2
  isplitl [H3]; · iexact H3
  isplitl [H4]; · iexact H4
  isplitl [S7]; · iexists _; iexact S7
  isplitl [S8]; · iexists _; iexact S8
  isplitl [S9]; · iexists _; iexact S9
  iintro ⟨H0, H1, H2, H3, H4, ⟨%f7, S7⟩, ⟨%f8, S8⟩, ⟨%f9, S9⟩⟩
  isplitl [S7 S8 S9 Hoth]
  · iexists (stateAfter m c (t.val + 1))
    isplitr; · ipureintro; exact fun _ => rfl
    isplitl [S7]
    · unfold owns; iexists _; isplitr; swap; · iexact S7
      ipureintro
      rw [stateAfter_succ, step_first m c t hA]
      dsimp only [afterFirst]
      exact leavesFirst7 c (grid2.coords t) (ms0 t) (hs0 t) (ms1 t) (hs1 t) (ms2 t) (hs2 t) (ms3 t) (hs3 t) (ms4 t) (hs4 t) sc7 (Memref.isWhole_whole _) sc8 (Memref.isWhole_whole _) sc9 (Memref.isWhole_whole _) hA hB (blockAt m c 0 t) (blockAt m c 1 t) (blockAt m c 2 t) (blockAt m c 3 t) f7
    isplitl [S8]
    · unfold owns; iexists _; isplitr; swap; · iexact S8
      ipureintro
      rw [stateAfter_succ, step_first m c t hA]
      dsimp only [afterFirst]
      exact leavesFirst8 c (grid2.coords t) (ms0 t) (hs0 t) (ms1 t) (hs1 t) (ms2 t) (hs2 t) (ms3 t) (hs3 t) (ms4 t) (hs4 t) sc7 (Memref.isWhole_whole _) sc8 (Memref.isWhole_whole _) sc9 (Memref.isWhole_whole _) hA hB (blockAt m c 0 t) (blockAt m c 1 t) (blockAt m c 2 t) (blockAt m c 3 t) f8
    isplitl [S9]
    · unfold owns; iexists _; isplitr; swap; · iexact S9
      ipureintro
      rw [stateAfter_succ, step_first m c t hA]
      dsimp only [afterFirst]
      exact leavesFirst9 c (grid2.coords t) (ms0 t) (hs0 t) (ms1 t) (hs1 t) (ms2 t) (hs2 t) (ms3 t) (hs3 t) (ms4 t) (hs4 t) sc7 (Memref.isWhole_whole _) sc8 (Memref.isWhole_whole _) sc9 (Memref.isWhole_whole _) hA hB (blockAt m c 0 t) (blockAt m c 1 t) (blockAt m c 2 t) (blockAt m c 3 t) f9
    iexact Hoth
  isplitl [Ho]; · iexact Ho
  isplitl [H0]; · iexact H0
  isplitl [H1]; · iexact H1
  isplitl [H2]; · iexact H2
  isplitl [H3]; · iexact H3
  iexists d4; iexact H4

set_option maxHeartbeats 400000 in
/-- A last tile: as a middle tile, and the output block's buffer, whatever it held, ends holding the stored quotient. -/
theorem sound_last (c : Dev nD) (t : Fin cfg2.N) (hA : ¬atFirstTile (grid2.coords t)) (hB : atLastTile (grid2.coords t)) :
    bodyPre m c t ⊢ wp frame (wpE (defs₀ (F := F)) Variants.none c none) Set.univ (bodyAt2 t) (fun _ => bodyPost m c t) := by
  unfold bodyPre bodyPost bodyAt2
  rw [out_live t hB]
  dsimp only
  simp only [before_q, before_k, before_v, before_h, after_q, after_k, after_v, after_h, after_out, inv_at, Fin.coe_castSucc, Fin.val_succ]
  rw [show (dat2 m c).owesAt () t.succ = (dat2 m c).owesAt () t.castSucc from rfl]
  unfold inv
  iintro ⟨⟨%s, %hs, S7, S8, S9, Hoth⟩, Ho, ⟨%d0, H0⟩, ⟨%d1, H1⟩, ⟨%d2, H2⟩, ⟨%d3, H3⟩, ⟨%d4, H4⟩⟩
  obtain rfl := hs (not_first_pos t hA)
  iapply ((runLast c (grid2.coords t) (ms0 t) (hs0 t) (ms1 t) (hs1 t) (ms2 t) (hs2 t) (ms3 t) (hs3 t) (ms4 t) (hs4 t) sc7 (Memref.isWhole_whole _) sc8 (Memref.isWhole_whole _) sc9 (Memref.isWhole_whole _) hA hB (blockAt m c 0 t) (blockAt m c 1 t) (blockAt m c 2 t) (blockAt m c 3 t) (stateAfter m c t.val).1 (stateAfter m c t.val).2.1 (stateAfter m c t.val).2.2).2.2.2.2 Set.univ _)
  isplitl [H0]; · iexact H0
  isplitl [H1]; · iexact H1
  isplitl [H2]; · iexact H2
  isplitl [H3]; · iexact H3
  isplitl [H4]; · iexists _; iexact H4
  isplitl [S7]; · iexact S7
  isplitl [S8]; · iexact S8
  isplitl [S9]; · iexact S9
  iintro ⟨H0, H1, H2, H3, ⟨%f6, H4⟩, ⟨%f7, S7⟩, ⟨%f8, S8⟩, ⟨%f9, S9⟩⟩
  isplitl [S7 S8 S9 Hoth]
  · iexists (stateAfter m c (t.val + 1))
    isplitr; · ipureintro; exact fun _ => rfl
    isplitl [S7]
    · unfold owns; iexists _; isplitr; swap; · iexact S7
      ipureintro
      rw [stateAfter_succ, step_last m c t hA hB]
      dsimp only [afterLast]
      exact leavesLast7 c (grid2.coords t) (ms0 t) (hs0 t) (ms1 t) (hs1 t) (ms2 t) (hs2 t) (ms3 t) (hs3 t) (ms4 t) (hs4 t) sc7 (Memref.isWhole_whole _) sc8 (Memref.isWhole_whole _) sc9 (Memref.isWhole_whole _) hA hB (blockAt m c 0 t) (blockAt m c 1 t) (blockAt m c 2 t) (blockAt m c 3 t) (stateAfter m c t.val).1 (stateAfter m c t.val).2.1 (stateAfter m c t.val).2.2 f7
    isplitl [S8]
    · unfold owns; iexists _; isplitr; swap; · iexact S8
      ipureintro
      rw [stateAfter_succ, step_last m c t hA hB]
      dsimp only [afterLast]
      exact leavesLast8 c (grid2.coords t) (ms0 t) (hs0 t) (ms1 t) (hs1 t) (ms2 t) (hs2 t) (ms3 t) (hs3 t) (ms4 t) (hs4 t) sc7 (Memref.isWhole_whole _) sc8 (Memref.isWhole_whole _) sc9 (Memref.isWhole_whole _) hA hB (blockAt m c 0 t) (blockAt m c 1 t) (blockAt m c 2 t) (blockAt m c 3 t) (stateAfter m c t.val).1 (stateAfter m c t.val).2.1 (stateAfter m c t.val).2.2 f8
    isplitl [S9]
    · unfold owns; iexists _; isplitr; swap; · iexact S9
      ipureintro
      rw [stateAfter_succ, step_last m c t hA hB]
      dsimp only [afterLast]
      exact leavesLast9 c (grid2.coords t) (ms0 t) (hs0 t) (ms1 t) (hs1 t) (ms2 t) (hs2 t) (ms3 t) (hs3 t) (ms4 t) (hs4 t) sc7 (Memref.isWhole_whole _) sc8 (Memref.isWhole_whole _) sc9 (Memref.isWhole_whole _) hA hB (blockAt m c 0 t) (blockAt m c 1 t) (blockAt m c 2 t) (blockAt m c 3 t) (stateAfter m c t.val).1 (stateAfter m c t.val).2.1 (stateAfter m c t.val).2.2 f9
    iexact Hoth
  isplitl [Ho]; · iexact Ho
  isplitl [H0]; · iexact H0
  isplitl [H1]; · iexact H1
  isplitl [H2]; · iexact H2
  isplitl [H3]; · iexact H3
  unfold owns; iexists _; isplitr; swap; · iexact H4
  ipureintro
  rw [outAt_last m c t hA hB]
  dsimp only [outLast]
  exact leavesLast6 c (grid2.coords t) (ms0 t) (hs0 t) (ms1 t) (hs1 t) (ms2 t) (hs2 t) (ms3 t) (hs3 t) (ms4 t) (hs4 t) sc7 (Memref.isWhole_whole _) sc8 (Memref.isWhole_whole _) sc9 (Memref.isWhole_whole _) hA hB (blockAt m c 0 t) (blockAt m c 1 t) (blockAt m c 2 t) (blockAt m c 3 t) (stateAfter m c t.val).1 (stateAfter m c t.val).2.1 (stateAfter m c t.val).2.2 f6

/-- The body at any point: it is a first tile, a last tile, or neither. -/
theorem sound_body (c : Dev nD) (t : Fin cfg2.N) :
    bodyPre m c t ⊢ wp frame (wpE (defs₀ (F := F)) Variants.none c none) Set.univ (bodyAt2 t) (fun _ => bodyPost m c t) := by
  by_cases hA : atFirstTile (grid2.coords t)
  · exact sound_first m c t hA
  · by_cases hB : atLastTile (grid2.coords t)
    · exact sound_last m c t hA hB
    · exact sound_middle m c t hA hB

/-- The body obligation of the third call, at every point. -/
theorem body_obligation (c : Dev nD) : BodyObligation (dat2 (F := F) m c) (defs₀ (F := F)) Variants.none () Set.univ := fun t => by
  rw [bigSep_W2, bigSep_W2]
  exact sound_body m c t

/-! ## The call as a segment of the program -/

section Record

variable (ρ : Dev nD → PrngReg)
variable (L : GSem nD τ sig → Finset Unit) (lv : GSem nD τ sig → Unit → ℕ)

/-- What the third call leaves in the result's buffer. -/
abbrev out_final (c : Dev nD) : Buf (Elt F) ((c : Thread nD τ).loc main_v2) := (dat2 m c).arrAt 4 cfg2.N

/-- The unscoped buffers after the third call: the result written too. -/
abbrev W3 (c : Dev nD) : Valuation τ sig (Elt F) := Function.update (W2 m c) main_v2 (out_final m c)

theorem W3_eq_W2 (c : Dev nD) (b : DevRef τ sig) (h : b ≠ Proc.devRef .tc main_v2) : W3 m c b = W2 m c b :=
  Function.update_of_ne h _ _

/-- Each window's array after the last point is what the valuation after the call holds there: the four inputs as the
    call found them, the result as written. -/
theorem final_arrays (c : Dev nD) (w : Fin cfg2.W) : (dat2 m c).arrAt w cfg2.N = W3 m c (Pipeline.arrRef spec2 w) := by
  match w with
  | ⟨0, _⟩ => exact ((dat2 m c).arrAt_in 0 rfl _).trans ((dat2_A m c 0).trans (W3_eq_W2 m c (Proc.devRef .tc main_v0) (by decide)).symm)
  | ⟨1, _⟩ => exact ((dat2 m c).arrAt_in 1 rfl _).trans ((dat2_A m c 1).trans (W3_eq_W2 m c (Proc.devRef .tc main_v1_0) (by decide)).symm)
  | ⟨2, _⟩ => exact ((dat2 m c).arrAt_in 2 rfl _).trans ((dat2_A m c 2).trans (W3_eq_W2 m c (Proc.devRef .tc main_v1_1) (by decide)).symm)
  | ⟨3, _⟩ => exact ((dat2 m c).arrAt_in 3 rfl _).trans ((dat2_A m c 3).trans (W3_eq_W2 m c (Proc.devRef .tc main_arg2) (by decide)).symm)
  | ⟨4, _⟩ => exact (Function.update_self (Proc.devRef .tc main_v2 : DevRef τ sig) (out_final m c) (W2 m c)).symm

/-- The unscoped buffers that are no array of this call do not see the update of the result. -/
theorem rest_unchanged (c : Dev nD) :
    (Pipeline.unscopedRest (Ix := Unit) (Name := ℕ) (U := UR sig nD τ) (Lvl := ℕ) (Pipeline.pin (pcfgs (F := F)) adm 2).spec c (fun b => W3 m c b) : sProp 𝕄)
      = Pipeline.unscopedRest (Ix := Unit) (Name := ℕ) (U := UR sig nD τ) (Lvl := ℕ) spec2 c (fun b => W2 m c b) := by
  show (Pipeline.unscopedRest (Ix := Unit) (Name := ℕ) (U := UR sig nD τ) (Lvl := ℕ) spec2 c (fun b => W3 m c b) : sProp 𝕄) = _
  rw [unscopedRest2_eq, unscopedRest2_eq]
  simp only [W3_eq_W2 m c (Proc.devRef .tc main_arg0) (by decide), W3_eq_W2 m c (Proc.devRef .tc main_arg1) (by decide),
    W3_eq_W2 m c (Proc.devRef .tc main_arg3) (by decide), W3_eq_W2 m c (Proc.devRef .tc main_arg4) (by decide),
    W3_eq_W2 m c (Proc.devRef .tc main_arg5) (by decide)]

/-- The third call's invariant (the proof data opened). -/
theorem inv_eq (c : Dev nD) (t : Fin (cfg2.N + 1)) : (family m (dat1 m) (dat2 m) 2 c).Φ t = inv m c t.val := by
  dsimp only [family, dat2]

/-- Before the first point nothing is known of the running arrays: the scoped buffers the call does not stage, each at
    some contents, are the invariant there. -/
theorem inv_zero (c : Dev nD) :
    (Pipeline.scopedRest (Ix := Unit) (Name := ℕ) (U := UR sig nD τ) (Lvl := ℕ) (Val := Elt F) (Pipeline.pin (pcfgs (F := F)) adm 2).spec c : sProp 𝕄)
      ⊢ inv m c 0 := by
  show (Pipeline.scopedRest (Ix := Unit) (Name := ℕ) (U := UR sig nD τ) (Lvl := ℕ) (Val := Elt F) spec2 c : sProp 𝕄) ⊢ _
  rw [scopedRest2_eq]
  unfold inv others
  simp only [owns_whole]
  iintro ⟨O1, O2, O3, O4, O5, O6, O7, O8, O9, O10, O11, O12, O13, ⟨%f7, S7⟩, ⟨%f8, S8⟩, ⟨%f9, S9⟩⟩
  iexists ((f7 : Vec F S1x2048 .f32), (f8 : Vec F S1x2048 .f32), (f9 : Vec F S2048x256 .f32))
  isplitr; · ipureintro; exact fun h => absurd rfl h
  isplitl [S7]; · iexact S7
  isplitl [S8]; · iexact S8
  isplitl [S9]; · iexact S9
  isplitl [O1]; · iexact O1
  isplitl [O2]; · iexact O2
  isplitl [O3]; · iexact O3
  isplitl [O4]; · iexact O4
  isplitl [O5]; · iexact O5
  isplitl [O6]; · iexact O6
  isplitl [O7]; · iexact O7
  isplitl [O8]; · iexact O8
  isplitl [O9]; · iexact O9
  isplitl [O10]; · iexact O10
  isplitl [O11]; · iexact O11
  isplitl [O12]; · iexact O12
  iexact O13

/-- After the last point the invariant gives those scoped buffers back, what the running arrays hold forgotten. -/
theorem inv_last (c : Dev nD) (n : ℕ) :
    inv m c n ⊢ (Pipeline.scopedRest (Ix := Unit) (Name := ℕ) (U := UR sig nD τ) (Lvl := ℕ) (Val := Elt F) (Pipeline.pin (pcfgs (F := F)) adm 2).spec c : sProp 𝕄) := by
  show _ ⊢ (Pipeline.scopedRest (Ix := Unit) (Name := ℕ) (U := UR sig nD τ) (Lvl := ℕ) (Val := Elt F) spec2 c : sProp 𝕄)
  rw [scopedRest2_eq]
  unfold inv others
  simp only [owns_whole]
  iintro ⟨%s, -, S7, S8, S9, O1, O2, O3, O4, O5, O6, O7, O8, O9, O10, O11, O12, O13⟩
  isplitl [O1]; · iexact O1
  isplitl [O2]; · iexact O2
  isplitl [O3]; · iexact O3
  isplitl [O4]; · iexact O4
  isplitl [O5]; · iexact O5
  isplitl [O6]; · iexact O6
  isplitl [O7]; · iexact O7
  isplitl [O8]; · iexact O8
  isplitl [O9]; · iexact O9
  isplitl [O10]; · iexact O10
  isplitl [O11]; · iexact O11
  isplitl [O12]; · iexact O12
  isplitl [O13]; · iexact O13
  isplitl [S7]; · iexists _; iexact S7
  isplitl [S8]; · iexists _; iexact S8
  iexists _; iexact S9

/-- The invariant after the last point gives the scoped buffers back. -/
theorem seg2_hout (c : Dev nD) : (family m (dat1 m) (dat2 m) 2 c).Φ (Fin.last (Pipeline.pin (pcfgs (F := F)) adm 2).N)
    ⊢ (iprop(emp ∗ Pipeline.ownSems0 (Ix := Unit) (Name := ℕ) (U := UR sig nD τ) (Lvl := ℕ) (Val := Elt F) (τ := τ) (fun k : PEmpty => k.elim) c
        ∗ Pipeline.scopedRest (Ix := Unit) (Name := ℕ) (U := UR sig nD τ) (Lvl := ℕ) (Val := Elt F) (Pipeline.pin (pcfgs (F := F)) adm 2).spec c) : sProp 𝕄) := by
  rw [Pipeline.ownSems0_none, inv_eq]
  show _ ⊢ (iprop(emp ∗ emp ∗ Pipeline.scopedRest (Ix := Unit) (Name := ℕ) (U := UR sig nD τ) (Lvl := ℕ) (Val := Elt F) spec2 c) : sProp 𝕄)
  rw [scopedRest2_eq]
  unfold inv others
  simp only [owns_whole]
  iintro ⟨%s, -, S7, S8, S9, O1, O2, O3, O4, O5, O6, O7, O8, O9, O10, O11, O12, O13⟩
  isplitr; · iempintro
  isplitr; · iempintro
  isplitl [O1]; · iexact O1
  isplitl [O2]; · iexact O2
  isplitl [O3]; · iexact O3
  isplitl [O4]; · iexact O4
  isplitl [O5]; · iexact O5
  isplitl [O6]; · iexact O6
  isplitl [O7]; · iexact O7
  isplitl [O8]; · iexact O8
  isplitl [O9]; · iexact O9
  isplitl [O10]; · iexact O10
  isplitl [O11]; · iexact O11
  isplitl [O12]; · iexact O12
  isplitl [O13]; · iexact O13
  isplitl [S7]; · iexists _; iexact S7
  isplitl [S8]; · iexists _; iexact S8
  iexists _; iexact S9

/-- The arrays as the last point leaves them, and what bypassed the call, are the thread state after it. -/
theorem seg2_hexit (c : Dev nD) :
    (iprop((family m (dat1 m) (dat2 m) 2 c).arrays ((family m (dat1 m) (dat2 m) 2 c).arrAt · (Pipeline.pin (pcfgs (F := F)) adm 2).N)
        ∗ (family m (dat1 m) (dat2 m) 2 c).owesAt () (Fin.last (Pipeline.pin (pcfgs (F := F)) adm 2).N) ∗ emp
        ∗ (Pipeline.unscopedRest (Ix := Unit) (Name := ℕ) (U := UR sig nD τ) (Lvl := ℕ) spec2 c (fun b => W2 m c b) ∗ rides ρ c)) : sProp 𝕄)
      ⊢ |={Set.univ}=> iprop(StableHlo.held (c : Thread nD τ) (Pipeline.ucRefs τ sig) (W3 m c) ∗ between ρ c) := by
  rw [← Pipeline.unscopedBufs_held (Ix := Unit) (Name := ℕ) (U := UR sig nD τ) (Lvl := ℕ) c (W3 m c),
    Pipeline.unscopedBufs_split (Pipeline.pin (pcfgs (F := F)) adm) 2 launch2.win.arr_unscoped launch2.win.arr_inj c (fun b => W3 m c b),
    Pipeline.arrays_eq (Pipeline.pin (pcfgs (F := F)) adm) (family m (dat1 m) (dat2 m)) 2 c launch2.arr_whole ((family m (dat1 m) (dat2 m) 2 c).share_full fun _ => rfl),
    rest_unchanged]
  unfold between
  iintro ⟨Ha, HO, -, Hrest, Hr⟩
  imodintro
  isplitl [Ha Hrest]
  · isplitl [Ha]
    · iapply (Entails.of_eq (bigSep_congr fun w _ => congrArg (fun f => (_ ↦{fullShare} f : sProp 𝕄)) (final_arrays m c w)))
      iexact Ha
    · iexact Hrest
  isplitl [Hr]; · iexact Hr
  unfold Pipeline.Dat.owesAt Pipeline.owesWithin
  icases HO with ⟨%W, -, HO⟩
  iexists W
  iexact HO

/-- THE THIRD CALL as a segment: entered with `Q`, `K` and `V` written, left with the result written too. -/
def seg2 : RegionSeg (pcfgs (F := F)) adm (family m (dat1 m) (dat2 m)) () defs₀ Variants.none L lv 2 where
  win := launch2.win.to₀
  block_pos := launch2.block_pos
  stage_whole := launch2.stage_whole
  K := PEmpty
  osem k := k.elim
  ho := Pipeline.OwnSemFacts.none _
  hbody c := (body_obligation m c).loose
  hwaits c := Pipeline.hwaits_of_owed_zero (pcfgs (F := F)) adm (family m (dat1 m) (dat2 m)) () L lv 2 (fun _ _ => rfl) c
  pre c := iprop(StableHlo.held (c : Thread nD τ) (Pipeline.ucRefs τ sig) (W2 m c) ∗ between ρ c)
  post c := iprop(StableHlo.held (c : Thread nD τ) (Pipeline.ucRefs τ sig) (W3 m c) ∗ between ρ c)
  X _ := iprop(emp)
  Y _ := iprop(emp)
  Z c := iprop(Pipeline.unscopedRest (Ix := Unit) (Name := ℕ) (U := UR sig nD τ) (Lvl := ℕ) spec2 c (fun b => W2 m c b) ∗ rides ρ c)
  hentry c := by
    rw [Pipeline.ownSems0_none, ← Pipeline.unscopedBufs_held (Ix := Unit) (Name := ℕ) (U := UR sig nD τ) (Lvl := ℕ) c (W2 m c)]
    have hsplit := Pipeline.arrays_of_unscopedBufs (pcfgs (F := F)) adm (family m (dat1 m) (dat2 m)) (p := 2) launch2.win launch2.arr_whole c
      ((family m (dat1 m) (dat2 m) 2 c).share_full fun _ => rfl) (fun b => W2 m c b) (dat2_A m c)
    unfold between
    iintro ⟨⟨Hub, Hr, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩
      iexists W; isplitr; · ipureintro; exact fun _ _ => Or.inl trivial
      iexact HO
    isplitr; · iempintro
    isplitl [Hrest] <;> iassumption
  hin c := by
    rw [inv_eq]
    iintro ⟨-, -, H⟩
    iapply (inv_zero m c)
    iexact H
  hout c := seg2_hout m c
  hexit c := seg2_hexit m ρ c

end Record

end Cert.Kernel.Region2

end
-- ==== Proof.KWFrame.lean ====
/-
  The word-level kernel's frame. The program is three calls in a row. Each is a segment entered from the thread state
  the one before left: the unscoped buffers held at a valuation — as launched; then with `Q` written; then with `K` and
  `V` written too; then with the result written — beside what rides along untouched (the unscoped semaphores, the
  launch's credit, the generator's register, a core that owes nothing). No call writes an argument, so at the end every
  argument's buffer holds what it was launched with.
-/
import proofs.«127266_j31533649887507_2_alg».proof.Proof.KWRegion2
import proofs.«127266_j31533649887507_2_alg».proof.Proof.Gen.Kernel.Regions

set_option maxRecDepth 16384

noncomputable section

namespace Cert.Kernel.FrameProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)
open Cert.Kernel.Region0 (family rides between W0 W1 seg0 q_final)
open Cert.Kernel.Region1 (W2 dat1 seg1 k_final v_final)
open Cert.Kernel.Region2 (W3 dat2 seg2 out_final)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No cell carries a level: no call waits on anything but its own staging transfers. -/
abbrev noLevels : GSem nD τ sig → Finset Unit := fun _ => ∅
abbrev level0 : GSem nD τ sig → Unit → ℕ := fun _ _ => 0

/-- What the buffers hold after each call, as one table. -/
def leaves : Outs (F := F) := fun J r c =>
  match J with
  | 1 => W1 m c r
  | 2 => W2 m c r
  | 3 => W3 m c r
  | _ => W0 m c r

/-- The valuations between the calls are the ones the three segments are stated over. -/
theorem V1_eq (c : Dev nD) : V1 m (leaves m) c = W1 m c := by
  show Function.update (W0 m c) (Proc.devRef .tc main_v0) (W1 m c (Proc.devRef .tc main_v0)) = W1 m c
  rw [show W1 m c (Proc.devRef .tc main_v0) = q_final m c from Function.update_self (Proc.devRef .tc main_v0 : DevRef τ sig) (q_final m c) (W0 m c)]
theorem V2_eq (c : Dev nD) : V2 m (leaves m) c = W2 m c := by
  show Function.update (Function.update (V1 m (leaves m) c) (Proc.devRef .tc main_v1_0) (W2 m c (Proc.devRef .tc main_v1_0)))
    (Proc.devRef .tc main_v1_1) (W2 m c (Proc.devRef .tc main_v1_1)) = W2 m c
  rw [V1_eq,
    show W2 m c (Proc.devRef .tc main_v1_1) = v_final m c from
      Function.update_self (Proc.devRef .tc main_v1_1 : DevRef τ sig) (v_final m c) (Function.update (W1 m c) main_v1_0 (k_final m c)),
    show W2 m c (Proc.devRef .tc main_v1_0) = k_final m c from
      (Function.update_of_ne (show (Proc.devRef .tc main_v1_0 : DevRef τ sig) ≠ Proc.devRef .tc main_v1_1 by decide) (v_final m c)
        (Function.update (W1 m c) main_v1_0 (k_final m c))).trans (Function.update_self (Proc.devRef .tc main_v1_0 : DevRef τ sig) (k_final m c) (W1 m c))]
theorem V3_eq (c : Dev nD) : V3 m (leaves m) c = W3 m c := by
  show Function.update (V2 m (leaves m) c) (Proc.devRef .tc main_v2) (W3 m c (Proc.devRef .tc main_v2)) = W3 m c
  rw [V2_eq, show W3 m c (Proc.devRef .tc main_v2) = out_final m c from
    Function.update_self (Proc.devRef .tc main_v2 : DevRef τ sig) (out_final m c) (W2 m c)]

/-- What the launch hands each core, besides its buffers, is what rides along. -/
theorem launch_rides (c : Dev nD) :
    (iprop(unscopedSems0 c ∗ owes (c : Thread nD τ) (0 : CellTallies nD τ sig Unit) ∅
        ∗ Pipeline.launchCred (fun _ : Dev nD => (0 : CellTallies nD τ sig Unit)) c ∗ prngReg c (ρ c) ∗ emp) : sProp 𝕄)
      ⊢ between ρ c := by
  unfold between rides
  iintro ⟨Hs, HO, Hc, Hp, -⟩
  isplitl [Hs Hc Hp]
  · isplitl [Hs]; · iexact Hs
    isplitl [Hc]; · iexact Hc
    iexact Hp
  iexists ∅; iexact HO

set_option maxHeartbeats 1000000 in
/-- THE FRAME of the word-level kernel, at any float instance: every weakly fair execution from memory `m` with zero
    counters terminates, and every final memory holds each of the six arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_cond (F := F) m (Ix := Unit) (U := UR sig nD τ) (Lvl := ℕ) (EP := emb₁) (ι := ()) (𝒱₀ := Variants.none)
    (L := noLevels) (lv := level0) (hL := fun _ _ => rfl) (ρ := ρ) (outs := leaves m)
    (pdats := family m (dat1 m) (dat2 m)) (O₀ := fun _ => 0) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => between ρ c)
    (hE0 := by
      iintro ⟨H, -⟩
      imodintro
      iapply (show ((bigSep Finset.univ fun c : Dev nD => iprop(unscopedSems0 c ∗ owes (c : Thread nD τ) (0 : CellTallies nD τ sig Unit) ∅
            ∗ Pipeline.launchCred (fun _ : Dev nD => (0 : CellTallies nD τ sig Unit)) c ∗ prngReg c (ρ c) ∗ emp)) : sProp 𝕄)
          ⊢ bigSep Finset.univ (fun c : Dev nD => between ρ c) from bigSep_mono fun c _ => launch_rides ρ c)
      iexact H)
    (hE3 := fun c => by
      unfold between
      iintro ⟨-, H⟩
      iexact H)
    (R0 := seg0 m ρ noLevels level0 (dat1 m) (dat2 m)) (hpre0 := fun c => .rfl) (hpost0 := fun c => by rw [V1_eq]; exact .rfl)
    (R1 := seg1 m ρ noLevels level0 (dat2 m)) (hpre1 := fun c => by rw [V1_eq]; exact .rfl) (hpost1 := fun c => by rw [V2_eq]; exact .rfl)
    (R2 := seg2 m ρ noLevels level0) (hpre2 := fun c => by rw [V2_eq]; exact .rfl) (hpost2 := fun c => by rw [V3_eq]; exact .rfl)

end Cert.Kernel.FrameProof

end
-- ==== Proof.KIValueRun.lean ====
/-
  The idealized kernel's run with its result named. The three calls chain as in the frame; at the end the unscoped
  buffers are held at the last valuation, from which every final memory is read: the result's buffer holds what the
  third call left in it — the output blocks its last tiles wrote back — and every argument what it was launched with.
-/
import proofs.«127266_j31533649887507_2_alg».proof.Proof.KIFrame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal.Region0 (family rides between W0 W1 seg0 q_final)
open Cert.KernelIdeal.Region1 (W2 dat1 seg1 k_final v_final W2_outside)
open Cert.KernelIdeal.Region2 (W3 dat2 seg2 out_final W3_eq_W2)
open Cert.KernelIdeal.FrameProof (noLevels level0 launch_rides)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- An argument's buffer is as launched in the last valuation: no call wrote it. -/
theorem W3_arg (c : Dev nD) (b : DevRef τ sig) (h0 : b ≠ Proc.devRef .tc main_v0) (h1 : b ≠ Proc.devRef .tc main_v1_0)
    (h2 : b ≠ Proc.devRef .tc main_v1_1) (h3 : b ≠ Proc.devRef .tc main_v2) : W3 m c b = W0 m c b :=
  (W3_eq_W2 m c b h3).trans (W2_outside m c b h0 h1 h2)
/-- The result's buffer holds, in the last valuation, what the third call left in it. -/
theorem W3_result (c : Dev nD) : W3 m c (Proc.devRef .tc main_v2) = out_final m c :=
  Function.update_self (Proc.devRef .tc main_v2 : DevRef τ sig) (out_final m c) (W2 m c)

/-- The program's three calls as the three segments. -/
abbrev calls (c : Dev nD) : List (Seg (pcfgs (F := F)) adm (family m (dat1 m) (dat2 m)) () defs₀ Variants.none noLevels level0) :=
  [.region (seg0 m ρ noLevels level0 (dat1 m) (dat2 m)), .region (seg1 m ρ noLevels level0 (dat2 m)), .region (seg2 m ρ noLevels level0)]

set_option backward.isDefEq.respectTransparency.types false in
set_option maxHeartbeats 1000000 in
/-- THE RUN WITH THE RESULT NAMED, at any float instance. -/
theorem run : θ_run defs (onTc (τ := τ) (main (F := F))) ⟨m, fun _ => 0, ρ⟩ (fun r => ∀ c : Dev nD,
      r.2.mem ((c.tc : Thread nD τ).loc main_v2) = out_final m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) adm (family m (dat1 m) (dat2 m)) () cellOf_inj emb₁ defs₀ Variants.none noLevels level0 m ρ main
    (calls m ρ)
    (fun c Q => by
      rewrite [main_chain c, Seg.run_eq_chain,
        show (calls m ρ c).map Seg.prog = [
          Prog.lift (.customCall (Pipeline.entry 0) ()),
          Prog.lift (.customCall (Pipeline.entry 1) ()),
          Prog.lift (.customCall (Pipeline.entry 2) ()) ] from rfl]
      exact .rfl)
    (fun c => by simp only [calls, Seg.pipes_host, Seg.pipes_region, Seg.pipes_nil]; decide) (fun _ => 0) (fun _ _ => rfl) (fun _ => iprop(emp))
    (initOf (Pipeline.cells cfgs cellOf_inj) (Pipeline.launchToks cfgs cellOf_inj))
    (by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ between ρ c))
    (Tₙ := fun c => StableHlo.held (c : Thread nD τ) (Pipeline.ucRefs τ sig) (W3 m c))
    (hch := fun c => ⟨.rfl, .rfl, .rfl, sep_mono .rfl (by unfold between; iintro ⟨-, H⟩; iexact H)⟩)
    (hinit := ?_)
    (QY := fun c s => s.mem ((c.tc : Thread nD τ).loc main_v2) = out_final m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5))
    (hfin := fun c s' => ?_) (hQ := fun _ h => h)
  · -- the launch: the unscoped buffers are held as launched; the rest is what rides along, on every core at once
    have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ : Dev nD => (0 : CellTallies nD τ sig Unit)) c ∗ prngReg c (ρ c) ∗ emp))
        ⊢ (iprop((bigSep Finset.univ fun c : Dev nD => StableHlo.held (c : Thread nD τ) (Pipeline.ucRefs τ sig) (W0 m c))
            ∗ bigSep Finset.univ fun c : Dev nD => iprop(unscopedSems0 c ∗ owes (c : Thread nD τ) (0 : CellTallies nD τ sig Unit) ∅
                ∗ Pipeline.launchCred (fun _ : Dev nD => (0 : CellTallies nD τ sig Unit)) c ∗ prngReg c (ρ c) ∗ emp))
            : sProp 𝕄) := by
      rw [← bigSep_sep']
      exact bigSep_mono fun c _ => by rw [← Pipeline.unscopedBufs_held (Ix := Unit) (Name := ℕ) (U := UR sig nD τ) (Lvl := ℕ) c (W0 m c)]; exact BI.Entails.refl _
    iintro ⟨H, -⟩
    ihave H' := hsplit $$ H
    icases H' with ⟨Hh, Hr⟩
    ihave HE := (show ((bigSep Finset.univ fun c : Dev nD => iprop(unscopedSems0 c ∗ owes (c : Thread nD τ) (0 : CellTallies nD τ sig Unit) ∅
          ∗ Pipeline.launchCred (fun _ : Dev nD => (0 : CellTallies nD τ sig Unit)) c ∗ prngReg c (ρ c) ∗ emp)) : sProp 𝕄)
        ⊢ bigSep Finset.univ (fun c : Dev nD => between ρ c) from bigSep_mono fun c _ => launch_rides ρ c) $$ Hr
    imodintro
    rw [bigSep_sep']
    isplitl [Hh]; · iexact Hh
    iexact HE
  · -- the end: the result's buffer and each argument's read off the last valuation
    unfold StableHlo.held
    iintro ⟨Hh, HSI⟩
    ihave Hr := (pointsTo_read_all (Pipeline.ucRefs τ sig) (fun b => ((c : Thread nD τ).1, b)) (W3 m c) s') $$ [Hh HSI]
    · isplitl [Hh] <;> iassumption
    icases Hr with ⟨%h, HSI⟩
    imodintro
    isplitr
    · ipureintro
      exact ⟨(h (Proc.devRef .tc main_v2) (Finset.mem_filter.mpr ⟨StableHlo.devRef_mem_tcRefs main_v2, by decide⟩)).trans (W3_result m c),
        (h (Proc.devRef .tc main_arg0) (Finset.mem_filter.mpr ⟨StableHlo.devRef_mem_tcRefs main_arg0, by decide⟩)).trans (W3_arg m c (Proc.devRef .tc main_arg0) (by decide) (by decide) (by decide) (by decide)),
        (h (Proc.devRef .tc main_arg1) (Finset.mem_filter.mpr ⟨StableHlo.devRef_mem_tcRefs main_arg1, by decide⟩)).trans (W3_arg m c (Proc.devRef .tc main_arg1) (by decide) (by decide) (by decide) (by decide)),
        (h (Proc.devRef .tc main_arg2) (Finset.mem_filter.mpr ⟨StableHlo.devRef_mem_tcRefs main_arg2, by decide⟩)).trans (W3_arg m c (Proc.devRef .tc main_arg2) (by decide) (by decide) (by decide) (by decide)),
        (h (Proc.devRef .tc main_arg3) (Finset.mem_filter.mpr ⟨StableHlo.devRef_mem_tcRefs main_arg3, by decide⟩)).trans (W3_arg m c (Proc.devRef .tc main_arg3) (by decide) (by decide) (by decide) (by decide)),
        (h (Proc.devRef .tc main_arg4) (Finset.mem_filter.mpr ⟨StableHlo.devRef_mem_tcRefs main_arg4, by decide⟩)).trans (W3_arg m c (Proc.devRef .tc main_arg4) (by decide) (by decide) (by decide) (by decide)),
        (h (Proc.devRef .tc main_arg5) (Finset.mem_filter.mpr ⟨StableHlo.devRef_mem_tcRefs main_arg5, by decide⟩)).trans (W3_arg m c (Proc.devRef .tc main_arg5) (by decide) (by decide) (by decide) (by decide))⟩
    · iexact HSI

end Cert.KernelIdeal.ValueRun

end
-- ==== Proof.LibDenseBlock.lean ====
/-
  A weight matrix times a block, read at an index.

  A `tpu.matmul` of a `[K, N]` left operand with an `[N, Q]` right operand, contracting the left's second axis with the
  right's first, into a zero accumulator: over the extended reals entry `(k, q)` of the result is the plain sum
  `Σ n, l (k, n) * r (n, q)`.
-/
import Idealize.ShloMosaic.Lib.ValueIdx
import Idealize.ShloMosaic.PureOps.Ideal.Laws

noncomputable section

namespace Idealize.ShloMosaic.DenseBlock

open Idealize.ShloMosaic Idealize.ShloMosaic.ValueIdx

/-- The dimension numbers of `[K, N] · [N, Q] → [K, Q]`. -/
abbrev mmDims (K N Q : Nat)
    (wf : DotDims.WF ⟨2, ![K, N]⟩ ⟨2, ![N, Q]⟩ ⟨2, ![K, Q]⟩ [1] [0] [0] [1] [] []) :
    DotDims ⟨2, ![K, N]⟩ ⟨2, ![N, Q]⟩ ⟨2, ![K, Q]⟩ where
  lhsContracting := [1]
  rhsContracting := [0]
  lhsNonContracting := [0]
  rhsNonContracting := [1]
  lhsBatch := []
  rhsBatch := []
  wf := wf

section
variable {K N Q : Nat} (wf : DotDims.WF ⟨2, ![K, N]⟩ ⟨2, ![N, Q]⟩ ⟨2, ![K, Q]⟩ [1] [0] [0] [1] [] [])

/-- The left operand's row is the result's row. -/
theorem lhs_row (j : (⟨2, ![K, Q]⟩ : Shape).Idx) (c : (mmDims K N Q wf).contr.Idx) :
    ((mmDims K N Q wf).lhsIdx j c (0 : Fin 2)).val = (j 0).val := by
  unfold DotDims.lhsIdx
  rw [dif_neg (show ¬ (0 : Fin 2) ∈ (mmDims K N Q wf).lhsBatch from List.not_mem_nil),
    dif_pos (show (0 : Fin 2) ∈ (mmDims K N Q wf).lhsNonContracting from List.mem_singleton.mpr rfl)]
  rfl

/-- The left operand's column is the contraction position. -/
theorem lhs_col (j : (⟨2, ![K, Q]⟩ : Shape).Idx) (c : (mmDims K N Q wf).contr.Idx) :
    ((mmDims K N Q wf).lhsIdx j c (1 : Fin 2)).val = (c ⟨0, Nat.one_pos⟩).val :=
  (mmDims K N Q wf).lhsIdx_val_of_single rfl j c

/-- The right operand's row is the contraction position. -/
theorem rhs_row (j : (⟨2, ![K, Q]⟩ : Shape).Idx) (c : (mmDims K N Q wf).contr.Idx) :
    ((mmDims K N Q wf).rhsIdx j c (0 : Fin 2)).val = (c ⟨0, Nat.one_pos⟩).val :=
  (mmDims K N Q wf).rhsIdx_val_of_single rfl j c

/-- The right operand's column is the result's column. -/
theorem rhs_col (j : (⟨2, ![K, Q]⟩ : Shape).Idx) (c : (mmDims K N Q wf).contr.Idx) :
    ((mmDims K N Q wf).rhsIdx j c (1 : Fin 2)).val = (j 1).val := by
  unfold DotDims.rhsIdx
  rw [dif_neg (show ¬ (1 : Fin 2) ∈ (mmDims K N Q wf).rhsBatch from List.not_mem_nil),
    dif_pos (show (1 : Fin 2) ∈ (mmDims K N Q wf).rhsNonContracting from List.mem_singleton.mpr rfl)]
  rfl

/-- Entry `(k, q)` of the product into a zero accumulator is `Σ n, l (k, n) * r (n, q)`. -/
theorem matmul_zero_apply {φ₁ φ₂ : FTy} (l : FVec Ideal ⟨2, ![K, N]⟩ φ₁) (r : FVec Ideal ⟨2, ![N, Q]⟩ φ₂)
    (k : Fin K) (q : Fin Q) :
    FloatOps.matmul (mmDims K N Q wf) none l r (constant ⟨2, ![K, Q]⟩ .f32 0x00000000#32) (ix2 k q)
      = ∑ n : Fin N, l (ix2 k n) * r (ix2 n q) := by
  rw [Ideal.matmul_constant_zero_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end

end Idealize.ShloMosaic.DenseBlock

end
-- ==== Proof.KIArrays.lean ====
/-
  What the first two calls leave in `Q`, `K` and `V`. Each call writes its result array block by block, 1024 rows at a
  grid point, every row in exactly one block; the block a point writes is the product of the point's 1024 rows of the
  left argument with the whole weight matrix; so the array ends holding the whole product, entry by entry the sum over
  the 512 input features.
-/
import proofs.«127266_j31533649887507_2_alg».proof.Proof.KIRegion1
import proofs.«127266_j31533649887507_2_alg».proof.Proof.LibDenseBlock
import Idealize.ShloMosaic.Lib.Pipeline.Value
import Idealize.ShloMosaic.Lib.ValueIdx
import Idealize.ShloMosaic.PureOps.Ideal.Laws

set_option maxRecDepth 16384

noncomputable section

namespace Cert.KernelIdeal.Arrays

open Cert.KernelIdeal Cert.KernelIdeal.Gen
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- The product of a matrix of rows with a weight matrix, entry by entry. -/
def prod {R N C : Nat} (A : (⟨2, ![R, N]⟩ : Shape).Idx → EReal) (W : (⟨2, ![N, C]⟩ : Shape).Idx → EReal) : (⟨2, ![R, C]⟩ : Shape).Idx → EReal :=
  fun i => ∑ x : Fin N, A (ix2 (i 0) x) * W (ix2 x (i 1))

/-! ## The first call -/

/-- The first call's index maps: the rows' and the result's block is the point's; the weights' is the one block. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's value at row `r`, column `d` of the block: the row of the rows' block against the column of the weights. -/
theorem proj0_apply (y : FVec Ideal S1024x512 .f32) (w : FVec Ideal S512x64 .f32) (r : Fin 1024) (d : Fin 64) :
    k0_pay1 (F := Ideal) y w (ix2 r d) = ∑ x : Fin 512, y (ix2 r x) * w (ix2 x d) := by
  unfold k0_pay1
  exact DenseBlock.matmul_zero_apply (K := 1024) (N := 512) (Q := 64) (φ₁ := .bf16) (φ₂ := .bf16) dot_S1024x512_S512x64_S1024x64_1_0_0_1_n_n.wf
    (truncf .bf16 y bitsLt_bf16_f32) (truncf .bf16 w bitsLt_bf16_f32) r d

variable (m : (ℓ : Loc nD τ sig) → Buf (Elt Ideal) ℓ)

open Cert.KernelIdeal.Region0 (dat0 q_final)

/-- The arguments `Y` and `W_q` as launched, as arrays of extended reals. -/
abbrev argY (c : Dev nD) : S4096x512.Idx → EReal := m ((c : Thread nD τ).loc main_arg1)
abbrev argWq (c : Dev nD) : S512x64.Idx → EReal := m ((c : Thread nD τ).loc main_arg3)

/-- WHAT POINT `t` OF THE FIRST CALL WRITES BACK is block `t` of the product `Y · W_q`. -/
theorem flushed_q (c : Dev nD) (t : Fin cfg0.N) :
    (dat0 (F := Ideal) m c).flushed 2 t
      = ((cfg0.win 2).blk t).view.read (Elt Ideal) (prod (R := 4096) (N := 512) (C := 64) (argY m c) (argWq m c)) := by
  show (cfg0.win 2).cut (grid0.coords t) ((dat0 (F := Ideal) m c).after 2 t) = _
  rw [Region0.after_out]
  unfold Region0.proj_block
  rw [View.canon_unit_zero hz]
  simp only [View.ld_unit_zero (S := S1024x512) hz, View.ld_unit_zero (S := S512x64) hz]
  obtain ⟨e0, e1, e2, e3, e4, e5⟩ := idx0 t
  funext j
  obtain ⟨r, d, rfl⟩ : ∃ (r : Fin 1024) (d : Fin 64), j = ix2 r d := ⟨j 0, j 1, eq_ix2 j⟩
  refine (proj0_apply _ _ r d).trans ?_
  show ∑ x : Fin 512, argY m c (((cfg0.win 0).blk t).view.emb (ix2 r x)) * argWq m c (((cfg0.win 1).blk t).view.emb (ix2 x d))
      = ∑ x : Fin 512, argY m c (ix2 ((((cfg0.win 2).blk t).view.emb (ix2 r d)) 0) x) * argWq m c (ix2 x ((((cfg0.win 2).blk t).view.emb (ix2 r d)) 1))
  refine Finset.sum_congr rfl fun x _ => ?_
  have h0 : ((cfg0.win 0).blk t).view.emb (ix2 r x) = ix2 ((((cfg0.win 2).blk t).view.emb (ix2 r d)) 0) x := by
    funext a; apply Fin.ext
    match a with
    | ⟨0, _⟩ => show win0_0.index t (0 : Fin 2) * 1024 + 1 * r.val = win0_2.index t (0 : Fin 2) * 1024 + 1 * r.val; omega
    | ⟨1, _⟩ => show win0_0.index t (1 : Fin 2) * 512 + 1 * x.val = x.val; omega
  have h1 : ((cfg0.win 1).blk t).view.emb (ix2 x d) = ix2 x ((((cfg0.win 2).blk t).view.emb (ix2 r d)) 1) := by
    funext a; apply Fin.ext
    match a with
    | ⟨0, _⟩ => show win0_1.index t (0 : Fin 2) * 512 + 1 * x.val = x.val; omega
    | ⟨1, _⟩ => show win0_1.index t (1 : Fin 2) * 64 + 1 * d.val = win0_2.index t (1 : Fin 2) * 64 + 1 * d.val; omega
  rw [h0, h1]
  rfl

/-- An index of `Q` is in point `t`'s block iff each coordinate is in the block's range on its axis. -/
theorem mem_q_blk (t : Fin cfg0.N) (i : S4096x64.Idx) :
    i ∈ ((cfg0.win 2).blk t).view.set ↔ ∀ a : Fin 2, win0_2.index t a * S1024x64.size a ≤ (i a).val ∧ (i a).val < win0_2.index t a * S1024x64.size a + S1024x64.size a := by
  show i ∈ ((View.whole main_v0).slice (win0_2.rect t)).set ↔ _
  rw [View.set_slice_whole, Rect.mem_set_unit]
  exact Iff.rfl

/-- Every index of `Q` is in the block some point writes back: row `r` in that of point `r / 1024`. -/
theorem q_cover (i : S4096x64.Idx) : ∃ t : Fin cfg0.N, (cfg0.win 2).flush t = true ∧ i ∈ ((cfg0.win 2).blk t).view.set := by
  have hi0 : (i 0).val < 4096 := (i 0).isLt
  have hi1 : (i 1).val < 64 := (i 1).isLt
  have hN : (i 0).val / 1024 < cfg0.N := by rw [show cfg0.N = 4 from N_0]; omega
  refine ⟨⟨(i 0).val / 1024, hN⟩, flush0_2 _, ?_⟩
  rw [mem_q_blk]
  obtain ⟨e0, e1, e2, e3, e4, e5⟩ := idx0 ⟨(i 0).val / 1024, hN⟩
  intro a
  match a with
  | ⟨0, _⟩ =>
    show win0_2.index ⟨(i 0).val / 1024, hN⟩ (0 : Fin 2) * 1024 ≤ (i 0).val ∧ (i 0).val < win0_2.index ⟨(i 0).val / 1024, hN⟩ (0 : Fin 2) * 1024 + 1024
    rw [e4]; show (i 0).val / 1024 * 1024 ≤ (i 0).val ∧ (i 0).val < (i 0).val / 1024 * 1024 + 1024; omega
  | ⟨1, _⟩ =>
    show win0_2.index ⟨(i 0).val / 1024, hN⟩ (1 : Fin 2) * 64 ≤ (i 1).val ∧ (i 1).val < win0_2.index ⟨(i 0).val / 1024, hN⟩ (1 : Fin 2) * 64 + 64
    rw [e5]; omega

/-- THE FIRST CALL LEAVES `Q = Y · W_q`. -/
theorem q_final_eq (c : Dev nD) :
    q_final (F := Ideal) m c = prod (R := 4096) (N := 512) (C := 64) (argY m c) (argWq m c) :=
  (dat0 (F := Ideal) m c).arrAt_eq_of_cover 2 _ (fun t _ => flushed_q m c t) q_cover

/-! ## The second call -/

open Cert.KernelIdeal.Region1 (dat1 k_final v_final)

/-- The arguments `X`, `W_k` and `W_v` as launched, as arrays of extended reals. -/
abbrev argX (c : Dev nD) : S8192x512.Idx → EReal := m ((c : Thread nD τ).loc main_arg0)
abbrev argWk (c : Dev nD) : S512x64.Idx → EReal := m ((c : Thread nD τ).loc main_arg4)
abbrev argWv (c : Dev nD) : S512x256.Idx → EReal := m ((c : Thread nD τ).loc main_arg5)

/-- The second call's index maps: the rows' and the two results' block is the point's; the weights' is the one block. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- The body's value at row `r`, column `d` of the `K` block. -/
theorem projk_apply (x : FVec Ideal S1024x512 .f32) (w : FVec Ideal S512x64 .f32) (r : Fin 1024) (d : Fin 64) :
    k1_pay2 (F := Ideal) x w (ix2 r d) = ∑ f : Fin 512, x (ix2 r f) * w (ix2 f d) := by
  unfold k1_pay2 k1_pay1
  exact DenseBlock.matmul_zero_apply (K := 1024) (N := 512) (Q := 64) (φ₁ := .bf16) (φ₂ := .bf16) dot_S1024x512_S512x64_S1024x64_1_0_0_1_n_n.wf
    (truncf .bf16 x bitsLt_bf16_f32) (truncf .bf16 w bitsLt_bf16_f32) r d

/-- WHAT POINT `t` OF THE SECOND CALL WRITES BACK into `K` is block `t` of the product. -/
theorem flushed_k (c : Dev nD) (t : Fin cfg1.N) :
    (dat1 (F := Ideal) m c).flushed 3 t
      = ((cfg1.win 3).blk t).view.read (Elt Ideal) (prod (R := 8192) (N := 512) (C := 64) (argX m c) (argWk m c)) := by
  show (cfg1.win 3).cut (grid1.coords t) ((dat1 (F := Ideal) m c).after 3 t) = _
  rw [Region1.after_k]
  unfold Region1.k_block
  rw [View.canon_unit_zero hz]
  simp only [View.ld_unit_zero (S := S1024x512) hz, View.ld_unit_zero (S := S512x64) hz]
  obtain ⟨e0, e1, e2, e3, e4, e5, e6, e7, e8, e9⟩ := idx1 t
  funext j
  obtain ⟨r, d, rfl⟩ : ∃ (r : Fin 1024) (d : Fin 64), j = ix2 r d := ⟨j 0, j 1, eq_ix2 j⟩
  refine (projk_apply _ _ r d).trans ?_
  show ∑ f : Fin 512, argX m c (((cfg1.win 0).blk t).view.emb (ix2 r f)) * argWk m c (((cfg1.win 1).blk t).view.emb (ix2 f d))
      = ∑ f : Fin 512, argX m c (ix2 ((((cfg1.win 3).blk t).view.emb (ix2 r d)) 0) f) * argWk m c (ix2 f ((((cfg1.win 3).blk t).view.emb (ix2 r d)) 1))
  refine Finset.sum_congr rfl fun f _ => ?_
  have h0 : ((cfg1.win 0).blk t).view.emb (ix2 r f) = ix2 ((((cfg1.win 3).blk t).view.emb (ix2 r d)) 0) f := by
    funext a; apply Fin.ext
    match a with
    | ⟨0, _⟩ => show win1_0.index t (0 : Fin 2) * 1024 + 1 * r.val = win1_3.index t (0 : Fin 2) * 1024 + 1 * r.val; omega
    | ⟨1, _⟩ => show win1_0.index t (1 : Fin 2) * 512 + 1 * f.val = f.val; omega
  have h1 : ((cfg1.win 1).blk t).view.emb (ix2 f d) = ix2 f ((((cfg1.win 3).blk t).view.emb (ix2 r d)) 1) := by
    funext a; apply Fin.ext
    match a with
    | ⟨0, _⟩ => show win1_1.index t (0 : Fin 2) * 512 + 1 * f.val = f.val; omega
    | ⟨1, _⟩ => show win1_1.index t (1 : Fin 2) * 64 + 1 * d.val = win1_3.index t (1 : Fin 2) * 64 + 1 * d.val; omega
  rw [h0, h1]
  rfl

theorem mem_k_blk (t : Fin cfg1.N) (i : S8192x64.Idx) :
    i ∈ ((cfg1.win 3).blk t).view.set ↔ ∀ a : Fin 2, win1_3.index t a * S1024x64.size a ≤ (i a).val ∧ (i a).val < win1_3.index t a * S1024x64.size a + S1024x64.size a := by
  show i ∈ ((View.whole main_v1_0).slice (win1_3.rect t)).set ↔ _
  rw [View.set_slice_whole, Rect.mem_set_unit]
  exact Iff.rfl

theorem k_cover (i : S8192x64.Idx) : ∃ t : Fin cfg1.N, (cfg1.win 3).flush t = true ∧ i ∈ ((cfg1.win 3).blk t).view.set := by
  have hi0 : (i 0).val < 8192 := (i 0).isLt
  have hi1 : (i 1).val < 64 := (i 1).isLt
  have hN : (i 0).val / 1024 < cfg1.N := by rw [show cfg1.N = 8 from N_1]; omega
  refine ⟨⟨(i 0).val / 1024, hN⟩, flush1_3 _, ?_⟩
  rw [mem_k_blk]
  obtain ⟨e0, e1, e2, e3, e4, e5, e6, e7, e8, e9⟩ := idx1 ⟨(i 0).val / 1024, hN⟩
  intro a
  match a with
  | ⟨0, _⟩ =>
    show win1_3.index ⟨(i 0).val / 1024, hN⟩ (0 : Fin 2) * 1024 ≤ (i 0).val ∧ (i 0).val < win1_3.index ⟨(i 0).val / 1024, hN⟩ (0 : Fin 2) * 1024 + 1024
    rw [e6]; show (i 0).val / 1024 * 1024 ≤ (i 0).val ∧ (i 0).val < (i 0).val / 1024 * 1024 + 1024; omega
  | ⟨1, _⟩ =>
    show win1_3.index ⟨(i 0).val / 1024, hN⟩ (1 : Fin 2) * 64 ≤ (i 1).val ∧ (i 1).val < win1_3.index ⟨(i 0).val / 1024, hN⟩ (1 : Fin 2) * 64 + 64
    rw [e7]; omega

/-- THE SECOND CALL LEAVES `K` as the whole product. -/
theorem k_final_eq (c : Dev nD) :
    k_final (F := Ideal) m c = prod (R := 8192) (N := 512) (C := 64) (argX m c) (argWk m c) :=
  (dat1 (F := Ideal) m c).arrAt_eq_of_cover 3 _ (fun t _ => flushed_k m c t) k_cover

/-- The body's value at row `r`, column `d` of the `V` block. -/
theorem projv_apply (x : FVec Ideal S1024x512 .f32) (w : FVec Ideal S512x256 .f32) (r : Fin 1024) (d : Fin 256) :
    k1_pay3 (F := Ideal) x w (ix2 r d) = ∑ f : Fin 512, x (ix2 r f) * w (ix2 f d) := by
  unfold k1_pay3 k1_pay1
  exact DenseBlock.matmul_zero_apply (K := 1024) (N := 512) (Q := 256) (φ₁ := .bf16) (φ₂ := .bf16) dot_S1024x512_S512x256_S1024x256_1_0_0_1_n_n.wf
    (truncf .bf16 x bitsLt_bf16_f32) (truncf .bf16 w bitsLt_bf16_f32) r d

/-- WHAT POINT `t` OF THE SECOND CALL WRITES BACK into `V` is block `t` of the product. -/
theorem flushed_v (c : Dev nD) (t : Fin cfg1.N) :
    (dat1 (F := Ideal) m c).flushed 4 t
      = ((cfg1.win 4).blk t).view.read (Elt Ideal) (prod (R := 8192) (N := 512) (C := 256) (argX m c) (argWv m c)) := by
  show (cfg1.win 4).cut (grid1.coords t) ((dat1 (F := Ideal) m c).after 4 t) = _
  rw [Region1.after_v]
  unfold Region1.v_block
  rw [View.canon_unit_zero hz]
  simp only [View.ld_unit_zero (S := S1024x512) hz, View.ld_unit_zero (S := S512x256) hz]
  obtain ⟨e0, e1, e2, e3, e4, e5, e6, e7, e8, e9⟩ := idx1 t
  funext j
  obtain ⟨r, d, rfl⟩ : ∃ (r : Fin 1024) (d : Fin 256), j = ix2 r d := ⟨j 0, j 1, eq_ix2 j⟩
  refine (projv_apply _ _ r d).trans ?_
  show ∑ f : Fin 512, argX m c (((cfg1.win 0).blk t).view.emb (ix2 r f)) * argWv m c (((cfg1.win 2).blk t).view.emb (ix2 f d))
      = ∑ f : Fin 512, argX m c (ix2 ((((cfg1.win 4).blk t).view.emb (ix2 r d)) 0) f) * argWv m c (ix2 f ((((cfg1.win 4).blk t).view.emb (ix2 r d)) 1))
  refine Finset.sum_congr rfl fun f _ => ?_
  have h0 : ((cfg1.win 0).blk t).view.emb (ix2 r f) = ix2 ((((cfg1.win 4).blk t).view.emb (ix2 r d)) 0) f := by
    funext a; apply Fin.ext
    match a with
    | ⟨0, _⟩ => show win1_0.index t (0 : Fin 2) * 1024 + 1 * r.val = win1_4.index t (0 : Fin 2) * 1024 + 1 * r.val; omega
    | ⟨1, _⟩ => show win1_0.index t (1 : Fin 2) * 512 + 1 * f.val = f.val; omega
  have h1 : ((cfg1.win 2).blk t).view.emb (ix2 f d) = ix2 f ((((cfg1.win 4).blk t).view.emb (ix2 r d)) 1) := by
    funext a; apply Fin.ext
    match a with
    | ⟨0, _⟩ => show win1_2.index t (0 : Fin 2) * 512 + 1 * f.val = f.val; omega
    | ⟨1, _⟩ => show win1_2.index t (1 : Fin 2) * 256 + 1 * d.val = win1_4.index t (1 : Fin 2) * 256 + 1 * d.val; omega
  rw [h0, h1]
  rfl

theorem mem_v_blk (t : Fin cfg1.N) (i : S8192x256.Idx) :
    i ∈ ((cfg1.win 4).blk t).view.set ↔ ∀ a : Fin 2, win1_4.index t a * S1024x256.size a ≤ (i a).val ∧ (i a).val < win1_4.index t a * S1024x256.size a + S1024x256.size a := by
  show i ∈ ((View.whole main_v1_1).slice (win1_4.rect t)).set ↔ _
  rw [View.set_slice_whole, Rect.mem_set_unit]
  exact Iff.rfl

theorem v_cover (i : S8192x256.Idx) : ∃ t : Fin cfg1.N, (cfg1.win 4).flush t = true ∧ i ∈ ((cfg1.win 4).blk t).view.set := by
  have hi0 : (i 0).val < 8192 := (i 0).isLt
  have hi1 : (i 1).val < 256 := (i 1).isLt
  have hN : (i 0).val / 1024 < cfg1.N := by rw [show cfg1.N = 8 from N_1]; omega
  refine ⟨⟨(i 0).val / 1024, hN⟩, flush1_4 _, ?_⟩
  rw [mem_v_blk]
  obtain ⟨e0, e1, e2, e3, e4, e5, e6, e7, e8, e9⟩ := idx1 ⟨(i 0).val / 1024, hN⟩
  intro a
  match a with
  | ⟨0, _⟩ =>
    show win1_4.index ⟨(i 0).val / 1024, hN⟩ (0 : Fin 2) * 1024 ≤ (i 0).val ∧ (i 0).val < win1_4.index ⟨(i 0).val / 1024, hN⟩ (0 : Fin 2) * 1024 + 1024
    rw [e8]; show (i 0).val / 1024 * 1024 ≤ (i 0).val ∧ (i 0).val < (i 0).val / 1024 * 1024 + 1024; omega
  | ⟨1, _⟩ =>
    show win1_4.index ⟨(i 0).val / 1024, hN⟩ (1 : Fin 2) * 256 ≤ (i 1).val ∧ (i 1).val < win1_4.index ⟨(i 0).val / 1024, hN⟩ (1 : Fin 2) * 256 + 256
    rw [e9]; omega

/-- THE SECOND CALL LEAVES `V` as the whole product. -/
theorem v_final_eq (c : Dev nD) :
    v_final (F := Ideal) m c = prod (R := 8192) (N := 512) (C := 256) (argX m c) (argWv m c) :=
  (dat1 (F := Ideal) m c).arrAt_eq_of_cover 4 _ (fun t _ => flushed_v m c t) v_cover

end Cert.KernelIdeal.Arrays

end
-- ==== Proof.KIRegion2Pieces.lean ====
/-
  What each case of the third call's body leaves in each array, as the body's own arithmetic of what it loaded: a middle
  or a last tile leaves the new maximum, the new running sum and the new accumulator computed from the tile's blocks and
  the three running arrays; a first tile the same from the initial values (`-∞`, zero, zero) it has just stored; a last
  tile, in the output block, the quotient of the new accumulator by the new running sum.
-/
import proofs.«127266_j31533649887507_2_alg».proof.Proof.KIRegion2Runs
import Idealize.ShloMosaic.Lib.Pipeline.Value

set_option maxRecDepth 16384

noncomputable section

namespace Cert.KernelIdeal.Region2

open Cert.KernelIdeal Cert.KernelIdeal.Gen
open Idealize.ShloMosaic Idealize.ShloMosaic.TcCoe Idealize.ShloMosaic.Tactic
open Idealize.SL Idealize.SL.Sem

variable {F : FTy → Type} [FloatOps F] [Named F]

/-- The origin of a block, as the zero offset. -/
theorem hz : (![0, 0] : Fin 2 → Nat) = fun _ => 0 := funext fun a => by fin_cases a <;> rfl

set_option maxHeartbeats 400000 in
theorem leftMiddle7_eq (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : ¬atFirstTile i) (hB : ¬atLastTile i) (x2 : Vec F S2048x64 .bf16) (x3 : Vec F S512x64 .bf16) (x4 : Vec F S512x256 .bf16) (x5 : Vec F S512x2048 .i32) (s7 : Vec F S1x2048 .f32) (s8 : Vec F S1x2048 .f32) (s9 : Vec F S2048x256 .f32) :
    leftMiddle7 c i arg2 harg2 arg3 harg3 arg4 harg4 arg5 harg5 arg6 harg6 arg7 harg7 arg8 harg8 arg9 harg9 hA hB x2 x3 x4 x5 s7 s8 s9 = k2_pay2 (k2_pay8 x2 x3 x5 s7) := by
  unfold leftMiddle7 runMiddle
  dsimp only
  sl_unfold_words
  rw [View.canon_unit_zero hz]
  simp only [View.readAt_eq_ld, View.readCov_unit_zero arg7.view hz, View.readCov_unit_zero arg8.view hz, View.readCov_unit_zero arg9.view hz, harg2.read_unread, harg3.read_unread, harg4.read_unread, harg5.read_unread, harg6.read_unread, harg7.read_unread, harg8.read_unread, harg9.read_unread, View.ld_unit_zero (S := S2048x64) hz, View.ld_unit_zero (S := S512x64) hz, View.ld_unit_zero (S := S512x256) hz, View.ld_unit_zero (S := S512x2048) hz, View.ld_unit_zero (S := S1x2048) hz, View.ld_unit_zero (S := S2048x256) hz]
  try rfl

set_option maxHeartbeats 400000 in
theorem leftMiddle8_eq (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : ¬atFirstTile i) (hB : ¬atLastTile i) (x2 : Vec F S2048x64 .bf16) (x3 : Vec F S512x64 .bf16) (x4 : Vec F S512x256 .bf16) (x5 : Vec F S512x2048 .i32) (s7 : Vec F S1x2048 .f32) (s8 : Vec F S1x2048 .f32) (s9 : Vec F S2048x256 .f32) :
    leftMiddle8 c i arg2 harg2 arg3 harg3 arg4 harg4 arg5 harg5 arg6 harg6 arg7 harg7 arg8 harg8 arg9 harg9 hA hB x2 x3 x4 x5 s7 s8 s9 = k2_pay11 x2 x3 x5 s7 s8 := by
  unfold leftMiddle8 runMiddle
  dsimp only
  sl_unfold_words
  rw [View.canon_unit_zero hz]
  simp only [View.readAt_eq_ld, View.readCov_unit_zero arg7.view hz, View.readCov_unit_zero arg8.view hz, View.readCov_unit_zero arg9.view hz, harg2.read_unread, harg3.read_unread, harg4.read_unread, harg5.read_unread, harg6.read_unread, harg7.read_unread, harg8.read_unread, harg9.read_unread, View.ld_unit_zero (S := S2048x64) hz, View.ld_unit_zero (S := S512x64) hz, View.ld_unit_zero (S := S512x256) hz, View.ld_unit_zero (S := S512x2048) hz, View.ld_unit_zero (S := S1x2048) hz, View.ld_unit_zero (S := S2048x256) hz]
  try rfl

set_option maxHeartbeats 400000 in
theorem leftMiddle9_eq (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : ¬atFirstTile i) (hB : ¬atLastTile i) (x2 : Vec F S2048x64 .bf16) (x3 : Vec F S512x64 .bf16) (x4 : Vec F S512x256 .bf16) (x5 : Vec F S512x2048 .i32) (s7 : Vec F S1x2048 .f32) (s8 : Vec F S1x2048 .f32) (s9 : Vec F S2048x256 .f32) :
    leftMiddle9 c i arg2 harg2 arg3 harg3 arg4 harg4 arg5 harg5 arg6 harg6 arg7 harg7 arg8 harg8 arg9 harg9 hA hB x2 x3 x4 x5 s7 s8 s9 = k2_pay1 (k2_pay9 x2 x3 x5 s7) (k2_pay10 x2 x3 x5 s7) (k2_pay12 x4) s9 := by
  unfold leftMiddle9 runMiddle
  dsimp only
  sl_unfold_words
  rw [View.canon_unit_zero hz]
  simp only [View.readAt_eq_ld, View.readCov_unit_zero arg7.view hz, View.readCov_unit_zero arg8.view hz, View.readCov_unit_zero arg9.view hz, harg2.read_unread, harg3.read_unread, harg4.read_unread, harg5.read_unread, harg6.read_unread, harg7.read_unread, harg8.read_unread, harg9.read_unread, View.ld_unit_zero (S := S2048x64) hz, View.ld_unit_zero (S := S512x64) hz, View.ld_unit_zero (S := S512x256) hz, View.ld_unit_zero (S := S512x2048) hz, View.ld_unit_zero (S := S1x2048) hz, View.ld_unit_zero (S := S2048x256) hz]
  try rfl

set_option maxHeartbeats 400000 in
theorem leftLast6_eq (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : ¬atFirstTile i) (hB : atLastTile i) (x2 : Vec F S2048x64 .bf16) (x3 : Vec F S512x64 .bf16) (x4 : Vec F S512x256 .bf16) (x5 : Vec F S512x2048 .i32) (s7 : Vec F S1x2048 .f32) (s8 : Vec F S1x2048 .f32) (s9 : Vec F S2048x256 .f32) :
    leftLast6 c i arg2 harg2 arg3 harg3 arg4 harg4 arg5 harg5 arg6 harg6 arg7 harg7 arg8 harg8 arg9 harg9 hA hB x2 x3 x4 x5 s7 s8 s9 = k2_pay3 (k2_pay11 x2 x3 x5 s7 s8) (k2_pay1 (k2_pay9 x2 x3 x5 s7) (k2_pay10 x2 x3 x5 s7) (k2_pay12 x4) s9) := by
  unfold leftLast6 runLast
  dsimp only
  sl_unfold_words
  rw [View.canon_unit_zero hz]
  simp only [View.readAt_eq_ld, View.readCov_unit_zero arg7.view hz, View.readCov_unit_zero arg8.view hz, View.readCov_unit_zero arg9.view hz, harg2.read_unread, harg3.read_unread, harg4.read_unread, harg5.read_unread, harg6.read_unread, harg7.read_unread, harg8.read_unread, harg9.read_unread, View.ld_unit_zero (S := S2048x64) hz, View.ld_unit_zero (S := S512x64) hz, View.ld_unit_zero (S := S512x256) hz, View.ld_unit_zero (S := S512x2048) hz, View.ld_unit_zero (S := S1x2048) hz, View.ld_unit_zero (S := S2048x256) hz]
  try rfl

set_option maxHeartbeats 400000 in
theorem leftLast7_eq (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : ¬atFirstTile i) (hB : atLastTile i) (x2 : Vec F S2048x64 .bf16) (x3 : Vec F S512x64 .bf16) (x4 : Vec F S512x256 .bf16) (x5 : Vec F S512x2048 .i32) (s7 : Vec F S1x2048 .f32) (s8 : Vec F S1x2048 .f32) (s9 : Vec F S2048x256 .f32) :
    leftLast7 c i arg2 harg2 arg3 harg3 arg4 harg4 arg5 harg5 arg6 harg6 arg7 harg7 arg8 harg8 arg9 harg9 hA hB x2 x3 x4 x5 s7 s8 s9 = k2_pay2 (k2_pay8 x2 x3 x5 s7) := by
  unfold leftLast7 runLast
  dsimp only
  sl_unfold_words
  rw [View.canon_unit_zero hz]
  simp only [View.readAt_eq_ld, View.readCov_unit_zero arg7.view hz, View.readCov_unit_zero arg8.view hz, View.readCov_unit_zero arg9.view hz, harg2.read_unread, harg3.read_unread, harg4.read_unread, harg5.read_unread, harg6.read_unread, harg7.read_unread, harg8.read_unread, harg9.read_unread, View.ld_unit_zero (S := S2048x64) hz, View.ld_unit_zero (S := S512x64) hz, View.ld_unit_zero (S := S512x256) hz, View.ld_unit_zero (S := S512x2048) hz, View.ld_unit_zero (S := S1x2048) hz, View.ld_unit_zero (S := S2048x256) hz]
  try rfl

set_option maxHeartbeats 400000 in
theorem leftLast8_eq (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : ¬atFirstTile i) (hB : atLastTile i) (x2 : Vec F S2048x64 .bf16) (x3 : Vec F S512x64 .bf16) (x4 : Vec F S512x256 .bf16) (x5 : Vec F S512x2048 .i32) (s7 : Vec F S1x2048 .f32) (s8 : Vec F S1x2048 .f32) (s9 : Vec F S2048x256 .f32) :
    leftLast8 c i arg2 harg2 arg3 harg3 arg4 harg4 arg5 harg5 arg6 harg6 arg7 harg7 arg8 harg8 arg9 harg9 hA hB x2 x3 x4 x5 s7 s8 s9 = k2_pay11 x2 x3 x5 s7 s8 := by
  unfold leftLast8 runLast
  dsimp only
  sl_unfold_words
  rw [View.canon_unit_zero hz]
  simp only [View.readAt_eq_ld, View.readCov_unit_zero arg7.view hz, View.readCov_unit_zero arg8.view hz, View.readCov_unit_zero arg9.view hz, harg2.read_unread, harg3.read_unread, harg4.read_unread, harg5.read_unread, harg6.read_unread, harg7.read_unread, harg8.read_unread, harg9.read_unread, View.ld_unit_zero (S := S2048x64) hz, View.ld_unit_zero (S := S512x64) hz, View.ld_unit_zero (S := S512x256) hz, View.ld_unit_zero (S := S512x2048) hz, View.ld_unit_zero (S := S1x2048) hz, View.ld_unit_zero (S := S2048x256) hz]
  try rfl

set_option maxHeartbeats 400000 in
theorem leftLast9_eq (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : ¬atFirstTile i) (hB : atLastTile i) (x2 : Vec F S2048x64 .bf16) (x3 : Vec F S512x64 .bf16) (x4 : Vec F S512x256 .bf16) (x5 : Vec F S512x2048 .i32) (s7 : Vec F S1x2048 .f32) (s8 : Vec F S1x2048 .f32) (s9 : Vec F S2048x256 .f32) :
    leftLast9 c i arg2 harg2 arg3 harg3 arg4 harg4 arg5 harg5 arg6 harg6 arg7 harg7 arg8 harg8 arg9 harg9 hA hB x2 x3 x4 x5 s7 s8 s9 = k2_pay1 (k2_pay9 x2 x3 x5 s7) (k2_pay10 x2 x3 x5 s7) (k2_pay12 x4) s9 := by
  unfold leftLast9 runLast
  dsimp only
  sl_unfold_words
  rw [View.canon_unit_zero hz]
  simp only [View.readAt_eq_ld, View.readCov_unit_zero arg7.view hz, View.readCov_unit_zero arg8.view hz, View.readCov_unit_zero arg9.view hz, harg2.read_unread, harg3.read_unread, harg4.read_unread, harg5.read_unread, harg6.read_unread, harg7.read_unread, harg8.read_unread, harg9.read_unread, View.ld_unit_zero (S := S2048x64) hz, View.ld_unit_zero (S := S512x64) hz, View.ld_unit_zero (S := S512x256) hz, View.ld_unit_zero (S := S512x2048) hz, View.ld_unit_zero (S := S1x2048) hz, View.ld_unit_zero (S := S2048x256) hz]
  try rfl

set_option maxHeartbeats 400000 in
theorem leftFirst7_eq (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : atFirstTile i) (hB : ¬atLastTile i) (x2 : Vec F S2048x64 .bf16) (x3 : Vec F S512x64 .bf16) (x4 : Vec F S512x256 .bf16) (x5 : Vec F S512x2048 .i32) :
    leftFirst7 c i arg2 harg2 arg3 harg3 arg4 harg4 arg5 harg5 arg6 harg6 arg7 harg7 arg8 harg8 arg9 harg9 hA hB x2 x3 x4 x5 = k2_pay2 (k2_pay8 x2 x3 x5 (k2_pay4 (F := F))) := by
  unfold leftFirst7 runFirst
  dsimp only
  sl_unfold_words
  rw [View.canon_cons_unit_zero hz]
  simp only [View.readAt_eq_ld, View.readCov_unit_zero arg7.view hz, View.readCov_unit_zero arg8.view hz, View.readCov_unit_zero arg9.view hz, harg2.read_unread, harg3.read_unread, harg4.read_unread, harg5.read_unread, harg6.read_unread, harg7.read_unread, harg8.read_unread, harg9.read_unread, View.ld_unit_zero (S := S2048x64) hz, View.ld_unit_zero (S := S512x64) hz, View.ld_unit_zero (S := S512x256) hz, View.ld_unit_zero (S := S512x2048) hz, View.ld_unit_zero (S := S1x2048) hz, View.ld_unit_zero (S := S2048x256) hz]
  try rfl

set_option maxHeartbeats 400000 in
theorem leftFirst8_eq (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : atFirstTile i) (hB : ¬atLastTile i) (x2 : Vec F S2048x64 .bf16) (x3 : Vec F S512x64 .bf16) (x4 : Vec F S512x256 .bf16) (x5 : Vec F S512x2048 .i32) :
    leftFirst8 c i arg2 harg2 arg3 harg3 arg4 harg4 arg5 harg5 arg6 harg6 arg7 harg7 arg8 harg8 arg9 harg9 hA hB x2 x3 x4 x5 = k2_pay11 x2 x3 x5 (k2_pay4 (F := F)) (k2_pay5 (F := F)) := by
  unfold leftFirst8 runFirst
  dsimp only
  sl_unfold_words
  rw [View.canon_cons_unit_zero hz]
  simp only [View.readAt_eq_ld, View.readCov_unit_zero arg7.view hz, View.readCov_unit_zero arg8.view hz, View.readCov_unit_zero arg9.view hz, harg2.read_unread, harg3.read_unread, harg4.read_unread, harg5.read_unread, harg6.read_unread, harg7.read_unread, harg8.read_unread, harg9.read_unread, View.ld_unit_zero (S := S2048x64) hz, View.ld_unit_zero (S := S512x64) hz, View.ld_unit_zero (S := S512x256) hz, View.ld_unit_zero (S := S512x2048) hz, View.ld_unit_zero (S := S1x2048) hz, View.ld_unit_zero (S := S2048x256) hz]
  try rfl

set_option maxHeartbeats 400000 in
theorem leftFirst9_eq (c : Dev nD) (i : grid2.Coords)
    (arg2 : Memref sig .tc .vmem S2048x64 .bf16) (harg2 : arg2.IsWhole) (arg3 : Memref sig .tc .vmem S512x64 .bf16) (harg3 : arg3.IsWhole)
    (arg4 : Memref sig .tc .vmem S512x256 .bf16) (harg4 : arg4.IsWhole) (arg5 : Memref sig .tc .vmem S512x2048 .i32) (harg5 : arg5.IsWhole)
    (arg6 : Memref sig .tc .vmem S2048x256 .f32) (harg6 : arg6.IsWhole) (arg7 : Memref sig .tc .vmem S1x2048 .f32) (harg7 : arg7.IsWhole)
    (arg8 : Memref sig .tc .vmem S1x2048 .f32) (harg8 : arg8.IsWhole) (arg9 : Memref sig .tc .vmem S2048x256 .f32) (harg9 : arg9.IsWhole)
    (hA : atFirstTile i) (hB : ¬atLastTile i) (x2 : Vec F S2048x64 .bf16) (x3 : Vec F S512x64 .bf16) (x4 : Vec F S512x256 .bf16) (x5 : Vec F S512x2048 .i32) :
    leftFirst9 c i arg2 harg2 arg3 harg3 arg4 harg4 arg5 harg5 arg6 harg6 arg7 harg7 arg8 harg8 arg9 harg9 hA hB x2 x3 x4 x5 = k2_pay1 (k2_pay9 x2 x3 x5 (k2_pay4 (F := F))) (k2_pay10 x2 x3 x5 (k2_pay4 (F := F))) (k2_pay12 x4) (k2_pay6 (F := F)) := by
  unfold leftFirst9 runFirst
  dsimp only
  sl_unfold_words
  rw [View.canon_cons_unit_zero hz]
  simp only [View.readAt_eq_ld, View.readCov_unit_zero arg7.view hz, View.readCov_unit_zero arg8.view hz, View.readCov_unit_zero arg9.view hz, harg2.read_unread, harg3.read_unread, harg4.read_unread, harg5.read_unread, harg6.read_unread, harg7.read_unread, harg8.read_unread, harg9.read_unread, View.ld_unit_zero (S := S2048x64) hz, View.ld_unit_zero (S := S512x64) hz, View.ld_unit_zero (S := S512x256) hz, View.ld_unit_zero (S := S512x2048) hz, View.ld_unit_zero (S := S1x2048) hz, View.ld_unit_zero (S := S2048x256) hz]
  try rfl

end Cert.KernelIdeal.Region2

end
-- ==== Proof.LibDenseRows.lean ====
/-
  A layer computed from weight rows, read at an index.

  A kernel may multiply a block of `K` item rows `[K, N]` by `Q` weight rows `[Q, N]` without transposing
  the weights: the matrix unit contracts the second axis of both operands. Into a zero accumulator, over the extended
  reals, entry `(p, q)` of the product is the plain sum `Σ n, X (p, n) * W (q, n)`; with a bias row `[1, Q]`
  laid along every row of the block added, it is that sum plus `bias (0, q)`. In particular column `q` of the
  result depends on row `q` of the weights and entry `q` of the bias only.
-/
import Idealize.ShloMosaic.Lib.ValueIdx
import Idealize.ShloMosaic.Lib.ValueLayout
import Idealize.ShloMosaic.PureOps.Ideal.Laws

noncomputable section

namespace Idealize.ShloMosaic.DenseRows

open Idealize.ShloMosaic Idealize.ShloMosaic.ValueIdx

/-- The dimension numbers of `[K, N] · [Q, N]ᵀ → [K, Q]`. -/
abbrev rowDims (K N Q : Nat)
    (wf : DotDims.WF ⟨2, ![K, N]⟩ ⟨2, ![Q, N]⟩ ⟨2, ![K, Q]⟩ [1] [1] [0] [0] [] []) :
    DotDims ⟨2, ![K, N]⟩ ⟨2, ![Q, N]⟩ ⟨2, ![K, Q]⟩ where
  lhsContracting := [1]
  rhsContracting := [1]
  lhsNonContracting := [0]
  rhsNonContracting := [0]
  lhsBatch := []
  rhsBatch := []
  wf := wf

section
variable {K N Q : Nat} (wf : DotDims.WF ⟨2, ![K, N]⟩ ⟨2, ![Q, N]⟩ ⟨2, ![K, Q]⟩ [1] [1] [0] [0] [] [])

/-- The left operand's row is the result's row. -/
theorem lhs_row (j : (⟨2, ![K, Q]⟩ : Shape).Idx) (c : (rowDims K N Q wf).contr.Idx) :
    ((rowDims K N Q wf).lhsIdx j c (0 : Fin 2)).val = (j 0).val := by
  unfold DotDims.lhsIdx
  rw [dif_neg (show ¬ (0 : Fin 2) ∈ (rowDims K N Q wf).lhsBatch from List.not_mem_nil),
    dif_pos (show (0 : Fin 2) ∈ (rowDims K N Q wf).lhsNonContracting from List.mem_singleton.mpr rfl)]
  rfl

/-- The left operand's column is the contraction position. -/
theorem lhs_col (j : (⟨2, ![K, Q]⟩ : Shape).Idx) (c : (rowDims K N Q wf).contr.Idx) :
    ((rowDims K N Q wf).lhsIdx j c (1 : Fin 2)).val = (c ⟨0, Nat.one_pos⟩).val :=
  (rowDims K N Q wf).lhsIdx_val_of_single rfl j c

/-- The right operand's row is the result's column. -/
theorem rhs_row (j : (⟨2, ![K, Q]⟩ : Shape).Idx) (c : (rowDims K N Q wf).contr.Idx) :
    ((rowDims K N Q wf).rhsIdx j c (0 : Fin 2)).val = (j 1).val := by
  unfold DotDims.rhsIdx
  rw [dif_neg (show ¬ (0 : Fin 2) ∈ (rowDims K N Q wf).rhsBatch from List.not_mem_nil),
    dif_pos (show (0 : Fin 2) ∈ (rowDims K N Q wf).rhsNonContracting from List.mem_singleton.mpr rfl)]
  rfl

/-- The right operand's column is the contraction position. -/
theorem rhs_col (j : (⟨2, ![K, Q]⟩ : Shape).Idx) (c : (rowDims K N Q wf).contr.Idx) :
    ((rowDims K N Q wf).rhsIdx j c (1 : Fin 2)).val = (c ⟨0, Nat.one_pos⟩).val :=
  (rowDims K N Q wf).rhsIdx_val_of_single rfl j c

/-- Entry `(p, q)` of the product into a zero accumulator is `Σ n, X (p, n) * W (q, n)`. -/
theorem matmul_rows_zero_apply {φ₁ φ₂ : FTy} (X : FVec Ideal ⟨2, ![K, N]⟩ φ₁) (W : FVec Ideal ⟨2, ![Q, N]⟩ φ₂)
    (p : Fin K) (q : Fin Q) :
    FloatOps.matmul (rowDims K N Q wf) none X W (constant ⟨2, ![K, Q]⟩ .f32 0x00000000#32) (ix2 p q)
      = ∑ n : Fin N, X (ix2 p n) * W (ix2 q n) := by
  rw [Ideal.matmul_constant_zero_apply, ← Equiv.sum_comp (contrEquiv1 (rowDims K N Q wf) N rfl rfl).symm]
  refine Finset.sum_congr rfl fun n _ => ?_
  have hn := contrEquiv1_symm_val (rowDims K N Q wf) N rfl rfl n
  have el : (rowDims K N Q wf).lhsIdx (ix2 p q) ((contrEquiv1 (rowDims K N Q wf) N rfl rfl).symm n) = ix2 p n :=
    funext fun a => Fin.ext (by
      match a with
      | ⟨0, _⟩ => exact lhs_row wf _ _
      | ⟨1, _⟩ => exact (lhs_col wf _ _).trans hn)
  have er : (rowDims K N Q wf).rhsIdx (ix2 p q) ((contrEquiv1 (rowDims K N Q wf) N rfl rfl).symm n) = ix2 q n :=
    funext fun a => Fin.ext (by
      match a with
      | ⟨0, _⟩ => exact rhs_row wf _ _
      | ⟨1, _⟩ => exact (rhs_col wf _ _).trans hn)
  rw [el, er]

/-- Entry `(p, q)` of `X · Wᵀ + bias`, the bias one row laid along every row. -/
theorem affine_rows_apply {φ₁ φ₂ : FTy} (X : FVec Ideal ⟨2, ![K, N]⟩ φ₁) (W : FVec Ideal ⟨2, ![Q, N]⟩ φ₂)
    (bias : FVec Ideal ⟨2, ![1, Q]⟩ .f32) (hb : (⟨2, ![1, Q]⟩ : Shape).Broadcasts ⟨2, ![K, Q]⟩) (p : Fin K) (q : Fin Q) :
    addf (matmul (rowDims K N Q wf) none X W (constant ⟨2, ![K, Q]⟩ .f32 0x00000000#32))
        (broadcastTo ⟨2, ![K, Q]⟩ bias hb) (ix2 p q)
      = (∑ n : Fin N, X (ix2 p n) * W (ix2 q n)) + bias (ix2 (0 : Fin 1) q) := by
  show FloatOps.matmul (rowDims K N Q wf) none X W (constant ⟨2, ![K, Q]⟩ .f32 0x00000000#32) (ix2 p q)
      + broadcastTo ⟨2, ![K, Q]⟩ bias hb (ix2 p q) = _
  rw [matmul_rows_zero_apply wf X W p q, broadcastTo_1b_ab_apply bias hb p q]

end

end Idealize.ShloMosaic.DenseRows

end
-- ==== Proof.LibDenseCols.lean ====
/-
  A product that contracts the first axis of both operands, read at an index.

  A kernel may multiply a block of weights `[K, P]` — `K` items by `P` outputs — into a block of values `[K, Q]` without
  transposing the weights: the matrix unit contracts the first axis of both operands, giving `[P, Q]`. Into a zero
  accumulator, over the extended reals, entry `(p, q)` of the product is the plain sum `Σ n, X (n, p) * W (n, q)` over
  the items. In particular row `p` of the result depends on column `p` of the weights only.
-/
import Idealize.ShloMosaic.Lib.ValueIdx
import Idealize.ShloMosaic.PureOps.Ideal.Laws

noncomputable section

namespace Idealize.ShloMosaic.DenseCols

open Idealize.ShloMosaic Idealize.ShloMosaic.ValueIdx

/-- The dimension numbers of `[K, P]ᵀ · [K, Q] → [P, Q]`. -/
abbrev colDims (K P Q : Nat)
    (wf : DotDims.WF ⟨2, ![K, P]⟩ ⟨2, ![K, Q]⟩ ⟨2, ![P, Q]⟩ [0] [0] [1] [1] [] []) :
    DotDims ⟨2, ![K, P]⟩ ⟨2, ![K, Q]⟩ ⟨2, ![P, Q]⟩ where
  lhsContracting := [0]
  rhsContracting := [0]
  lhsNonContracting := [1]
  rhsNonContracting := [1]
  lhsBatch := []
  rhsBatch := []
  wf := wf

section
variable {K P Q : Nat} (wf : DotDims.WF ⟨2, ![K, P]⟩ ⟨2, ![K, Q]⟩ ⟨2, ![P, Q]⟩ [0] [0] [1] [1] [] [])

/-- The left operand's column is the result's row. -/
theorem lhs_col (j : (⟨2, ![P, Q]⟩ : Shape).Idx) (c : (colDims K P Q wf).contr.Idx) :
    ((colDims K P Q wf).lhsIdx j c (1 : Fin 2)).val = (j 0).val := by
  unfold DotDims.lhsIdx
  rw [dif_neg (show ¬ (1 : Fin 2) ∈ (colDims K P Q wf).lhsBatch from List.not_mem_nil),
    dif_pos (show (1 : Fin 2) ∈ (colDims K P Q wf).lhsNonContracting from List.mem_singleton.mpr rfl)]
  rfl

/-- The left operand's row is the contraction position. -/
theorem lhs_row (j : (⟨2, ![P, Q]⟩ : Shape).Idx) (c : (colDims K P Q wf).contr.Idx) :
    ((colDims K P Q wf).lhsIdx j c (0 : Fin 2)).val = (c ⟨0, Nat.one_pos⟩).val :=
  (colDims K P Q wf).lhsIdx_val_of_single rfl j c

/-- The right operand's column is the result's column. -/
theorem rhs_col (j : (⟨2, ![P, Q]⟩ : Shape).Idx) (c : (colDims K P Q wf).contr.Idx) :
    ((colDims K P Q wf).rhsIdx j c (1 : Fin 2)).val = (j 1).val := by
  unfold DotDims.rhsIdx
  rw [dif_neg (show ¬ (1 : Fin 2) ∈ (colDims K P Q wf).rhsBatch from List.not_mem_nil),
    dif_pos (show (1 : Fin 2) ∈ (colDims K P Q wf).rhsNonContracting from List.mem_singleton.mpr rfl)]
  rfl

/-- The right operand's row is the contraction position. -/
theorem rhs_row (j : (⟨2, ![P, Q]⟩ : Shape).Idx) (c : (colDims K P Q wf).contr.Idx) :
    ((colDims K P Q wf).rhsIdx j c (0 : Fin 2)).val = (c ⟨0, Nat.one_pos⟩).val :=
  (colDims K P Q wf).rhsIdx_val_of_single rfl j c

/-- Entry `(p, q)` of the product into a zero accumulator is `Σ n, X (n, p) * W (n, q)`. -/
theorem matmul_cols_zero_apply {φ₁ φ₂ : FTy} (X : FVec Ideal ⟨2, ![K, P]⟩ φ₁) (W : FVec Ideal ⟨2, ![K, Q]⟩ φ₂)
    (p : Fin P) (q : Fin Q) :
    FloatOps.matmul (colDims K P Q wf) none X W (constant ⟨2, ![P, Q]⟩ .f32 0x00000000#32) (ix2 p q)
      = ∑ n : Fin K, X (ix2 n p) * W (ix2 n q) := by
  rw [Ideal.matmul_constant_zero_apply, ← Equiv.sum_comp (contrEquiv1 (colDims K P Q wf) K rfl rfl).symm]
  refine Finset.sum_congr rfl fun n _ => ?_
  have hn := contrEquiv1_symm_val (colDims K P Q wf) K rfl rfl n
  have el : (colDims K P Q wf).lhsIdx (ix2 p q) ((contrEquiv1 (colDims K P Q wf) K rfl rfl).symm n) = ix2 n p :=
    funext fun a => Fin.ext (by
      match a with
      | ⟨0, _⟩ => exact (lhs_row wf _ _).trans hn
      | ⟨1, _⟩ => exact lhs_col wf _ _)
  have er : (colDims K P Q wf).rhsIdx (ix2 p q) ((contrEquiv1 (colDims K P Q wf) K rfl rfl).symm n) = ix2 n q :=
    funext fun a => Fin.ext (by
      match a with
      | ⟨0, _⟩ => exact (rhs_row wf _ _).trans hn
      | ⟨1, _⟩ => exact rhs_col wf _ _)
  rw [el, er]

end

end Idealize.ShloMosaic.DenseCols

end
-- ==== Proof.LibColumn.lean ====
/-
  A column kept beside a matrix.

  Reducing an `[a, b]` array along its second axis leaves an `[a]` array. Keeping the reduced axis as a unit axis
  makes that an `[a, 1]` column, and broadcasting the column back to `[a, b]` gives every entry of row `p` the
  value the reduction found for row `p`. These are the two layout steps, each read at an index.
-/
import Idealize.ShloMosaic.Lib.ValueIdx
import Idealize.ShloMosaic.Lib.Pipeline.Value

noncomputable section

namespace Idealize.ShloMosaic.Column

open Idealize.ShloMosaic Idealize.ShloMosaic.ValueIdx

variable {α : Type}

/-- An `[a]` array cast to an `[a, 1]` column reads, at `(p, u)`, the operand at `p`, whatever the unit
    coordinate `u`: both positions are the `p`-th in row-major order. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, q)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! The host spells the same two steps, and the broadcast of a scalar, with `broadcast_in_dim`. -/

/-- A scalar broadcast to any shape reads the scalar at every index. -/
theorem broadcastInDim_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun ax => ax.elim0

/-- An `[a]` array broadcast along axis 0 into an `[a, 1]` column reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- An `[a, 1]` column broadcast along both axes to `[a, b]` reads, at `(p, q)`, the column's entry of row `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) := by
  refine broadcastInDim_apply ![0, 1] h x (ix2 p q) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Column

end
-- ==== Proof.KIPayloads.lean ====
/-
  The third call's arithmetic, entry by entry, on the extended reals. With `q`, `k`, `v`, `h` the tile's blocks of `Q`,
  `K`, `V` and of the incidence matrix: the masked score of sample row `a` against edge `e` is `-∞` where the incidence
  is zero and otherwise an eighth of the inner product of row `a` of `k` with row `e` of `q`.
-/
import proofs.«127266_j31533649887507_2_alg».proof.Proof.KIRegion2Pieces
import proofs.«127266_j31533649887507_2_alg».proof.Proof.LibDenseRows
import proofs.«127266_j31533649887507_2_alg».proof.Proof.LibDenseCols
import Idealize.ShloMosaic.Lib.ValueIdx
import Idealize.ShloMosaic.Lib.ValueLayout
import Idealize.ShloMosaic.PureOps.Ideal.Laws
import Idealize.ShloMosaic.PureOps.IdealRules
import proofs.«127266_j31533649887507_2_alg».proof.Proof.LibColumn

set_option maxRecDepth 16384

noncomputable section

namespace Cert.KernelIdeal.Payloads

open Cert.KernelIdeal Cert.KernelIdeal.Gen
open Idealize.ShloMosaic Idealize.ShloMosaic.ValueIdx

/-- The masking constant is `-∞` on the extended reals. -/
theorem neg_big_eq : Named.named (F := Ideal) κ "neg_big" (φ := .f32) 0xFF333332#32 = (⊥ : EReal) :=
  IdealRules.named_const.ideal_named_scalar _ _ _ _ rfl

/-- The masked, scaled score of sample row `a` of the tile against edge `e` of the block. -/
theorem score_apply (q : Vec Ideal S2048x64 .bf16) (k : Vec Ideal S512x64 .bf16) (h : Vec Ideal S512x2048 .i32) (a : Fin 512) (e : Fin 2048) :
    k2_pay7 (F := Ideal) q k h (ix2 a e)
      = Scalar.select (IntOp.cmpi .eq (h (ix2 a e)) 0#32) (⊥ : EReal)
          ((∑ d : Fin 64, k (ix2 a d) * q (ix2 e d)) * Ideal.ofBits .f32 0x3E000000#32) := by
  have hm := DenseRows.matmul_rows_zero_apply (K := 512) (N := 64) (Q := 2048) (φ₁ := .bf16) (φ₂ := .bf16) dot_S512x64_S2048x64_S512x2048_1_1_0_0_n_n.wf k q a e
  unfold k2_pay7
  simp only [shapeCast_self]
  show Scalar.select (IntOp.cmpi .eq (h (ix2 a e)) 0#32) (Named.named (F := Ideal) κ "neg_big" (φ := .f32) 0xFF333332#32)
      (FloatOps.matmul dot_S512x64_S2048x64_S512x2048_1_1_0_0_n_n none k q (constant S512x2048 .f32 0x00000000#32) (ix2 a e) * Ideal.ofBits .f32 0x3E000000#32) = _
  rw [neg_big_eq]
  exact congrArg (fun z => Scalar.select (IntOp.cmpi .eq (h (ix2 a e)) 0#32) (⊥ : EReal) (z * Ideal.ofBits .f32 0x3E000000#32)) hm

/-! ## Over the tile's samples -/

/-- Reducing over the tile's samples: the entry over edge `e` at sample row `a`. -/
theorem lift_tile (e : Fin 2048) (a : Fin 512) : reduces_S512x2048_S2048.lift (ix1 e) a = ix2 a e := by
  funext c; apply Fin.ext
  match c with
  | ⟨0, _⟩ => rfl
  | ⟨1, _⟩ => rfl

theorem neg_inf_bits : (FloatOps.ofBits (F := Ideal) .f32 0xFF800000#32 : EReal) = ⊥ := by
  simp [Ideal.ofBits, Ideal.ieee]

/-- The largest entry of a tile over its samples, per edge, as one row: the maximum from `-∞` over the 512 samples. -/
theorem tile_max_apply (s : FVec Ideal S512x2048 .f32) (hacc : (0xFF800000#32 : BitVec 32) = 0xFF800000#32) (e : Fin 2048) :
    shapeCast S1x2048 (multiReduction .maximumf [0] S2048 s 0xFF800000#32 reduces_S512x2048_S2048 (.inl rfl) hacc) shapeCasts_S2048_S1x2048 (ix2 (0 : Fin 1) e)
      = (Finset.univ : Finset (Fin 512)).fold max (⊥ : EReal) (fun a => s (ix2 a e)) := by
  refine (shapeCast_a_1a_apply _ shapeCasts_S2048_S1x2048 0 e).trans ?_
  refine (Ideal.multiReduction_maximumf_single s 0xFF800000#32 reduces_S512x2048_S2048 (.inl rfl) hacc (ix1 e)).trans ?_
  rw [neg_inf_bits, show (s ∘ reduces_S512x2048_S2048.lift (ix1 e)) = fun a => s (ix2 a e) from funext fun a => congrArg s (lift_tile e a)]
  rfl

/-- The sum of a tile over its samples, per edge, as one row. -/
theorem tile_sum_apply (s : FVec Ideal S512x2048 .f32) (hacc : (0x00000000#32 : BitVec 32) = 0x00000000#32) (e : Fin 2048) :
    shapeCast S1x2048 (multiReduction .add [0] S2048 s 0x00000000#32 reduces_S512x2048_S2048 (.inl rfl) hacc) shapeCasts_S2048_S1x2048 (ix2 (0 : Fin 1) e)
      = ∑ a : Fin 512, s (ix2 a e) := by
  refine (shapeCast_a_1a_apply _ shapeCasts_S2048_S1x2048 0 e).trans ?_
  refine (Ideal.multiReduction_add_single s 0x00000000#32 reduces_S512x2048_S2048 (.inl rfl) hacc (ix1 e)).trans ?_
  exact Finset.sum_congr rfl fun a _ => congrArg s (lift_tile e a)

/-! ## The body's values, entry by entry -/

variable (q : FVec Ideal S2048x64 .bf16) (k : FVec Ideal S512x64 .bf16) (v : FVec Ideal S512x256 .bf16) (h : Vec Ideal S512x2048 .i32)
  (mx sm : FVec Ideal S1x2048 .f32) (acc : FVec Ideal S2048x256 .f32)

/-- The new maximum of edge `e`: the running one joined with the tile's largest masked score. -/
theorem newmax_apply (e : Fin 2048) :
    k2_pay8 (F := Ideal) q k h mx (ix2 (0 : Fin 1) e)
      = max (mx (ix2 0 e)) ((Finset.univ : Finset (Fin 512)).fold max (⊥ : EReal) (fun a => k2_pay7 (F := Ideal) q k h (ix2 a e))) := by
  unfold k2_pay8
  exact congrArg (max (mx (ix2 0 e))) (tile_max_apply (k2_pay7 (F := Ideal) q k h) rfl e)

/-- The factor by which what edge `e` holds is rescaled: `exp (old maximum - new maximum)`. -/
theorem factor_apply (e : Fin 2048) :
    k2_pay9 (F := Ideal) q k h mx (ix2 (0 : Fin 1) e) = Ideal.exp (mx (ix2 0 e) - k2_pay8 (F := Ideal) q k h mx (ix2 0 e)) := rfl

/-- The weight of sample row `a` for edge `e`: `exp (score - new maximum)`. -/
theorem weight_apply (a : Fin 512) (e : Fin 2048) :
    k2_pay10 (F := Ideal) q k h mx (ix2 a e)
      = Ideal.exp (k2_pay7 (F := Ideal) q k h (ix2 a e) - k2_pay8 (F := Ideal) q k h mx (ix2 0 e)) := by
  unfold k2_pay10
  exact congrArg (fun z => Ideal.exp (k2_pay7 (F := Ideal) q k h (ix2 a e) - z))
    (broadcastTo_1b_ab_apply (k2_pay8 (F := Ideal) q k h mx) broadcasts_S1x2048_S512x2048 a e)

/-- The new running sum of edge `e`: the old one rescaled, plus the tile's weights. -/
theorem newsum_apply (e : Fin 2048) :
    k2_pay11 (F := Ideal) q k h mx sm (ix2 (0 : Fin 1) e)
      = k2_pay9 (F := Ideal) q k h mx (ix2 0 e) * sm (ix2 0 e) + ∑ a : Fin 512, k2_pay10 (F := Ideal) q k h mx (ix2 a e) := by
  unfold k2_pay11
  simp only [shapeCast_self]
  exact congrArg (fun z => k2_pay9 (F := Ideal) q k h mx (ix2 0 e) * sm (ix2 0 e) + z) (tile_sum_apply (k2_pay10 (F := Ideal) q k h mx) rfl e)

/-- One row `[1, 2048]` turned into a column and laid along 256 columns reads, at `(e, j)`, the row's entry `e`. -/
theorem column_apply (r : FVec Ideal S1x2048 .f32) (e : Fin 2048) (j : Fin 256) :
    broadcastTo S2048x256 (transpose S2048x1 [1, 0] r transposes_S1x2048_p1_0_S2048x1) broadcasts_S2048x1_S2048x256 (ix2 e j) = r (ix2 (0 : Fin 1) e) :=
  (Column.broadcastTo_a1_ab_apply _ broadcasts_S2048x1_S2048x256 e j).trans (transpose_ix2_apply r transposes_S1x2048_p1_0_S2048x1 e 0)

/-- The new accumulator of edge `e`, column `j`: the old one rescaled, plus the tile's weighted values. -/
theorem newacc_apply (fac : FVec Ideal S1x2048 .f32) (w : FVec Ideal S512x2048 .f32) (e : Fin 2048) (j : Fin 256) :
    k2_pay1 (F := Ideal) fac w v acc (ix2 e j) = fac (ix2 0 e) * acc (ix2 e j) + ∑ a : Fin 512, w (ix2 a e) * v (ix2 a j) := by
  have hm := DenseCols.matmul_cols_zero_apply (K := 512) (P := 2048) (Q := 256) (φ₁ := .bf16) (φ₂ := .bf16) dot_S512x2048_S512x256_S2048x256_0_0_1_1_n_n.wf
    (truncf .bf16 w bitsLt_bf16_f32) v e j
  unfold k2_pay1
  simp only [shapeCast_self]
  show broadcastTo S2048x256 (transpose S2048x1 [1, 0] fac transposes_S1x2048_p1_0_S2048x1) broadcasts_S2048x1_S2048x256 (ix2 e j) * acc (ix2 e j)
      + FloatOps.matmul dot_S512x2048_S512x256_S2048x256_0_0_1_1_n_n none (truncf .bf16 w bitsLt_bf16_f32) v (constant S2048x256 .f32 0x00000000#32) (ix2 e j) = _
  rw [column_apply]
  exact congrArg (fun z => fac (ix2 0 e) * acc (ix2 e j) + z) hm

/-- What a last tile stores at edge `e`, column `j`: the accumulator over the running sum. -/
theorem quotient_apply (e : Fin 2048) (j : Fin 256) :
    k2_pay3 (F := Ideal) sm acc (ix2 e j) = Ideal.div (acc (ix2 e j)) (sm (ix2 0 e)) := by
  unfold k2_pay3
  exact congrArg (Ideal.div (acc (ix2 e j))) (column_apply sm e j)

/-- The values a first tile starts from: `-∞` for the maximum, zero for the sum and for the accumulator. -/
theorem init_max_apply (i : S1x2048.Idx) : k2_pay4 (F := Ideal) i = ⊥ := by
  unfold k2_pay4; simp only [shapeCast_self]; exact neg_inf_bits
theorem init_sum_apply (i : S1x2048.Idx) : k2_pay5 (F := Ideal) i = 0 := by
  unfold k2_pay5; simp only [shapeCast_self]; exact Ideal.ofBits_zero_f32
theorem init_acc_apply (i : S2048x256.Idx) : k2_pay6 (F := Ideal) i = 0 := by
  unfold k2_pay6; simp only [shapeCast_self]; exact Ideal.ofBits_zero_f32
/-- Two of the body's values are what they are cast from. -/
theorem keep_max (r : FVec Ideal S1x2048 .f32) : k2_pay2 (F := Ideal) r = r := by unfold k2_pay2; exact shapeCast_self _ _
theorem keep_values (x : Vec Ideal S512x256 .bf16) : k2_pay12 (F := Ideal) x = x := by unfold k2_pay12; exact shapeCast_self _ _

end Cert.KernelIdeal.Payloads

end
-- ==== Proof.KITile.lean ====
/-
  The third call's blocks, as entries of the whole arrays. Point `t` works on the block of edges `t / 16` and the tile of
  samples `t % 16`: entry `e` of its block of edges is edge `2048 (t / 16) + e`, row `a` of its tile is sample
  `512 (t % 16) + a`. So the tile's masked score of row `a` against entry `e` is the masked score of that sample
  against that edge, computed from the whole `Q`, `K` and incidence matrix.
-/
import proofs.«127266_j31533649887507_2_alg».proof.Proof.KIArrays
import proofs.«127266_j31533649887507_2_alg».proof.Proof.KIPayloads
import proofs.«127266_j31533649887507_2_alg».proof.Proof.KIRegion2

set_option maxRecDepth 16384

noncomputable section

namespace Cert.KernelIdeal.Tile

open Cert.KernelIdeal Cert.KernelIdeal.Gen
open Idealize.ShloMosaic Idealize.ShloMosaic.TcCoe Idealize.ShloMosaic.ValueIdx Idealize.SL.Sem
open Cert.KernelIdeal.Region0 (W0 W1 q_final)
open Cert.KernelIdeal.Region1 (W2 k_final v_final W2_outside W2_eq_W1)

/-- The third call's index maps over its 32 points: `Q`'s and the result's block is the point's block of edges, `K`'s and
    `V`'s the point's tile of samples, the incidence matrix's the tile by the block of edges. -/
theorem idx2 : ∀ t : Fin cfg2.N, win2_0.index t (0 : Fin 2) = t.val / 16 ∧ win2_0.index t (1 : Fin 2) = 0
    ∧ win2_1.index t (0 : Fin 2) = t.val % 16 ∧ win2_1.index t (1 : Fin 2) = 0
    ∧ win2_2.index t (0 : Fin 2) = t.val % 16 ∧ win2_2.index t (1 : Fin 2) = 0
    ∧ win2_3.index t (0 : Fin 2) = t.val % 16 ∧ win2_3.index t (1 : Fin 2) = t.val / 16 :=
  (by decide +kernel : ∀ t : Fin grid2.N, _)

theorem point_lt (t : Fin cfg2.N) : t.val < 32 := lt_of_lt_of_eq t.isLt N_2

/-- Entry `e` of point `t`'s block of edges, as an edge; row `a` of its tile, as a sample. -/
def edgeOf (t : Fin cfg2.N) (e : Fin 2048) : Fin 4096 := ⟨t.val / 16 * 2048 + e.val, by have := point_lt t; have := e.isLt; omega⟩
def sampleOf (t : Fin cfg2.N) (a : Fin 512) : Fin 8192 := ⟨t.val % 16 * 512 + a.val, by have := a.isLt; omega⟩

variable (m : (ℓ : Loc nD τ sig) → Buf (Elt Ideal) ℓ) (c : Dev nD)

/-- The whole arrays the third call reads: `Q`, `K`, `V` as the first two calls left them, and the incidence matrix. -/
abbrev Qg : S4096x64.Idx → EReal := q_final (F := Ideal) m c
abbrev Kg : S8192x64.Idx → EReal := k_final (F := Ideal) m c
abbrev Vg : S8192x256.Idx → EReal := v_final (F := Ideal) m c
abbrev Hg : S8192x4096.Idx → BitVec 32 := m ((c : Thread nD τ).loc main_arg2)

/-- What the valuation the third call is entered at holds in the four arrays it reads. -/
theorem W2_q : W2 (F := Ideal) m c (Proc.devRef .tc main_v0) = q_final (F := Ideal) m c :=
  (W2_eq_W1 m c (Proc.devRef .tc main_v0) (by decide) (by decide)).trans
    (Function.update_self (Proc.devRef .tc main_v0 : DevRef τ sig) (q_final (F := Ideal) m c) (W0 m c))
theorem W2_k : W2 (F := Ideal) m c (Proc.devRef .tc main_v1_0) = k_final (F := Ideal) m c :=
  (Function.update_of_ne (show (Proc.devRef .tc main_v1_0 : DevRef τ sig) ≠ Proc.devRef .tc main_v1_1 by decide) (v_final (F := Ideal) m c)
    (Function.update (W1 m c) main_v1_0 (k_final (F := Ideal) m c))).trans (Function.update_self (Proc.devRef .tc main_v1_0 : DevRef τ sig) (k_final (F := Ideal) m c) (W1 m c))
theorem W2_v : W2 (F := Ideal) m c (Proc.devRef .tc main_v1_1) = v_final (F := Ideal) m c :=
  Function.update_self (Proc.devRef .tc main_v1_1 : DevRef τ sig) (v_final (F := Ideal) m c) (Function.update (W1 m c) main_v1_0 (k_final (F := Ideal) m c))
theorem W2_h : W2 (F := Ideal) m c (Proc.devRef .tc main_arg2) = m ((c : Thread nD τ).loc main_arg2) :=
  W2_outside m c (Proc.devRef .tc main_arg2) (by decide) (by decide) (by decide)

/-- Each block's entry is the whole array's entry at the point's edge or sample. -/
theorem q_block_apply (t : Fin cfg2.N) (e : Fin 2048) (d : Fin 64) :
    Region2.blockAt (F := Ideal) m c 0 t (ix2 e d) = Qg m c (ix2 (edgeOf t e) d) := by
  obtain ⟨e0, e1, -⟩ := idx2 t
  show W2 (F := Ideal) m c (Proc.devRef .tc main_v0) (((cfg2.win 0).blk t).view.emb (ix2 e d)) = _
  rw [W2_q]
  refine congrArg (q_final (F := Ideal) m c) (funext fun a => Fin.ext ?_)
  match a with
  | ⟨0, _⟩ => show win2_0.index t (0 : Fin 2) * 2048 + 1 * e.val = t.val / 16 * 2048 + e.val; omega
  | ⟨1, _⟩ => show win2_0.index t (1 : Fin 2) * 64 + 1 * d.val = d.val; omega
theorem k_block_apply (t : Fin cfg2.N) (a : Fin 512) (d : Fin 64) :
    Region2.blockAt (F := Ideal) m c 1 t (ix2 a d) = Kg m c (ix2 (sampleOf t a) d) := by
  obtain ⟨-, -, e2, e3, -⟩ := idx2 t
  show W2 (F := Ideal) m c (Proc.devRef .tc main_v1_0) (((cfg2.win 1).blk t).view.emb (ix2 a d)) = _
  rw [W2_k]
  refine congrArg (k_final (F := Ideal) m c) (funext fun x => Fin.ext ?_)
  match x with
  | ⟨0, _⟩ => show win2_1.index t (0 : Fin 2) * 512 + 1 * a.val = t.val % 16 * 512 + a.val; omega
  | ⟨1, _⟩ => show win2_1.index t (1 : Fin 2) * 64 + 1 * d.val = d.val; omega
theorem v_block_apply (t : Fin cfg2.N) (a : Fin 512) (j : Fin 256) :
    Region2.blockAt (F := Ideal) m c 2 t (ix2 a j) = Vg m c (ix2 (sampleOf t a) j) := by
  obtain ⟨-, -, -, -, e4, e5, -⟩ := idx2 t
  show W2 (F := Ideal) m c (Proc.devRef .tc main_v1_1) (((cfg2.win 2).blk t).view.emb (ix2 a j)) = _
  rw [W2_v]
  refine congrArg (v_final (F := Ideal) m c) (funext fun x => Fin.ext ?_)
  match x with
  | ⟨0, _⟩ => show win2_2.index t (0 : Fin 2) * 512 + 1 * a.val = t.val % 16 * 512 + a.val; omega
  | ⟨1, _⟩ => show win2_2.index t (1 : Fin 2) * 256 + 1 * j.val = j.val; omega
theorem h_block_apply (t : Fin cfg2.N) (a : Fin 512) (e : Fin 2048) :
    Region2.blockAt (F := Ideal) m c 3 t (ix2 a e) = Hg m c (ix2 (sampleOf t a) (edgeOf t e)) := by
  obtain ⟨-, -, -, -, -, -, e6, e7⟩ := idx2 t
  show W2 (F := Ideal) m c (Proc.devRef .tc main_arg2) (((cfg2.win 3).blk t).view.emb (ix2 a e)) = _
  rw [W2_h]
  refine congrArg (m ((c : Thread nD τ).loc main_arg2)) (funext fun x => Fin.ext ?_)
  match x with
  | ⟨0, _⟩ => show win2_3.index t (0 : Fin 2) * 512 + 1 * a.val = t.val % 16 * 512 + a.val; omega
  | ⟨1, _⟩ => show win2_3.index t (1 : Fin 2) * 2048 + 1 * e.val = t.val / 16 * 2048 + e.val; omega

/-- The masked, scaled score of sample `k` against edge `E`, from the whole arrays. -/
def score (k : Fin 8192) (E : Fin 4096) : EReal :=
  Scalar.select (IntOp.cmpi .eq (Hg m c (ix2 k E)) 0#32) (⊥ : EReal)
    ((∑ d : Fin 64, Kg m c (ix2 k d) * Qg m c (ix2 E d)) * Ideal.ofBits .f32 0x3E000000#32)

/-- The tile's masked score of row `a` against entry `e` is that of its sample against its edge. -/
theorem tile_score (t : Fin cfg2.N) (a : Fin 512) (e : Fin 2048) :
    k2_pay7 (F := Ideal) (Region2.blockAt (F := Ideal) m c 0 t) (Region2.blockAt (F := Ideal) m c 1 t) (Region2.blockAt (F := Ideal) m c 3 t) (ix2 a e)
      = score m c (sampleOf t a) (edgeOf t e) := by
  refine (Payloads.score_apply _ _ _ a e).trans ?_
  unfold score
  rw [h_block_apply]
  simp only [k_block_apply, q_block_apply]

end Cert.KernelIdeal.Tile

end
-- ==== Proof.KIOnline.lean ====
/-
  The third call's running arrays, as sums over the samples seen. Along the sixteen tiles of a block of edges the body
  updates, per edge, a running maximum, a running sum and an accumulator. In each of its three cases the update is the
  same function of the tile's blocks and of what the arrays held — a first tile starting from `-∞`, zero and zero. Over
  the samples of a tile the update's maximum and sums are the maximum and sums over those samples of the whole arrays.
-/
import proofs.«127266_j31533649887507_2_alg».proof.Proof.KITile
import proofs.«127266_j31533649887507_2_alg».proof.Proof.LibOnlineSoftmax

set_option maxRecDepth 16384

noncomputable section

namespace Cert.KernelIdeal.Online

open Cert.KernelIdeal Cert.KernelIdeal.Gen
open Idealize.ShloMosaic Idealize.ShloMosaic.ValueIdx
open Cert.KernelIdeal.Tile (edgeOf sampleOf score Vg point_lt)
open Cert.KernelIdeal.Region2 (Running stateAfter atFirstTile atLastTile)
open Cert.Lib.OnlineSoftmax

/-- The samples of tile `ki`, and of the tiles before tile `n`. -/
def tileOf (ki : ℕ) : Finset (Fin 8192) := Finset.univ.filter fun k => 512 * ki ≤ k.val ∧ k.val < 512 * (ki + 1)
def seen (n : ℕ) : Finset (Fin 8192) := Finset.univ.filter fun k => k.val < 512 * n

theorem seen_zero : seen 0 = ∅ := by
  unfold seen; ext k; simp
theorem seen_succ (n : ℕ) : seen (n + 1) = seen n ∪ tileOf n := by
  unfold seen tileOf; ext k; simp only [Finset.mem_filter, Finset.mem_univ, true_and, Finset.mem_union]; omega
theorem seen_disjoint (n : ℕ) : Disjoint (seen n) (tileOf n) := by
  unfold seen tileOf; rw [Finset.disjoint_left]; intro k h1 h2
  simp only [Finset.mem_filter, Finset.mem_univ, true_and] at h1 h2; omega
theorem seen_all : seen 16 = Finset.univ := by
  unfold seen; ext k; simp only [Finset.mem_filter, Finset.mem_univ, true_and, iff_true]; have := k.isLt; omega

/-- Row `a` of point `t`'s tile, as a sample, is in the tile; every sample of the tile is a row. -/
theorem sampleOf_mem (t : Fin cfg2.N) (a : Fin 512) : sampleOf t a ∈ tileOf (t.val % 16) := by
  unfold tileOf sampleOf; simp only [Finset.mem_filter, Finset.mem_univ, true_and]; have := a.isLt; omega
theorem sampleOf_inj (t : Fin cfg2.N) : Function.Injective (sampleOf t) := fun a b h => by
  have := congrArg Fin.val h; unfold sampleOf at this; simp only at this; exact Fin.ext (by omega)
theorem tile_image (t : Fin cfg2.N) : Finset.univ.image (sampleOf t) = tileOf (t.val % 16) := by
  ext k
  simp only [Finset.mem_image, Finset.mem_univ, true_and]
  constructor
  · rintro ⟨a, rfl⟩; exact sampleOf_mem t a
  · intro hk
    unfold tileOf at hk; simp only [Finset.mem_filter, Finset.mem_univ, true_and] at hk
    exact ⟨⟨k.val - 512 * (t.val % 16), by omega⟩, Fin.ext (by unfold sampleOf; simp only; omega)⟩

/-- A sum over the tile's rows is the sum over the tile's samples; likewise a maximum from `-∞`. -/
theorem tile_sum_reindex {M : Type*} [AddCommMonoid M] (t : Fin cfg2.N) (g : Fin 8192 → M) :
    ∑ a : Fin 512, g (sampleOf t a) = ∑ k ∈ tileOf (t.val % 16), g k := by
  rw [← tile_image t, Finset.sum_image fun a _ b _ h => sampleOf_inj t h]
theorem tile_max_reindex (t : Fin cfg2.N) (g : Fin 8192 → EReal) :
    (Finset.univ : Finset (Fin 512)).fold max (⊥ : EReal) (fun a => g (sampleOf t a)) = (tileOf (t.val % 16)).sup g := by
  rw [← tile_image t, Finset.sup_image]
  rfl

/-! ## The update -/

variable (m : (ℓ : Loc nD τ sig) → Buf (Elt Ideal) ℓ) (c : Dev nD)

/-- What one tile makes of the three running arrays, from the tile's blocks. -/
def upd (q : FVec Ideal S2048x64 .bf16) (k : FVec Ideal S512x64 .bf16) (v : FVec Ideal S512x256 .bf16) (h : Vec Ideal S512x2048 .i32)
    (st : Running Ideal) : Running Ideal :=
  (k2_pay2 (F := Ideal) (k2_pay8 (F := Ideal) q k h st.1), k2_pay11 (F := Ideal) q k h st.1 st.2.1,
    k2_pay1 (F := Ideal) (k2_pay9 (F := Ideal) q k h st.1) (k2_pay10 (F := Ideal) q k h st.1) (k2_pay12 (F := Ideal) v) st.2.2)

/-- What a first tile starts from. -/
def start : Running Ideal := (k2_pay4 (F := Ideal), k2_pay5 (F := Ideal), k2_pay6 (F := Ideal))

/-- The running arrays after point `t` are the update of what they held before it; at a first tile, of the start. -/
theorem state_succ (t : Fin cfg2.N) :
    stateAfter (F := Ideal) m c (t.val + 1)
      = upd (Region2.blockAt (F := Ideal) m c 0 t) (Region2.blockAt (F := Ideal) m c 1 t) (Region2.blockAt (F := Ideal) m c 2 t) (Region2.blockAt (F := Ideal) m c 3 t) (if atFirstTile (grid2.coords t) then start else stateAfter (F := Ideal) m c t.val) := by
  rw [Region2.stateAfter_succ]
  by_cases hA : atFirstTile (grid2.coords t)
  · rw [if_pos hA, Region2.step_first m c t hA]
    unfold Region2.afterFirst upd start
    rw [Region2.leftFirst7_eq, Region2.leftFirst8_eq, Region2.leftFirst9_eq]
  · rw [if_neg hA]
    by_cases hB : atLastTile (grid2.coords t)
    · rw [Region2.step_last m c t hA hB]
      unfold Region2.afterLast upd
      rw [Region2.leftLast7_eq, Region2.leftLast8_eq, Region2.leftLast9_eq]
    · rw [Region2.step_middle m c t hA hB]
      unfold Region2.afterMiddle upd
      rw [Region2.leftMiddle7_eq, Region2.leftMiddle8_eq, Region2.leftMiddle9_eq]

/-! ## What the running arrays hold -/

variable (vr : Fin 8192 → Fin 256 → ℝ)

/-- The running arrays hold, for every entry `e` of point `t`'s block of edges, the maximum, the sum of the weights and the
    weighted sum of the values over the samples `A`. -/
def Holds (st : Running Ideal) (t : Fin cfg2.N) (A : Finset (Fin 8192)) : Prop :=
  ∀ e : Fin 2048,
    st.1 (ix2 (0 : Fin 1) e) = A.sup (fun k => score m c k (edgeOf t e))
    ∧ st.2.1 (ix2 (0 : Fin 1) e)
        = ((∑ k ∈ A, wt (A.sup fun k => score m c k (edgeOf t e)) (score m c k (edgeOf t e)) : ℝ) : EReal)
    ∧ ∀ j : Fin 256, st.2.2 (ix2 e j)
        = ((∑ k ∈ A, wt (A.sup fun k => score m c k (edgeOf t e)) (score m c k (edgeOf t e)) * vr k j : ℝ) : EReal)

/-- Before any sample is seen: `-∞`, zero, zero. -/
theorem start_holds (t : Fin cfg2.N) : Holds m c vr start t ∅ := fun e =>
  ⟨by unfold start; dsimp only; rw [Payloads.init_max_apply]; simp,
   by unfold start; dsimp only; rw [Payloads.init_sum_apply]; simp,
   fun j => by unfold start; dsimp only; rw [Payloads.init_acc_apply]; simp⟩

/-- One tile: if the arrays hold the samples `A`, none of them in point `t`'s tile, their update holds `A` and the tile. -/
theorem upd_holds (hsc : ∀ k E, score m c k E ≠ ⊤) (hV : ∀ k j, Vg m c (ix2 k j) = (vr k j : EReal))
    (t : Fin cfg2.N) (st : Running Ideal) (A : Finset (Fin 8192)) (hA : Disjoint A (tileOf (t.val % 16))) (h : Holds m c vr st t A) :
    Holds m c vr (upd (Region2.blockAt (F := Ideal) m c 0 t) (Region2.blockAt (F := Ideal) m c 1 t) (Region2.blockAt (F := Ideal) m c 2 t) (Region2.blockAt (F := Ideal) m c 3 t) st) t (A ∪ tileOf (t.val % 16)) := by
  intro e
  obtain ⟨h1, h2, h3⟩ := h e
  have hmax : k2_pay8 (F := Ideal) (Region2.blockAt (F := Ideal) m c 0 t) (Region2.blockAt (F := Ideal) m c 1 t) (Region2.blockAt (F := Ideal) m c 3 t) st.1 (ix2 (0 : Fin 1) e)
      = (A ∪ tileOf (t.val % 16)).sup (fun k => score m c k (edgeOf t e)) := by
    rw [Payloads.newmax_apply, h1]
    simp only [Tile.tile_score]
    rw [tile_max_reindex t (fun k => score m c k (edgeOf t e))]
    exact tile_max _ A _
  refine ⟨?_, ?_, ?_⟩
  · unfold upd; dsimp only
    rw [Payloads.keep_max]; exact hmax
  · unfold upd; dsimp only
    rw [Payloads.newsum_apply, Payloads.factor_apply, hmax, h1, h2]
    simp only [Payloads.weight_apply, Tile.tile_score, hmax]
    rw [tile_sum_reindex t (fun k => Ideal.exp (score m c k (edgeOf t e) - (A ∪ tileOf (t.val % 16)).sup (fun k => score m c k (edgeOf t e))))]
    exact tile_sum _ (fun k => hsc k _) A _ hA
  · intro j
    unfold upd; dsimp only
    rw [Payloads.newacc_apply, Payloads.factor_apply, hmax, h1, h3 j, Payloads.keep_values]
    simp only [Payloads.weight_apply, Tile.tile_score, hmax, Tile.v_block_apply, hV]
    rw [tile_sum_reindex t (fun k => Ideal.exp (score m c k (edgeOf t e) - (A ∪ tileOf (t.val % 16)).sup (fun k => score m c k (edgeOf t e))) * (vr k j : EReal))]
    exact tile_acc _ (fun k => hsc k _) A _ hA (fun k => vr k j)

/-! ## Along the tiles of a block of edges -/

/-- Two points of one block of edges have the same edges. -/
theorem edgeOf_congr (t t' : Fin cfg2.N) (h : t.val / 16 = t'.val / 16) (e : Fin 2048) : edgeOf t e = edgeOf t' e := by
  unfold edgeOf; exact Fin.ext (by simp only; rw [h])
theorem holds_congr (st : Running Ideal) (t t' : Fin cfg2.N) (h : t.val / 16 = t'.val / 16) (A : Finset (Fin 8192))
    (hh : Holds m c vr st t A) : Holds m c vr st t' A := by
  intro e; have := hh e; rw [edgeOf_congr t t' h e] at this; exact this

/-- AFTER POINT `n` the running arrays hold the samples of the tiles `0 … n % 16` of its block of edges. -/
theorem holds_after (hsc : ∀ k E, score m c k E ≠ ⊤) (hV : ∀ k j, Vg m c (ix2 k j) = (vr k j : EReal)) :
    ∀ (n : ℕ) (hn : n < cfg2.N), Holds m c vr (stateAfter (F := Ideal) m c (n + 1)) ⟨n, hn⟩ (seen (n % 16 + 1))
  | 0, hn => by
    have hA : atFirstTile (grid2.coords ⟨0, hn⟩) := (Region2.first_iff ⟨0, hn⟩).mpr rfl
    have h := upd_holds m c vr hsc hV ⟨0, hn⟩ start ∅ (Finset.disjoint_empty_left _) (start_holds m c vr ⟨0, hn⟩)
    rw [state_succ m c ⟨0, hn⟩, if_pos hA]
    rw [seen_succ, show (0 : ℕ) % 16 = 0 from rfl, seen_zero]
    exact h
  | n + 1, hn => by
    rw [state_succ m c ⟨n + 1, hn⟩]
    by_cases hA : atFirstTile (grid2.coords ⟨n + 1, hn⟩)
    · have h0 : (n + 1) % 16 = 0 := (Region2.first_iff ⟨n + 1, hn⟩).mp hA
      have h := upd_holds m c vr hsc hV ⟨n + 1, hn⟩ start ∅ (Finset.disjoint_empty_left _) (start_holds m c vr ⟨n + 1, hn⟩)
      rw [if_pos hA, seen_succ, h0, seen_zero]
      rw [show ((⟨n + 1, hn⟩ : Fin cfg2.N).val % 16) = 0 from h0] at h
      exact h
    · have h0 : (n + 1) % 16 ≠ 0 := fun h => hA ((Region2.first_iff ⟨n + 1, hn⟩).mpr h)
      have ih := holds_after hsc hV n (Nat.lt_of_succ_lt hn)
      have hblk : (⟨n, Nat.lt_of_succ_lt hn⟩ : Fin cfg2.N).val / 16 = (⟨n + 1, hn⟩ : Fin cfg2.N).val / 16 := by
        show n / 16 = (n + 1) / 16; omega
      have ih' := holds_congr m c vr _ _ _ hblk _ ih
      rw [show n % 16 + 1 = (n + 1) % 16 by omega] at ih'
      have h := upd_holds m c vr hsc hV ⟨n + 1, hn⟩ _ _ (seen_disjoint ((n + 1) % 16)) ih'
      rw [if_neg hA, seen_succ]
      exact h

/-! ## What a last tile stores -/

/-- AT A LAST TILE the stored block holds, at entry `e` and column `j`, the weighted sum of the values over ALL samples
    divided by the sum of the weights, the weights taken against the maximum score of the entry's edge. -/
theorem last_block (hsc : ∀ k E, score m c k E ≠ ⊤) (hV : ∀ k j, Vg m c (ix2 k j) = (vr k j : EReal))
    (t : Fin cfg2.N) (hf : (cfg2.win 4).flush t = true) (e : Fin 2048) (j : Fin 256) :
    (Region2.dat2 (F := Ideal) m c).flushed 4 t (ix2 e j)
      = Ideal.div
          ((∑ k : Fin 8192, wt (Finset.univ.sup fun k => score m c k (edgeOf t e)) (score m c k (edgeOf t e)) * vr k j : ℝ) : EReal)
          ((∑ k : Fin 8192, wt (Finset.univ.sup fun k => score m c k (edgeOf t e)) (score m c k (edgeOf t e)) : ℝ) : EReal) := by
  have hlast : t.val % 16 = 15 := (flush2_4 t).mp hf
  have hB : atLastTile (grid2.coords t) := (Region2.last_iff t).mpr hlast
  have hA : ¬atFirstTile (grid2.coords t) := fun h => by have := (Region2.first_iff t).mp h; omega
  have hs := state_succ m c t
  rw [if_neg hA] at hs
  obtain ⟨-, h2, h3⟩ := (show Holds m c vr (stateAfter (F := Ideal) m c (t.val + 1)) t (seen (t.val % 16 + 1)) from holds_after m c vr hsc hV t.val t.isLt) e
  rw [hlast, seen_all, hs] at h2 h3
  unfold upd at h2 h3
  dsimp only at h2 h3
  show (cfg2.win 4).cut (grid2.coords t) ((Region2.dat2 (F := Ideal) m c).after 4 t) (ix2 e j) = _
  rw [Region2.after_out, Region2.outAt_last m c t hA hB]
  dsimp only [Region2.outLast]
  rw [Region2.leftLast6_eq]
  refine (Payloads.quotient_apply _ _ e j).trans ?_
  rw [h2, h3 j]

end Cert.KernelIdeal.Online

end
-- ==== Proof.LibReduceAny.lean ====
/-
  `jnp.any` along axes, read back.

  A `stablehlo.reduce` by `or` over `i1` words folds, at each result index, the operand's words that reduce into it,
  starting from the initial value. If the result is 1 and the initial value is 0, one of those words is 1: some operand
  index that reduces into the result index holds a 1. (The companion of the library's reading of a reduce by `and`.)
-/
import Idealize.ShloMosaic.Lib.ReduceAll
import Idealize.ShloMosaic.Lib.Affine

namespace Idealize.ShloMosaic

namespace IntOp

/-- A left fold by `or` over `i1` words that came out 1 started at 1 or met a 1. -/
theorem foldl_ori_eq_one {ι : Type} (f : ι → BitVec 1) :
    ∀ (l : List ι) (init : BitVec 1), l.foldl (fun r n => ori r (f n)) init = 1#1 → init = 1#1 ∨ ∃ n ∈ l, f n = 1#1
  | [], init, h => Or.inl h
  | a :: l, init, h => by
    rcases foldl_ori_eq_one f l _ h with h1 | ⟨n, hn, hf⟩
    · rcases ori_eq_one.1 h1 with hi | ha
      · exact Or.inl hi
      · exact Or.inr ⟨a, List.mem_cons_self .., ha⟩
    · exact Or.inr ⟨n, List.mem_cons_of_mem _ hn, hf⟩

end IntOp

namespace Host

variable {s t u : Shape} {axes : List (Fin s.rank)}

/-- A `stablehlo.reduce` by `or`, from an initial value that is 0, that is 1 at `j` had a 1 at some operand index that
    reduces into `j`. -/
theorem reduce_ori_eq_one (x : s.Idx → BitVec 1) (init : u.Idx → BitVec 1) (h : s.ReducesTo axes t) (hu : 0 < u.numel)
    (hinit : init (Shape.Idx.first hu) = 0#1) (j : t.Idx) (e : Host.reduce IntOp.ori x init h hu j = 1#1) :
    ∃ i : s.Idx, h.drop i = j ∧ x i = 1#1 := by
  rw [Host.reduce_eq_foldl] at e
  rcases IntOp.foldl_ori_eq_one x _ _ e with h1 | ⟨n, hn, hf⟩
  · rw [hinit] at h1; exact absurd h1 (by decide)
  · rw [List.mem_filter] at hn
    exact ⟨n, by simpa using hn.2, hf⟩

end Host

end Idealize.ShloMosaic
-- ==== Proof.KIPre.lean ====
/-
  The precondition, read. It says, of the launch contents of the six arguments: every entry of the five float arrays
  has absolute value below `+∞`, so is a real number; and for every edge — every column of the incidence matrix — some
  sample's entry is nonzero.
-/
import proofs.«127266_j31533649887507_2_alg».proof.Defs
import proofs.«127266_j31533649887507_2_alg».proof.Proof.Gen.Pre_finite_inputs
import proofs.«127266_j31533649887507_2_alg».proof.Proof.LibReduceAny
import Idealize.ShloMosaic.Lib.ValueIdx
import Idealize.ShloMosaic.PureOps.Ideal.Laws

set_option maxRecDepth 16384

noncomputable section

namespace Cert.KernelIdeal.PreRead

open Cert.KernelIdeal
open Idealize.ShloMosaic Idealize.ShloMosaic.TcCoe Idealize.ShloMosaic.ValueIdx Idealize.SL.Sem

/-- An extended real whose absolute value tests below `+∞` is a real number. -/
theorem real_of_check (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  have hlt : max x (-x) < ⊤ := by
    by_contra hc
    unfold Ideal.cmp at h
    simp only [hc, decide_false] at h
    exact absurd h (by decide)
  induction x using EReal.rec with
  | bot => simp at hlt
  | top => simp at hlt
  | coe r => exact ⟨r, rfl⟩

variable (m : (ℓ : Loc nD τ sig) → Buf (Elt Ideal) ℓ)

/-- THE PRECONDITION READ, on a core: the five float arguments are arrays of real numbers, and every edge has a sample
    with a nonzero incidence. -/
theorem read (hpre : Cert.Pre_KernelIdeal m) (c : Dev nD) :
    (∀ i, ∃ r : ℝ, (m ((c.tc : Thread nD τ).loc main_arg0) : S8192x512.Idx → EReal) i = (r : EReal))
    ∧ (∀ i, ∃ r : ℝ, (m ((c.tc : Thread nD τ).loc main_arg1) : S4096x512.Idx → EReal) i = (r : EReal))
    ∧ (∀ i, ∃ r : ℝ, (m ((c.tc : Thread nD τ).loc main_arg3) : S512x64.Idx → EReal) i = (r : EReal))
    ∧ (∀ i, ∃ r : ℝ, (m ((c.tc : Thread nD τ).loc main_arg4) : S512x64.Idx → EReal) i = (r : EReal))
    ∧ (∀ i, ∃ r : ℝ, (m ((c.tc : Thread nD τ).loc main_arg5) : S512x256.Idx → EReal) i = (r : EReal))
    ∧ (∀ E : Fin 4096, ∃ k : Fin 8192, (m ((c.tc : Thread nD τ).loc main_arg2) : S8192x4096.Idx → BitVec 32) (ix2 k E) ≠ 0#32) := by
  have h0 := congrFun (hpre c) ValueIdx.ix0
  dsimp only [Cert.Pre_finite_inputs.fn, Cert.Pre_finite_inputs.fn_part1] at h0
  obtain ⟨h1, hAny⟩ := IntOp.andi_eq_one.1 h0
  obtain ⟨h2, hWv⟩ := IntOp.andi_eq_one.1 h1
  obtain ⟨h3, hWk⟩ := IntOp.andi_eq_one.1 h2
  obtain ⟨h4, hWq⟩ := IntOp.andi_eq_one.1 h3
  obtain ⟨hX, hY⟩ := IntOp.andi_eq_one.1 h4
  refine ⟨fun i => real_of_check _ (Host.reduce_andi_all _ _ _ _ ValueIdx.ix0 hX i),
    fun i => real_of_check _ (Host.reduce_andi_all _ _ _ _ ValueIdx.ix0 hY i),
    fun i => real_of_check _ (Host.reduce_andi_all _ _ _ _ ValueIdx.ix0 hWq i),
    fun i => real_of_check _ (Host.reduce_andi_all _ _ _ _ ValueIdx.ix0 hWk i),
    fun i => real_of_check _ (Host.reduce_andi_all _ _ _ _ ValueIdx.ix0 hWv i), fun E => ?_⟩
  have hE := Host.reduce_andi_all _ _ _ _ ValueIdx.ix0 hAny (ix1 E)
  obtain ⟨i, hd, hi⟩ := Host.reduce_ori_eq_one _ _ _ _ rfl (ix1 E) hE
  refine ⟨i 0, ?_⟩
  have hcol : i 1 = E := congrFun hd 0
  have hidx : i = ix2 (i 0) E := by rw [← hcol]; exact eq_ix2 i
  intro hz
  rw [hidx] at hi
  change IntOp.cmpi .ne ((m ((c.tc : Thread nD τ).loc main_arg2) : S8192x4096.Idx → BitVec 32) (ix2 (i 0) E)) 0#32 = 1#1 at hi
  rw [hz] at hi
  exact absurd hi (by decide)

end Cert.KernelIdeal.PreRead

end
-- ==== Proof.KIRef.lean ====
/-
  The reference's result, entry by entry. Row `E`, column `j` of the result is the sum over the 8192 samples `k` of
  `exp (s k - M) / (0 + Σ k', exp (s k' - M))` times entry `(k, j)` of `X · W_v`, where `s k` is the reference's masked, scaled
  score of sample `k` against edge `E` and `M` the row's maximum joined with `-∞`.
-/
import proofs.«127266_j31533649887507_2_alg».proof.Proof.Gen.ReferenceIdeal.Read
import proofs.«127266_j31533649887507_2_alg».proof.Proof.LibOnlineSoftmax

set_option maxRecDepth 16384

noncomputable section

namespace Cert.ReferenceIdeal.Entry

open Cert.ReferenceIdeal Cert.ReferenceIdeal.Gen Cert.ReferenceIdeal.Read
open Idealize.ShloMosaic Idealize.ShloMosaic.ValueIdx

variable (x0 : (⟨S8192x512, .f32⟩ : BufTy).Contents (Elt Ideal)) (x1 : (⟨S4096x512, .f32⟩ : BufTy).Contents (Elt Ideal))
  (x2 : (⟨S8192x4096, .i32⟩ : BufTy).Contents (Elt Ideal)) (x3 x4 : (⟨S512x64, .f32⟩ : BufTy).Contents (Elt Ideal))
  (x5 : (⟨S512x256, .f32⟩ : BufTy).Contents (Elt Ideal))

/-- The reference's masked, scaled score of sample `k` against edge `E`, and the row's maximum joined with `-∞`. -/
abbrev rscore (E : Fin 4096) (k : Fin 8192) : EReal := val_main_v10 (F := Ideal) x0 x1 x2 x3 x4 (ix2 E k)
abbrev rmax (E : Fin 4096) : EReal := val_main_v13 (F := Ideal) x0 x1 x2 x3 x4 (ix1 E)

/-- The index maps of the stages, at `ix` forms. -/
theorem l23 (E : Fin 4096) (j : Fin 256) (k : Fin 8192) : lidx_main_v23 (ix2 E j) k = ix2 E k := by
  funext a; apply Fin.ext; fin_cases a <;> rfl
theorem r23 (E : Fin 4096) (j : Fin 256) (k : Fin 8192) : ridx_main_v23 (ix2 E j) k = ix2 k j := by
  funext a; apply Fin.ext; fin_cases a <;> rfl
theorem i20 (E : Fin 4096) (k : Fin 8192) : idx_main_v20 (ix2 E k) = ix2 E (0 : Fin 1) := by
  funext a; apply Fin.ext; fin_cases a <;> rfl
theorem i19 (E : Fin 4096) : idx_main_v19 (ix2 E (0 : Fin 1)) = ix1 E := by
  funext a; apply Fin.ext; fin_cases a <;> rfl
theorem i18 (E : Fin 4096) (k : Fin 8192) : idx_main_v18 (ix1 E) k = ix2 E k := by
  funext a; apply Fin.ext; fin_cases a <;> rfl
theorem i15 (E : Fin 4096) (k : Fin 8192) : idx_main_v15 (ix2 E k) = ix2 E (0 : Fin 1) := by
  funext a; apply Fin.ext; fin_cases a <;> rfl
theorem i14 (E : Fin 4096) : idx_main_v14 (ix2 E (0 : Fin 1)) = ix1 E := by
  funext a; apply Fin.ext; fin_cases a <;> rfl

/-- One term of the softmax's numerator. -/
theorem num_apply (E : Fin 4096) (k : Fin 8192) :
    val_main_v17 (F := Ideal) x0 x1 x2 x3 x4 (ix2 E k) = Ideal.exp (rscore x0 x1 x2 x3 x4 E k - rmax x0 x1 x2 x3 x4 E) := by
  rw [val_main_v17_apply, val_main_v16_apply, val_main_v15_apply, i15, val_main_v14_apply, i14]
  rfl

/-- THE REFERENCE'S RESULT at row `E`, column `j`. -/
theorem result_apply (E : Fin 4096) (j : Fin 256) :
    val_main_v23 (F := Ideal) x0 x1 x2 x3 x4 x5 (ix2 E j)
      = ∑ k : Fin 8192, Ideal.div (Ideal.exp (rscore x0 x1 x2 x3 x4 E k - rmax x0 x1 x2 x3 x4 E))
            ((0 : EReal) + ∑ k' : Fin 8192, Ideal.exp (rscore x0 x1 x2 x3 x4 E k' - rmax x0 x1 x2 x3 x4 E))
          * val_main_v22 (F := Ideal) x0 x5 (ix2 k j) := by
  rw [val_main_v23_apply]
  refine Finset.sum_congr rfl fun k _ => ?_
  rw [l23, r23, val_main_v21_apply, val_main_v20_apply, i20, val_main_v19_apply, i19, val_main_v18_apply, num_apply]
  simp only [i18, num_apply]
  rw [val_main_cst_3_apply, show (FloatOps.ofBits (F := Ideal) .f32 0x00000000#32 : EReal) = 0 from Ideal.ofBits_zero_f32]
  rfl

/-! ## The constants -/

theorem bits64 : (Ideal.ofBits .f32 0x42800000#32 : EReal) = ((64 : ℝ) : EReal) := by
  simp [Ideal.ofBits, Ideal.ieee]
  rw [← EReal.coe_mul]
  congr 1
  norm_num
theorem bits8th : (Ideal.ofBits .f32 0x3E000000#32 : EReal) = ((1 / 8 : ℝ) : EReal) := by
  simp [Ideal.ofBits, Ideal.ieee]
  rw [← EReal.coe_mul]
  congr 1
  norm_num
theorem sqrt64 : Ideal.sqrt (Ideal.ofBits .f32 0x42800000#32) = ((8 : ℝ) : EReal) := by
  rw [bits64, Ideal.sqrt_coe, if_neg (by norm_num)]
  congr 1
  rw [show (64 : ℝ) = 8 ^ 2 by norm_num]
  exact Real.sqrt_sq (by norm_num)
theorem negInf : (FloatOps.ofBits (F := Ideal) .f32 0xFF800000#32 : EReal) = ⊥ := by
  simp [Ideal.ofBits, Ideal.ieee]

/-! ## The score and the row's maximum -/

theorem i7 (E : Fin 4096) (k : Fin 8192) : idx_main_v7 (ix2 E k) = ix2 k E := by
  funext a; apply Fin.ext; fin_cases a <;> rfl
theorem l4 (E : Fin 4096) (k : Fin 8192) (d : Fin 64) : lidx_main_v4 (ix2 E k) d = ix2 E d := by
  funext a; apply Fin.ext; fin_cases a <;> rfl
theorem r4 (E : Fin 4096) (k : Fin 8192) (d : Fin 64) : ridx_main_v4 (ix2 E k) d = ix2 d k := by
  funext a; apply Fin.ext; fin_cases a <;> rfl
theorem i3 (d : Fin 64) (k : Fin 8192) : idx_main_v3 (ix2 d k) = ix2 k d := by
  funext a; apply Fin.ext; fin_cases a <;> rfl

/-- The reference's score of sample `k` against edge `E`: `-∞` where the incidence is zero, else an eighth of the inner
    product of row `E` of `Y · W_q` with row `k` of `X · W_k`. -/
theorem rscore_apply (E : Fin 4096) (k : Fin 8192) :
    rscore x0 x1 x2 x3 x4 E k
      = Scalar.select (IntOp.cmpi .eq (x2 (ix2 k E)) 0#32) (⊥ : EReal)
          ((∑ d : Fin 64, val_main_v0 (F := Ideal) x1 x3 (ix2 E d) * val_main_v1 (F := Ideal) x0 x4 (ix2 k d)) * ((1 / 8 : ℝ) : EReal)) := by
  have hmask : val_main_v9 (F := Ideal) x2 (ix2 E k) = IntOp.cmpi .eq (x2 (ix2 k E)) 0#32 := by
    rw [val_main_v9_apply, val_main_v7_apply, i7, val_main_v8_apply, val_main_c_apply]
  have hfill : val_main_call0_v1 (F := Ideal) (ix2 E k) = (⊥ : EReal) := by
    rw [val_main_call0_v1_apply, val_main_call0_v0_apply, val_main_cst_0_apply, negInf]
  have hscale : val_main_v5 (F := Ideal) (ix2 E k) = ((8 : ℝ) : EReal) := by
    rw [val_main_v5_apply, val_main_v2_apply, val_main_cst_apply]
    exact sqrt64
  have hdot : val_main_v4 (F := Ideal) x0 x1 x3 x4 (ix2 E k)
      = ∑ d : Fin 64, val_main_v0 (F := Ideal) x1 x3 (ix2 E d) * val_main_v1 (F := Ideal) x0 x4 (ix2 k d) := by
    rw [val_main_v4_apply]
    exact Finset.sum_congr rfl fun d _ => by rw [l4, r4, val_main_v3_apply, i3]
  have hdiv : val_main_v6 (F := Ideal) x0 x1 x3 x4 (ix2 E k)
      = (∑ d : Fin 64, val_main_v0 (F := Ideal) x1 x3 (ix2 E d) * val_main_v1 (F := Ideal) x0 x4 (ix2 k d)) * ((1 / 8 : ℝ) : EReal) := by
    rw [val_main_v6_apply, hdot, hscale]
    exact Ideal.div_coe (by norm_num : (8 : ℝ) ≠ 0) _
  show val_main_v10 (F := Ideal) x0 x1 x2 x3 x4 (ix2 E k) = _
  rw [val_main_v10_apply, hmask, hfill, hdiv]

/-- The reduction over the samples, read at an edge: the lifted index. -/
theorem lift_row (hR : S4096x8192.Reduces [1] S4096) (E : Fin 4096) (k : Fin 8192) : hR.lift (ix1 E) k = ix2 E k := by
  funext a; apply Fin.ext; fin_cases a <;> rfl

set_option maxHeartbeats 400000 in
theorem rowmax_fold (hR : S4096x8192.Reduces [1] S4096) (E : Fin 4096) :
    Host.reduce (max : EReal → EReal → EReal) (val_main_v10 (F := Ideal) x0 x1 x2 x3 x4) (val_main_cst_1 (F := Ideal)) reducesTo_S4096x8192_S4096_d1 h_S_ (ix1 E)
      = (Finset.univ : Finset (Fin 8192)).fold max (⊥ : EReal) (fun k => rscore x0 x1 x2 x3 x4 E k) := by
  refine (Host.reduce_eq_fold_single (max : EReal → EReal → EReal) _ _ reducesTo_S4096x8192_S4096_d1 hR h_S_ (ix1 E)).trans ?_
  rw [val_main_cst_1_apply, negInf]
  exact congrArg (fun g => (Finset.univ : Finset (Fin 8192)).fold max (⊥ : EReal) g)
    (funext fun k => congrArg (val_main_v10 (F := Ideal) x0 x1 x2 x3 x4) (lift_row hR E k))

/-- The row's maximum joined with `-∞` is the largest score of the row. -/
theorem rmax_eq (E : Fin 4096) :
    rmax x0 x1 x2 x3 x4 E = Finset.univ.sup (fun k : Fin 8192 => rscore x0 x1 x2 x3 x4 E k) := by
  have hR : S4096x8192.Reduces [1] S4096 := by decide
  have h12 : val_main_v12 (F := Ideal) (ix1 E) = (⊥ : EReal) := by
    rw [val_main_v12_apply, val_main_cst_2_apply, negInf]
  have h11 : val_main_v11 (F := Ideal) x0 x1 x2 x3 x4 (ix1 E) = Finset.univ.sup (fun k : Fin 8192 => rscore x0 x1 x2 x3 x4 E k) :=
    (rowmax_fold x0 x1 x2 x3 x4 hR E).trans (Cert.Lib.OnlineSoftmax.fold_max_eq_sup _ _)
  have h13 : rmax x0 x1 x2 x3 x4 E = max (val_main_v12 (F := Ideal) (ix1 E)) (val_main_v11 (F := Ideal) x0 x1 x2 x3 x4 (ix1 E)) :=
    val_main_v13_apply x0 x1 x2 x3 x4 (ix1 E)
  rw [h13, h12, h11]
  exact max_eq_right bot_le

end Cert.ReferenceIdeal.Entry

end
-- ==== Proof.KIMatch.lean ====
/-
  The two sides meet. The masked score the third call computes from the first two calls' `Q` and `K` is the reference's
  (the same incidence test; the same inner product, its factors in the other order; a division by `√64 = 8` against a
  multiplication by an eighth); a product of arrays of real numbers is an array of real numbers, so no score is `+∞`, a
  score is `-∞` only where the incidence is zero, and `V`'s entries are real.
-/
import proofs.«127266_j31533649887507_2_alg».proof.Proof.KIOnline
import proofs.«127266_j31533649887507_2_alg».proof.Proof.KIPre
import proofs.«127266_j31533649887507_2_alg».proof.Proof.KIRef

set_option maxRecDepth 16384

noncomputable section

namespace Cert.KernelIdeal.Match

open Cert.KernelIdeal Cert.KernelIdeal.Gen
open Idealize.ShloMosaic Idealize.ShloMosaic.TcCoe Idealize.ShloMosaic.ValueIdx Idealize.SL.Sem
open Cert.KernelIdeal.Arrays (prod)
open Cert.KernelIdeal.Tile (score Qg Kg Vg Hg)
open Cert.Lib.OnlineSoftmax

/-- A product of arrays of real numbers is an array of real numbers. -/
theorem prod_real {R N C : Nat} (A : (⟨2, ![R, N]⟩ : Shape).Idx → EReal) (W : (⟨2, ![N, C]⟩ : Shape).Idx → EReal)
    (hA : ∀ i, ∃ r : ℝ, A i = (r : EReal)) (hW : ∀ i, ∃ r : ℝ, W i = (r : EReal)) (i : (⟨2, ![R, C]⟩ : Shape).Idx) :
    ∃ r : ℝ, prod A W i = (r : EReal) := by
  choose a ha using hA
  choose w hw using hW
  refine ⟨∑ x : Fin N, a (ix2 (i 0) x) * w (ix2 x (i 1)), ?_⟩
  unfold Arrays.prod
  rw [coe_sum]
  exact Finset.sum_congr rfl fun x _ => by rw [ha, hw, EReal.coe_mul]

/-- An `i1` test of equality with zero that is not 1 found a nonzero word. -/
theorem cmpi_eq_zero_of_ne (a : BitVec 32) (h : a ≠ 0#32) : IntOp.cmpi .eq a 0#32 = 0#1 := by
  refine eq_zero_of_ne_one fun h1 => ?_
  have hb : (a == 0#32) = false := beq_eq_false_iff_ne.mpr h
  simp only [IntOp.cmpi] at h1
  rw [hb] at h1
  exact absurd h1 (by decide)

variable (m : (ℓ : Loc nD τ sig) → Buf (Elt Ideal) ℓ) (c : Dev nD)

/-- With `Q` and `K` arrays of real numbers: no score is `+∞`, and a score against a nonzero incidence is not `-∞`. -/
theorem inner_real (hQ : ∀ i, ∃ r : ℝ, Qg m c i = (r : EReal)) (hK : ∀ i, ∃ r : ℝ, Kg m c i = (r : EReal)) (k : Fin 8192) (E : Fin 4096) :
    ∃ r : ℝ, (∑ d : Fin 64, Kg m c (ix2 k d) * Qg m c (ix2 E d)) * Ideal.ofBits .f32 0x3E000000#32 = (r : EReal) := by
  choose qr hqr using hQ
  choose kr hkr using hK
  refine ⟨(∑ d : Fin 64, kr (ix2 k d) * qr (ix2 E d)) * (1 / 8 : ℝ), ?_⟩
  rw [show (Ideal.ofBits .f32 0x3E000000#32 : EReal) = ((1 / 8 : ℝ) : EReal) from by
    simp [Ideal.ofBits, Ideal.ieee]; rw [← EReal.coe_mul]; congr 1; norm_num]
  rw [EReal.coe_mul, coe_sum]
  congr 1
  exact Finset.sum_congr rfl fun d _ => by rw [hkr, hqr, EReal.coe_mul]

theorem score_ne_top (hQ : ∀ i, ∃ r : ℝ, Qg m c i = (r : EReal)) (hK : ∀ i, ∃ r : ℝ, Kg m c i = (r : EReal)) (k : Fin 8192) (E : Fin 4096) :
    score m c k E ≠ ⊤ := by
  unfold Tile.score
  obtain ⟨r, hr⟩ := inner_real m c hQ hK k E
  rw [hr]
  by_cases hb : IntOp.cmpi .eq (Hg m c (ix2 k E)) 0#32 = 1#1
  · rw [hb, select_one]; exact bot_ne_top
  · rw [eq_zero_of_ne_one hb, select_zero]; exact EReal.coe_ne_top r

theorem score_ne_bot (hQ : ∀ i, ∃ r : ℝ, Qg m c i = (r : EReal)) (hK : ∀ i, ∃ r : ℝ, Kg m c i = (r : EReal)) (k : Fin 8192) (E : Fin 4096)
    (hH : Hg m c (ix2 k E) ≠ 0#32) : score m c k E ≠ ⊥ := by
  unfold Tile.score
  obtain ⟨r, hr⟩ := inner_real m c hQ hK k E
  rw [hr, cmpi_eq_zero_of_ne _ hH, select_zero]
  exact EReal.coe_ne_bot r

/-! ## The reference's projections are the first two calls' -/

theorem v0_prod (Y : S4096x512.Idx → EReal) (Wq : S512x64.Idx → EReal) (E : Fin 4096) (d : Fin 64) :
    Cert.ReferenceIdeal.Read.val_main_v0 (F := Ideal) Y Wq (ix2 E d) = prod (R := 4096) (N := 512) (C := 64) Y Wq (ix2 E d) := by
  rw [Cert.ReferenceIdeal.Read.val_main_v0_apply]
  unfold Arrays.prod
  refine Finset.sum_congr rfl fun f _ => ?_
  have hl : Cert.ReferenceIdeal.Read.lidx_main_v0 (ix2 E d) f = ix2 E f := by funext a; apply Fin.ext; fin_cases a <;> rfl
  have hr : Cert.ReferenceIdeal.Read.ridx_main_v0 (ix2 E d) f = ix2 f d := by funext a; apply Fin.ext; fin_cases a <;> rfl
  rw [hl, hr]
  try rfl
theorem v1_prod (X : S8192x512.Idx → EReal) (Wk : S512x64.Idx → EReal) (k : Fin 8192) (d : Fin 64) :
    Cert.ReferenceIdeal.Read.val_main_v1 (F := Ideal) X Wk (ix2 k d) = prod (R := 8192) (N := 512) (C := 64) X Wk (ix2 k d) := by
  rw [Cert.ReferenceIdeal.Read.val_main_v1_apply]
  unfold Arrays.prod
  refine Finset.sum_congr rfl fun f _ => ?_
  have hl : Cert.ReferenceIdeal.Read.lidx_main_v1 (ix2 k d) f = ix2 k f := by funext a; apply Fin.ext; fin_cases a <;> rfl
  have hr : Cert.ReferenceIdeal.Read.ridx_main_v1 (ix2 k d) f = ix2 f d := by funext a; apply Fin.ext; fin_cases a <;> rfl
  rw [hl, hr]
  try rfl
theorem v22_prod (X : S8192x512.Idx → EReal) (Wv : S512x256.Idx → EReal) (k : Fin 8192) (j : Fin 256) :
    Cert.ReferenceIdeal.Read.val_main_v22 (F := Ideal) X Wv (ix2 k j) = prod (R := 8192) (N := 512) (C := 256) X Wv (ix2 k j) := by
  rw [Cert.ReferenceIdeal.Read.val_main_v22_apply]
  unfold Arrays.prod
  refine Finset.sum_congr rfl fun f _ => ?_
  have hl : Cert.ReferenceIdeal.Read.lidx_main_v22 (ix2 k j) f = ix2 k f := by funext a; apply Fin.ext; fin_cases a <;> rfl
  have hr : Cert.ReferenceIdeal.Read.ridx_main_v22 (ix2 k j) f = ix2 f j := by funext a; apply Fin.ext; fin_cases a <;> rfl
  rw [hl, hr]
  try rfl

/-- The reference's score, on the kernel's own argument arrays, is the third call's. -/
theorem rscore_eq (k : Fin 8192) (E : Fin 4096) :
    Cert.ReferenceIdeal.Entry.rscore (Arrays.argX m c) (Arrays.argY m c) (Hg m c) (Arrays.argWq m c) (Arrays.argWk m c) E k = score m c k E := by
  rw [Cert.ReferenceIdeal.Entry.rscore_apply]
  unfold Tile.score
  have hq : Qg m c = prod (R := 4096) (N := 512) (C := 64) (Arrays.argY m c) (Arrays.argWq m c) := Arrays.q_final_eq m c
  have hk : Kg m c = prod (R := 8192) (N := 512) (C := 64) (Arrays.argX m c) (Arrays.argWk m c) := Arrays.k_final_eq m c
  have h8 : (Ideal.ofBits .f32 0x3E000000#32 : EReal) = ((1 / 8 : ℝ) : EReal) := Cert.ReferenceIdeal.Entry.bits8th
  rw [h8, hq, hk]
  congr 2
  exact Finset.sum_congr rfl fun d _ => by rw [v0_prod, v1_prod, mul_comm]

/-! ## A last tile's stored block is the reference's rows -/

theorem out_idx : ∀ t : Fin cfg2.N, win2_4.index t (0 : Fin 2) = t.val / 16 ∧ win2_4.index t (1 : Fin 2) = 0 :=
  (by decide +kernel : ∀ t : Fin grid2.N, win2_4.index t (0 : Fin 2) = t.val / 16 ∧ win2_4.index t (1 : Fin 2) = 0)

set_option maxHeartbeats 1000000 in
/-- Under the precondition, from memories agreeing on the six arguments, at a last tile `t` of a block of edges: the
    quotient the tile stores is the block's 2048 rows of the reference's result. -/
theorem block_eq (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (t : Fin cfg2.N) (hf : (cfg2.win 4).flush t = true) :
    (Region2.dat2 (F := Ideal) m c).flushed 4 t
      = ((cfg2.win 4).blk t).view.read (Elt Ideal) (Cert.ReferenceIdeal.Value.res_out0 (F := Ideal) m' c) := by
  obtain ⟨hX, hY, hWq, hWk, hWv, hcol⟩ := PreRead.read m hpre c
  have hQ : ∀ i, ∃ r : ℝ, Qg m c i = (r : EReal) := fun i => by
    rw [show Qg m c = prod (R := 4096) (N := 512) (C := 64) (Arrays.argY m c) (Arrays.argWq m c) from Arrays.q_final_eq m c]
    exact prod_real _ _ hY hWq i
  have hK : ∀ i, ∃ r : ℝ, Kg m c i = (r : EReal) := fun i => by
    rw [show Kg m c = prod (R := 8192) (N := 512) (C := 64) (Arrays.argX m c) (Arrays.argWk m c) from Arrays.k_final_eq m c]
    exact prod_real _ _ hX hWk i
  have hVg : ∀ i, ∃ r : ℝ, Vg m c i = (r : EReal) := fun i => by
    rw [show Vg m c = prod (R := 8192) (N := 512) (C := 256) (Arrays.argX m c) (Arrays.argWv m c) from Arrays.v_final_eq m c]
    exact prod_real _ _ hX hWv i
  choose vr hvr using hVg
  have hV : ∀ (k : Fin 8192) (j : Fin 256), Vg m c (ix2 k j) = ((vr (ix2 k j) : ℝ) : EReal) := fun k j => hvr _
  have hsc : ∀ k E, score m c k E ≠ ⊤ := score_ne_top m c hQ hK
  funext i
  obtain ⟨e, j, rfl⟩ : ∃ (e : Fin 2048) (j : Fin 256), i = ix2 e j := ⟨i 0, i 1, eq_ix2 i⟩
  have hex : ∃ k, score m c k (Tile.edgeOf t e) ≠ ⊥ := by
    obtain ⟨k, hk⟩ := hcol (Tile.edgeOf t e)
    exact ⟨k, score_ne_bot m c hQ hK k _ hk⟩
  rw [Online.last_block m c (fun k j => vr (ix2 k j)) hsc hV t hf e j,
    row_eq (fun k => score m c k (Tile.edgeOf t e)) (fun k => vr (ix2 k j)) (fun k => hsc k _) hex]
  have hemb : ((cfg2.win 4).blk t).view.emb (ix2 e j) = ix2 (Tile.edgeOf t e) j := by
    obtain ⟨o0, o1⟩ := out_idx t
    funext a; apply Fin.ext
    match a with
    | ⟨0, _⟩ => show win2_4.index t (0 : Fin 2) * 2048 + 1 * e.val = t.val / 16 * 2048 + e.val; omega
    | ⟨1, _⟩ => show win2_4.index t (1 : Fin 2) * 256 + 1 * j.val = j.val; omega
  obtain ⟨a0, a1, a2, a3, a4, a5⟩ := hagree c
  show _ = Cert.ReferenceIdeal.Value.res_main_v23 m' c (((cfg2.win 4).blk t).view.emb (ix2 e j))
  rw [hemb, Cert.ReferenceIdeal.Read.val_main_v23_eq, a0, a1, a2, a3, a4, a5]
  show _ = Cert.ReferenceIdeal.Read.val_main_v23 (F := Ideal) (Arrays.argX m c) (Arrays.argY m c) (Hg m c) (Arrays.argWq m c) (Arrays.argWk m c)
      (Arrays.argWv m c) (ix2 (Tile.edgeOf t e) j)
  rw [Cert.ReferenceIdeal.Entry.result_apply, Cert.ReferenceIdeal.Entry.rmax_eq]
  simp only [rscore_eq m c]
  refine Finset.sum_congr rfl fun k _ => ?_
  rw [v22_prod, ← show Vg m c = prod (R := 8192) (N := 512) (C := 256) (Arrays.argX m c) (Arrays.argWv m c) from Arrays.v_final_eq m c, hV]

end Cert.KernelIdeal.Match

end
-- ==== Proof.KIResult.lean ====
/-
  The result array, block by block. The result has 4096 rows, one per edge; the third call writes it back in two
  blocks of 2048 rows, each at the last tile of its block of edges (grid points 15 and 31). Every row is in one of the
  two blocks, so the array the call leaves is determined by what those two points store: if each stored block is the
  corresponding 2048 rows of an array `G`, the call leaves `G`. With `G` the reference's result, each stored block is its
  rows (`Proof/KIMatch.lean`), so the two programs' results are equal.
-/
import proofs.«127266_j31533649887507_2_alg».proof.Proof.KIValueRun
import proofs.«127266_j31533649887507_2_alg».proof.Proof.RefFrame
import proofs.«127266_j31533649887507_2_alg».proof.Proof.KIMatch
import Idealize.ShloMosaic.Lib.Pipeline.Value

set_option maxRecDepth 16384

noncomputable section

namespace Cert.KernelIdeal.Result

open Cert.KernelIdeal Cert.KernelIdeal.Gen
open Idealize.ShloMosaic Idealize.ShloMosaic.TcCoe Idealize.SL.Sem
open Idealize.ShloMosaic.Pipeline (Dat)
open Cert.KernelIdeal.Region2 (dat2 out_final)

/-- The output window's block index at a point: the point's block of edges, and column block 0. -/
theorem out_index : ∀ t : Fin cfg2.N, win2_4.index t (0 : Fin 2) = t.val / 16 ∧ win2_4.index t (1 : Fin 2) = 0 :=
  (by decide +kernel : ∀ t : Fin grid2.N, win2_4.index t (0 : Fin 2) = t.val / 16 ∧ win2_4.index t (1 : Fin 2) = 0)

/-- An index of the result is in point `t`'s block iff each coordinate is in the block's range on its axis. -/
theorem mem_out_blk (t : Fin cfg2.N) (i : S4096x256.Idx) :
    i ∈ ((cfg2.win 4).blk t).view.set ↔ ∀ a : Fin 2, win2_4.index t a * S2048x256.size a ≤ (i a).val ∧ (i a).val < win2_4.index t a * S2048x256.size a + S2048x256.size a := by
  show i ∈ ((View.whole main_v2).slice (win2_4.rect t)).set ↔ _
  rw [View.set_slice_whole, Rect.mem_set_unit]
  exact Iff.rfl

/-- Every index of the result is in the block some last tile writes back: row `r` in that of the tile `16 (r / 2048) + 15`. -/
theorem out_cover (i : S4096x256.Idx) : ∃ t : Fin cfg2.N, (cfg2.win 4).flush t = true ∧ i ∈ ((cfg2.win 4).blk t).view.set := by
  have hi0 : (i 0).val < 4096 := (i 0).isLt
  have hi1 : (i 1).val < 256 := (i 1).isLt
  have hN : 16 * ((i 0).val / 2048) + 15 < cfg2.N := by rw [show cfg2.N = 32 from N_2]; omega
  refine ⟨⟨16 * ((i 0).val / 2048) + 15, hN⟩, (flush2_4 _).mpr (by show (16 * ((i 0).val / 2048) + 15) % 16 = 15; omega), ?_⟩
  rw [mem_out_blk]
  obtain ⟨e0, e1⟩ := out_index ⟨16 * ((i 0).val / 2048) + 15, hN⟩
  intro a
  match a with
  | ⟨0, _⟩ =>
    show win2_4.index ⟨16 * ((i 0).val / 2048) + 15, hN⟩ (0 : Fin 2) * 2048 ≤ (i 0).val ∧ (i 0).val < win2_4.index ⟨16 * ((i 0).val / 2048) + 15, hN⟩ (0 : Fin 2) * 2048 + 2048
    rw [e0]; show (16 * ((i 0).val / 2048) + 15) / 16 * 2048 ≤ (i 0).val ∧ (i 0).val < (16 * ((i 0).val / 2048) + 15) / 16 * 2048 + 2048
    omega
  | ⟨1, _⟩ =>
    show win2_4.index ⟨16 * ((i 0).val / 2048) + 15, hN⟩ (1 : Fin 2) * 256 ≤ (i 1).val ∧ (i 1).val < win2_4.index ⟨16 * ((i 0).val / 2048) + 15, hN⟩ (1 : Fin 2) * 256 + 256
    rw [e1]; omega

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two programs' results are equal: the call leaves the array whose two blocks its last tiles stored. -/
theorem result_eq (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (c : Dev Cert.KernelIdeal.nD) :
    Cert.ReferenceIdeal.Value.res_out0 (F := Ideal) m' c = out_final (F := Ideal) m c :=
  ((dat2 (F := Ideal) m c).arrAt_eq_of_cover 4 (Cert.ReferenceIdeal.Value.res_out0 (F := Ideal) m' c)
    (fun t hf => Cert.KernelIdeal.Match.block_eq m c m' hpre hagree t hf) out_cover).symm

end Cert.KernelIdeal.Result

end
-- ==== Proof.lean ====
/-
  Masked attention over a hypergraph's incidence matrix: for every edge, the softmax over the samples of that edge
  (scores `(Y W_q)(X W_k)ᵀ / 8`, an entry masked to `-∞` where the incidence is zero) weighting the rows of `X W_v`.
  The kernel computes it in three calls — the projection `Q`, the projections `K` and `V`, and a tiled pass over the
  samples that keeps, per edge, a running maximum, a running sum and an accumulator, rescaled whenever the maximum
  rises, and divides at the last tile. The reference computes the whole score matrix and one softmax per row.

  At the extended reals the two agree on every edge that has a sample (`Proof/LibOnlineSoftmax.lean`: the rescaling
  is exact, and the last quotient is the softmax-weighted sum). On an edge with no sample both sides divide zero by
  zero and then differ, which is why the precondition asks every column of the incidence matrix to have a nonzero
  entry. The masking constant is read as `-∞` (`preserves`): it fills masked scores where the reference writes `-∞`.

  The two kernel frames: each program is its three calls as three segments; each call's body is followed through its
  loads and stores at every grid point (the third in its three cases: first tile, middle, last tile), the three running
  arrays carried from one tile to the next through the invariant (`Proof/KIRegion0.lean` … `Proof/KIFrame.lean` for the
  idealized program, `Proof/KW….lean` for the word-level one: the same text over the other program).
  Proved below: the three frames, `preserves`, and `algebraic` from the two programs' runs and the equation between their
  results (`Proof/KIResult.lean`: the result array is the two blocks the last tiles stored; `Proof/KIMatch.lean`: each stored block is
  the reference's rows — the online softmax over the sixteen tiles against the reference's row softmax).
-/
import proofs.«127266_j31533649887507_2_alg».proof.Defs
import proofs.«127266_j31533649887507_2_alg».proof.Proof.Gen.Kernel
import proofs.«127266_j31533649887507_2_alg».proof.Proof.Gen.Kernel.Skeleton
import proofs.«127266_j31533649887507_2_alg».proof.Proof.Gen.Kernel.Launch
import proofs.«127266_j31533649887507_2_alg».proof.Proof.Gen.Kernel.Regions
import proofs.«127266_j31533649887507_2_alg».proof.Proof.Gen.Kernel.Points
import proofs.«127266_j31533649887507_2_alg».proof.Proof.Gen.KernelIdeal
import proofs.«127266_j31533649887507_2_alg».proof.Proof.Gen.KernelIdeal.Skeleton
import proofs.«127266_j31533649887507_2_alg».proof.Proof.Gen.KernelIdeal.Launch
import proofs.«127266_j31533649887507_2_alg».proof.Proof.Gen.KernelIdeal.Regions
import proofs.«127266_j31533649887507_2_alg».proof.Proof.Gen.KernelIdeal.Points
import proofs.«127266_j31533649887507_2_alg».proof.Proof.Gen.ReferenceIdeal
import proofs.«127266_j31533649887507_2_alg».proof.Proof.Gen.Pre_finite_inputs
import Idealize.ShloMosaic.Adequacy
import Idealize.ShloMosaic.Init

import proofs.«127266_j31533649887507_2_alg».proof.Proof.RefFrame
import proofs.«127266_j31533649887507_2_alg».proof.Proof.LibOnlineSoftmax
import proofs.«127266_j31533649887507_2_alg».proof.Proof.KIFrame
import proofs.«127266_j31533649887507_2_alg».proof.Proof.KWFrame
import proofs.«127266_j31533649887507_2_alg».proof.Proof.KIValueRun
import proofs.«127266_j31533649887507_2_alg».proof.Proof.KIResult

noncomputable section

namespace Cert.Proof

open Idealize.ShloMosaic Idealize.SL.Sem Cert.Kernel

/-- The masking constant is the table's `-∞` at the extended reals. -/
theorem preserves : Cert.preserves_Kernel_KernelIdeal :=
  IdealRules.named_const.statement Cert.KernelIdeal.κ "neg_big" .f32 0xFF333332#32 ⊥ rfl

/-- The word-level kernel runs to the end, faults nowhere and leaves its six arguments as launched. -/
theorem frame_k : Cert.frame_Kernel := fun m ρ _ => Cert.Kernel.FrameProof.frame (F := Bits) m ρ

/-- The same of the idealized kernel. -/
theorem frame_ki : Cert.frame_KernelIdeal := fun m ρ _ => Cert.KernelIdeal.FrameProof.frame (F := Ideal) m ρ

/-- From memories agreeing on the arguments both programs run to the end with their arguments unchanged: the idealized
    kernel with the result's buffer at what its third call left there, the reference with its result at its operations'
    composed term; the two are equal (`Proof/KIResult.lean`). -/
theorem algebraic : Cert.algebraic_KernelIdeal_ReferenceIdeal := by
  intro m ρ m' ρ' hpre hagree
  refine ⟨fun c => Cert.KernelIdeal.Region2.out_final (F := Ideal) m c, Cert.KernelIdeal.ValueRun.run (F := Ideal) m ρ, ?_⟩
  exact (θ_run Cert.ReferenceIdeal.defs _ _).mono (fun _ h c => ⟨(h c).1.trans (Cert.KernelIdeal.Result.result_eq m m' hpre hagree c), (h c).2⟩)
    (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_k, frame_ki, Cert.Proof.RefSide.frame_ri, preserves, algebraic⟩

end Cert.Proof

end
